-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S50000x256 : Shape := ⟨2, ![50000, 256]⟩
abbrev S51200 : Shape := ⟨1, ![51200]⟩
abbrev S768x256 : Shape := ⟨2, ![768, 256]⟩
abbrev S768 : Shape := ⟨1, ![768]⟩
abbrev S256x256 : Shape := ⟨2, ![256, 256]⟩
abbrev S256 : Shape := ⟨1, ![256]⟩
abbrev S256x512 : Shape := ⟨2, ![256, 512]⟩
abbrev S32768 : Shape := ⟨1, ![32768]⟩
abbrev S51200x3 : Shape := ⟨2, ![51200, 3]⟩
abbrev S1024 : Shape := ⟨1, ![1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S51200 : S_.BroadcastsInDim S51200 (![] : Fin 0 → Fin S51200.rank)
  reducesTo_S51200_S_d0 : S51200.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_arg11 : FVec F S256x512 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x512 .f32) (main_arg12 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S768 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x512 .f32) (main_arg12 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x256 .f32) (main_arg1 : FVec F S50000x256 .f32) (main_arg2 : FVec F S51200 .f32) (main_arg3 : FVec F S768x256 .f32) (main_arg4 : FVec F S768 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x512 .f32) (main_arg12 : FVec F S256 .f32) (main_arg13 : IVec S32768 32) (main_arg14 : IVec S51200x3 32) (main_arg15 : IVec S1024 32) (main_arg16 : IVec S1024 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S51200 .f32 := Host.absf main_arg2
  let main_cst_2 : FVec F S_ .f32 := constant S_ .f32 0x7F800000#32
  let main_v10 : FVec F S51200 .f32 := broadcastInDim S51200 ![] bcast_S_S51200 main_cst_2
  let main_v11 : IVec S51200 1 := cmpf .olt main_v9 main_v10
  let main_c_3 : IVec S_ 1 := constantI S_ 1 1#1
  let main_v12 : IVec S_ 1 := (fun x v => Host.reduce IntOp.andi x v reducesTo_S51200_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_v13 main_v16
-- ==== Kernel.lean ====
abbrev S32768x256 : Shape := ⟨2, ![32768, 256]⟩
abbrev S50000x256 : Shape := ⟨2, ![50000, 256]⟩
abbrev S51200 : Shape := ⟨1, ![51200]⟩
abbrev S768x256 : Shape := ⟨2, ![768, 256]⟩
abbrev S768 : Shape := ⟨1, ![768]⟩
abbrev S256x256 : Shape := ⟨2, ![256, 256]⟩
abbrev S256 : Shape := ⟨1, ![256]⟩
abbrev S256x512 : Shape := ⟨2, ![256, 512]⟩
abbrev S32768 : Shape := ⟨1, ![32768]⟩
abbrev S51200x3 : Shape := ⟨2, ![51200, 3]⟩
abbrev S1024 : Shape := ⟨1, ![1024]⟩
abbrev S_ : Shape := ⟨0, ![]⟩
abbrev S32768x1 : Shape := ⟨2, ![32768, 1]⟩
abbrev S1x256 : Shape := ⟨2, ![1, 256]⟩
abbrev S32769x256 : Shape := ⟨2, ![32769, 256]⟩
abbrev S1 : Shape := ⟨1, ![1]⟩
abbrev S1023 : Shape := ⟨1, ![1023]⟩
abbrev S1024x1 : Shape := ⟨2, ![1024, 1]⟩
abbrev S51200x1 : Shape := ⟨2, ![51200, 1]⟩
abbrev S1x1 : Shape := ⟨2, ![1, 1]⟩
abbrev S51200x3x1 : Shape := ⟨3, ![51200, 3, 1]⟩
abbrev S51200x3x256 : Shape := ⟨3, ![51200, 3, 256]⟩
abbrev S51200x256 : Shape := ⟨2, ![51200, 256]⟩
abbrev S1024x256 : Shape := ⟨2, ![1024, 256]⟩
abbrev S512x256 : Shape := ⟨2, ![512, 256]⟩
abbrev S1024x512 : Shape := ⟨2, ![1024, 512]⟩
abbrev S1024x50000 : Shape := ⟨2, ![1024, 50000]⟩
abbrev S3584x256 : Shape := ⟨2, ![3584, 256]⟩
abbrev S1024x3584 : Shape := ⟨2, ![1024, 3584]⟩

abbrev nBuf : Space → Nat
  | .hbm => 173
  | .vmem => 17
  | .smem => 0
  | _ => 0

abbrev hbmTy0_0 (i : Nat) : BufTy := match i % 128 with
  | 0 => ⟨S32768x256, .f32⟩
  | 1 => ⟨S50000x256, .f32⟩
  | 2 => ⟨S51200, .f32⟩
  | 3 => ⟨S768x256, .f32⟩
  | 4 => ⟨S768, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x512, .f32⟩
  | 12 => ⟨S256, .f32⟩
  | 13 => ⟨S32768, .i32⟩
  | 14 => ⟨S51200x3, .i32⟩
  | 15 => ⟨S1024, .i32⟩
  | 16 => ⟨S1024, .i32⟩
  | 17 => ⟨S_, .i32⟩
  | 18 => ⟨S1024, .i32⟩
  | 19 => ⟨S_, .i32⟩
  | 20 => ⟨S_, .i32⟩
  | 21 => ⟨S32768, .i32⟩
  | 22 => ⟨S32768, .i32⟩
  | 23 => ⟨S_, .i32⟩
  | 24 => ⟨S32768, .i32⟩
  | 25 => ⟨S32768, .i1⟩
  | 26 => ⟨S_, .i32⟩
  | 27 => ⟨S32768, .i32⟩
  | 28 => ⟨S32768, .i32⟩
  | 29 => ⟨S32768, .i32⟩
  | 30 => ⟨S32768x1, .i32⟩
  | 31 => ⟨S_, .i32⟩
  | 32 => ⟨S32768, .i32⟩
  | 33 => ⟨S1024, .i32⟩
  | 34 => ⟨S_, .i32⟩
  | 35 => ⟨S_, .i32⟩
  | 36 => ⟨S1024, .i32⟩
  | 37 => ⟨S1024, .i32⟩
  | 38 => ⟨S_, .f32⟩
  | 39 => ⟨S1x256, .f32⟩
  | 40 => ⟨S32769x256, .f32⟩
  | 41 => ⟨S1024, .i32⟩
  | 42 => ⟨S1, .i32⟩
  | 43 => ⟨S1023, .i32⟩
  | 44 => ⟨S1024, .i32⟩
  | 45 => ⟨S_, .i32⟩
  | 46 => ⟨S1, .i32⟩
  | 47 => ⟨S_, .i32⟩
  | 48 => ⟨S1024, .i32⟩
  | 49 => ⟨S_, .i32⟩
  | 50 => ⟨S_, .i32⟩
  | 51 => ⟨S1024, .i32⟩
  | 52 => ⟨S_, .i32⟩
  | 53 => ⟨S51200, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S_, .i32⟩
  | 63 => ⟨S1024, .i32⟩
  | 64 => ⟨S51200, .i32⟩
  | 65 => ⟨S_, .i32⟩
  | 66 => ⟨S_, .i32⟩
  | 67 => ⟨S51200, .i32⟩
  | 68 => ⟨S_, .i32⟩
  | 69 => ⟨S51200, .i32⟩
  | 70 => ⟨S51200, .i32⟩
  | 71 => ⟨S_, .i32⟩
  | 72 => ⟨S51200, .i32⟩
  | 73 => ⟨S51200, .i1⟩
  | 74 => ⟨S_, .i32⟩
  | 75 => ⟨S51200, .i32⟩
  | 76 => ⟨S51200, .i32⟩
  | 77 => ⟨S51200, .i32⟩
  | 78 => ⟨S51200x1, .i32⟩
  | 79 => ⟨S1, .i32⟩
  | 80 => ⟨S_, .i32⟩
  | 81 => ⟨S51200x1, .i32⟩
  | 82 => ⟨S51200x1, .i1⟩
  | 83 => ⟨S1x1, .i32⟩
  | 84 => ⟨S51200x1, .i32⟩
  | 85 => ⟨S51200x1, .i1⟩
  | 86 => ⟨S51200x1, .i1⟩
  | 87 => ⟨S_, .i1⟩
  | 88 => ⟨S51200, .i1⟩
  | 89 => ⟨S51200, .i32⟩
  | 90 => ⟨S_, .i32⟩
  | 91 => ⟨S51200, .i32⟩
  | 92 => ⟨S51200, .i32⟩
  | 93 => ⟨S_, .i32⟩
  | 94 => ⟨S51200, .i32⟩
  | 95 => ⟨S51200, .i1⟩
  | 96 => ⟨S_, .i32⟩
  | 97 => ⟨S51200, .i32⟩
  | 98 => ⟨S51200, .i32⟩
  | 99 => ⟨S51200, .i32⟩
  | 100 => ⟨S51200x1, .i32⟩
  | 101 => ⟨S51200, .i32⟩
  | 102 => ⟨S51200x1, .i32⟩
  | 103 => ⟨S_, .i32⟩
  | 104 => ⟨S51200, .i32⟩
  | 105 => ⟨S51200, .i1⟩
  | 106 => ⟨S_, .i32⟩
  | 107 => ⟨S51200, .i32⟩
  | 108 => ⟨S51200, .i32⟩
  | 109 => ⟨S51200, .i32⟩
  | 110 => ⟨S51200x1, .i32⟩
  | 111 => ⟨S51200, .i32⟩
  | 112 => ⟨S51200x1, .i32⟩
  | 113 => ⟨S51200x3, .i32⟩
  | 114 => ⟨S51200x3, .i1⟩
  | 115 => ⟨S51200x3, .i32⟩
  | 116 => ⟨S51200x3, .i32⟩
  | 117 => ⟨S_, .i32⟩
  | 118 => ⟨S_, .i32⟩
  | 119 => ⟨S51200x3, .i32⟩
  | 120 => ⟨S51200x3, .i32⟩
  | 121 => ⟨S_, .i32⟩
  | 122 => ⟨S51200x3, .i32⟩
  | 123 => ⟨S51200x3, .i1⟩
  | 124 => ⟨S_, .i32⟩
  | 125 => ⟨S51200x3, .i32⟩
  | 126 => ⟨S51200x3, .i32⟩
  | 127 => ⟨S51200x3, .i32⟩
  | _ => ⟨S32768x256, .f32⟩

abbrev hbmTy0_1 (i : Nat) : BufTy := match i % 128 with
  | 0 => ⟨S51200x3x1, .i32⟩
  | 1 => ⟨S51200x3x256, .f32⟩
  | 2 => ⟨S_, .f32⟩
  | 3 => ⟨S51200x256, .f32⟩
  | 4 => ⟨S51200x1, .f32⟩
  | 5 => ⟨S51200x256, .f32⟩
  | 6 => ⟨S51200x256, .f32⟩
  | 7 => ⟨S_, .i32⟩
  | 8 => ⟨S_, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S1024x1, .i32⟩
  | 21 => ⟨S1024x256, .f32⟩
  | 22 => ⟨S256x256, .f32⟩
  | 23 => ⟨S256, .f32⟩
  | 24 => ⟨S256x256, .f32⟩
  | 25 => ⟨S256x256, .f32⟩
  | 26 => ⟨S256x256, .f32⟩
  | 27 => ⟨S256x256, .f32⟩
  | 28 => ⟨S512x256, .f32⟩
  | 29 => ⟨S1024x256, .f32⟩
  | 30 => ⟨S50000x256, .bf16⟩
  | 31 => ⟨S1024x256, .bf16⟩
  | 32 => ⟨S1024x50000, .f32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S1024x1, .i32⟩
  | 41 => ⟨S1024x256, .f32⟩
  | 42 => ⟨S1024x256, .f32⟩
  | 43 => ⟨S_, .f32⟩
  | 44 => ⟨S1024, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S256x256, .f32⟩
  | .local _ .vmem, ⟨2, _⟩ => ⟨S256, .f32⟩
  | .local _ .vmem, ⟨3, _⟩ => ⟨S256x256, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S512x256, .f32⟩
  | .local _ .vmem, ⟨10, _⟩ => ⟨S256, .f32⟩
  | .local _ .vmem, ⟨11, _⟩ => ⟨S1024x256, .f32⟩
  | .local _ .vmem, ⟨12, _⟩ => ⟨S1024x256, .bf16⟩
  | .local _ .vmem, ⟨13, _⟩ => ⟨S3584x256, .bf16⟩
  | .local _ .vmem, ⟨14, _⟩ => ⟨S3584x256, .bf16⟩
  | .local _ .vmem, ⟨15, _⟩ => ⟨S1024x3584, .f32⟩
  | .local _ .vmem, ⟨16, _⟩ => ⟨S1024x3584, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v1 : Ref sig .tc := ⟨.hbm, 22, rfl⟩
abbrev main_c_1 : Ref sig .tc := ⟨.hbm, 23, rfl⟩
abbrev main_v2 : Ref sig .tc := ⟨.hbm, 24, rfl⟩
abbrev main_v3 : Ref sig .tc := ⟨.hbm, 25, rfl⟩
abbrev main_c_2 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_3 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_call2_v0 : Ref sig .tc := ⟨.hbm, 42, rfl⟩
abbrev main_call2_v1 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_call3_call0_c : Ref sig .tc := ⟨.hbm, 49, rfl⟩
abbrev main_call3_call0_v0 : Ref sig .tc := ⟨.hbm, 50, rfl⟩
abbrev main_v18 : Ref sig .tc := ⟨.hbm, 51, rfl⟩
abbrev main_c_6 : Ref sig .tc := ⟨.hbm, 52, rfl⟩
abbrev main_v19 : Ref sig .tc := ⟨.hbm, 53, rfl⟩
abbrev main_c_7 : Ref sig .tc := ⟨.hbm, 54, rfl⟩
abbrev main_v20 : Ref sig .tc := ⟨.hbm, 55, rfl⟩
abbrev main_v21 : Ref sig .tc := ⟨.hbm, 56, rfl⟩
abbrev main_c_8 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_9 : Ref sig .tc := ⟨.hbm, 62, rfl⟩
abbrev main_v26 : Ref sig .tc := ⟨.hbm, 63, rfl⟩
abbrev main_v27 : Ref sig .tc := ⟨.hbm, 64, rfl⟩
abbrev main_call4_call0_c : Ref sig .tc := ⟨.hbm, 65, rfl⟩
abbrev main_call4_call0_v0 : Ref sig .tc := ⟨.hbm, 66, rfl⟩
abbrev main_v28 : Ref sig .tc := ⟨.hbm, 67, rfl⟩
abbrev main_c_10 : Ref sig .tc := ⟨.hbm, 68, rfl⟩
abbrev main_v29 : Ref sig .tc := ⟨.hbm, 69, rfl⟩
abbrev main_v30 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_c_4 : Ref sig .tc := ⟨.hbm, 90, rfl⟩
abbrev main_call5_v14 : Ref sig .tc := ⟨.hbm, 91, rfl⟩
abbrev main_v31 : Ref sig .tc := ⟨.hbm, 92, rfl⟩
abbrev main_c_11 : Ref sig .tc := ⟨.hbm, 93, rfl⟩
abbrev main_v32 : Ref sig .tc := ⟨.hbm, 94, rfl⟩
abbrev main_v33 : Ref sig .tc := ⟨.hbm, 95, rfl⟩
abbrev main_c_12 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_c_13 : Ref sig .tc := ⟨.hbm, 103, rfl⟩
abbrev main_v40 : Ref sig .tc := ⟨.hbm, 104, rfl⟩
abbrev main_v41 : Ref sig .tc := ⟨.hbm, 105, rfl⟩
abbrev main_c_14 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_c_15 : Ref sig .tc := ⟨.hbm, 117, rfl⟩
abbrev main_call6_v0 : Ref sig .tc := ⟨.hbm, 118, rfl⟩
abbrev main_call6_v1 : Ref sig .tc := ⟨.hbm, 119, rfl⟩
abbrev main_v52 : Ref sig .tc := ⟨.hbm, 120, rfl⟩
abbrev main_c_16 : Ref sig .tc := ⟨.hbm, 121, rfl⟩
abbrev main_v53 : Ref sig .tc := ⟨.hbm, 122, rfl⟩
abbrev main_v54 : Ref sig .tc := ⟨.hbm, 123, rfl⟩
abbrev main_c_17 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_18 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_call7_call0_c : Ref sig .tc := ⟨.hbm, 135, rfl⟩
abbrev main_call7_call0_v0 : Ref sig .tc := ⟨.hbm, 136, rfl⟩
abbrev main_v64 : Ref sig .tc := ⟨.hbm, 137, rfl⟩
abbrev main_c_19 : Ref sig .tc := ⟨.hbm, 138, rfl⟩
abbrev main_v65 : Ref sig .tc := ⟨.hbm, 139, rfl⟩
abbrev main_v66 : Ref sig .tc := ⟨.hbm, 140, rfl⟩
abbrev main_c_20 : Ref sig .tc := ⟨.hbm, 141, rfl⟩
abbrev main_v67 : Ref sig .tc := ⟨.hbm, 142, rfl⟩
abbrev main_v68 : Ref sig .tc := ⟨.hbm, 143, rfl⟩
abbrev main_c_21 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_c_22 : Ref sig .tc := ⟨.hbm, 161, rfl⟩
abbrev main_v85 : Ref sig .tc := ⟨.hbm, 162, rfl⟩
abbrev main_v86 : Ref sig .tc := ⟨.hbm, 163, rfl⟩
abbrev main_c_23 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_24 : Ref sig .tc := ⟨.hbm, 171, rfl⟩
abbrev main_v93 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3584x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x3584 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1024 : S_.BroadcastsInDim S1024 (![] : Fin 0 → Fin S1024.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1x256 : S_.BroadcastsInDim S1x256 (![] : Fin 0 → Fin S1x256.rank)
  concatenates_S32768x256_S1x256_S32769x256_d0 : Shape.Concatenates [S32768x256, S1x256] S32769x256 0
  slices_S1024_S1_1023 : S1024.Slices ![1023] S1
  slices_S1024_S1023_0 : S1024.Slices ![0] S1023
  concatenates_S1_S1023_S1024_d0 : Shape.Concatenates [S1, S1023] S1024 0
  bcast_S_S1 : S_.BroadcastsInDim S1 (![] : Fin 0 → Fin S1.rank)
  bcast_S_S51200 : S_.BroadcastsInDim S51200 (![] : Fin 0 → Fin S51200.rank)
  bcast_S1024_S1024x1_0 : S1024.BroadcastsInDim S1024x1 (![0] : Fin 1 → Fin S1024x1.rank)
  reduceWindows_S51200_S51200_w51200s1p51199_0 : S51200.ReduceWindows (![51200] : Fin 1 → Nat) ![1] ![51199] ![0] S51200
  bcast_S51200_S51200x1_0 : S51200.BroadcastsInDim S51200x1 (![0] : Fin 1 → Fin S51200x1.rank)
  bcast_S_S51200x1 : S_.BroadcastsInDim S51200x1 (![] : Fin 0 → Fin S51200x1.rank)
  bcast_S1_S1x1_1 : S1.BroadcastsInDim S1x1 (![1] : Fin 1 → Fin S1x1.rank)
  bcast_S1x1_S51200x1_0_1 : S1x1.BroadcastsInDim S51200x1 (![0, 1] : Fin 2 → Fin S51200x1.rank)
  reducesTo_S51200x1_S51200_d1 : S51200x1.ReducesTo [1] S51200
  bcast_S51200x1_S51200x3_0_1 : S51200x1.BroadcastsInDim S51200x3 (![0, 1] : Fin 2 → Fin S51200x3.rank)
  bcast_S_S51200x3 : S_.BroadcastsInDim S51200x3 (![] : Fin 0 → Fin S51200x3.rank)
  bcast_S51200x3_S51200x3x1_0_1 : S51200x3.BroadcastsInDim S51200x3x1 (![0, 1] : Fin 2 → Fin S51200x3x1.rank)
  reducesTo_S51200x3x256_S51200x256_d1 : S51200x3x256.ReducesTo [1] S51200x256
  bcast_S51200x1_S51200x256_0_1 : S51200x1.BroadcastsInDim S51200x256 (![0, 1] : Fin 2 → Fin S51200x256.rank)
  slices_S768x256_S256x256_512_0 : S768x256.Slices ![512, 0] S256x256
  slices_S768_S256_512 : S768.Slices ![512] S256
  transposes_S256x256_S256x256_1_0 : S256x256.Transposes [1, 0] S256x256
  transposes_S256x512_S512x256_1_0 : S256x512.Transposes [1, 0] S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S1024x256 : S1x256.Broadcasts S1024x256
  concatenates_S1024x256_S1024x256_S1024x512_d1 : Shape.Concatenates [S1024x256, S1024x256] S1024x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S3584x256_S3584x256_0_0 : ∀ a, (![0, 0] : Fin 2 → Nat) a + S3584x256.size a ≤ S3584x256.size a
  h_S3584x256 : 0 < S3584x256.numel
  shapeCasts_S3584x256_S3584x256 : S3584x256.ShapeCasts S3584x256
  inb_S1024x3584_S1024x3584_0_0 : ∀ a, (![0, 0] : Fin 2 → Nat) a + S1024x3584.size a ≤ S1024x3584.size a
  h_S1024x3584 : 0 < S1024x3584.numel
  reducesTo_S1024x256_S1024_d1 : S1024x256.ReducesTo [1] S1024
  scatter_S1024_S32768x1_S32768_n_0_0_1_wf : ScatterDims.WF S1024 S32768x1 S32768 [] [0] [0] 1
  scatter_S1024_S1_S__n_0_0_0_wf : ScatterDims.WF S1024 S1 S_ [] [0] [0] 0
  scatter_S51200_S1024x1_S1024_n_0_0_1_wf : ScatterDims.WF S51200 S1024x1 S1024 [] [0] [0] 1
  gather_S1024_S51200x1_S51200_n_0_n_n_0_1_1_wf : GatherDims.WF S1024 S51200x1 S51200 [] [0] [] [0] [] 1 ![1]
  gather_S32769x256_S51200x3x1_S51200x3x256_2_0_n_n_0_2_1256_wf : GatherDims.WF S32769x256 S51200x3x1 S51200x3x256 [2] [0] [] [0] [] 2 ![1, 256]
  gather_S51200x256_S1024x1_S1024x256_1_0_n_n_0_1_1256_wf : GatherDims.WF S51200x256 S1024x1 S1024x256 [1] [0] [] [0] [] 1 ![1, 256]
  dot_S1024x256_S256x256_S1024x256_1_0_0_1_n_n_wf : DotDims.WF S1024x256 S256x256 S1024x256 [1] [0] [0] [1] [] []
  dot_S1024x512_S512x256_S1024x256_1_0_0_1_n_n_wf : DotDims.WF S1024x512 S512x256 S1024x256 [1] [0] [0] [1] [] []
  dot_S1024x256_S3584x256_S1024x3584_1_1_0_0_n_n_wf : DotDims.WF S1024x256 S3584x256 S1024x3584 [1] [1] [0] [0] [] []
  gather_S50000x256_S1024x1_S1024x256_1_0_n_n_0_1_1256_wf : GatherDims.WF S50000x256 S1024x1 S1024x256 [1] [0] [] [0] [] 1 ![1, 256]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .f32 = 32 ∨ (Rect.block (s := S512x256) S512x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S1024x256.size a
  hwx0_11 : ∀ i : grid0.Coords, EltTy.bits .f32 = 32 ∨ (Rect.block (s := S1024x256) S1024x256.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .bf16 = 32 ∨ (Rect.block (s := S1024x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3584x256.size a < S50000x256.size a
  hwx1_1 : ∀ i : grid1.Coords, EltTy.bits .bf16 = 32 ∨ (Rect.unit (s := S50000x256) (fun a => cc1_transform_1 i a * S3584x256.size a) (fun a => (Pipeline.Clip.of (cc1_transform_1 i a) (S3584x256.size a) (S50000x256.size a)).extent (S3584x256.size a)) fun a => Pipeline.Clip.inb (Pipeline.Clip.ok_of (hstart1_1 i a))).WholeWords (EltTy.packing .bf16)
  hwxs1_1 : ∀ i : grid1.Coords, EltTy.bits .bf16 = 32 ∨ (Rect.unit (s := S3584x256) (fun _ => 0) (fun a => (Pipeline.Clip.of (cc1_transform_1 i a) (S3584x256.size a) (S50000x256.size a)).extent (S3584x256.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x3584.size a < S1024x50000.size a
  hwx1_2 : ∀ i : grid1.Coords, EltTy.bits .f32 = 32 ∨ (Rect.unit (s := S1024x50000) (fun a => cc1_transform_2 i a * S1024x3584.size a) (fun a => (Pipeline.Clip.of (cc1_transform_2 i a) (S1024x3584.size a) (S1024x50000.size a)).extent (S1024x3584.size a)) fun a => Pipeline.Clip.inb (Pipeline.Clip.ok_of (hstart1_2 i a))).WholeWords (EltTy.packing .f32)
  hwxs1_2 : ∀ i : grid1.Coords, EltTy.bits .f32 = 32 ∨ (Rect.unit (s := S1024x3584) (fun _ => 0) (fun a => (Pipeline.Clip.of (cc1_transform_2 i a) (S1024x3584.size a) (S1024x50000.size a)).extent (S1024x3584.size a)) fun a => (Nat.zero_add _).trans_le (Pipeline.Clip.extent_le (Pipeline.Clip.ok_of (hstart1_2 i a)))).WholeWords (EltTy.packing .f32)

variable [Facts₀]

def scatter_S1024_S32768x1_S32768_n_0_0_1 : ScatterDims S1024 S32768x1 S32768 where
  updateWindowDims := []
  insertedWindowDims := [0]
  scatterDimsToOperandDims := [0]
  indexVectorDim := 1
  wf := scatter_S1024_S32768x1_S32768_n_0_0_1_wf
def scatter_S1024_S1_S__n_0_0_0 : ScatterDims S1024 S1 S_ where
  updateWindowDims := []
  insertedWindowDims := [0]
  scatterDimsToOperandDims := [0]
  indexVectorDim := 0
  wf := scatter_S1024_S1_S__n_0_0_0_wf
def scatter_S51200_S1024x1_S1024_n_0_0_1 : ScatterDims S51200 S1024x1 S1024 where
  updateWindowDims := []
  insertedWindowDims := [0]
  scatterDimsToOperandDims := [0]
  indexVectorDim := 1
  wf := scatter_S51200_S1024x1_S1024_n_0_0_1_wf
def gather_S1024_S51200x1_S51200_n_0_n_n_0_1_1 : GatherDims S1024 S51200x1 S51200 where
  offsetDims := []
  collapsedSliceDims := [0]
  operandBatchingDims := []
  startIndicesBatchingDims := []
  startIndexMap := [0]
  indexVectorDim := 1
  sliceSizes := ![1]
  wf := gather_S1024_S51200x1_S51200_n_0_n_n_0_1_1_wf
def gather_S32769x256_S51200x3x1_S51200x3x256_2_0_n_n_0_2_1256 : GatherDims S32769x256 S51200x3x1 S51200x3x256 where
  offsetDims := [2]
  collapsedSliceDims := [0]
  operandBatchingDims := []
  startIndicesBatchingDims := []
  startIndexMap := [0]
  indexVectorDim := 2
  sliceSizes := ![1, 256]
  wf := gather_S32769x256_S51200x3x1_S51200x3x256_2_0_n_n_0_2_1256_wf
def gather_S51200x256_S1024x1_S1024x256_1_0_n_n_0_1_1256 : GatherDims S51200x256 S1024x1 S1024x256 where
  offsetDims := [1]
  collapsedSliceDims := [0]
  operandBatchingDims := []
  startIndicesBatchingDims := []
  startIndexMap := [0]
  indexVectorDim := 1
  sliceSizes := ![1, 256]
  wf := gather_S51200x256_S1024x1_S1024x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S3584x256_S1024x3584_1_1_0_0_n_n : DotDims S1024x256 S3584x256 S1024x3584 where
  lhsContracting := [1]
  rhsContracting := [1]
  lhsNonContracting := [0]
  rhsNonContracting := [0]
  lhsBatch := []
  rhsBatch := []
  wf := dot_S1024x256_S3584x256_S1024x3584_1_1_0_0_n_n_wf
def gather_S50000x256_S1024x1_S1024x256_1_0_n_n_0_1_1256 : GatherDims S50000x256 S1024x1 S1024x256 where
  offsetDims := [1]
  collapsedSliceDims := [0]
  operandBatchingDims := []
  startIndicesBatchingDims := []
  startIndexMap := [0]
  indexVectorDim := 1
  sliceSizes := ![1, 256]
  wf := gather_S50000x256_S1024x1_S1024x256_1_0_n_n_0_1_1256_wf

abbrev win0_0 : Pipeline.Window sig grid0 :=
  Pipeline.Window.ofSpec (Memref.whole main_v73) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v76) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v75) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v78) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v79) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v80) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v81) S1024x256.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v83) S1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v82) S3584x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v84) S1024x3584.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x256 : Shape := ⟨2, ![32768, 256]⟩
abbrev S50000x256 : Shape := ⟨2, ![50000, 256]⟩
abbrev S51200 : Shape := ⟨1, ![51200]⟩
abbrev S768x256 : Shape := ⟨2, ![768, 256]⟩
abbrev S768 : Shape := ⟨1, ![768]⟩
abbrev S256x256 : Shape := ⟨2, ![256, 256]⟩
abbrev S256 : Shape := ⟨1, ![256]⟩
abbrev S256x512 : Shape := ⟨2, ![256, 512]⟩
abbrev S32768 : Shape := ⟨1, ![32768]⟩
abbrev S51200x3 : Shape := ⟨2, ![51200, 3]⟩
abbrev S1024 : Shape := ⟨1, ![1024]⟩
abbrev S_ : Shape := ⟨0, ![]⟩
abbrev S32768x1 : Shape := ⟨2, ![32768, 1]⟩
abbrev S1x256 : Shape := ⟨2, ![1, 256]⟩
abbrev S32769x256 : Shape := ⟨2, ![32769, 256]⟩
abbrev S1 : Shape := ⟨1, ![1]⟩
abbrev S1023 : Shape := ⟨1, ![1023]⟩
abbrev S1024x1 : Shape := ⟨2, ![1024, 1]⟩
abbrev S51200x1 : Shape := ⟨2, ![51200, 1]⟩
abbrev S1x1 : Shape := ⟨2, ![1, 1]⟩
abbrev S51200x3x1 : Shape := ⟨3, ![51200, 3, 1]⟩
abbrev S51200x3x256 : Shape := ⟨3, ![51200, 3, 256]⟩
abbrev S51200x256 : Shape := ⟨2, ![51200, 256]⟩
abbrev S1024x256 : Shape := ⟨2, ![1024, 256]⟩
abbrev S1024x512 : Shape := ⟨2, ![1024, 512]⟩
abbrev S512x256 : Shape := ⟨2, ![512, 256]⟩
abbrev S256x50000 : Shape := ⟨2, ![256, 50000]⟩
abbrev S1024x50000 : Shape := ⟨2, ![1024, 50000]⟩

abbrev nBuf : Space → Nat
  | .hbm => 244
  | .vmem => 0
  | .smem => 0
  | _ => 0

abbrev hbmTy0_0 (i : Nat) : BufTy := match i % 128 with
  | 0 => ⟨S32768x256, .f32⟩
  | 1 => ⟨S50000x256, .f32⟩
  | 2 => ⟨S51200, .f32⟩
  | 3 => ⟨S768x256, .f32⟩
  | 4 => ⟨S768, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x512, .f32⟩
  | 12 => ⟨S256, .f32⟩
  | 13 => ⟨S32768, .i32⟩
  | 14 => ⟨S51200x3, .i32⟩
  | 15 => ⟨S1024, .i32⟩
  | 16 => ⟨S1024, .i32⟩
  | 17 => ⟨S_, .i32⟩
  | 18 => ⟨S1024, .i32⟩
  | 19 => ⟨S_, .i32⟩
  | 20 => ⟨S_, .i32⟩
  | 21 => ⟨S32768, .i32⟩
  | 22 => ⟨S32768, .i32⟩
  | 23 => ⟨S_, .i32⟩
  | 24 => ⟨S32768, .i32⟩
  | 25 => ⟨S32768, .i1⟩
  | 26 => ⟨S_, .i32⟩
  | 27 => ⟨S32768, .i32⟩
  | 28 => ⟨S32768, .i32⟩
  | 29 => ⟨S32768, .i32⟩
  | 30 => ⟨S32768x1, .i32⟩
  | 31 => ⟨S_, .i32⟩
  | 32 => ⟨S32768, .i32⟩
  | 33 => ⟨S1024, .i32⟩
  | 34 => ⟨S_, .i32⟩
  | 35 => ⟨S_, .i32⟩
  | 36 => ⟨S1024, .i32⟩
  | 37 => ⟨S1024, .i32⟩
  | 38 => ⟨S_, .f32⟩
  | 39 => ⟨S1x256, .f32⟩
  | 40 => ⟨S32769x256, .f32⟩
  | 41 => ⟨S1024, .i32⟩
  | 42 => ⟨S1, .i32⟩
  | 43 => ⟨S1023, .i32⟩
  | 44 => ⟨S1024, .i32⟩
  | 45 => ⟨S_, .i32⟩
  | 46 => ⟨S1, .i32⟩
  | 47 => ⟨S_, .i32⟩
  | 48 => ⟨S1024, .i32⟩
  | 49 => ⟨S_, .i32⟩
  | 50 => ⟨S_, .i32⟩
  | 51 => ⟨S1024, .i32⟩
  | 52 => ⟨S_, .i32⟩
  | 53 => ⟨S51200, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S_, .i32⟩
  | 63 => ⟨S1024, .i32⟩
  | 64 => ⟨S51200, .i32⟩
  | 65 => ⟨S_, .i32⟩
  | 66 => ⟨S_, .i32⟩
  | 67 => ⟨S51200, .i32⟩
  | 68 => ⟨S_, .i32⟩
  | 69 => ⟨S51200, .i32⟩
  | 70 => ⟨S51200, .i32⟩
  | 71 => ⟨S_, .i32⟩
  | 72 => ⟨S51200, .i32⟩
  | 73 => ⟨S51200, .i1⟩
  | 74 => ⟨S_, .i32⟩
  | 75 => ⟨S51200, .i32⟩
  | 76 => ⟨S51200, .i32⟩
  | 77 => ⟨S51200, .i32⟩
  | 78 => ⟨S51200x1, .i32⟩
  | 79 => ⟨S1, .i32⟩
  | 80 => ⟨S_, .i32⟩
  | 81 => ⟨S51200x1, .i32⟩
  | 82 => ⟨S51200x1, .i1⟩
  | 83 => ⟨S1x1, .i32⟩
  | 84 => ⟨S51200x1, .i32⟩
  | 85 => ⟨S51200x1, .i1⟩
  | 86 => ⟨S51200x1, .i1⟩
  | 87 => ⟨S_, .i1⟩
  | 88 => ⟨S51200, .i1⟩
  | 89 => ⟨S51200, .i32⟩
  | 90 => ⟨S_, .i32⟩
  | 91 => ⟨S51200, .i32⟩
  | 92 => ⟨S51200, .i32⟩
  | 93 => ⟨S_, .i32⟩
  | 94 => ⟨S51200, .i32⟩
  | 95 => ⟨S51200, .i1⟩
  | 96 => ⟨S_, .i32⟩
  | 97 => ⟨S51200, .i32⟩
  | 98 => ⟨S51200, .i32⟩
  | 99 => ⟨S51200, .i32⟩
  | 100 => ⟨S51200x1, .i32⟩
  | 101 => ⟨S51200, .i32⟩
  | 102 => ⟨S51200x1, .i32⟩
  | 103 => ⟨S_, .i32⟩
  | 104 => ⟨S51200, .i32⟩
  | 105 => ⟨S51200, .i1⟩
  | 106 => ⟨S_, .i32⟩
  | 107 => ⟨S51200, .i32⟩
  | 108 => ⟨S51200, .i32⟩
  | 109 => ⟨S51200, .i32⟩
  | 110 => ⟨S51200x1, .i32⟩
  | 111 => ⟨S51200, .i32⟩
  | 112 => ⟨S51200x1, .i32⟩
  | 113 => ⟨S51200x3, .i32⟩
  | 114 => ⟨S51200x3, .i1⟩
  | 115 => ⟨S51200x3, .i32⟩
  | 116 => ⟨S51200x3, .i32⟩
  | 117 => ⟨S_, .i32⟩
  | 118 => ⟨S_, .i32⟩
  | 119 => ⟨S51200x3, .i32⟩
  | 120 => ⟨S51200x3, .i32⟩
  | 121 => ⟨S_, .i32⟩
  | 122 => ⟨S51200x3, .i32⟩
  | 123 => ⟨S51200x3, .i1⟩
  | 124 => ⟨S_, .i32⟩
  | 125 => ⟨S51200x3, .i32⟩
  | 126 => ⟨S51200x3, .i32⟩
  | 127 => ⟨S51200x3, .i32⟩
  | _ => ⟨S32768x256, .f32⟩

abbrev hbmTy0_1 (i : Nat) : BufTy := match i % 128 with
  | 0 => ⟨S51200x3x1, .i32⟩
  | 1 => ⟨S51200x3x256, .f32⟩
  | 2 => ⟨S_, .f32⟩
  | 3 => ⟨S51200x256, .f32⟩
  | 4 => ⟨S51200x1, .f32⟩
  | 5 => ⟨S51200x256, .f32⟩
  | 6 => ⟨S51200x256, .f32⟩
  | 7 => ⟨S_, .i32⟩
  | 8 => ⟨S_, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S1024x1, .i32⟩
  | 21 => ⟨S1024x256, .f32⟩
  | 22 => ⟨S256x256, .f32⟩
  | 23 => ⟨S256, .f32⟩
  | 24 => ⟨S256x256, .f32⟩
  | 25 => ⟨S1024x256, .f32⟩
  | 26 => ⟨S1x256, .f32⟩
  | 27 => ⟨S1024x256, .f32⟩
  | 28 => ⟨S1024x256, .f32⟩
  | 29 => ⟨S256x256, .f32⟩
  | 30 => ⟨S1024x256, .f32⟩
  | 31 => ⟨S1x256, .f32⟩
  | 32 => ⟨S1024x256, .f32⟩
  | 33 => ⟨S1024x256, .f32⟩
  | 34 => ⟨S256x256, .f32⟩
  | 35 => ⟨S1024x256, .f32⟩
  | 36 => ⟨S1x256, .f32⟩
  | 37 => ⟨S1024x256, .f32⟩
  | 38 => ⟨S1024x256, .f32⟩
  | 39 => ⟨S_, .f32⟩
  | 40 => ⟨S1024x256, .f32⟩
  | 41 => ⟨S1024x256, .f32⟩
  | 42 => ⟨S256x256, .f32⟩
  | 43 => ⟨S1024x256, .f32⟩
  | 44 => ⟨S1x256, .f32⟩
  | 45 => ⟨S1024x256, .f32⟩
  | 46 => ⟨S1024x256, .f32⟩
  | 47 => ⟨S1024x256, .f32⟩
  | 48 => ⟨S256x256, .f32⟩
  | 49 => ⟨S1024x256, .f32⟩
  | 50 => ⟨S1x256, .f32⟩
  | 51 => ⟨S1024x256, .f32⟩
  | 52 => ⟨S1024x256, .f32⟩
  | 53 => ⟨S256x256, .f32⟩
  | 54 => ⟨S1024x256, .f32⟩
  | 55 => ⟨S1x256, .f32⟩
  | 56 => ⟨S1024x256, .f32⟩
  | 57 => ⟨S1024x256, .f32⟩
  | 58 => ⟨S256x256, .f32⟩
  | 59 => ⟨S1024x256, .f32⟩
  | 60 => ⟨S1x256, .f32⟩
  | 61 => ⟨S1024x256, .f32⟩
  | 62 => ⟨S1024x256, .f32⟩
  | 63 => ⟨S_, .f32⟩
  | 64 => ⟨S1024x256, .f32⟩
  | 65 => ⟨S1024x256, .f32⟩
  | 66 => ⟨S256x256, .f32⟩
  | 67 => ⟨S1024x256, .f32⟩
  | 68 => ⟨S1x256, .f32⟩
  | 69 => ⟨S1024x256, .f32⟩
  | 70 => ⟨S1024x256, .f32⟩
  | 71 => ⟨S1024x256, .f32⟩
  | 72 => ⟨S256x256, .f32⟩
  | 73 => ⟨S1024x256, .f32⟩
  | 74 => ⟨S1x256, .f32⟩
  | 75 => ⟨S1024x256, .f32⟩
  | 76 => ⟨S1024x256, .f32⟩
  | 77 => ⟨S256x256, .f32⟩
  | 78 => ⟨S1024x256, .f32⟩
  | 79 => ⟨S1x256, .f32⟩
  | 80 => ⟨S1024x256, .f32⟩
  | 81 => ⟨S1024x256, .f32⟩
  | 82 => ⟨S256x256, .f32⟩
  | 83 => ⟨S1024x256, .f32⟩
  | 84 => ⟨S1x256, .f32⟩
  | 85 => ⟨S1024x256, .f32⟩
  | 86 => ⟨S1024x256, .f32⟩
  | 87 => ⟨S_, .f32⟩
  | 88 => ⟨S1024x256, .f32⟩
  | 89 => ⟨S1024x256, .f32⟩
  | 90 => ⟨S256x256, .f32⟩
  | 91 => ⟨S1024x256, .f32⟩
  | 92 => ⟨S1x256, .f32⟩
  | 93 => ⟨S1024x256, .f32⟩
  | 94 => ⟨S1024x256, .f32⟩
  | 95 => ⟨S1024x256, .f32⟩
  | 96 => ⟨S1024x512, .f32⟩
  | 97 => ⟨S512x256, .f32⟩
  | 98 => ⟨S1024x256, .f32⟩
  | 99 => ⟨S1x256, .f32⟩
  | 100 => ⟨S1024x256, .f32⟩
  | 101 => ⟨S1024x256, .f32⟩
  | 102 => ⟨S_, .i32⟩
  | 103 => ⟨S1024, .i32⟩
  | 104 => ⟨S1024, .i1⟩
  | 105 => ⟨S_, .i32⟩
  | 106 => ⟨S1024, .i32⟩
  | 107 => ⟨S1024, .i32⟩
  | 108 => ⟨S1024, .i32⟩
  | 109 => ⟨S1024x1, .i32⟩
  | 110 => ⟨S1024x256, .f32⟩
  | 111 => ⟨S1024x256, .f32⟩
  | 112 => ⟨S_, .f32⟩
  | 113 => ⟨S1024, .f32⟩
  | 114 => ⟨S256x50000, .f32⟩
  | 115 => ⟨S1024x50000, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v1 : Ref sig .tc := ⟨.hbm, 22, rfl⟩
abbrev main_c_1 : Ref sig .tc := ⟨.hbm, 23, rfl⟩
abbrev main_v2 : Ref sig .tc := ⟨.hbm, 24, rfl⟩
abbrev main_v3 : Ref sig .tc := ⟨.hbm, 25, rfl⟩
abbrev main_c_2 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_3 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_call2_v0 : Ref sig .tc := ⟨.hbm, 42, rfl⟩
abbrev main_call2_v1 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_call3_call0_c : Ref sig .tc := ⟨.hbm, 49, rfl⟩
abbrev main_call3_call0_v0 : Ref sig .tc := ⟨.hbm, 50, rfl⟩
abbrev main_v18 : Ref sig .tc := ⟨.hbm, 51, rfl⟩
abbrev main_c_6 : Ref sig .tc := ⟨.hbm, 52, rfl⟩
abbrev main_v19 : Ref sig .tc := ⟨.hbm, 53, rfl⟩
abbrev main_c_7 : Ref sig .tc := ⟨.hbm, 54, rfl⟩
abbrev main_v20 : Ref sig .tc := ⟨.hbm, 55, rfl⟩
abbrev main_v21 : Ref sig .tc := ⟨.hbm, 56, rfl⟩
abbrev main_c_8 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_9 : Ref sig .tc := ⟨.hbm, 62, rfl⟩
abbrev main_v26 : Ref sig .tc := ⟨.hbm, 63, rfl⟩
abbrev main_v27 : Ref sig .tc := ⟨.hbm, 64, rfl⟩
abbrev main_call4_call0_c : Ref sig .tc := ⟨.hbm, 65, rfl⟩
abbrev main_call4_call0_v0 : Ref sig .tc := ⟨.hbm, 66, rfl⟩
abbrev main_v28 : Ref sig .tc := ⟨.hbm, 67, rfl⟩
abbrev main_c_10 : Ref sig .tc := ⟨.hbm, 68, rfl⟩
abbrev main_v29 : Ref sig .tc := ⟨.hbm, 69, rfl⟩
abbrev main_v30 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_c_4 : Ref sig .tc := ⟨.hbm, 90, rfl⟩
abbrev main_call5_v14 : Ref sig .tc := ⟨.hbm, 91, rfl⟩
abbrev main_v31 : Ref sig .tc := ⟨.hbm, 92, rfl⟩
abbrev main_c_11 : Ref sig .tc := ⟨.hbm, 93, rfl⟩
abbrev main_v32 : Ref sig .tc := ⟨.hbm, 94, rfl⟩
abbrev main_v33 : Ref sig .tc := ⟨.hbm, 95, rfl⟩
abbrev main_c_12 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_c_13 : Ref sig .tc := ⟨.hbm, 103, rfl⟩
abbrev main_v40 : Ref sig .tc := ⟨.hbm, 104, rfl⟩
abbrev main_v41 : Ref sig .tc := ⟨.hbm, 105, rfl⟩
abbrev main_c_14 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_c_15 : Ref sig .tc := ⟨.hbm, 117, rfl⟩
abbrev main_call6_v0 : Ref sig .tc := ⟨.hbm, 118, rfl⟩
abbrev main_call6_v1 : Ref sig .tc := ⟨.hbm, 119, rfl⟩
abbrev main_v52 : Ref sig .tc := ⟨.hbm, 120, rfl⟩
abbrev main_c_16 : Ref sig .tc := ⟨.hbm, 121, rfl⟩
abbrev main_v53 : Ref sig .tc := ⟨.hbm, 122, rfl⟩
abbrev main_v54 : Ref sig .tc := ⟨.hbm, 123, rfl⟩
abbrev main_c_17 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_18 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_call7_call0_c : Ref sig .tc := ⟨.hbm, 135, rfl⟩
abbrev main_call7_call0_v0 : Ref sig .tc := ⟨.hbm, 136, rfl⟩
abbrev main_v64 : Ref sig .tc := ⟨.hbm, 137, rfl⟩
abbrev main_c_19 : Ref sig .tc := ⟨.hbm, 138, rfl⟩
abbrev main_v65 : Ref sig .tc := ⟨.hbm, 139, rfl⟩
abbrev main_v66 : Ref sig .tc := ⟨.hbm, 140, rfl⟩
abbrev main_c_20 : Ref sig .tc := ⟨.hbm, 141, rfl⟩
abbrev main_v67 : Ref sig .tc := ⟨.hbm, 142, rfl⟩
abbrev main_v68 : Ref sig .tc := ⟨.hbm, 143, rfl⟩
abbrev main_c_21 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_call8_cst : Ref sig .tc := ⟨.hbm, 167, rfl⟩
abbrev main_call8_v0 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_call9_cst : Ref sig .tc := ⟨.hbm, 191, rfl⟩
abbrev main_call9_v0 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_call10_cst : Ref sig .tc := ⟨.hbm, 215, rfl⟩
abbrev main_call10_v0 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_c_22 : Ref sig .tc := ⟨.hbm, 230, rfl⟩
abbrev main_v148 : Ref sig .tc := ⟨.hbm, 231, rfl⟩
abbrev main_v149 : Ref sig .tc := ⟨.hbm, 232, rfl⟩
abbrev main_c_23 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_cst_24 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1x256 : S_.BroadcastsInDim S1x256 (![] : Fin 0 → Fin S1x256.rank)
  concatenates_S32768x256_S1x256_S32769x256_d0 : Shape.Concatenates [S32768x256, S1x256] S32769x256 0
  slices_S1024_S1_1023 : S1024.Slices ![1023] S1
  slices_S1024_S1023_0 : S1024.Slices ![0] S1023
  concatenates_S1_S1023_S1024_d0 : Shape.Concatenates [S1, S1023] S1024 0
  bcast_S_S1 : S_.BroadcastsInDim S1 (![] : Fin 0 → Fin S1.rank)
  bcast_S_S51200 : S_.BroadcastsInDim S51200 (![] : Fin 0 → Fin S51200.rank)
  bcast_S1024_S1024x1_0 : S1024.BroadcastsInDim S1024x1 (![0] : Fin 1 → Fin S1024x1.rank)
  reduceWindows_S51200_S51200_w51200s1p51199_0 : S51200.ReduceWindows (![51200] : Fin 1 → Nat) ![1] ![51199] ![0] S51200
  bcast_S51200_S51200x1_0 : S51200.BroadcastsInDim S51200x1 (![0] : Fin 1 → Fin S51200x1.rank)
  bcast_S_S51200x1 : S_.BroadcastsInDim S51200x1 (![] : Fin 0 → Fin S51200x1.rank)
  bcast_S1_S1x1_1 : S1.BroadcastsInDim S1x1 (![1] : Fin 1 → Fin S1x1.rank)
  bcast_S1x1_S51200x1_0_1 : S1x1.BroadcastsInDim S51200x1 (![0, 1] : Fin 2 → Fin S51200x1.rank)
  reducesTo_S51200x1_S51200_d1 : S51200x1.ReducesTo [1] S51200
  bcast_S51200x1_S51200x3_0_1 : S51200x1.BroadcastsInDim S51200x3 (![0, 1] : Fin 2 → Fin S51200x3.rank)
  bcast_S_S51200x3 : S_.BroadcastsInDim S51200x3 (![] : Fin 0 → Fin S51200x3.rank)
  bcast_S51200x3_S51200x3x1_0_1 : S51200x3.BroadcastsInDim S51200x3x1 (![0, 1] : Fin 2 → Fin S51200x3x1.rank)
  reducesTo_S51200x3x256_S51200x256_d1 : S51200x3x256.ReducesTo [1] S51200x256
  bcast_S51200x1_S51200x256_0_1 : S51200x1.BroadcastsInDim S51200x256 (![0, 1] : Fin 2 → Fin S51200x256.rank)
  slices_S768x256_S256x256_512_0 : S768x256.Slices ![512, 0] S256x256
  slices_S768_S256_512 : S768.Slices ![512] S256
  transposes_S256x256_S256x256_1_0 : S256x256.Transposes [1, 0] S256x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  concatenates_S1024x256_S1024x256_S1024x512_d1 : Shape.Concatenates [S1024x256, S1024x256] S1024x512 1
  transposes_S256x512_S512x256_1_0 : S256x512.Transposes [1, 0] S512x256
  reducesTo_S1024x256_S1024_d1 : S1024x256.ReducesTo [1] S1024
  transposes_S50000x256_S256x50000_1_0 : S50000x256.Transposes [1, 0] S256x50000
  scatter_S1024_S32768x1_S32768_n_0_0_1_wf : ScatterDims.WF S1024 S32768x1 S32768 [] [0] [0] 1
  scatter_S1024_S1_S__n_0_0_0_wf : ScatterDims.WF S1024 S1 S_ [] [0] [0] 0
  scatter_S51200_S1024x1_S1024_n_0_0_1_wf : ScatterDims.WF S51200 S1024x1 S1024 [] [0] [0] 1
  gather_S1024_S51200x1_S51200_n_0_n_n_0_1_1_wf : GatherDims.WF S1024 S51200x1 S51200 [] [0] [] [0] [] 1 ![1]
  gather_S32769x256_S51200x3x1_S51200x3x256_2_0_n_n_0_2_1256_wf : GatherDims.WF S32769x256 S51200x3x1 S51200x3x256 [2] [0] [] [0] [] 2 ![1, 256]
  gather_S51200x256_S1024x1_S1024x256_1_0_n_n_0_1_1256_wf : GatherDims.WF S51200x256 S1024x1 S1024x256 [1] [0] [] [0] [] 1 ![1, 256]
  dot_S1024x256_S256x256_S1024x256_1_0_0_1_n_n_wf : DotDims.WF S1024x256 S256x256 S1024x256 [1] [0] [0] [1] [] []
  dot_S1024x512_S512x256_S1024x256_1_0_0_1_n_n_wf : DotDims.WF S1024x512 S512x256 S1024x256 [1] [0] [0] [1] [] []
  gather_S50000x256_S1024x1_S1024x256_1_0_n_n_0_1_1256_wf : GatherDims.WF S50000x256 S1024x1 S1024x256 [1] [0] [] [0] [] 1 ![1, 256]
  dot_S1024x256_S256x50000_S1024x50000_1_0_0_1_n_n_wf : DotDims.WF S1024x256 S256x50000 S1024x50000 [1] [0] [0] [1] [] []

variable [Facts₀]

def scatter_S1024_S32768x1_S32768_n_0_0_1 : ScatterDims S1024 S32768x1 S32768 where
  updateWindowDims := []
  insertedWindowDims := [0]
  scatterDimsToOperandDims := [0]
  indexVectorDim := 1
  wf := scatter_S1024_S32768x1_S32768_n_0_0_1_wf
def scatter_S1024_S1_S__n_0_0_0 : ScatterDims S1024 S1 S_ where
  updateWindowDims := []
  insertedWindowDims := [0]
  scatterDimsToOperandDims := [0]
  indexVectorDim := 0
  wf := scatter_S1024_S1_S__n_0_0_0_wf
def scatter_S51200_S1024x1_S1024_n_0_0_1 : ScatterDims S51200 S1024x1 S1024 where
  updateWindowDims := []
  insertedWindowDims := [0]
  scatterDimsToOperandDims := [0]
  indexVectorDim := 1
  wf := scatter_S51200_S1024x1_S1024_n_0_0_1_wf
def gather_S1024_S51200x1_S51200_n_0_n_n_0_1_1 : GatherDims S1024 S51200x1 S51200 where
  offsetDims := []
  collapsedSliceDims := [0]
  operandBatchingDims := []
  startIndicesBatchingDims := []
  startIndexMap := [0]
  indexVectorDim := 1
  sliceSizes := ![1]
  wf := gather_S1024_S51200x1_S51200_n_0_n_n_0_1_1_wf
def gather_S32769x256_S51200x3x1_S51200x3x256_2_0_n_n_0_2_1256 : GatherDims S32769x256 S51200x3x1 S51200x3x256 where
  offsetDims := [2]
  collapsedSliceDims := [0]
  operandBatchingDims := []
  startIndicesBatchingDims := []
  startIndexMap := [0]
  indexVectorDim := 2
  sliceSizes := ![1, 256]
  wf := gather_S32769x256_S51200x3x1_S51200x3x256_2_0_n_n_0_2_1256_wf
def gather_S51200x256_S1024x1_S1024x256_1_0_n_n_0_1_1256 : GatherDims S51200x256 S1024x1 S1024x256 where
  offsetDims := [1]
  collapsedSliceDims := [0]
  operandBatchingDims := []
  startIndicesBatchingDims := []
  startIndexMap := [0]
  indexVectorDim := 1
  sliceSizes := ![1, 256]
  wf := gather_S51200x256_S1024x1_S1024x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S50000x256_S1024x1_S1024x256_1_0_n_n_0_1_1256 : GatherDims S50000x256 S1024x1 S1024x256 where
  offsetDims := [1]
  collapsedSliceDims := [0]
  operandBatchingDims := []
  startIndicesBatchingDims := []
  startIndexMap := [0]
  indexVectorDim := 1
  sliceSizes := ![1, 256]
  wf := gather_S50000x256_S1024x1_S1024x256_1_0_n_n_0_1_1256_wf
def dot_S1024x256_S256x50000_S1024x50000_1_0_0_1_n_n : DotDims S1024x256 S256x50000 S1024x50000 where
  lhsContracting := [1]
  rhsContracting := [0]
  lhsNonContracting := [0]
  rhsNonContracting := [1]
  lhsBatch := []
  rhsBatch := []
  wf := dot_S1024x256_S256x50000_S1024x50000_1_0_0_1_n_n_wf

class Facts : Prop extends Facts₀ where

variable [Facts]
-- ==== Proof.KB.SanRegion.lean ====
import proofs.«104216_j3135326126725_1_alg».proof.Proof.Gen.Kernel.Launch
import proofs.«104216_j3135326126725_1_alg».proof.Proof.Gen.Kernel.Skeleton
import proofs.«104216_j3135326126725_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # The first pallas_call's kernel body, as exact pipeline proof data

The kernel runs on a grid of one point. Each of its twelve windows is one block that is the whole array: eleven
inputs (an activation matrix of 1024 rows, four square weight matrices with their bias rows, a 512-row projection
matrix with its bias row) and one output matrix of 1024 rows. At the one point the body reads every input block
whole, composes the matrix products, bias additions and rectifications that the payload terms name, and overwrites
the whole output block with the result. So, whatever the output's staging buffer held before, after the body it holds
that one payload of the input blocks, and every input buffer holds its block as before. -/

-- membership of an index in the whole-array rectangle of a 1024-row block recurses once per coordinate
set_option maxRecDepth 16384

noncomputable section

namespace Cert.Kernel.SanRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its buffer -/

/-- The whole 1024 × 256 buffer, as the rectangle at offset zero of the buffer's own extents. -/
abbrev rA : Rect S1024x256 := Rect.unit (s := S1024x256) ![0, 0] S1024x256.size inb_S1024x256_S1024x256_0_0
/-- The whole 256 × 256 buffer. -/
abbrev rB : Rect S256x256 := Rect.unit (s := S256x256) ![0, 0] S256x256.size inb_S256x256_S256x256_0_0
/-- The whole 256-entry buffer. -/
abbrev rV : Rect S256 := Rect.unit (s := S256) ![0] S256.size inb_S256_S256_0
/-- The whole 512 × 256 buffer. -/
abbrev rC : Rect S512x256 := Rect.unit (s := S512x256) ![0, 0] S512x256.size inb_S512x256_S512x256_0_0

/-- The zero offsets of a matrix, however spelt. -/
theorem zero2 : (![0, 0] : Fin 2 → Nat) = fun _ => 0 := funext fun a => by fin_cases a <;> rfl
/-- The zero offset of a row. -/
theorem zero1 : (![0] : Fin 1 → Nat) = fun _ => 0 := funext fun a => by fin_cases a <;> rfl

/-! ## What the body leaves in the output window's buffer -/

/-- The output's staging buffer after the body, from the eleven input blocks: its one store, of the whole buffer, of
    the last payload over what the whole-buffer loads read. -/
def out0_11 (x0 : Vec F S1024x256 .f32) (x1 : Vec F S256x256 .f32) (x2 : Vec F S256 .f32) (x3 : Vec F S256x256 .f32)
    (x4 : Vec F S256 .f32) (x5 : Vec F S256x256 .f32) (x6 : Vec F S256 .f32) (x7 : Vec F S256x256 .f32)
    (x8 : Vec F S256 .f32) (x9 : Vec F S512x256 .f32) (x10 : Vec F S256 .f32) : Vec F S1024x256 .f32 :=
  View.canon [⟨rA, k0_pay7 (k0_pay1 (View.ld x1 rB)) (k0_pay2 (View.ld x2 rV)) (k0_pay3 (View.ld x3 rB)) (View.ld x4 rV)
    (k0_pay4 (View.ld x5 rB)) (View.ld x6 rV) (k0_pay5 (View.ld x7 rB)) (View.ld x8 rV)
    (k0_pay6 (View.ld x0 rA) (View.ld x1 rB) (View.ld x2 rV) (View.ld x3 rB) (View.ld x4 rV) (View.ld x5 rB)
      (View.ld x6 rV) (View.ld x7 rB) (View.ld x8 rV))
    (constant S1024x256 .f32 0x00000000#32) (View.ld x0 rA) (View.ld x9 rC) (View.ld x10 rV)⟩]

/-- One store of the whole buffer leaves its payload, and a whole-buffer load reads the contents: the output buffer
    holds the last payload of the input blocks themselves. -/
theorem out0_11_eq (x0 : Vec F S1024x256 .f32) (x1 : Vec F S256x256 .f32) (x2 : Vec F S256 .f32) (x3 : Vec F S256x256 .f32)
    (x4 : Vec F S256 .f32) (x5 : Vec F S256x256 .f32) (x6 : Vec F S256 .f32) (x7 : Vec F S256x256 .f32)
    (x8 : Vec F S256 .f32) (x9 : Vec F S512x256 .f32) (x10 : Vec F S256 .f32) :
    out0_11 x0 x1 x2 x3 x4 x5 x6 x7 x8 x9 x10
      = k0_pay7 (k0_pay1 x1) (k0_pay2 x2) (k0_pay3 x3) x4 (k0_pay4 x5) x6 (k0_pay5 x7) x8
          (k0_pay6 x0 x1 x2 x3 x4 x5 x6 x7 x8) (constant S1024x256 .f32 0x00000000#32) x0 x9 x10 := by
  unfold out0_11
  rw [View.canon_unit_zero zero2]
  simp only [View.ld_unit_zero (S := S1024x256) zero2, View.ld_unit_zero (S := S256x256) zero2,
    View.ld_unit_zero (S := S512x256) zero2, View.ld_unit_zero (S := S256) zero1]

/-- The one store covers the buffer. -/
theorem cover0_11 (p0 : Vec F S1024x256 .f32) (y : S1024x256.Idx) :
    ∃ pc ∈ ([⟨rA, p0⟩] : List (View.Piece (Elt F) S1024x256 .f32)), y ∈ pc.1.set :=
  ⟨_, List.mem_singleton_self _, View.mem_set_unit_zero zero2 inb_S1024x256_S1024x256_0_0 y⟩

/-! ## The body's triple -/

set_option maxHeartbeats 4000000 in
/-- The kernel body on whole staging memrefs, the inputs' at read contents `x0 … x10` and the output's at anything,
    runs to the continuation holding the inputs' as they were and the output's at `out0_11` of the inputs'. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S256 .f32) (harg7 : arg7.IsWhole) (arg8 : Memref sig .tc .vmem S256x256 .f32) (harg8 : arg8.IsWhole)
    (arg9 : Memref sig .tc .vmem S256 .f32) (harg9 : arg9.IsWhole) (arg10 : Memref sig .tc .vmem S512x256 .f32) (harg10 : arg10.IsWhole)
    (arg11 : Memref sig .tc .vmem S256 .f32) (harg11 : arg11.IsWhole) (arg12 : Memref sig .tc .vmem S1024x256 .f32) (harg12 : arg12.IsWhole)
    (x0 : Vec F S1024x256 .f32) (x1 : Vec F S256x256 .f32) (x2 : Vec F S256 .f32) (x3 : Vec F S256x256 .f32)
    (x4 : Vec F S256 .f32) (x5 : Vec F S256x256 .f32) (x6 : Vec F S256 .f32) (x7 : Vec F S256x256 .f32)
    (x8 : Vec F S256 .f32) (x9 : Vec F S512x256 .f32) (x10 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E
          (cc0__san_kernel i arg1 harg1 arg2 harg2 arg3 harg3 arg4 harg4 arg5 harg5 arg6 harg6 arg7 harg7 arg8 harg8
            arg9 harg9 arg10 harg10 arg11 harg11 arg12 harg12) K := by
  simp only [cc0__san_kernel_eq_skeleton]; unfold cc0__san_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## Every input window's buffer holds its block -/

/-- An input window's current staging buffer holds its block at every point, fetched there or not, for any proof data
    whose array is the entry contents' (`hA`) and whose body leaves the block in place (`hafter`): unfetched, the
    block index has not moved; the window is uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them; after the body at point `t`
    each input's buffer at its block and the output's at `out0_11` of the input blocks; the invariant leaves the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) :
    (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by
  dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`: the invariant, the core's debts, and every window's current staging
    buffer at what the pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same, every window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.SanRegion

end
-- ==== Proof.KB.ScoresRegion.lean ====
import proofs.«104216_j3135326126725_1_alg».proof.Proof.Gen.Kernel.Launch
import proofs.«104216_j3135326126725_1_alg».proof.Proof.Gen.Kernel.Skeleton
import proofs.«104216_j3135326126725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.ScoresRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # The second pallas_call: one tile of the score matrix per grid point

The grid has fourteen points. At point `t` the body is handed the whole activation matrix (1024 × 256, the same block
at every point), rows `3584·t …` of the embedding table (a 3584 × 256 block; the last one overhangs the table's 50000
rows, so its tail holds words nothing names) and a 1024 × 3584 result buffer; it stores into that buffer the product of
the activations with the TRANSPOSE of the table block, whatever the buffer held. -/

/-- The zero offsets of a matrix, however spelt. -/
theorem zero2 : (![0, 0] : Fin 2 → Nat) = fun _ => 0 := funext fun a => by fin_cases a <;> rfl

/-- The whole-buffer rectangles of the three staging buffers. -/
abbrev rAct : Rect S1024x256 := Rect.unit (s := S1024x256) ![0, 0] S1024x256.size inb_S1024x256_S1024x256_0_0
abbrev rTab : Rect S3584x256 := Rect.unit (s := S3584x256) ![0, 0] S3584x256.size inb_S3584x256_S3584x256_0_0
abbrev rOut : Rect S1024x3584 := Rect.unit (s := S1024x3584) ![0, 0] S1024x3584.size inb_S1024x3584_S1024x3584_0_0

/-- What the body leaves in the result buffer, from the two input buffers' contents: its one whole store, of the
    product of what the two whole loads read. -/
def tileOut (x0 : Vec F S1024x256 .bf16) (x1 : Vec F S3584x256 .bf16) : Vec F S1024x3584 .f32 :=
  View.canon [⟨rOut, k1_pay1 (View.ld x0 rAct) (View.ld x1 rTab)⟩]

/-- One store of the whole buffer leaves its payload, and a whole-buffer load reads the contents. -/
theorem tileOut_eq (x0 : Vec F S1024x256 .bf16) (x1 : Vec F S3584x256 .bf16) : tileOut x0 x1 = k1_pay1 x0 x1 := by
  unfold tileOut
  rw [View.canon_unit_zero zero2]
  simp only [View.ld_unit_zero (S := S1024x256) zero2, View.ld_unit_zero (S := S3584x256) zero2]

/-- The one store covers the buffer. -/
theorem tileOut_cover (p0 : Vec F S1024x3584 .f32) (y : S1024x3584.Idx) :
    ∃ pc ∈ ([⟨rOut, p0⟩] : List (View.Piece (Elt F) S1024x3584 .f32)), y ∈ pc.1.set :=
  ⟨_, List.mem_singleton_self _, View.mem_set_unit_zero zero2 inb_S1024x3584_S1024x3584_0_0 y⟩

set_option maxHeartbeats 4000000 in
/-- The body on whole staging buffers: the two inputs read and left as they were, the result buffer — read once, the
    value dropped — overwritten whole by the product. -/
theorem sound_kernel1 (c : Dev nD) (E : Set ℕ) (i : grid1.Coords)
    (arg1 : Memref sig .tc .vmem S1024x256 .bf16) (harg1 : arg1.IsWhole)
    (arg2 : Memref sig .tc .vmem S3584x256 .bf16) (harg2 : arg2.IsWhole)
    (arg3 : Memref sig .tc .vmem S1024x3584 .f32) (harg3 : arg3.IsWhole)
    (x0 : Vec F S1024x256 .bf16) (x1 : Vec F S3584x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (tileOut x0 x1)) -∗ K ⟨⟩))
      ⊢ wp frame (wpE (defs₀ (F := F)) Variants.none c none) E (cc1__scores_kernel i arg1 harg1 arg2 harg2 arg3 harg3) K := by
  simp only [cc1__scores_kernel_eq_skeleton]; unfold cc1__scores_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tileOut_cover _)

/-! ## The proof data: relational, the result's relation a parameter

The result tile at the last point is computed from a table block whose tail nothing names, so the result buffer's
contents cannot be NAMED from the arrays alone at every float instance. The data below therefore CONSTRAINS it:
the two input buffers are left as found; of the result buffer a relation `R2` is asked, a parameter — `True` for a
claim that does not read the scores, and at the exact instance "the columns inside the array are the products". -/

variable (V : (c : Dev nD) → (b : Ref sig .tc) → Buf (Elt F) ((c : Thread nD τ).loc b))

/-- Window `w`'s block at point `t`, read off its array as the region finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What is asked of the result buffer after the body at a point. -/
abbrev OutRel (F : FTy → Type) [FloatOps F] : Type := Dev nD → Fin cfg1.N → (S1024x3584.Idx → Elt F .f32) → Prop

/-- The relational proof data of the second pipeline on core `c`: arrays as the region finds them; the inputs'
    buffers left as found, the result's in `R2`; the class invariant; nothing owed; full shares. -/
def scoresData (R2 : OutRel F) (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => R2 c t X
  Φ _ := Pipeline.ΦA spec1 c
  q _ := fullShare
  owed _ := 0

theorem scoresData_A (R2 : OutRel F) (c : Dev nD) (w : Fin cfg1.W) : (scoresData V R2 c).A w = V c (Pipeline.arrRef spec1 w) := by
  dsimp only [scoresData]

/-- What `R2` must admit: the body's product of the activations with ANY filling-out of the table block. -/
def Admits (R2 : OutRel F) : Prop :=
  ∀ (c : Dev nD) (t : Fin cfg1.N) (d0 : S1024x256.Idx → Elt F .bf16) (d1 : S3584x256.Idx → Elt F .bf16),
    R2 c t (tileOut (win1_0.fill (grid1.coords t) d0 (iblk1 V c 0 t)) (win1_1.fill (grid1.coords t) d1 (iblk1 V c 1 t)))

/-- The body at any point, handed buffers the pipeline may hand it. -/
theorem sound_body1 (R2 : OutRel F) (hR2 : Admits V R2) (c : Dev nD) (t : Fin cfg1.N)
    (Y : (w : Fin cfg1.W) → (cfg1.win w).block.Idx → Elt F (cfg1.win w).elt) (hY : ∀ w, (scoresData V R2 c).Finds w t (Y w)) :
    iprop((scoresData V R2 c).Φ t.castSucc ∗ (scoresData V R2 c).owesAt () t.castSucc
        ∗ owns (c : Thread nD τ) (st1_0 t) fullShare (Y 0)
        ∗ owns (c : Thread nD τ) (st1_1 t) fullShare (Y 1)
        ∗ owns (c : Thread nD τ) (st1_2 t) fullShare (Y 2))
      ⊢ wp frame (wpE (defs₀ (F := F)) Variants.none c none) Set.univ (bodyAt1 t) (fun _ =>
          iprop((scoresData V R2 c).Φ t.succ ∗ (scoresData V R2 c).owesAt () t.succ
            ∗ (∃ X, ⌜(scoresData V R2 c).after 0 t (Y 0) X⌝ ∗ owns (c : Thread nD τ) (st1_0 t) fullShare X)
            ∗ (∃ X, ⌜(scoresData V R2 c).after 1 t (Y 1) X⌝ ∗ owns (c : Thread nD τ) (st1_1 t) fullShare X)
            ∗ (∃ X, ⌜(scoresData V R2 c).after 2 t (Y 2) X⌝ ∗ owns (c : Thread nD τ) (st1_2 t) fullShare X))) := by
  obtain ⟨d0, h0⟩ := RDat.finds_in_eq_fetched (scoresData V R2 c) 0 rfl (fun _ _ _ => rfl) (fun _ _ _ h => h) t (Y 0) (hY 0)
  obtain ⟨d1, h1⟩ := ((scoresData V R2 c).finds_of_fetch (fetch1_1 t) (Y 1)).mp (hY 1)
  unfold bodyAt1
  rw [show (scoresData V R2 c).Φ t.succ = (scoresData V R2 c).Φ t.castSucc from rfl,
    show (scoresData V R2 c).owesAt () t.succ = (scoresData V R2 c).owesAt () t.castSucc from rfl]
  iintro ⟨HΦ, Ho, H0, H1, H2⟩
  iapply (sound_kernel1 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  show R2 c t (tileOut (Y 0) (Y 1))
  rw [h0, h1]
  exact hR2 c t d0 d1

/-- The relational body obligation, at every point. -/
theorem body_obligation1 (R2 : OutRel F) (hR2 : Admits V R2) (c : Dev nD) :
    (scoresData V R2 c).BodyObligation (defs₀ (F := F)) Variants.none () Set.univ := fun t Y hY => by
  rw [bigSep_W1, bigSep_W1]
  exact sound_body1 V R2 hR2 c t Y hY

end Cert.Kernel.ScoresRegion

end
-- ==== Proof.KB.Run.lean ====
import proofs.«104216_j3135326126725_1_alg».proof.Proof.KB.SanRegion
import proofs.«104216_j3135326126725_1_alg».proof.Proof.KB.ScoresRegion
import proofs.«104216_j3135326126725_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.HandRun

open Cert.Kernel Cert.Kernel.Gen Cert.Kernel.SanRegion Cert.Kernel.ScoresRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at the boundaries between the items of @main

@main is seventeen stretches of host operations, the first pallas_call, one stretch, the second pallas_call, one
stretch. Up to the first call the contents are the fold of the host operations over the launch memory (`V17`, the
generated fold). The first call leaves its arrays at what its write-backs make of them; the second call's result
array ends at contents of which only a relation is known, so from there on the contents are a function of that array. -/

/-- The first call's entry contents, read at the TensorCore's references. -/
abbrev E0 : (c : Dev nD) → (b : Ref sig .tc) → Buf (Elt F) ((c : Thread nD τ).loc b) := fun c b => V17 m c b

/-- After the first call: its arrays at what the pipeline leaves, every other buffer as entered. -/
def W18 (c : Dev nD) : Valuation τ sig (Elt F) :=
  Pipeline.withArrays spec0 c (V17 m c) fun w => (dat0 (E0 m) c).arrAt w cfg0.N

theorem W18_arr (c : Dev nD) (w : Fin cfg0.W) :
    W18 m c (Proc.devRef .tc (Pipeline.arrRef spec0 w)) = (dat0 (E0 m) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 m c (Proc.devRef .tc b) = V17 m c (Proc.devRef .tc b) := by
  unfold W18; exact Pipeline.withArrays_of_ne spec0 c _ _ b hb

/-- The same read at the TensorCore's references. -/
abbrev X0 : (c : Dev nD) → (b : Ref sig .tc) → Buf (Elt F) ((c : Thread nD τ).loc b) := fun c b => W18 m c b

/-- After the stretch between the calls: the second call's entry contents. -/
abbrev W19 (c : Dev nD) : Valuation τ sig (Elt F) := StableHlo.after hostOps1 (W18 m c)
abbrev E1 : (c : Dev nD) → (b : Ref sig .tc) → Buf (Elt F) ((c : Thread nD τ).loc b) := fun c b => W19 m c b

/-- The contents of the second call's three arrays after it, as a family. -/
abbrev Arrs1 (c : Dev nD) : Type := (w : Fin cfg1.W) → Buf (Elt F) ((spec1 w).arr.view.loc (c.tc : Thread nD τ))

/-- After the second call, its arrays at `G`. -/
def W20 (c : Dev nD) (G : Arrs1 (F := F) c) : Valuation τ sig (Elt F) := Pipeline.withArrays spec1 c (W19 m c) G
theorem W20_arr (c : Dev nD) (G : Arrs1 (F := F) c) (w : Fin cfg1.W) :
    W20 m c G (Proc.devRef .tc (Pipeline.arrRef spec1 w)) = G w := by
  unfold W20; exact Pipeline.withArrays_arr spec1 launch1.win.arr_inj c _ _ w
theorem W20_of_ne (c : Dev nD) (G : Arrs1 (F := F) c) (b : Ref sig .tc) (hb : ∀ w, Pipeline.arrRef spec1 w ≠ b) :
    W20 m c G (Proc.devRef .tc b) = W19 m c (Proc.devRef .tc b) := by
  unfold W20; exact Pipeline.withArrays_of_ne spec1 c _ _ b hb

/-- At the end of @main. -/
abbrev W21 (c : Dev nD) (G : Arrs1 (F := F) c) : Valuation τ sig (Elt F) := StableHlo.after hostOps2 (W20 m c G)

/-! # The proof data family and the thread state -/

/-- Both pipelines' proof data, relational: the first call's exact data read relationally, the second's the
    relational data of its module at the output relation `R2`. -/
def rdats (R2 : OutRel F) : (p : Fin 2) → (c : Dev nD) → RDat τ (Elt F) Unit ℕ (UR sig nD τ) ℕ (Pipeline.pin (pcfgs (F := F)) adm p) c
  | ⟨0, _⟩ => fun c => (dat0 (E0 m) c).toR
  | ⟨1, _⟩ => fun c => scoresData (E1 m) R2 c

abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-- What is known of the second call's arrays after it. -/
def Known (R2 : OutRel F) (c : Dev nD) (G : Arrs1 (F := F) c) : Prop := ∀ w, (rdats m R2 1 c).ArrAt w cfg1.N (G w)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as segments -/

/-- Full shares: every window's array is held whole at the full share. -/
theorem share_full (R2 : OutRel F) (p : Fin 2) (c : Dev nD) (hq : ∀ w, (rdats m R2 p c).q w = fullShare) (w) :
    (rdats m R2 p c).share w = fullShare := by
  unfold RDat.share; split
  · rfl
  · exact hq w

-- library lemmas stated over the pinned configuration unify with the printed one only when unification may unfold
-- plain definitions in a metavariable's type
set_option backward.isDefEq.respectTransparency.types false in
/-- A pipeline's arrays at contents `G` beside the unscoped rest at `V` are the core's unscoped buffers at any
    valuation that has the arrays at `G` and agrees with `V` off them. -/
theorem bufs_of_arrays (R2 : OutRel F) (p : Fin 2) (hw : Pipeline.WinFacts (Pipeline.pin (pcfgs (F := F)) adm p).spec)
    (harr : ∀ w, ((Pipeline.pin (pcfgs (F := F)) adm p).spec w).arr.IsWhole) (c : Dev nD)
    (hshare : ∀ w, (rdats m R2 p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m R2 p c).arrays G ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m R2) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

theorem hrest0 (c : Dev nD) : ∀ b, b ∉ Finset.univ.image (Pipeline.arrRef spec0) → X0 m c b = E0 m c b :=
  fun b hb => W18_of_ne m c b fun w e => hb (Finset.mem_image.mpr ⟨w, Finset.mem_univ _, e⟩)
theorem hrest1 (c : Dev nD) (G : Arrs1 (F := F) c) : ∀ b, b ∉ Finset.univ.image (Pipeline.arrRef spec1) → W20 m c G b = E1 m c b :=
  fun b hb => W20_of_ne m c G b fun w e => hb (Finset.mem_image.mpr ⟨w, Finset.mem_univ _, e⟩)

set_option backward.isDefEq.respectTransparency.types false in
/-- THE FIRST CALL over the thread state: entered from every unscoped buffer at `V17`, left at `W18`. Its arrays are
    split out of the unscoped buffers and put back at the exit contents; the generator register goes into the class
    invariant and comes out; nothing is owed; the kernel has no semaphore of its own. -/
def reg0 (R2 : OutRel F) : Pipeline.RDat.RegionSeg (pcfgs (F := F)) adm (rdats m R2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toR
  hwaits := Pipeline.RDat.hwaits_of_owed_zero _ _ _ _ L lv 0 fun _ _ => rfl
  pre c := iprop(StableHlo.held (c : Thread nD τ) (Pipeline.ucRefs τ sig) (V17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.RDat.arrays_of_unscopedBufs (p := 0) (pcfgs (F := F)) adm (rdats m R2) launch0.win launch0.arr_whole c
      (share_full m R2 0 c fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m R2 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m R2 0 c).Φ (Fin.last _) = Pipeline.ΦA spec0 c from rfl]; unfold Pipeline.ΦA
    iintro ⟨Hr, Hp⟩
    isplitl [Hp]; · iexact Hp
    isplitr; · iempintro
    iexact Hr
  hexit c := by
    have harrs : (rdats m R2 0 c).arraysAt (Pipeline.pin (pcfgs (F := F)) adm 0).N = ((rdats m R2 0 c).arrays ((dat0 (E0 m) c).arrAt · cfg0.N) : sProp 𝕄) :=
      (dat0 (E0 m) c).toR_arraysAt_eq cfg0.N
    have hjoin := bufs_of_arrays m R2 0 launch0.win launch0.arr_whole c (share_full m R2 0 c fun _ => rfl)
      (E0 m c) (X0 m c) ((dat0 (E0 m) c).arrAt · cfg0.N) (fun w => (W18_arr m c w).symm) (hrest0 m c)
    rw [Pipeline.unscopedBufs_held] at hjoin
    rw [harrs]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The thread state after the second call, and after the last host stretch: every unscoped buffer at the
    boundary's contents for SOME contents `G` of the second call's arrays that its write-backs may leave. -/
abbrev T20 (R2 : OutRel F) (c : Dev nD) : sProp 𝕄 :=
  iprop(∃ G : Arrs1 (F := F) c, ⌜Known m R2 c G⌝ ∗ StableHlo.held (c : Thread nD τ) (Pipeline.ucRefs τ sig) (W20 m c G) ∗ R c)
abbrev T21 (R2 : OutRel F) (c : Dev nD) : sProp 𝕄 :=
  iprop(∃ G : Arrs1 (F := F) c, ⌜Known m R2 c G⌝ ∗ StableHlo.held (c : Thread nD τ) (Pipeline.ucRefs τ sig) (W21 m c G) ∗ ∃ r, prngReg c r)

/-- The rest state the generated host segments carry: the same at every stage. -/
abbrev Rst : Fin 3 → Dev nD → sProp 𝕄 := fun _ c => R c

/-- The stretch between the calls as a segment, from the first call's exit contents. -/
abbrev segMid : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W18 m) R

/-- The three arrays' contents as a family. -/
def mkArrs1 (c : Dev nD) (G0 : Buf (Elt F) ((spec1 0).arr.view.loc (c.tc : Thread nD τ))) (G1 : Buf (Elt F) ((spec1 1).arr.view.loc (c.tc : Thread nD τ)))
    (G2 : Buf (Elt F) ((spec1 2).arr.view.loc (c.tc : Thread nD τ))) : Arrs1 (F := F) c :=
  fun w => match w with | ⟨0, _⟩ => G0 | ⟨1, _⟩ => G1 | ⟨2, _⟩ => G2

set_option backward.isDefEq.respectTransparency.types false in
/-- THE SECOND CALL over the thread state: entered from every unscoped buffer at `W19`; left with its three arrays at
    SOME contents their write-backs may leave (`Known`), every other buffer as entered. -/
def reg1 (R2 : OutRel F) (hR2 : Admits (E1 m) R2) : Pipeline.RDat.RegionSeg (pcfgs (F := F)) adm (rdats m R2) () defs₀ 𝒱₀ L lv 1 where
  win := launch1.win.to₀
  block_pos := launch1.block_pos
  stage_whole := launch1.stage_whole
  K := PEmpty
  osem k := k.elim
  ho := Pipeline.OwnSemFacts.none _
  hbody c := body_obligation1 (E1 m) R2 hR2 c
  hwaits := Pipeline.RDat.hwaits_of_owed_zero _ _ _ _ L lv 1 fun _ _ => rfl
  pre c := iprop(StableHlo.held (c : Thread nD τ) (Pipeline.ucRefs τ sig) (W19 m c) ∗ R c)
  post c := T20 m R2 c
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.RDat.arrays_of_unscopedBufs (p := 1) (pcfgs (F := F)) adm (rdats m R2) launch1.win launch1.arr_whole c
      (share_full m R2 1 c fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m R2 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m R2 1 c).Φ (Fin.last _) = Pipeline.ΦA spec1 c from rfl]; unfold Pipeline.ΦA
    iintro ⟨Hr, Hp⟩
    isplitl [Hp]; · iexact Hp
    isplitr; · iempintro
    iexact Hr
  hexit c := by
    unfold RDat.arraysAt
    rw [bigSep_W1]
    iintro ⟨⟨⟨%G0, %h0, H0⟩, ⟨%G1, %h1, H1⟩, ⟨%G2, %h2, H2⟩⟩, HO, HY, Hrest⟩
    have hjoin := bufs_of_arrays m R2 1 launch1.win launch1.arr_whole c (share_full m R2 1 c fun _ => rfl)
      (E1 m c) (fun b => W20 m c (mkArrs1 c G0 G1 G2) b)
      (mkArrs1 c G0 G1 G2)
      (fun w => (W20_arr m c (mkArrs1 c G0 G1 G2) w).symm) (hrest1 m c (mkArrs1 c G0 G1 G2))
    rw [Pipeline.unscopedBufs_held] at hjoin
    imodintro
    iexists (mkArrs1 c G0 G1 G2)
    isplitr
    · ipureintro
      intro w
      match w with
      | ⟨0, _⟩ => exact h0
      | ⟨1, _⟩ => exact h1
      | ⟨2, _⟩ => exact h2
    isplitl [H0 H1 H2 Hrest]
    · iapply hjoin
      isplitl [H0 H1 H2]
      · unfold RDat.arrays; rw [bigSep_W1]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

set_option backward.isDefEq.respectTransparency.types false in
/-- The last host stretch as a segment, whatever the second call left in its arrays: the stretch runs over the
    buffers at the boundary's contents for that `G` (the library's rule for a line of host operations), and `G`
    rides along. -/
def segTail (R2 : OutRel F) : Pipeline.HostSeg (Name := ℕ) (U := UR sig nD τ) (pcfgs (F := F)) defs₀ 𝒱₀ L lv where
  prog := StableHlo.seq hostOps2
  pre c := T20 m R2 c
  post c := iprop(T21 m R2 c ∗ ∃ W, owes (c : Thread nD τ) (0 : CellTallies nD τ sig Unit) W)
  run c {β} k K := by
    iintro ⟨Hk, Hbd, ⟨%G, %hG, Hh, Hp, HO⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W20 m c G)
    iapply hseq $$ [Hbd Hh]
    · isplitl [Hbd] <;> iassumption
    iintro ⟨Hbd, Hh⟩
    iapply Hk
    isplitl [Hbd]; · iexact Hbd
    isplitl [Hh Hp]
    · iexists G; isplitr; · ipureintro; exact hG
      isplitl [Hh]; · iexact Hh
      iexact Hp
    iexact HO

/-! # @main as segments, and the launch -/

/-- @main's twenty-one items in order. -/
abbrev segs (R2 : OutRel F) (hR2 : Admits (E1 m) R2) : List (Pipeline.RDat.Seg (pcfgs (F := F)) adm (rdats m R2) () defs₀ 𝒱₀ L lv) :=
  [ .host (seg0 m 𝒱₀ L lv Rst),
    .host (seg1 m 𝒱₀ L lv Rst),
    .host (seg2 m 𝒱₀ L lv Rst),
    .host (seg3 m 𝒱₀ L lv Rst),
    .host (seg4 m 𝒱₀ L lv Rst),
    .host (seg5 m 𝒱₀ L lv Rst),
    .host (seg6 m 𝒱₀ L lv Rst),
    .host (seg7 m 𝒱₀ L lv Rst),
    .host (seg8 m 𝒱₀ L lv Rst),
    .host (seg9 m 𝒱₀ L lv Rst),
    .host (seg10 m 𝒱₀ L lv Rst),
    .host (seg11 m 𝒱₀ L lv Rst),
    .host (seg12 m 𝒱₀ L lv Rst),
    .host (seg13 m 𝒱₀ L lv Rst),
    .host (seg14 m 𝒱₀ L lv Rst),
    .host (seg15 m 𝒱₀ L lv Rst),
    .host (seg16 m 𝒱₀ L lv Rst),
    .region (reg0 m R2),
    .host (segMid m),
    .region (reg1 m R2 hR2),
    .host (segTail m R2) ]

set_option backward.isDefEq.respectTransparency.types false in
/-- THE RUN. At the compiled mesh, from any memory with zero counters, every weakly fair execution of @main on the
    TensorCores terminates, nothing faulting, and in every final state every unscoped buffer holds the last boundary's
    contents `W21` for some contents `G` of the second call's arrays that its write-backs may have left. -/
theorem run_all (R2 : OutRel F) (hR2 : Admits (E1 m) R2) :
    θ_run defs (onTc (τ := τ) (main (F := F))) ⟨m, fun _ => 0, ρ⟩ (fun r => ∀ c : Dev nD,
      ∃ G : Arrs1 (F := F) c, Known m R2 c G ∧ ∀ b ∈ Pipeline.ucRefs τ sig, r.2.mem (((c : Thread nD τ)).1, b) = W21 m c G b) :=
  Pipeline.RDat.θ_run_regions_kit (pcfgs (F := F)) adm (rdats m R2) () cellOf_inj emb₁ defs₀ 𝒱₀ L lv m ρ main (segs m R2 hR2)
    (fun c Q => by
      rewrite [main_chain c, Pipeline.RDat.Seg.run_eq_chain,
        show (segs m R2 hR2).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := T21 m R2)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ G : Arrs1 (F := F) c, Known m R2 c G ∧ ∀ b ∈ Pipeline.ucRefs τ sig, s.mem (((c : Thread nD τ)).1, b) = W21 m c G b)
    (hfin := fun c s' => by
      iintro ⟨⟨%G, %hG, Hh, -⟩, HSI⟩
      unfold StableHlo.held
      ihave Hr := (pointsTo_read_all (Pipeline.ucRefs τ sig) (fun b => (((c : Thread nD τ)).1, b)) (W21 m c G) s') $$ [Hh HSI]
      · isplitl [Hh] <;> iassumption
      icases Hr with ⟨%h, HSI⟩
      imodintro
      isplitr
      · ipureintro; exact ⟨G, hG, h⟩
      iexact HSI)
    (hQ := fun s h c => h c)

end Cert.Kernel.HandRun

end
-- ==== Proof.KB.SanFinal.lean ====
import proofs.«104216_j3135326126725_1_alg».proof.Proof.KB.SanRegion

/-! # The first pallas_call's arrays after its run, in closed form

The grid has one point and every window's block is its whole array: on every axis the block index is zero and the
block's extent is the array's. So an input block read off its array is the array itself; the one write-back of the
output's block overwrites the whole output array with what the body left in the staging buffer; and no input array
is ever written. The output array therefore ends holding the body's one payload of the input ARRAYS as the region
finds them, and every input array ends as it was found. -/

set_option maxRecDepth 16384

noncomputable section

namespace Cert.Kernel.SanRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents of the core when the region is entered: a parameter
variable (V : (c : Dev nD) → (b : Ref sig .tc) → Buf (Elt F) ((c : Thread nD τ).loc b))

/-! ## Every block index is zero

Decided once over the one-point grid, window by window and axis by axis. -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 1) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)

/-! ## A whole-array block, read off contents of the array, is those contents

A block's element sits in the array, on each axis, at block index × block extent + its own coordinate: at block
index zero, at its own coordinate. Stated over ANY contents `G` of the array's literal type. -/

theorem blk_read0_0 (t : Fin cfg0.N) (G : S1024x256.Idx → Elt F .f32) :
    ((cfg0.win 0).blk t).view.read (Elt F) G = G := by
  obtain ⟨e0, e1⟩ := idx0_0 t
  funext j
  show G (((cfg0.win 0).blk t).view.emb j) = G j
  refine congrArg G ?_
  funext a; apply Fin.ext
  match a with
  | ⟨0, _⟩ => show win0_0.index t (0 : Fin 2) * 1024 + 1 * (j 0).val = (j 0).val; omega
  | ⟨1, _⟩ => show win0_0.index t (1 : Fin 2) * 256 + 1 * (j 1).val = (j 1).val; omega

theorem blk_read0_1 (t : Fin cfg0.N) (G : S256x256.Idx → Elt F .f32) :
    ((cfg0.win 1).blk t).view.read (Elt F) G = G := by
  obtain ⟨e0, e1⟩ := idx0_1 t
  funext j
  show G (((cfg0.win 1).blk t).view.emb j) = G j
  refine congrArg G ?_
  funext a; apply Fin.ext
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem blk_read0_2 (t : Fin cfg0.N) (G : S256.Idx → Elt F .f32) :
    ((cfg0.win 2).blk t).view.read (Elt F) G = G := by
  have e0 := idx0_2 t
  funext j
  show G (((cfg0.win 2).blk t).view.emb j) = G j
  refine congrArg G ?_
  funext a; apply Fin.ext
  match a with
  | ⟨0, _⟩ => show win0_2.index t (0 : Fin 1) * 256 + 1 * (j 0).val = (j 0).val; omega

theorem blk_read0_3 (t : Fin cfg0.N) (G : S256x256.Idx → Elt F .f32) :
    ((cfg0.win 3).blk t).view.read (Elt F) G = G := by
  obtain ⟨e0, e1⟩ := idx0_3 t
  funext j
  show G (((cfg0.win 3).blk t).view.emb j) = G j
  refine congrArg G ?_
  funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem blk_read0_4 (t : Fin cfg0.N) (G : S256.Idx → Elt F .f32) :
    ((cfg0.win 4).blk t).view.read (Elt F) G = G := by
  have e0 := idx0_4 t
  funext j
  show G (((cfg0.win 4).blk t).view.emb j) = G j
  refine congrArg G ?_
  funext a; apply Fin.ext
  match a with
  | ⟨0, _⟩ => show win0_4.index t (0 : Fin 1) * 256 + 1 * (j 0).val = (j 0).val; omega

theorem blk_read0_5 (t : Fin cfg0.N) (G : S256x256.Idx → Elt F .f32) :
    ((cfg0.win 5).blk t).view.read (Elt F) G = G := by
  obtain ⟨e0, e1⟩ := idx0_5 t
  funext j
  show G (((cfg0.win 5).blk t).view.emb j) = G j
  refine congrArg G ?_
  funext a; apply Fin.ext
  match a with
  | ⟨0, _⟩ => show win0_5.index t (0 : Fin 2) * 256 + 1 * (j 0).val = (j 0).val; omega
  | ⟨1, _⟩ => show win0_5.index t (1 : Fin 2) * 256 + 1 * (j 1).val = (j 1).val; omega

theorem blk_read0_6 (t : Fin cfg0.N) (G : S256.Idx → Elt F .f32) :
    ((cfg0.win 6).blk t).view.read (Elt F) G = G := by
  have e0 := idx0_6 t
  funext j
  show G (((cfg0.win 6).blk t).view.emb j) = G j
  refine congrArg G ?_
  funext a; apply Fin.ext
  match a with
  | ⟨0, _⟩ => show win0_6.index t (0 : Fin 1) * 256 + 1 * (j 0).val = (j 0).val; omega

theorem blk_read0_7 (t : Fin cfg0.N) (G : S256x256.Idx → Elt F .f32) :
    ((cfg0.win 7).blk t).view.read (Elt F) G = G := by
  obtain ⟨e0, e1⟩ := idx0_7 t
  funext j
  show G (((cfg0.win 7).blk t).view.emb j) = G j
  refine congrArg G ?_
  funext a; apply Fin.ext
  match a with
  | ⟨0, _⟩ => show win0_7.index t (0 : Fin 2) * 256 + 1 * (j 0).val = (j 0).val; omega
  | ⟨1, _⟩ => show win0_7.index t (1 : Fin 2) * 256 + 1 * (j 1).val = (j 1).val; omega

theorem blk_read0_8 (t : Fin cfg0.N) (G : S256.Idx → Elt F .f32) :
    ((cfg0.win 8).blk t).view.read (Elt F) G = G := by
  have e0 := idx0_8 t
  funext j
  show G (((cfg0.win 8).blk t).view.emb j) = G j
  refine congrArg G ?_
  funext a; apply Fin.ext
  match a with
  | ⟨0, _⟩ => show win0_8.index t (0 : Fin 1) * 256 + 1 * (j 0).val = (j 0).val; omega

theorem blk_read0_9 (t : Fin cfg0.N) (G : S512x256.Idx → Elt F .f32) :
    ((cfg0.win 9).blk t).view.read (Elt F) G = G := by
  obtain ⟨e0, e1⟩ := idx0_9 t
  funext j
  show G (((cfg0.win 9).blk t).view.emb j) = G j
  refine congrArg G ?_
  funext a; apply Fin.ext
  match a with
  | ⟨0, _⟩ => show win0_9.index t (0 : Fin 2) * 512 + 1 * (j 0).val = (j 0).val; omega
  | ⟨1, _⟩ => show win0_9.index t (1 : Fin 2) * 256 + 1 * (j 1).val = (j 1).val; omega

theorem blk_read0_10 (t : Fin cfg0.N) (G : S256.Idx → Elt F .f32) :
    ((cfg0.win 10).blk t).view.read (Elt F) G = G := by
  have e0 := idx0_10 t
  funext j
  show G (((cfg0.win 10).blk t).view.emb j) = G j
  refine congrArg G ?_
  funext a; apply Fin.ext
  match a with
  | ⟨0, _⟩ => show win0_10.index t (0 : Fin 1) * 256 + 1 * (j 0).val = (j 0).val; omega

theorem blk_read0_11 (t : Fin cfg0.N) (G : S1024x256.Idx → Elt F .f32) :
    ((cfg0.win 11).blk t).view.read (Elt F) G = G := by
  obtain ⟨e0, e1⟩ := idx0_11 t
  funext j
  show G (((cfg0.win 11).blk t).view.emb j) = G j
  refine congrArg G ?_
  funext a; apply Fin.ext
  match a with
  | ⟨0, _⟩ => show win0_11.index t (0 : Fin 2) * 1024 + 1 * (j 0).val = (j 0).val; omega
  | ⟨1, _⟩ => show win0_11.index t (1 : Fin 2) * 256 + 1 * (j 1).val = (j 1).val; omega

/-! ## Each input window's block is its array as the region finds it -/

theorem iblk0_0 (c : Dev nD) (t : Fin cfg0.N) : (iblk0 V c 0 t : S1024x256.Idx → Elt F .f32) = V c main_v73 :=
  blk_read0_0 t (V c main_v73)
theorem iblk0_1 (c : Dev nD) (t : Fin cfg0.N) : (iblk0 V c 1 t : S256x256.Idx → Elt F .f32) = V c main_v76 :=
  blk_read0_1 t (V c main_v76)
theorem iblk0_2 (c : Dev nD) (t : Fin cfg0.N) : (iblk0 V c 2 t : S256.Idx → Elt F .f32) = V c main_v75 :=
  blk_read0_2 t (V c main_v75)
theorem iblk0_3 (c : Dev nD) (t : Fin cfg0.N) : (iblk0 V c 3 t : S256x256.Idx → Elt F .f32) = V c main_v77 :=
  blk_read0_3 t (V c main_v77)
theorem iblk0_4 (c : Dev nD) (t : Fin cfg0.N) : (iblk0 V c 4 t : S256.Idx → Elt F .f32) = V c main_arg6 :=
  blk_read0_4 t (V c main_arg6)
theorem iblk0_5 (c : Dev nD) (t : Fin cfg0.N) : (iblk0 V c 5 t : S256x256.Idx → Elt F .f32) = V c main_v78 :=
  blk_read0_5 t (V c main_v78)
theorem iblk0_6 (c : Dev nD) (t : Fin cfg0.N) : (iblk0 V c 6 t : S256.Idx → Elt F .f32) = V c main_arg8 :=
  blk_read0_6 t (V c main_arg8)
theorem iblk0_7 (c : Dev nD) (t : Fin cfg0.N) : (iblk0 V c 7 t : S256x256.Idx → Elt F .f32) = V c main_v79 :=
  blk_read0_7 t (V c main_v79)
theorem iblk0_8 (c : Dev nD) (t : Fin cfg0.N) : (iblk0 V c 8 t : S256.Idx → Elt F .f32) = V c main_arg10 :=
  blk_read0_8 t (V c main_arg10)
theorem iblk0_9 (c : Dev nD) (t : Fin cfg0.N) : (iblk0 V c 9 t : S512x256.Idx → Elt F .f32) = V c main_v80 :=
  blk_read0_9 t (V c main_v80)
theorem iblk0_10 (c : Dev nD) (t : Fin cfg0.N) : (iblk0 V c 10 t : S256.Idx → Elt F .f32) = V c main_arg12 :=
  blk_read0_10 t (V c main_arg12)

/-! ## The output array after the run -/

/-- An index of the output array is in the block at point `t` iff each coordinate is in the block's range on its axis. -/
theorem mem_blk0_11 (t : Fin cfg0.N) (i : S1024x256.Idx) :
    i ∈ ((cfg0.win 11).blk t).view.set ↔ ∀ a : Fin 2, win0_11.index t a * S1024x256.size a ≤ (i a).val
      ∧ (i a).val < win0_11.index t a * S1024x256.size a + S1024x256.size a := by
  show i ∈ ((View.whole main_v81).slice (win0_11.rect t)).set ↔ _
  rw [View.set_slice_whole, Rect.mem_set_unit]
  exact Iff.rfl

/-- What the one point writes back is the whole-array block of the payload of the input ARRAYS. -/
theorem flushed0_11 (c : Dev nD) (t : Fin cfg0.N) :
    (dat0 V c).flushed 11 t = ((cfg0.win 11).blk t).view.read (Elt F)
      (out0_11 (V c main_v73) (V c main_v76) (V c main_v75) (V c main_v77) (V c main_arg6) (V c main_v78)
        (V c main_arg8) (V c main_v79) (V c main_arg10) (V c main_v80) (V c main_arg12)) := by
  show (dat0 V c).after 11 t = _
  rw [after0_11, iblk0_0, iblk0_1, iblk0_2, iblk0_3, iblk0_4, iblk0_5, iblk0_6, iblk0_7, iblk0_8, iblk0_9, iblk0_10]
  exact (blk_read0_11 t _).symm

/-- THE OUTPUT ARRAY after the run: the one block covers it, so it holds the payload of the input arrays. -/
theorem final0 (c : Dev nD) :
    (dat0 V c).arrAt 11 cfg0.N
      = out0_11 (V c main_v73) (V c main_v76) (V c main_v75) (V c main_v77) (V c main_arg6) (V c main_v78)
          (V c main_arg8) (V c main_v79) (V c main_arg10) (V c main_v80) (V c main_arg12) := by
  refine (dat0 V c).arrAt_eq_of_cover 11 _ (fun t _ => flushed0_11 V c t) (fun i => ⟨t0_0, flush0_11 t0_0, ?_⟩)
  obtain ⟨e0, e1⟩ := idx0_11 t0_0
  rw [mem_blk0_11]
  intro a
  match a with
  | ⟨0, _⟩ =>
    show win0_11.index t0_0 (0 : Fin 2) * 1024 ≤ (i 0).val ∧ (i 0).val < win0_11.index t0_0 (0 : Fin 2) * 1024 + 1024
    have hi : (i 0).val < 1024 := (i 0).isLt
    omega
  | ⟨1, _⟩ =>
    show win0_11.index t0_0 (1 : Fin 2) * 256 ≤ (i 1).val ∧ (i 1).val < win0_11.index t0_0 (1 : Fin 2) * 256 + 256
    have hi : (i 1).val < 256 := (i 1).isLt
    omega

/-! ## The input arrays after the run -/

/-- Every window but the last is an input. -/
theorem isIn0 : ∀ w : Fin cfg0.W, w ≠ 11 → (cfg0.win w).isOut = false := by decide

/-- An input's array is never written back: it ends as the region found it. -/
theorem kept0 (c : Dev nD) (w : Fin cfg0.W) (hw : w ≠ 11) : (dat0 V c).arrAt w cfg0.N = V c (Pipeline.arrRef spec0 w) :=
  ((dat0 V c).arrAt_in w (isIn0 w hw) cfg0.N).trans (A_eq0 V c w)

end Cert.Kernel.SanRegion

end
-- ==== Proof.KB.RunFacts.lean ====
import proofs.«104216_j3135326126725_1_alg».proof.Proof.KB.Run
import proofs.«104216_j3135326126725_1_alg».proof.Proof.KB.SanFinal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.HandRun

open Cert.Kernel Cert.Kernel.Gen Cert.Kernel.SanRegion Cert.Kernel.ScoresRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the run says of the arguments: no stretch writes one, no call may change one -/

/-- The relation that asks nothing of the scores: for a claim that does not read them. -/
def AnyOut : OutRel F := fun _ _ _ => True
theorem admits_any (V : (c : Dev nD) → (b : Ref sig .tc) → Buf (Elt F) ((c : Thread nD τ).loc b)) : Admits V (AnyOut (F := F)) :=
  fun _ _ _ _ => trivial

/-- An input array of the first call is left as entered. -/
theorem W18_in (c : Dev nD) (w : Fin cfg0.W) (hw : w ≠ 11) :
    W18 m c (Proc.devRef .tc (Pipeline.arrRef spec0 w)) = V17 m c (Proc.devRef .tc (Pipeline.arrRef spec0 w)) :=
  (W18_arr m c w).trans (kept0 (E0 m) c w hw)

/-- A buffer that no host stretch writes, that the first call leaves as entered and that is no array of the second
    holds its launch contents at the end. -/
theorem W21_kept (c : Dev nD) (G : Arrs1 (F := F) c) (r : Ref sig .tc)
    (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) (h14 : r ∉ hostOps0_14_W) (h15 : r ∉ hostOps0_15_W) (h16 : r ∉ hostOps0_16_W) (hm : r ∉ hostOps1_W) (ht : r ∉ hostOps2_W)
    (ha0 : W18 m c (Proc.devRef .tc r) = V17 m c (Proc.devRef .tc r)) (ha1 : ∀ w, Pipeline.arrRef spec1 w ≠ r) :
    W21 m c G (Proc.devRef .tc r) = m ((c : Thread nD τ).loc r) :=
  (StableHlo.after_of_writes_sub hostOps2 _ hostOps2_writes ht).trans <|
  (W20_of_ne m c G r ha1).trans <|
  (StableHlo.after_of_writes_sub hostOps1 _ hostOps1_writes hm).trans <|
  ha0.trans <|
  (V17_of m c r h16).trans <|
  (V16_of m c r h15).trans <|
  (V15_of m c r h14).trans <|
  (V14_of m c r h13).trans <|
  (V13_of m c r h12).trans <|
  (V12_of m c r h11).trans <|
  (V11_of m c r h10).trans <|
  (V10_of m c r h9).trans <|
  (V9_of m c r h8).trans <|
  (V8_of m c r h7).trans <|
  (V7_of m c r h6).trans <|
  (V6_of m c r h5).trans <|
  (V5_of m c r h4).trans <|
  (V4_of m c r h3).trans <|
  (V3_of m c r h2).trans <|
  (V2_of m c r h1).trans <|
  (V1_of m c r h0)

theorem W21_main_arg0 (c : Dev nD) (G : Arrs1 (F := F) c) : W21 m c G (Proc.devRef .tc main_arg0) = m ((c : Thread nD τ).loc main_arg0) :=
  W21_kept m c G main_arg0 (by decide) (by decide) (by decide) (by decide) (by decide) (by decide) (by decide) (by decide) (by decide) (by decide) (by decide) (by decide) (by decide) (by decide) (by decide) (by decide) (by decide) (by decide) (by decide) (W18_of_ne m c main_arg0 (by decide)) (by decide)
theorem W21_main_arg1 (c : Dev nD) (G : Arrs1 (F := F) c) : W21 m c G (Proc.devRef .tc main_arg1) = m ((c : Thread nD τ).loc main_arg1) :=
  W21_kept m c G main_arg1 (by decide) (by decide) (by decide) (by decide) (by decide) (by decide) (by decide) (by decide) (by decide) (by decide) (by decide) (by decide) (by decide) (by decide) (by decide) (by decide) (by decide) (by decide) (by decide) (W18_of_ne m c main_arg1 (by decide)) (by decide)
theorem W21_main_arg2 (c : Dev nD) (G : Arrs1 (F := F) c) : W21 m c G (Proc.devRef .tc main_arg2) = m ((c : Thread nD τ).loc main_arg2) :=
  W21_kept m c G main_arg2 (by decide) (by decide) (by decide) (by decide) (by decide) (by decide) (by decide) (by decide) (by decide) (by decide) (by decide) (by decide) (by decide) (by decide) (by decide) (by decide) (by decide) (by decide) (by decide) (W18_of_ne m c main_arg2 (by decide)) (by decide)
theorem W21_main_arg3 (c : Dev nD) (G : Arrs1 (F := F) c) : W21 m c G (Proc.devRef .tc main_arg3) = m ((c : Thread nD τ).loc main_arg3) :=
  W21_kept m c G main_arg3 (by decide) (by decide) (by decide) (by decide) (by decide) (by decide) (by decide) (by decide) (by decide) (by decide) (by decide) (by decide) (by decide) (by decide) (by decide) (by decide) (by decide) (by decide) (by decide) (W18_of_ne m c main_arg3 (by decide)) (by decide)
theorem W21_main_arg4 (c : Dev nD) (G : Arrs1 (F := F) c) : W21 m c G (Proc.devRef .tc main_arg4) = m ((c : Thread nD τ).loc main_arg4) :=
  W21_kept m c G main_arg4 (by decide) (by decide) (by decide) (by decide) (by decide) (by decide) (by decide) (by decide) (by decide) (by decide) (by decide) (by decide) (by decide) (by decide) (by decide) (by decide) (by decide) (by decide) (by decide) (W18_of_ne m c main_arg4 (by decide)) (by decide)
theorem W21_main_arg5 (c : Dev nD) (G : Arrs1 (F := F) c) : W21 m c G (Proc.devRef .tc main_arg5) = m ((c : Thread nD τ).loc main_arg5) :=
  W21_kept m c G main_arg5 (by decide) (by decide) (by decide) (by decide) (by decide) (by decide) (by decide) (by decide) (by decide) (by decide) (by decide) (by decide) (by decide) (by decide) (by decide) (by decide) (by decide) (by decide) (by decide) (W18_of_ne m c main_arg5 (by decide)) (by decide)
theorem W21_main_arg6 (c : Dev nD) (G : Arrs1 (F := F) c) : W21 m c G (Proc.devRef .tc main_arg6) = m ((c : Thread nD τ).loc main_arg6) :=
  W21_kept m c G main_arg6 (by decide) (by decide) (by decide) (by decide) (by decide) (by decide) (by decide) (by decide) (by decide) (by decide) (by decide) (by decide) (by decide) (by decide) (by decide) (by decide) (by decide) (by decide) (by decide) (W18_in m c 4 (by decide)) (by decide)
theorem W21_main_arg7 (c : Dev nD) (G : Arrs1 (F := F) c) : W21 m c G (Proc.devRef .tc main_arg7) = m ((c : Thread nD τ).loc main_arg7) :=
  W21_kept m c G main_arg7 (by decide) (by decide) (by decide) (by decide) (by decide) (by decide) (by decide) (by decide) (by decide) (by decide) (by decide) (by decide) (by decide) (by decide) (by decide) (by decide) (by decide) (by decide) (by decide) (W18_of_ne m c main_arg7 (by decide)) (by decide)
theorem W21_main_arg8 (c : Dev nD) (G : Arrs1 (F := F) c) : W21 m c G (Proc.devRef .tc main_arg8) = m ((c : Thread nD τ).loc main_arg8) :=
  W21_kept m c G main_arg8 (by decide) (by decide) (by decide) (by decide) (by decide) (by decide) (by decide) (by decide) (by decide) (by decide) (by decide) (by decide) (by decide) (by decide) (by decide) (by decide) (by decide) (by decide) (by decide) (W18_in m c 6 (by decide)) (by decide)
theorem W21_main_arg9 (c : Dev nD) (G : Arrs1 (F := F) c) : W21 m c G (Proc.devRef .tc main_arg9) = m ((c : Thread nD τ).loc main_arg9) :=
  W21_kept m c G main_arg9 (by decide) (by decide) (by decide) (by decide) (by decide) (by decide) (by decide) (by decide) (by decide) (by decide) (by decide) (by decide) (by decide) (by decide) (by decide) (by decide) (by decide) (by decide) (by decide) (W18_of_ne m c main_arg9 (by decide)) (by decide)
theorem W21_main_arg10 (c : Dev nD) (G : Arrs1 (F := F) c) : W21 m c G (Proc.devRef .tc main_arg10) = m ((c : Thread nD τ).loc main_arg10) :=
  W21_kept m c G main_arg10 (by decide) (by decide) (by decide) (by decide) (by decide) (by decide) (by decide) (by decide) (by decide) (by decide) (by decide) (by decide) (by decide) (by decide) (by decide) (by decide) (by decide) (by decide) (by decide) (W18_in m c 8 (by decide)) (by decide)
theorem W21_main_arg11 (c : Dev nD) (G : Arrs1 (F := F) c) : W21 m c G (Proc.devRef .tc main_arg11) = m ((c : Thread nD τ).loc main_arg11) :=
  W21_kept m c G main_arg11 (by decide) (by decide) (by decide) (by decide) (by decide) (by decide) (by decide) (by decide) (by decide) (by decide) (by decide) (by decide) (by decide) (by decide) (by decide) (by decide) (by decide) (by decide) (by decide) (W18_of_ne m c main_arg11 (by decide)) (by decide)
theorem W21_main_arg12 (c : Dev nD) (G : Arrs1 (F := F) c) : W21 m c G (Proc.devRef .tc main_arg12) = m ((c : Thread nD τ).loc main_arg12) :=
  W21_kept m c G main_arg12 (by decide) (by decide) (by decide) (by decide) (by decide) (by decide) (by decide) (by decide) (by decide) (by decide) (by decide) (by decide) (by decide) (by decide) (by decide) (by decide) (by decide) (by decide) (by decide) (W18_in m c 10 (by decide)) (by decide)
theorem W21_main_arg13 (c : Dev nD) (G : Arrs1 (F := F) c) : W21 m c G (Proc.devRef .tc main_arg13) = m ((c : Thread nD τ).loc main_arg13) :=
  W21_kept m c G main_arg13 (by decide) (by decide) (by decide) (by decide) (by decide) (by decide) (by decide) (by decide) (by decide) (by decide) (by decide) (by decide) (by decide) (by decide) (by decide) (by decide) (by decide) (by decide) (by decide) (W18_of_ne m c main_arg13 (by decide)) (by decide)
theorem W21_main_arg14 (c : Dev nD) (G : Arrs1 (F := F) c) : W21 m c G (Proc.devRef .tc main_arg14) = m ((c : Thread nD τ).loc main_arg14) :=
  W21_kept m c G main_arg14 (by decide) (by decide) (by decide) (by decide) (by decide) (by decide) (by decide) (by decide) (by decide) (by decide) (by decide) (by decide) (by decide) (by decide) (by decide) (by decide) (by decide) (by decide) (by decide) (W18_of_ne m c main_arg14 (by decide)) (by decide)
theorem W21_main_arg15 (c : Dev nD) (G : Arrs1 (F := F) c) : W21 m c G (Proc.devRef .tc main_arg15) = m ((c : Thread nD τ).loc main_arg15) :=
  W21_kept m c G main_arg15 (by decide) (by decide) (by decide) (by decide) (by decide) (by decide) (by decide) (by decide) (by decide) (by decide) (by decide) (by decide) (by decide) (by decide) (by decide) (by decide) (by decide) (by decide) (by decide) (W18_of_ne m c main_arg15 (by decide)) (by decide)
theorem W21_main_arg16 (c : Dev nD) (G : Arrs1 (F := F) c) : W21 m c G (Proc.devRef .tc main_arg16) = m ((c : Thread nD τ).loc main_arg16) :=
  W21_kept m c G main_arg16 (by decide) (by decide) (by decide) (by decide) (by decide) (by decide) (by decide) (by decide) (by decide) (by decide) (by decide) (by decide) (by decide) (by decide) (by decide) (by decide) (by decide) (by decide) (by decide) (W18_of_ne m c main_arg16 (by decide)) (by decide)

/-- THE FRAME at any float instance: @main runs to the end and every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    obtain ⟨G, -, hG⟩ := h c
    exact ⟨(hG _ (mem_uc main_arg0 (by decide))).trans (W21_main_arg0 m c G),
      (hG _ (mem_uc main_arg1 (by decide))).trans (W21_main_arg1 m c G),
      (hG _ (mem_uc main_arg2 (by decide))).trans (W21_main_arg2 m c G),
      (hG _ (mem_uc main_arg3 (by decide))).trans (W21_main_arg3 m c G),
      (hG _ (mem_uc main_arg4 (by decide))).trans (W21_main_arg4 m c G),
      (hG _ (mem_uc main_arg5 (by decide))).trans (W21_main_arg5 m c G),
      (hG _ (mem_uc main_arg6 (by decide))).trans (W21_main_arg6 m c G),
      (hG _ (mem_uc main_arg7 (by decide))).trans (W21_main_arg7 m c G),
      (hG _ (mem_uc main_arg8 (by decide))).trans (W21_main_arg8 m c G),
      (hG _ (mem_uc main_arg9 (by decide))).trans (W21_main_arg9 m c G),
      (hG _ (mem_uc main_arg10 (by decide))).trans (W21_main_arg10 m c G),
      (hG _ (mem_uc main_arg11 (by decide))).trans (W21_main_arg11 m c G),
      (hG _ (mem_uc main_arg12 (by decide))).trans (W21_main_arg12 m c G),
      (hG _ (mem_uc main_arg13 (by decide))).trans (W21_main_arg13 m c G),
      (hG _ (mem_uc main_arg14 (by decide))).trans (W21_main_arg14 m c G),
      (hG _ (mem_uc main_arg15 (by decide))).trans (W21_main_arg15 m c G),
      (hG _ (mem_uc main_arg16 (by decide))).trans (W21_main_arg16 m c G)⟩)
    (run_all m ρ AnyOut (admits_any _))

end Cert.Kernel.HandRun

end
-- ==== Proof.KI.SanRegion.lean ====
import proofs.«104216_j3135326126725_1_alg».proof.Proof.Gen.KernelIdeal.Launch
import proofs.«104216_j3135326126725_1_alg».proof.Proof.Gen.KernelIdeal.Skeleton
import proofs.«104216_j3135326126725_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # The first pallas_call's kernel body, as exact pipeline proof data

The kernel runs on a grid of one point. Each of its twelve windows is one block that is the whole array: eleven
inputs (an activation matrix of 1024 rows, four square weight matrices with their bias rows, a 512-row projection
matrix with its bias row) and one output matrix of 1024 rows. At the one point the body reads every input block
whole, composes the matrix products, bias additions and rectifications that the payload terms name, and overwrites
the whole output block with the result. So, whatever the output's staging buffer held before, after the body it holds
that one payload of the input blocks, and every input buffer holds its block as before. -/

-- membership of an index in the whole-array rectangle of a 1024-row block recurses once per coordinate
set_option maxRecDepth 16384

noncomputable section

namespace Cert.KernelIdeal.SanRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its buffer -/

/-- The whole 1024 × 256 buffer, as the rectangle at offset zero of the buffer's own extents. -/
abbrev rA : Rect S1024x256 := Rect.unit (s := S1024x256) ![0, 0] S1024x256.size inb_S1024x256_S1024x256_0_0
/-- The whole 256 × 256 buffer. -/
abbrev rB : Rect S256x256 := Rect.unit (s := S256x256) ![0, 0] S256x256.size inb_S256x256_S256x256_0_0
/-- The whole 256-entry buffer. -/
abbrev rV : Rect S256 := Rect.unit (s := S256) ![0] S256.size inb_S256_S256_0
/-- The whole 512 × 256 buffer. -/
abbrev rC : Rect S512x256 := Rect.unit (s := S512x256) ![0, 0] S512x256.size inb_S512x256_S512x256_0_0

/-- The zero offsets of a matrix, however spelt. -/
theorem zero2 : (![0, 0] : Fin 2 → Nat) = fun _ => 0 := funext fun a => by fin_cases a <;> rfl
/-- The zero offset of a row. -/
theorem zero1 : (![0] : Fin 1 → Nat) = fun _ => 0 := funext fun a => by fin_cases a <;> rfl

/-! ## What the body leaves in the output window's buffer -/

/-- The output's staging buffer after the body, from the eleven input blocks: its one store, of the whole buffer, of
    the last payload over what the whole-buffer loads read. -/
def out0_11 (x0 : Vec F S1024x256 .f32) (x1 : Vec F S256x256 .f32) (x2 : Vec F S256 .f32) (x3 : Vec F S256x256 .f32)
    (x4 : Vec F S256 .f32) (x5 : Vec F S256x256 .f32) (x6 : Vec F S256 .f32) (x7 : Vec F S256x256 .f32)
    (x8 : Vec F S256 .f32) (x9 : Vec F S512x256 .f32) (x10 : Vec F S256 .f32) : Vec F S1024x256 .f32 :=
  View.canon [⟨rA, k0_pay7 (k0_pay1 (View.ld x1 rB)) (k0_pay2 (View.ld x2 rV)) (k0_pay3 (View.ld x3 rB)) (View.ld x4 rV)
    (k0_pay4 (View.ld x5 rB)) (View.ld x6 rV) (k0_pay5 (View.ld x7 rB)) (View.ld x8 rV)
    (k0_pay6 (View.ld x0 rA) (View.ld x1 rB) (View.ld x2 rV) (View.ld x3 rB) (View.ld x4 rV) (View.ld x5 rB)
      (View.ld x6 rV) (View.ld x7 rB) (View.ld x8 rV))
    (constant S1024x256 .f32 0x00000000#32) (View.ld x0 rA) (View.ld x9 rC) (View.ld x10 rV)⟩]

/-- One store of the whole buffer leaves its payload, and a whole-buffer load reads the contents: the output buffer
    holds the last payload of the input blocks themselves. -/
theorem out0_11_eq (x0 : Vec F S1024x256 .f32) (x1 : Vec F S256x256 .f32) (x2 : Vec F S256 .f32) (x3 : Vec F S256x256 .f32)
    (x4 : Vec F S256 .f32) (x5 : Vec F S256x256 .f32) (x6 : Vec F S256 .f32) (x7 : Vec F S256x256 .f32)
    (x8 : Vec F S256 .f32) (x9 : Vec F S512x256 .f32) (x10 : Vec F S256 .f32) :
    out0_11 x0 x1 x2 x3 x4 x5 x6 x7 x8 x9 x10
      = k0_pay7 (k0_pay1 x1) (k0_pay2 x2) (k0_pay3 x3) x4 (k0_pay4 x5) x6 (k0_pay5 x7) x8
          (k0_pay6 x0 x1 x2 x3 x4 x5 x6 x7 x8) (constant S1024x256 .f32 0x00000000#32) x0 x9 x10 := by
  unfold out0_11
  rw [View.canon_unit_zero zero2]
  simp only [View.ld_unit_zero (S := S1024x256) zero2, View.ld_unit_zero (S := S256x256) zero2,
    View.ld_unit_zero (S := S512x256) zero2, View.ld_unit_zero (S := S256) zero1]

/-- The one store covers the buffer. -/
theorem cover0_11 (p0 : Vec F S1024x256 .f32) (y : S1024x256.Idx) :
    ∃ pc ∈ ([⟨rA, p0⟩] : List (View.Piece (Elt F) S1024x256 .f32)), y ∈ pc.1.set :=
  ⟨_, List.mem_singleton_self _, View.mem_set_unit_zero zero2 inb_S1024x256_S1024x256_0_0 y⟩

/-! ## The body's triple -/

set_option maxHeartbeats 4000000 in
/-- The kernel body on whole staging memrefs, the inputs' at read contents `x0 … x10` and the output's at anything,
    runs to the continuation holding the inputs' as they were and the output's at `out0_11` of the inputs'. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S256 .f32) (harg7 : arg7.IsWhole) (arg8 : Memref sig .tc .vmem S256x256 .f32) (harg8 : arg8.IsWhole)
    (arg9 : Memref sig .tc .vmem S256 .f32) (harg9 : arg9.IsWhole) (arg10 : Memref sig .tc .vmem S512x256 .f32) (harg10 : arg10.IsWhole)
    (arg11 : Memref sig .tc .vmem S256 .f32) (harg11 : arg11.IsWhole) (arg12 : Memref sig .tc .vmem S1024x256 .f32) (harg12 : arg12.IsWhole)
    (x0 : Vec F S1024x256 .f32) (x1 : Vec F S256x256 .f32) (x2 : Vec F S256 .f32) (x3 : Vec F S256x256 .f32)
    (x4 : Vec F S256 .f32) (x5 : Vec F S256x256 .f32) (x6 : Vec F S256 .f32) (x7 : Vec F S256x256 .f32)
    (x8 : Vec F S256 .f32) (x9 : Vec F S512x256 .f32) (x10 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E
          (cc0__san_kernel i arg1 harg1 arg2 harg2 arg3 harg3 arg4 harg4 arg5 harg5 arg6 harg6 arg7 harg7 arg8 harg8
            arg9 harg9 arg10 harg10 arg11 harg11 arg12 harg12) K := by
  simp only [cc0__san_kernel_eq_skeleton]; unfold cc0__san_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## Every input window's buffer holds its block -/

/-- An input window's current staging buffer holds its block at every point, fetched there or not, for any proof data
    whose array is the entry contents' (`hA`) and whose body leaves the block in place (`hafter`): unfetched, the
    block index has not moved; the window is uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them; after the body at point `t`
    each input's buffer at its block and the output's at `out0_11` of the input blocks; the invariant leaves the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) :
    (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by
  dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`: the invariant, the core's debts, and every window's current staging
    buffer at what the pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same, every window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.SanRegion

end
-- ==== Proof.KI.ScoresRegion.lean ====
import proofs.«104216_j3135326126725_1_alg».proof.Proof.Gen.KernelIdeal.Launch
import proofs.«104216_j3135326126725_1_alg».proof.Proof.Gen.KernelIdeal.Skeleton
import proofs.«104216_j3135326126725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.ScoresRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # The second pallas_call: one tile of the score matrix per grid point

The grid has fourteen points. At point `t` the body is handed the whole activation matrix (1024 × 256, the same block
at every point), rows `3584·t …` of the embedding table (a 3584 × 256 block; the last one overhangs the table's 50000
rows, so its tail holds words nothing names) and a 1024 × 3584 result buffer; it stores into that buffer the product of
the activations with the TRANSPOSE of the table block, whatever the buffer held. -/

/-- The zero offsets of a matrix, however spelt. -/
theorem zero2 : (![0, 0] : Fin 2 → Nat) = fun _ => 0 := funext fun a => by fin_cases a <;> rfl

/-- The whole-buffer rectangles of the three staging buffers. -/
abbrev rAct : Rect S1024x256 := Rect.unit (s := S1024x256) ![0, 0] S1024x256.size inb_S1024x256_S1024x256_0_0
abbrev rTab : Rect S3584x256 := Rect.unit (s := S3584x256) ![0, 0] S3584x256.size inb_S3584x256_S3584x256_0_0
abbrev rOut : Rect S1024x3584 := Rect.unit (s := S1024x3584) ![0, 0] S1024x3584.size inb_S1024x3584_S1024x3584_0_0

/-- What the body leaves in the result buffer, from the two input buffers' contents: its one whole store, of the
    product of what the two whole loads read. -/
def tileOut (x0 : Vec F S1024x256 .bf16) (x1 : Vec F S3584x256 .bf16) : Vec F S1024x3584 .f32 :=
  View.canon [⟨rOut, k1_pay1 (View.ld x0 rAct) (View.ld x1 rTab)⟩]

/-- One store of the whole buffer leaves its payload, and a whole-buffer load reads the contents. -/
theorem tileOut_eq (x0 : Vec F S1024x256 .bf16) (x1 : Vec F S3584x256 .bf16) : tileOut x0 x1 = k1_pay1 x0 x1 := by
  unfold tileOut
  rw [View.canon_unit_zero zero2]
  simp only [View.ld_unit_zero (S := S1024x256) zero2, View.ld_unit_zero (S := S3584x256) zero2]

/-- The one store covers the buffer. -/
theorem tileOut_cover (p0 : Vec F S1024x3584 .f32) (y : S1024x3584.Idx) :
    ∃ pc ∈ ([⟨rOut, p0⟩] : List (View.Piece (Elt F) S1024x3584 .f32)), y ∈ pc.1.set :=
  ⟨_, List.mem_singleton_self _, View.mem_set_unit_zero zero2 inb_S1024x3584_S1024x3584_0_0 y⟩

set_option maxHeartbeats 4000000 in
/-- The body on whole staging buffers: the two inputs read and left as they were, the result buffer — read once, the
    value dropped — overwritten whole by the product. -/
theorem sound_kernel1 (c : Dev nD) (E : Set ℕ) (i : grid1.Coords)
    (arg1 : Memref sig .tc .vmem S1024x256 .bf16) (harg1 : arg1.IsWhole)
    (arg2 : Memref sig .tc .vmem S3584x256 .bf16) (harg2 : arg2.IsWhole)
    (arg3 : Memref sig .tc .vmem S1024x3584 .f32) (harg3 : arg3.IsWhole)
    (x0 : Vec F S1024x256 .bf16) (x1 : Vec F S3584x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (tileOut x0 x1)) -∗ K ⟨⟩))
      ⊢ wp frame (wpE (defs₀ (F := F)) Variants.none c none) E (cc1__scores_kernel i arg1 harg1 arg2 harg2 arg3 harg3) K := by
  simp only [cc1__scores_kernel_eq_skeleton]; unfold cc1__scores_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tileOut_cover _)

/-! ## The proof data: relational, the result's relation a parameter

The result tile at the last point is computed from a table block whose tail nothing names, so the result buffer's
contents cannot be NAMED from the arrays alone at every float instance. The data below therefore CONSTRAINS it:
the two input buffers are left as found; of the result buffer a relation `R2` is asked, a parameter — `True` for a
claim that does not read the scores, and at the exact instance "the columns inside the array are the products". -/

variable (V : (c : Dev nD) → (b : Ref sig .tc) → Buf (Elt F) ((c : Thread nD τ).loc b))

/-- Window `w`'s block at point `t`, read off its array as the region finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What is asked of the result buffer after the body at a point. -/
abbrev OutRel (F : FTy → Type) [FloatOps F] : Type := Dev nD → Fin cfg1.N → (S1024x3584.Idx → Elt F .f32) → Prop

/-- The relational proof data of the second pipeline on core `c`: arrays as the region finds them; the inputs'
    buffers left as found, the result's in `R2`; the class invariant; nothing owed; full shares. -/
def scoresData (R2 : OutRel F) (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => R2 c t X
  Φ _ := Pipeline.ΦA spec1 c
  q _ := fullShare
  owed _ := 0

theorem scoresData_A (R2 : OutRel F) (c : Dev nD) (w : Fin cfg1.W) : (scoresData V R2 c).A w = V c (Pipeline.arrRef spec1 w) := by
  dsimp only [scoresData]

/-- What `R2` must admit: the body's product of the activations with ANY filling-out of the table block. -/
def Admits (R2 : OutRel F) : Prop :=
  ∀ (c : Dev nD) (t : Fin cfg1.N) (d0 : S1024x256.Idx → Elt F .bf16) (d1 : S3584x256.Idx → Elt F .bf16),
    R2 c t (tileOut (win1_0.fill (grid1.coords t) d0 (iblk1 V c 0 t)) (win1_1.fill (grid1.coords t) d1 (iblk1 V c 1 t)))

/-- The body at any point, handed buffers the pipeline may hand it. -/
theorem sound_body1 (R2 : OutRel F) (hR2 : Admits V R2) (c : Dev nD) (t : Fin cfg1.N)
    (Y : (w : Fin cfg1.W) → (cfg1.win w).block.Idx → Elt F (cfg1.win w).elt) (hY : ∀ w, (scoresData V R2 c).Finds w t (Y w)) :
    iprop((scoresData V R2 c).Φ t.castSucc ∗ (scoresData V R2 c).owesAt () t.castSucc
        ∗ owns (c : Thread nD τ) (st1_0 t) fullShare (Y 0)
        ∗ owns (c : Thread nD τ) (st1_1 t) fullShare (Y 1)
        ∗ owns (c : Thread nD τ) (st1_2 t) fullShare (Y 2))
      ⊢ wp frame (wpE (defs₀ (F := F)) Variants.none c none) Set.univ (bodyAt1 t) (fun _ =>
          iprop((scoresData V R2 c).Φ t.succ ∗ (scoresData V R2 c).owesAt () t.succ
            ∗ (∃ X, ⌜(scoresData V R2 c).after 0 t (Y 0) X⌝ ∗ owns (c : Thread nD τ) (st1_0 t) fullShare X)
            ∗ (∃ X, ⌜(scoresData V R2 c).after 1 t (Y 1) X⌝ ∗ owns (c : Thread nD τ) (st1_1 t) fullShare X)
            ∗ (∃ X, ⌜(scoresData V R2 c).after 2 t (Y 2) X⌝ ∗ owns (c : Thread nD τ) (st1_2 t) fullShare X))) := by
  obtain ⟨d0, h0⟩ := RDat.finds_in_eq_fetched (scoresData V R2 c) 0 rfl (fun _ _ _ => rfl) (fun _ _ _ h => h) t (Y 0) (hY 0)
  obtain ⟨d1, h1⟩ := ((scoresData V R2 c).finds_of_fetch (fetch1_1 t) (Y 1)).mp (hY 1)
  unfold bodyAt1
  rw [show (scoresData V R2 c).Φ t.succ = (scoresData V R2 c).Φ t.castSucc from rfl,
    show (scoresData V R2 c).owesAt () t.succ = (scoresData V R2 c).owesAt () t.castSucc from rfl]
  iintro ⟨HΦ, Ho, H0, H1, H2⟩
  iapply (sound_kernel1 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  show R2 c t (tileOut (Y 0) (Y 1))
  rw [h0, h1]
  exact hR2 c t d0 d1

/-- The relational body obligation, at every point. -/
theorem body_obligation1 (R2 : OutRel F) (hR2 : Admits V R2) (c : Dev nD) :
    (scoresData V R2 c).BodyObligation (defs₀ (F := F)) Variants.none () Set.univ := fun t Y hY => by
  rw [bigSep_W1, bigSep_W1]
  exact sound_body1 V R2 hR2 c t Y hY

end Cert.KernelIdeal.ScoresRegion

end
-- ==== Proof.KI.Run.lean ====
import proofs.«104216_j3135326126725_1_alg».proof.Proof.KI.SanRegion
import proofs.«104216_j3135326126725_1_alg».proof.Proof.KI.ScoresRegion
import proofs.«104216_j3135326126725_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.HandRun

open Cert.KernelIdeal Cert.KernelIdeal.Gen Cert.KernelIdeal.SanRegion Cert.KernelIdeal.ScoresRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at the boundaries between the items of @main

@main is seventeen stretches of host operations, the first pallas_call, one stretch, the second pallas_call, one
stretch. Up to the first call the contents are the fold of the host operations over the launch memory (`V17`, the
generated fold). The first call leaves its arrays at what its write-backs make of them; the second call's result
array ends at contents of which only a relation is known, so from there on the contents are a function of that array. -/

/-- The first call's entry contents, read at the TensorCore's references. -/
abbrev E0 : (c : Dev nD) → (b : Ref sig .tc) → Buf (Elt F) ((c : Thread nD τ).loc b) := fun c b => V17 m c b

/-- After the first call: its arrays at what the pipeline leaves, every other buffer as entered. -/
def W18 (c : Dev nD) : Valuation τ sig (Elt F) :=
  Pipeline.withArrays spec0 c (V17 m c) fun w => (dat0 (E0 m) c).arrAt w cfg0.N

theorem W18_arr (c : Dev nD) (w : Fin cfg0.W) :
    W18 m c (Proc.devRef .tc (Pipeline.arrRef spec0 w)) = (dat0 (E0 m) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 m c (Proc.devRef .tc b) = V17 m c (Proc.devRef .tc b) := by
  unfold W18; exact Pipeline.withArrays_of_ne spec0 c _ _ b hb

/-- The same read at the TensorCore's references. -/
abbrev X0 : (c : Dev nD) → (b : Ref sig .tc) → Buf (Elt F) ((c : Thread nD τ).loc b) := fun c b => W18 m c b

/-- After the stretch between the calls: the second call's entry contents. -/
abbrev W19 (c : Dev nD) : Valuation τ sig (Elt F) := StableHlo.after hostOps1 (W18 m c)
abbrev E1 : (c : Dev nD) → (b : Ref sig .tc) → Buf (Elt F) ((c : Thread nD τ).loc b) := fun c b => W19 m c b

/-- The contents of the second call's three arrays after it, as a family. -/
abbrev Arrs1 (c : Dev nD) : Type := (w : Fin cfg1.W) → Buf (Elt F) ((spec1 w).arr.view.loc (c.tc : Thread nD τ))

/-- After the second call, its arrays at `G`. -/
def W20 (c : Dev nD) (G : Arrs1 (F := F) c) : Valuation τ sig (Elt F) := Pipeline.withArrays spec1 c (W19 m c) G
theorem W20_arr (c : Dev nD) (G : Arrs1 (F := F) c) (w : Fin cfg1.W) :
    W20 m c G (Proc.devRef .tc (Pipeline.arrRef spec1 w)) = G w := by
  unfold W20; exact Pipeline.withArrays_arr spec1 launch1.win.arr_inj c _ _ w
theorem W20_of_ne (c : Dev nD) (G : Arrs1 (F := F) c) (b : Ref sig .tc) (hb : ∀ w, Pipeline.arrRef spec1 w ≠ b) :
    W20 m c G (Proc.devRef .tc b) = W19 m c (Proc.devRef .tc b) := by
  unfold W20; exact Pipeline.withArrays_of_ne spec1 c _ _ b hb

/-- At the end of @main. -/
abbrev W21 (c : Dev nD) (G : Arrs1 (F := F) c) : Valuation τ sig (Elt F) := StableHlo.after hostOps2 (W20 m c G)

/-! # The proof data family and the thread state -/

/-- Both pipelines' proof data, relational: the first call's exact data read relationally, the second's the
    relational data of its module at the output relation `R2`. -/
def rdats (R2 : OutRel F) : (p : Fin 2) → (c : Dev nD) → RDat τ (Elt F) Unit ℕ (UR sig nD τ) ℕ (Pipeline.pin (pcfgs (F := F)) adm p) c
  | ⟨0, _⟩ => fun c => (dat0 (E0 m) c).toR
  | ⟨1, _⟩ => fun c => scoresData (E1 m) R2 c

abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-- What is known of the second call's arrays after it. -/
def Known (R2 : OutRel F) (c : Dev nD) (G : Arrs1 (F := F) c) : Prop := ∀ w, (rdats m R2 1 c).ArrAt w cfg1.N (G w)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as segments -/

/-- Full shares: every window's array is held whole at the full share. -/
theorem share_full (R2 : OutRel F) (p : Fin 2) (c : Dev nD) (hq : ∀ w, (rdats m R2 p c).q w = fullShare) (w) :
    (rdats m R2 p c).share w = fullShare := by
  unfold RDat.share; split
  · rfl
  · exact hq w

-- library lemmas stated over the pinned configuration unify with the printed one only when unification may unfold
-- plain definitions in a metavariable's type
set_option backward.isDefEq.respectTransparency.types false in
/-- A pipeline's arrays at contents `G` beside the unscoped rest at `V` are the core's unscoped buffers at any
    valuation that has the arrays at `G` and agrees with `V` off them. -/
theorem bufs_of_arrays (R2 : OutRel F) (p : Fin 2) (hw : Pipeline.WinFacts (Pipeline.pin (pcfgs (F := F)) adm p).spec)
    (harr : ∀ w, ((Pipeline.pin (pcfgs (F := F)) adm p).spec w).arr.IsWhole) (c : Dev nD)
    (hshare : ∀ w, (rdats m R2 p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m R2 p c).arrays G ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m R2) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

theorem hrest0 (c : Dev nD) : ∀ b, b ∉ Finset.univ.image (Pipeline.arrRef spec0) → X0 m c b = E0 m c b :=
  fun b hb => W18_of_ne m c b fun w e => hb (Finset.mem_image.mpr ⟨w, Finset.mem_univ _, e⟩)
theorem hrest1 (c : Dev nD) (G : Arrs1 (F := F) c) : ∀ b, b ∉ Finset.univ.image (Pipeline.arrRef spec1) → W20 m c G b = E1 m c b :=
  fun b hb => W20_of_ne m c G b fun w e => hb (Finset.mem_image.mpr ⟨w, Finset.mem_univ _, e⟩)

set_option backward.isDefEq.respectTransparency.types false in
/-- THE FIRST CALL over the thread state: entered from every unscoped buffer at `V17`, left at `W18`. Its arrays are
    split out of the unscoped buffers and put back at the exit contents; the generator register goes into the class
    invariant and comes out; nothing is owed; the kernel has no semaphore of its own. -/
def reg0 (R2 : OutRel F) : Pipeline.RDat.RegionSeg (pcfgs (F := F)) adm (rdats m R2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toR
  hwaits := Pipeline.RDat.hwaits_of_owed_zero _ _ _ _ L lv 0 fun _ _ => rfl
  pre c := iprop(StableHlo.held (c : Thread nD τ) (Pipeline.ucRefs τ sig) (V17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.RDat.arrays_of_unscopedBufs (p := 0) (pcfgs (F := F)) adm (rdats m R2) launch0.win launch0.arr_whole c
      (share_full m R2 0 c fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m R2 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m R2 0 c).Φ (Fin.last _) = Pipeline.ΦA spec0 c from rfl]; unfold Pipeline.ΦA
    iintro ⟨Hr, Hp⟩
    isplitl [Hp]; · iexact Hp
    isplitr; · iempintro
    iexact Hr
  hexit c := by
    have harrs : (rdats m R2 0 c).arraysAt (Pipeline.pin (pcfgs (F := F)) adm 0).N = ((rdats m R2 0 c).arrays ((dat0 (E0 m) c).arrAt · cfg0.N) : sProp 𝕄) :=
      (dat0 (E0 m) c).toR_arraysAt_eq cfg0.N
    have hjoin := bufs_of_arrays m R2 0 launch0.win launch0.arr_whole c (share_full m R2 0 c fun _ => rfl)
      (E0 m c) (X0 m c) ((dat0 (E0 m) c).arrAt · cfg0.N) (fun w => (W18_arr m c w).symm) (hrest0 m c)
    rw [Pipeline.unscopedBufs_held] at hjoin
    rw [harrs]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The thread state after the second call, and after the last host stretch: every unscoped buffer at the
    boundary's contents for SOME contents `G` of the second call's arrays that its write-backs may leave. -/
abbrev T20 (R2 : OutRel F) (c : Dev nD) : sProp 𝕄 :=
  iprop(∃ G : Arrs1 (F := F) c, ⌜Known m R2 c G⌝ ∗ StableHlo.held (c : Thread nD τ) (Pipeline.ucRefs τ sig) (W20 m c G) ∗ R c)
abbrev T21 (R2 : OutRel F) (c : Dev nD) : sProp 𝕄 :=
  iprop(∃ G : Arrs1 (F := F) c, ⌜Known m R2 c G⌝ ∗ StableHlo.held (c : Thread nD τ) (Pipeline.ucRefs τ sig) (W21 m c G) ∗ ∃ r, prngReg c r)

/-- The rest state the generated host segments carry: the same at every stage. -/
abbrev Rst : Fin 3 → Dev nD → sProp 𝕄 := fun _ c => R c

/-- The stretch between the calls as a segment, from the first call's exit contents. -/
abbrev segMid : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W18 m) R

/-- The three arrays' contents as a family. -/
def mkArrs1 (c : Dev nD) (G0 : Buf (Elt F) ((spec1 0).arr.view.loc (c.tc : Thread nD τ))) (G1 : Buf (Elt F) ((spec1 1).arr.view.loc (c.tc : Thread nD τ)))
    (G2 : Buf (Elt F) ((spec1 2).arr.view.loc (c.tc : Thread nD τ))) : Arrs1 (F := F) c :=
  fun w => match w with | ⟨0, _⟩ => G0 | ⟨1, _⟩ => G1 | ⟨2, _⟩ => G2

set_option backward.isDefEq.respectTransparency.types false in
/-- THE SECOND CALL over the thread state: entered from every unscoped buffer at `W19`; left with its three arrays at
    SOME contents their write-backs may leave (`Known`), every other buffer as entered. -/
def reg1 (R2 : OutRel F) (hR2 : Admits (E1 m) R2) : Pipeline.RDat.RegionSeg (pcfgs (F := F)) adm (rdats m R2) () defs₀ 𝒱₀ L lv 1 where
  win := launch1.win.to₀
  block_pos := launch1.block_pos
  stage_whole := launch1.stage_whole
  K := PEmpty
  osem k := k.elim
  ho := Pipeline.OwnSemFacts.none _
  hbody c := body_obligation1 (E1 m) R2 hR2 c
  hwaits := Pipeline.RDat.hwaits_of_owed_zero _ _ _ _ L lv 1 fun _ _ => rfl
  pre c := iprop(StableHlo.held (c : Thread nD τ) (Pipeline.ucRefs τ sig) (W19 m c) ∗ R c)
  post c := T20 m R2 c
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.RDat.arrays_of_unscopedBufs (p := 1) (pcfgs (F := F)) adm (rdats m R2) launch1.win launch1.arr_whole c
      (share_full m R2 1 c fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m R2 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m R2 1 c).Φ (Fin.last _) = Pipeline.ΦA spec1 c from rfl]; unfold Pipeline.ΦA
    iintro ⟨Hr, Hp⟩
    isplitl [Hp]; · iexact Hp
    isplitr; · iempintro
    iexact Hr
  hexit c := by
    unfold RDat.arraysAt
    rw [bigSep_W1]
    iintro ⟨⟨⟨%G0, %h0, H0⟩, ⟨%G1, %h1, H1⟩, ⟨%G2, %h2, H2⟩⟩, HO, HY, Hrest⟩
    have hjoin := bufs_of_arrays m R2 1 launch1.win launch1.arr_whole c (share_full m R2 1 c fun _ => rfl)
      (E1 m c) (fun b => W20 m c (mkArrs1 c G0 G1 G2) b)
      (mkArrs1 c G0 G1 G2)
      (fun w => (W20_arr m c (mkArrs1 c G0 G1 G2) w).symm) (hrest1 m c (mkArrs1 c G0 G1 G2))
    rw [Pipeline.unscopedBufs_held] at hjoin
    imodintro
    iexists (mkArrs1 c G0 G1 G2)
    isplitr
    · ipureintro
      intro w
      match w with
      | ⟨0, _⟩ => exact h0
      | ⟨1, _⟩ => exact h1
      | ⟨2, _⟩ => exact h2
    isplitl [H0 H1 H2 Hrest]
    · iapply hjoin
      isplitl [H0 H1 H2]
      · unfold RDat.arrays; rw [bigSep_W1]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

set_option backward.isDefEq.respectTransparency.types false in
/-- The last host stretch as a segment, whatever the second call left in its arrays: the stretch runs over the
    buffers at the boundary's contents for that `G` (the library's rule for a line of host operations), and `G`
    rides along. -/
def segTail (R2 : OutRel F) : Pipeline.HostSeg (Name := ℕ) (U := UR sig nD τ) (pcfgs (F := F)) defs₀ 𝒱₀ L lv where
  prog := StableHlo.seq hostOps2
  pre c := T20 m R2 c
  post c := iprop(T21 m R2 c ∗ ∃ W, owes (c : Thread nD τ) (0 : CellTallies nD τ sig Unit) W)
  run c {β} k K := by
    iintro ⟨Hk, Hbd, ⟨%G, %hG, Hh, Hp, HO⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W20 m c G)
    iapply hseq $$ [Hbd Hh]
    · isplitl [Hbd] <;> iassumption
    iintro ⟨Hbd, Hh⟩
    iapply Hk
    isplitl [Hbd]; · iexact Hbd
    isplitl [Hh Hp]
    · iexists G; isplitr; · ipureintro; exact hG
      isplitl [Hh]; · iexact Hh
      iexact Hp
    iexact HO

/-! # @main as segments, and the launch -/

/-- @main's twenty-one items in order. -/
abbrev segs (R2 : OutRel F) (hR2 : Admits (E1 m) R2) : List (Pipeline.RDat.Seg (pcfgs (F := F)) adm (rdats m R2) () defs₀ 𝒱₀ L lv) :=
  [ .host (seg0 m 𝒱₀ L lv Rst),
    .host (seg1 m 𝒱₀ L lv Rst),
    .host (seg2 m 𝒱₀ L lv Rst),
    .host (seg3 m 𝒱₀ L lv Rst),
    .host (seg4 m 𝒱₀ L lv Rst),
    .host (seg5 m 𝒱₀ L lv Rst),
    .host (seg6 m 𝒱₀ L lv Rst),
    .host (seg7 m 𝒱₀ L lv Rst),
    .host (seg8 m 𝒱₀ L lv Rst),
    .host (seg9 m 𝒱₀ L lv Rst),
    .host (seg10 m 𝒱₀ L lv Rst),
    .host (seg11 m 𝒱₀ L lv Rst),
    .host (seg12 m 𝒱₀ L lv Rst),
    .host (seg13 m 𝒱₀ L lv Rst),
    .host (seg14 m 𝒱₀ L lv Rst),
    .host (seg15 m 𝒱₀ L lv Rst),
    .host (seg16 m 𝒱₀ L lv Rst),
    .region (reg0 m R2),
    .host (segMid m),
    .region (reg1 m R2 hR2),
    .host (segTail m R2) ]

set_option backward.isDefEq.respectTransparency.types false in
/-- THE RUN. At the compiled mesh, from any memory with zero counters, every weakly fair execution of @main on the
    TensorCores terminates, nothing faulting, and in every final state every unscoped buffer holds the last boundary's
    contents `W21` for some contents `G` of the second call's arrays that its write-backs may have left. -/
theorem run_all (R2 : OutRel F) (hR2 : Admits (E1 m) R2) :
    θ_run defs (onTc (τ := τ) (main (F := F))) ⟨m, fun _ => 0, ρ⟩ (fun r => ∀ c : Dev nD,
      ∃ G : Arrs1 (F := F) c, Known m R2 c G ∧ ∀ b ∈ Pipeline.ucRefs τ sig, r.2.mem (((c : Thread nD τ)).1, b) = W21 m c G b) :=
  Pipeline.RDat.θ_run_regions_kit (pcfgs (F := F)) adm (rdats m R2) () cellOf_inj emb₁ defs₀ 𝒱₀ L lv m ρ main (segs m R2 hR2)
    (fun c Q => by
      rewrite [main_chain c, Pipeline.RDat.Seg.run_eq_chain,
        show (segs m R2 hR2).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := T21 m R2)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ G : Arrs1 (F := F) c, Known m R2 c G ∧ ∀ b ∈ Pipeline.ucRefs τ sig, s.mem (((c : Thread nD τ)).1, b) = W21 m c G b)
    (hfin := fun c s' => by
      iintro ⟨⟨%G, %hG, Hh, -⟩, HSI⟩
      unfold StableHlo.held
      ihave Hr := (pointsTo_read_all (Pipeline.ucRefs τ sig) (fun b => (((c : Thread nD τ)).1, b)) (W21 m c G) s') $$ [Hh HSI]
      · isplitl [Hh] <;> iassumption
      icases Hr with ⟨%h, HSI⟩
      imodintro
      isplitr
      · ipureintro; exact ⟨G, hG, h⟩
      iexact HSI)
    (hQ := fun s h c => h c)

end Cert.KernelIdeal.HandRun

end
-- ==== Proof.KI.SanFinal.lean ====
import proofs.«104216_j3135326126725_1_alg».proof.Proof.KI.SanRegion

/-! # The first pallas_call's arrays after its run, in closed form

The grid has one point and every window's block is its whole array: on every axis the block index is zero and the
block's extent is the array's. So an input block read off its array is the array itself; the one write-back of the
output's block overwrites the whole output array with what the body left in the staging buffer; and no input array
is ever written. The output array therefore ends holding the body's one payload of the input ARRAYS as the region
finds them, and every input array ends as it was found. -/

set_option maxRecDepth 16384

noncomputable section

namespace Cert.KernelIdeal.SanRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents of the core when the region is entered: a parameter
variable (V : (c : Dev nD) → (b : Ref sig .tc) → Buf (Elt F) ((c : Thread nD τ).loc b))

/-! ## Every block index is zero

Decided once over the one-point grid, window by window and axis by axis. -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 1) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)

/-! ## A whole-array block, read off contents of the array, is those contents

A block's element sits in the array, on each axis, at block index × block extent + its own coordinate: at block
index zero, at its own coordinate. Stated over ANY contents `G` of the array's literal type. -/

theorem blk_read0_0 (t : Fin cfg0.N) (G : S1024x256.Idx → Elt F .f32) :
    ((cfg0.win 0).blk t).view.read (Elt F) G = G := by
  obtain ⟨e0, e1⟩ := idx0_0 t
  funext j
  show G (((cfg0.win 0).blk t).view.emb j) = G j
  refine congrArg G ?_
  funext a; apply Fin.ext
  match a with
  | ⟨0, _⟩ => show win0_0.index t (0 : Fin 2) * 1024 + 1 * (j 0).val = (j 0).val; omega
  | ⟨1, _⟩ => show win0_0.index t (1 : Fin 2) * 256 + 1 * (j 1).val = (j 1).val; omega

theorem blk_read0_1 (t : Fin cfg0.N) (G : S256x256.Idx → Elt F .f32) :
    ((cfg0.win 1).blk t).view.read (Elt F) G = G := by
  obtain ⟨e0, e1⟩ := idx0_1 t
  funext j
  show G (((cfg0.win 1).blk t).view.emb j) = G j
  refine congrArg G ?_
  funext a; apply Fin.ext
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem blk_read0_2 (t : Fin cfg0.N) (G : S256.Idx → Elt F .f32) :
    ((cfg0.win 2).blk t).view.read (Elt F) G = G := by
  have e0 := idx0_2 t
  funext j
  show G (((cfg0.win 2).blk t).view.emb j) = G j
  refine congrArg G ?_
  funext a; apply Fin.ext
  match a with
  | ⟨0, _⟩ => show win0_2.index t (0 : Fin 1) * 256 + 1 * (j 0).val = (j 0).val; omega

theorem blk_read0_3 (t : Fin cfg0.N) (G : S256x256.Idx → Elt F .f32) :
    ((cfg0.win 3).blk t).view.read (Elt F) G = G := by
  obtain ⟨e0, e1⟩ := idx0_3 t
  funext j
  show G (((cfg0.win 3).blk t).view.emb j) = G j
  refine congrArg G ?_
  funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem blk_read0_4 (t : Fin cfg0.N) (G : S256.Idx → Elt F .f32) :
    ((cfg0.win 4).blk t).view.read (Elt F) G = G := by
  have e0 := idx0_4 t
  funext j
  show G (((cfg0.win 4).blk t).view.emb j) = G j
  refine congrArg G ?_
  funext a; apply Fin.ext
  match a with
  | ⟨0, _⟩ => show win0_4.index t (0 : Fin 1) * 256 + 1 * (j 0).val = (j 0).val; omega

theorem blk_read0_5 (t : Fin cfg0.N) (G : S256x256.Idx → Elt F .f32) :
    ((cfg0.win 5).blk t).view.read (Elt F) G = G := by
  obtain ⟨e0, e1⟩ := idx0_5 t
  funext j
  show G (((cfg0.win 5).blk t).view.emb j) = G j
  refine congrArg G ?_
  funext a; apply Fin.ext
  match a with
  | ⟨0, _⟩ => show win0_5.index t (0 : Fin 2) * 256 + 1 * (j 0).val = (j 0).val; omega
  | ⟨1, _⟩ => show win0_5.index t (1 : Fin 2) * 256 + 1 * (j 1).val = (j 1).val; omega

theorem blk_read0_6 (t : Fin cfg0.N) (G : S256.Idx → Elt F .f32) :
    ((cfg0.win 6).blk t).view.read (Elt F) G = G := by
  have e0 := idx0_6 t
  funext j
  show G (((cfg0.win 6).blk t).view.emb j) = G j
  refine congrArg G ?_
  funext a; apply Fin.ext
  match a with
  | ⟨0, _⟩ => show win0_6.index t (0 : Fin 1) * 256 + 1 * (j 0).val = (j 0).val; omega

theorem blk_read0_7 (t : Fin cfg0.N) (G : S256x256.Idx → Elt F .f32) :
    ((cfg0.win 7).blk t).view.read (Elt F) G = G := by
  obtain ⟨e0, e1⟩ := idx0_7 t
  funext j
  show G (((cfg0.win 7).blk t).view.emb j) = G j
  refine congrArg G ?_
  funext a; apply Fin.ext
  match a with
  | ⟨0, _⟩ => show win0_7.index t (0 : Fin 2) * 256 + 1 * (j 0).val = (j 0).val; omega
  | ⟨1, _⟩ => show win0_7.index t (1 : Fin 2) * 256 + 1 * (j 1).val = (j 1).val; omega

theorem blk_read0_8 (t : Fin cfg0.N) (G : S256.Idx → Elt F .f32) :
    ((cfg0.win 8).blk t).view.read (Elt F) G = G := by
  have e0 := idx0_8 t
  funext j
  show G (((cfg0.win 8).blk t).view.emb j) = G j
  refine congrArg G ?_
  funext a; apply Fin.ext
  match a with
  | ⟨0, _⟩ => show win0_8.index t (0 : Fin 1) * 256 + 1 * (j 0).val = (j 0).val; omega

theorem blk_read0_9 (t : Fin cfg0.N) (G : S512x256.Idx → Elt F .f32) :
    ((cfg0.win 9).blk t).view.read (Elt F) G = G := by
  obtain ⟨e0, e1⟩ := idx0_9 t
  funext j
  show G (((cfg0.win 9).blk t).view.emb j) = G j
  refine congrArg G ?_
  funext a; apply Fin.ext
  match a with
  | ⟨0, _⟩ => show win0_9.index t (0 : Fin 2) * 512 + 1 * (j 0).val = (j 0).val; omega
  | ⟨1, _⟩ => show win0_9.index t (1 : Fin 2) * 256 + 1 * (j 1).val = (j 1).val; omega

theorem blk_read0_10 (t : Fin cfg0.N) (G : S256.Idx → Elt F .f32) :
    ((cfg0.win 10).blk t).view.read (Elt F) G = G := by
  have e0 := idx0_10 t
  funext j
  show G (((cfg0.win 10).blk t).view.emb j) = G j
  refine congrArg G ?_
  funext a; apply Fin.ext
  match a with
  | ⟨0, _⟩ => show win0_10.index t (0 : Fin 1) * 256 + 1 * (j 0).val = (j 0).val; omega

theorem blk_read0_11 (t : Fin cfg0.N) (G : S1024x256.Idx → Elt F .f32) :
    ((cfg0.win 11).blk t).view.read (Elt F) G = G := by
  obtain ⟨e0, e1⟩ := idx0_11 t
  funext j
  show G (((cfg0.win 11).blk t).view.emb j) = G j
  refine congrArg G ?_
  funext a; apply Fin.ext
  match a with
  | ⟨0, _⟩ => show win0_11.index t (0 : Fin 2) * 1024 + 1 * (j 0).val = (j 0).val; omega
  | ⟨1, _⟩ => show win0_11.index t (1 : Fin 2) * 256 + 1 * (j 1).val = (j 1).val; omega

/-! ## Each input window's block is its array as the region finds it -/

theorem iblk0_0 (c : Dev nD) (t : Fin cfg0.N) : (iblk0 V c 0 t : S1024x256.Idx → Elt F .f32) = V c main_v73 :=
  blk_read0_0 t (V c main_v73)
theorem iblk0_1 (c : Dev nD) (t : Fin cfg0.N) : (iblk0 V c 1 t : S256x256.Idx → Elt F .f32) = V c main_v76 :=
  blk_read0_1 t (V c main_v76)
theorem iblk0_2 (c : Dev nD) (t : Fin cfg0.N) : (iblk0 V c 2 t : S256.Idx → Elt F .f32) = V c main_v75 :=
  blk_read0_2 t (V c main_v75)
theorem iblk0_3 (c : Dev nD) (t : Fin cfg0.N) : (iblk0 V c 3 t : S256x256.Idx → Elt F .f32) = V c main_v77 :=
  blk_read0_3 t (V c main_v77)
theorem iblk0_4 (c : Dev nD) (t : Fin cfg0.N) : (iblk0 V c 4 t : S256.Idx → Elt F .f32) = V c main_arg6 :=
  blk_read0_4 t (V c main_arg6)
theorem iblk0_5 (c : Dev nD) (t : Fin cfg0.N) : (iblk0 V c 5 t : S256x256.Idx → Elt F .f32) = V c main_v78 :=
  blk_read0_5 t (V c main_v78)
theorem iblk0_6 (c : Dev nD) (t : Fin cfg0.N) : (iblk0 V c 6 t : S256.Idx → Elt F .f32) = V c main_arg8 :=
  blk_read0_6 t (V c main_arg8)
theorem iblk0_7 (c : Dev nD) (t : Fin cfg0.N) : (iblk0 V c 7 t : S256x256.Idx → Elt F .f32) = V c main_v79 :=
  blk_read0_7 t (V c main_v79)
theorem iblk0_8 (c : Dev nD) (t : Fin cfg0.N) : (iblk0 V c 8 t : S256.Idx → Elt F .f32) = V c main_arg10 :=
  blk_read0_8 t (V c main_arg10)
theorem iblk0_9 (c : Dev nD) (t : Fin cfg0.N) : (iblk0 V c 9 t : S512x256.Idx → Elt F .f32) = V c main_v80 :=
  blk_read0_9 t (V c main_v80)
theorem iblk0_10 (c : Dev nD) (t : Fin cfg0.N) : (iblk0 V c 10 t : S256.Idx → Elt F .f32) = V c main_arg12 :=
  blk_read0_10 t (V c main_arg12)

/-! ## The output array after the run -/

/-- An index of the output array is in the block at point `t` iff each coordinate is in the block's range on its axis. -/
theorem mem_blk0_11 (t : Fin cfg0.N) (i : S1024x256.Idx) :
    i ∈ ((cfg0.win 11).blk t).view.set ↔ ∀ a : Fin 2, win0_11.index t a * S1024x256.size a ≤ (i a).val
      ∧ (i a).val < win0_11.index t a * S1024x256.size a + S1024x256.size a := by
  show i ∈ ((View.whole main_v81).slice (win0_11.rect t)).set ↔ _
  rw [View.set_slice_whole, Rect.mem_set_unit]
  exact Iff.rfl

/-- What the one point writes back is the whole-array block of the payload of the input ARRAYS. -/
theorem flushed0_11 (c : Dev nD) (t : Fin cfg0.N) :
    (dat0 V c).flushed 11 t = ((cfg0.win 11).blk t).view.read (Elt F)
      (out0_11 (V c main_v73) (V c main_v76) (V c main_v75) (V c main_v77) (V c main_arg6) (V c main_v78)
        (V c main_arg8) (V c main_v79) (V c main_arg10) (V c main_v80) (V c main_arg12)) := by
  show (dat0 V c).after 11 t = _
  rw [after0_11, iblk0_0, iblk0_1, iblk0_2, iblk0_3, iblk0_4, iblk0_5, iblk0_6, iblk0_7, iblk0_8, iblk0_9, iblk0_10]
  exact (blk_read0_11 t _).symm

/-- THE OUTPUT ARRAY after the run: the one block covers it, so it holds the payload of the input arrays. -/
theorem final0 (c : Dev nD) :
    (dat0 V c).arrAt 11 cfg0.N
      = out0_11 (V c main_v73) (V c main_v76) (V c main_v75) (V c main_v77) (V c main_arg6) (V c main_v78)
          (V c main_arg8) (V c main_v79) (V c main_arg10) (V c main_v80) (V c main_arg12) := by
  refine (dat0 V c).arrAt_eq_of_cover 11 _ (fun t _ => flushed0_11 V c t) (fun i => ⟨t0_0, flush0_11 t0_0, ?_⟩)
  obtain ⟨e0, e1⟩ := idx0_11 t0_0
  rw [mem_blk0_11]
  intro a
  match a with
  | ⟨0, _⟩ =>
    show win0_11.index t0_0 (0 : Fin 2) * 1024 ≤ (i 0).val ∧ (i 0).val < win0_11.index t0_0 (0 : Fin 2) * 1024 + 1024
    have hi : (i 0).val < 1024 := (i 0).isLt
    omega
  | ⟨1, _⟩ =>
    show win0_11.index t0_0 (1 : Fin 2) * 256 ≤ (i 1).val ∧ (i 1).val < win0_11.index t0_0 (1 : Fin 2) * 256 + 256
    have hi : (i 1).val < 256 := (i 1).isLt
    omega

/-! ## The input arrays after the run -/

/-- Every window but the last is an input. -/
theorem isIn0 : ∀ w : Fin cfg0.W, w ≠ 11 → (cfg0.win w).isOut = false := by decide

/-- An input's array is never written back: it ends as the region found it. -/
theorem kept0 (c : Dev nD) (w : Fin cfg0.W) (hw : w ≠ 11) : (dat0 V c).arrAt w cfg0.N = V c (Pipeline.arrRef spec0 w) :=
  ((dat0 V c).arrAt_in w (isIn0 w hw) cfg0.N).trans (A_eq0 V c w)

end Cert.KernelIdeal.SanRegion

end
-- ==== Proof.KI.RunFacts.lean ====
import proofs.«104216_j3135326126725_1_alg».proof.Proof.KI.Run
import proofs.«104216_j3135326126725_1_alg».proof.Proof.KI.SanFinal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.HandRun

open Cert.KernelIdeal Cert.KernelIdeal.Gen Cert.KernelIdeal.SanRegion Cert.KernelIdeal.ScoresRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the run says of the arguments: no stretch writes one, no call may change one -/

/-- The relation that asks nothing of the scores: for a claim that does not read them. -/
def AnyOut : OutRel F := fun _ _ _ => True
theorem admits_any (V : (c : Dev nD) → (b : Ref sig .tc) → Buf (Elt F) ((c : Thread nD τ).loc b)) : Admits V (AnyOut (F := F)) :=
  fun _ _ _ _ => trivial

/-- An input array of the first call is left as entered. -/
theorem W18_in (c : Dev nD) (w : Fin cfg0.W) (hw : w ≠ 11) :
    W18 m c (Proc.devRef .tc (Pipeline.arrRef spec0 w)) = V17 m c (Proc.devRef .tc (Pipeline.arrRef spec0 w)) :=
  (W18_arr m c w).trans (kept0 (E0 m) c w hw)

/-- A buffer that no host stretch writes, that the first call leaves as entered and that is no array of the second
    holds its launch contents at the end. -/
theorem W21_kept (c : Dev nD) (G : Arrs1 (F := F) c) (r : Ref sig .tc)
    (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) (h14 : r ∉ hostOps0_14_W) (h15 : r ∉ hostOps0_15_W) (h16 : r ∉ hostOps0_16_W) (hm : r ∉ hostOps1_W) (ht : r ∉ hostOps2_W)
    (ha0 : W18 m c (Proc.devRef .tc r) = V17 m c (Proc.devRef .tc r)) (ha1 : ∀ w, Pipeline.arrRef spec1 w ≠ r) :
    W21 m c G (Proc.devRef .tc r) = m ((c : Thread nD τ).loc r) :=
  (StableHlo.after_of_writes_sub hostOps2 _ hostOps2_writes ht).trans <|
  (W20_of_ne m c G r ha1).trans <|
  (StableHlo.after_of_writes_sub hostOps1 _ hostOps1_writes hm).trans <|
  ha0.trans <|
  (V17_of m c r h16).trans <|
  (V16_of m c r h15).trans <|
  (V15_of m c r h14).trans <|
  (V14_of m c r h13).trans <|
  (V13_of m c r h12).trans <|
  (V12_of m c r h11).trans <|
  (V11_of m c r h10).trans <|
  (V10_of m c r h9).trans <|
  (V9_of m c r h8).trans <|
  (V8_of m c r h7).trans <|
  (V7_of m c r h6).trans <|
  (V6_of m c r h5).trans <|
  (V5_of m c r h4).trans <|
  (V4_of m c r h3).trans <|
  (V3_of m c r h2).trans <|
  (V2_of m c r h1).trans <|
  (V1_of m c r h0)

theorem W21_main_arg0 (c : Dev nD) (G : Arrs1 (F := F) c) : W21 m c G (Proc.devRef .tc main_arg0) = m ((c : Thread nD τ).loc main_arg0) :=
  W21_kept m c G main_arg0 (by decide) (by decide) (by decide) (by decide) (by decide) (by decide) (by decide) (by decide) (by decide) (by decide) (by decide) (by decide) (by decide) (by decide) (by decide) (by decide) (by decide) (by decide) (by decide) (W18_of_ne m c main_arg0 (by decide)) (by decide)
theorem W21_main_arg1 (c : Dev nD) (G : Arrs1 (F := F) c) : W21 m c G (Proc.devRef .tc main_arg1) = m ((c : Thread nD τ).loc main_arg1) :=
  W21_kept m c G main_arg1 (by decide) (by decide) (by decide) (by decide) (by decide) (by decide) (by decide) (by decide) (by decide) (by decide) (by decide) (by decide) (by decide) (by decide) (by decide) (by decide) (by decide) (by decide) (by decide) (W18_of_ne m c main_arg1 (by decide)) (by decide)
theorem W21_main_arg2 (c : Dev nD) (G : Arrs1 (F := F) c) : W21 m c G (Proc.devRef .tc main_arg2) = m ((c : Thread nD τ).loc main_arg2) :=
  W21_kept m c G main_arg2 (by decide) (by decide) (by decide) (by decide) (by decide) (by decide) (by decide) (by decide) (by decide) (by decide) (by decide) (by decide) (by decide) (by decide) (by decide) (by decide) (by decide) (by decide) (by decide) (W18_of_ne m c main_arg2 (by decide)) (by decide)
theorem W21_main_arg3 (c : Dev nD) (G : Arrs1 (F := F) c) : W21 m c G (Proc.devRef .tc main_arg3) = m ((c : Thread nD τ).loc main_arg3) :=
  W21_kept m c G main_arg3 (by decide) (by decide) (by decide) (by decide) (by decide) (by decide) (by decide) (by decide) (by decide) (by decide) (by decide) (by decide) (by decide) (by decide) (by decide) (by decide) (by decide) (by decide) (by decide) (W18_of_ne m c main_arg3 (by decide)) (by decide)
theorem W21_main_arg4 (c : Dev nD) (G : Arrs1 (F := F) c) : W21 m c G (Proc.devRef .tc main_arg4) = m ((c : Thread nD τ).loc main_arg4) :=
  W21_kept m c G main_arg4 (by decide) (by decide) (by decide) (by decide) (by decide) (by decide) (by decide) (by decide) (by decide) (by decide) (by decide) (by decide) (by decide) (by decide) (by decide) (by decide) (by decide) (by decide) (by decide) (W18_of_ne m c main_arg4 (by decide)) (by decide)
theorem W21_main_arg5 (c : Dev nD) (G : Arrs1 (F := F) c) : W21 m c G (Proc.devRef .tc main_arg5) = m ((c : Thread nD τ).loc main_arg5) :=
  W21_kept m c G main_arg5 (by decide) (by decide) (by decide) (by decide) (by decide) (by decide) (by decide) (by decide) (by decide) (by decide) (by decide) (by decide) (by decide) (by decide) (by decide) (by decide) (by decide) (by decide) (by decide) (W18_of_ne m c main_arg5 (by decide)) (by decide)
theorem W21_main_arg6 (c : Dev nD) (G : Arrs1 (F := F) c) : W21 m c G (Proc.devRef .tc main_arg6) = m ((c : Thread nD τ).loc main_arg6) :=
  W21_kept m c G main_arg6 (by decide) (by decide) (by decide) (by decide) (by decide) (by decide) (by decide) (by decide) (by decide) (by decide) (by decide) (by decide) (by decide) (by decide) (by decide) (by decide) (by decide) (by decide) (by decide) (W18_in m c 4 (by decide)) (by decide)
theorem W21_main_arg7 (c : Dev nD) (G : Arrs1 (F := F) c) : W21 m c G (Proc.devRef .tc main_arg7) = m ((c : Thread nD τ).loc main_arg7) :=
  W21_kept m c G main_arg7 (by decide) (by decide) (by decide) (by decide) (by decide) (by decide) (by decide) (by decide) (by decide) (by decide) (by decide) (by decide) (by decide) (by decide) (by decide) (by decide) (by decide) (by decide) (by decide) (W18_of_ne m c main_arg7 (by decide)) (by decide)
theorem W21_main_arg8 (c : Dev nD) (G : Arrs1 (F := F) c) : W21 m c G (Proc.devRef .tc main_arg8) = m ((c : Thread nD τ).loc main_arg8) :=
  W21_kept m c G main_arg8 (by decide) (by decide) (by decide) (by decide) (by decide) (by decide) (by decide) (by decide) (by decide) (by decide) (by decide) (by decide) (by decide) (by decide) (by decide) (by decide) (by decide) (by decide) (by decide) (W18_in m c 6 (by decide)) (by decide)
theorem W21_main_arg9 (c : Dev nD) (G : Arrs1 (F := F) c) : W21 m c G (Proc.devRef .tc main_arg9) = m ((c : Thread nD τ).loc main_arg9) :=
  W21_kept m c G main_arg9 (by decide) (by decide) (by decide) (by decide) (by decide) (by decide) (by decide) (by decide) (by decide) (by decide) (by decide) (by decide) (by decide) (by decide) (by decide) (by decide) (by decide) (by decide) (by decide) (W18_of_ne m c main_arg9 (by decide)) (by decide)
theorem W21_main_arg10 (c : Dev nD) (G : Arrs1 (F := F) c) : W21 m c G (Proc.devRef .tc main_arg10) = m ((c : Thread nD τ).loc main_arg10) :=
  W21_kept m c G main_arg10 (by decide) (by decide) (by decide) (by decide) (by decide) (by decide) (by decide) (by decide) (by decide) (by decide) (by decide) (by decide) (by decide) (by decide) (by decide) (by decide) (by decide) (by decide) (by decide) (W18_in m c 8 (by decide)) (by decide)
theorem W21_main_arg11 (c : Dev nD) (G : Arrs1 (F := F) c) : W21 m c G (Proc.devRef .tc main_arg11) = m ((c : Thread nD τ).loc main_arg11) :=
  W21_kept m c G main_arg11 (by decide) (by decide) (by decide) (by decide) (by decide) (by decide) (by decide) (by decide) (by decide) (by decide) (by decide) (by decide) (by decide) (by decide) (by decide) (by decide) (by decide) (by decide) (by decide) (W18_of_ne m c main_arg11 (by decide)) (by decide)
theorem W21_main_arg12 (c : Dev nD) (G : Arrs1 (F := F) c) : W21 m c G (Proc.devRef .tc main_arg12) = m ((c : Thread nD τ).loc main_arg12) :=
  W21_kept m c G main_arg12 (by decide) (by decide) (by decide) (by decide) (by decide) (by decide) (by decide) (by decide) (by decide) (by decide) (by decide) (by decide) (by decide) (by decide) (by decide) (by decide) (by decide) (by decide) (by decide) (W18_in m c 10 (by decide)) (by decide)
theorem W21_main_arg13 (c : Dev nD) (G : Arrs1 (F := F) c) : W21 m c G (Proc.devRef .tc main_arg13) = m ((c : Thread nD τ).loc main_arg13) :=
  W21_kept m c G main_arg13 (by decide) (by decide) (by decide) (by decide) (by decide) (by decide) (by decide) (by decide) (by decide) (by decide) (by decide) (by decide) (by decide) (by decide) (by decide) (by decide) (by decide) (by decide) (by decide) (W18_of_ne m c main_arg13 (by decide)) (by decide)
theorem W21_main_arg14 (c : Dev nD) (G : Arrs1 (F := F) c) : W21 m c G (Proc.devRef .tc main_arg14) = m ((c : Thread nD τ).loc main_arg14) :=
  W21_kept m c G main_arg14 (by decide) (by decide) (by decide) (by decide) (by decide) (by decide) (by decide) (by decide) (by decide) (by decide) (by decide) (by decide) (by decide) (by decide) (by decide) (by decide) (by decide) (by decide) (by decide) (W18_of_ne m c main_arg14 (by decide)) (by decide)
theorem W21_main_arg15 (c : Dev nD) (G : Arrs1 (F := F) c) : W21 m c G (Proc.devRef .tc main_arg15) = m ((c : Thread nD τ).loc main_arg15) :=
  W21_kept m c G main_arg15 (by decide) (by decide) (by decide) (by decide) (by decide) (by decide) (by decide) (by decide) (by decide) (by decide) (by decide) (by decide) (by decide) (by decide) (by decide) (by decide) (by decide) (by decide) (by decide) (W18_of_ne m c main_arg15 (by decide)) (by decide)
theorem W21_main_arg16 (c : Dev nD) (G : Arrs1 (F := F) c) : W21 m c G (Proc.devRef .tc main_arg16) = m ((c : Thread nD τ).loc main_arg16) :=
  W21_kept m c G main_arg16 (by decide) (by decide) (by decide) (by decide) (by decide) (by decide) (by decide) (by decide) (by decide) (by decide) (by decide) (by decide) (by decide) (by decide) (by decide) (by decide) (by decide) (by decide) (by decide) (W18_of_ne m c main_arg16 (by decide)) (by decide)

/-- THE FRAME at any float instance: @main runs to the end and every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    obtain ⟨G, -, hG⟩ := h c
    exact ⟨(hG _ (mem_uc main_arg0 (by decide))).trans (W21_main_arg0 m c G),
      (hG _ (mem_uc main_arg1 (by decide))).trans (W21_main_arg1 m c G),
      (hG _ (mem_uc main_arg2 (by decide))).trans (W21_main_arg2 m c G),
      (hG _ (mem_uc main_arg3 (by decide))).trans (W21_main_arg3 m c G),
      (hG _ (mem_uc main_arg4 (by decide))).trans (W21_main_arg4 m c G),
      (hG _ (mem_uc main_arg5 (by decide))).trans (W21_main_arg5 m c G),
      (hG _ (mem_uc main_arg6 (by decide))).trans (W21_main_arg6 m c G),
      (hG _ (mem_uc main_arg7 (by decide))).trans (W21_main_arg7 m c G),
      (hG _ (mem_uc main_arg8 (by decide))).trans (W21_main_arg8 m c G),
      (hG _ (mem_uc main_arg9 (by decide))).trans (W21_main_arg9 m c G),
      (hG _ (mem_uc main_arg10 (by decide))).trans (W21_main_arg10 m c G),
      (hG _ (mem_uc main_arg11 (by decide))).trans (W21_main_arg11 m c G),
      (hG _ (mem_uc main_arg12 (by decide))).trans (W21_main_arg12 m c G),
      (hG _ (mem_uc main_arg13 (by decide))).trans (W21_main_arg13 m c G),
      (hG _ (mem_uc main_arg14 (by decide))).trans (W21_main_arg14 m c G),
      (hG _ (mem_uc main_arg15 (by decide))).trans (W21_main_arg15 m c G),
      (hG _ (mem_uc main_arg16 (by decide))).trans (W21_main_arg16 m c G)⟩)
    (run_all m ρ AnyOut (admits_any _))

end Cert.KernelIdeal.HandRun

end
-- ==== Proof.RefOps.lean ====
import proofs.«104216_j3135326126725_1_alg».proof.Proof.Gen.ReferenceIdeal
import Idealize.ShloMosaic.Lib.StableHlo.Run

/-! The reference program's @main as a straight line of host operations.

Each statement of @main is one operation; a call of a module-local function stands for the callee's
operations over that call's own buffers (its arguments the caller's buffers, one buffer per value of the
callee's body), so the whole of @main is one list. The list is cut where the reference starts the dense
layers: `opsPre` ends with the slices of the input projection's weight and bias, `opsPost` is the rest. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main (91 operations with the calls' bodies in place). -/
abbrev ops0 : List (HloOp τ sig (Elt F)) :=
  [ StableHlo.nullary main_c (constantI S_ 32 0#32),
    StableHlo.unary main_c main_v0 (broadcastInDim S1024 ![] bcast_S_S1024 : (⟨S_, .i32⟩ : BufTy).Contents (Elt F) → (⟨S1024, .i32⟩ : BufTy).Contents (Elt F)),
    StableHlo.nullary main_c_0 (constantI S_ 32 0#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32768, .i32⟩) (broadcastInDim S32768 ![] bcast_S_S32768),
    StableHlo.TRef.binary (.of main_call0_v1 : StableHlo.TRef sig ⟨S32768, .i32⟩) (.of main_arg13 : StableHlo.TRef sig ⟨S32768, .i32⟩) (.of main_v1 : StableHlo.TRef sig ⟨S32768, .i32⟩) maxsi,
    StableHlo.nullary main_c_1 (constantI S_ 32 0#32),
    StableHlo.unary main_c_1 main_v2 (broadcastInDim S32768 ![] bcast_S_S32768 : (⟨S_, .i32⟩ : BufTy).Contents (Elt F) → (⟨S32768, .i32⟩ : BufTy).Contents (Elt F)),
    StableHlo.binary main_v1 main_v2 main_v3 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 1024#32),
    StableHlo.unary main_c_2 main_v4 (broadcastInDim S32768 ![] bcast_S_S32768 : (⟨S_, .i32⟩ : BufTy).Contents (Elt F) → (⟨S32768, .i32⟩ : BufTy).Contents (Elt F)),
    StableHlo.binary main_v1 main_v4 main_v5 (addi : (⟨S32768, .i32⟩ : BufTy).Contents (Elt F) → (⟨S32768, .i32⟩ : BufTy).Contents (Elt F) → (⟨S32768, .i32⟩ : BufTy).Contents (Elt F)),
    StableHlo.ternary main_v3 main_v5 main_v1 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v6 main_v7 (broadcastInDim S32768x1 ![0] bcast_S32768_S32768x1_0 : (⟨S32768, .i32⟩ : BufTy).Contents (Elt F) → (⟨S32768x1, .i32⟩ : BufTy).Contents (Elt F)),
    StableHlo.nullary main_c_3 (constantI S_ 32 1#32),
    StableHlo.unary main_c_3 main_v8 (broadcastInDim S32768 ![] bcast_S_S32768 : (⟨S_, .i32⟩ : BufTy).Contents (Elt F) → (⟨S32768, .i32⟩ : BufTy).Contents (Elt F)),
    StableHlo.ternary main_v0 main_v7 main_v8 main_v9 ((fun x i u => Host.scatter scatter_S1024_S32768x1_S32768_n_0_0_1 IntOp.addi x i u) : (⟨S1024, .i32⟩ : BufTy).Contents (Elt F) → (⟨S32768x1, .i32⟩ : BufTy).Contents (Elt F) → (⟨S32768, .i32⟩ : BufTy).Contents (Elt F) → (⟨S1024, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v9 : StableHlo.TRef sig ⟨S1024, .i32⟩) (.of main_call1_call0_v0 : StableHlo.TRef sig ⟨S_, .i32⟩) (.of main_v10 : StableHlo.TRef sig ⟨S1024, .i32⟩) (fun x v => Host.reduceWindow IntOp.addi ![1024] ![1] ![1023] ![0] x v reduceWindows_S1024_S1024_w1024s1p1023_0 h_S_),
    StableHlo.binary main_v10 main_v9 main_v11 (subi : (⟨S1024, .i32⟩ : BufTy).Contents (Elt F) → (⟨S1024, .i32⟩ : BufTy).Contents (Elt F) → (⟨S1024, .i32⟩ : BufTy).Contents (Elt F)),
    StableHlo.nullary main_cst (constant S_ .f32 0x00000000#32),
    StableHlo.unary main_cst main_v12 (broadcastInDim S1x256 ![] bcast_S_S1x256 : (⟨S_, .f32⟩ : BufTy).Contents (Elt F) → (⟨S1x256, .f32⟩ : BufTy).Contents (Elt F)),
    StableHlo.binary main_arg0 main_v12 main_v13 ((fun a b => concatenate S32769x256 0 [⟨S32768x256, a⟩, ⟨S1x256, b⟩] concatenates_S32768x256_S1x256_S32769x256_d0) : (⟨S32768x256, .f32⟩ : BufTy).Contents (Elt F) → (⟨S1x256, .f32⟩ : BufTy).Contents (Elt F) → (⟨S32769x256, .f32⟩ : BufTy).Contents (Elt F)),
    StableHlo.nullary main_v14 (iotaInDim S1024 32 0),
    StableHlo.TRef.unary (.of main_arg15 : StableHlo.TRef sig ⟨S1024, .i32⟩) (.of main_call2_v0 : StableHlo.TRef sig ⟨S1, .i32⟩) (extractStridedSlice S1 ![1023] · slices_S1024_S1_1023),
    StableHlo.TRef.unary (.of main_arg15 : StableHlo.TRef sig ⟨S1024, .i32⟩) (.of main_call2_v1 : StableHlo.TRef sig ⟨S1023, .i32⟩) (extractStridedSlice S1023 ![0] · slices_S1024_S1023_0),
    StableHlo.TRef.binary (.of main_call2_v0 : StableHlo.TRef sig ⟨S1, .i32⟩) (.of main_call2_v1 : StableHlo.TRef sig ⟨S1023, .i32⟩) (.of main_v15 : StableHlo.TRef sig ⟨S1024, .i32⟩) (fun a b => concatenate S1024 0 [⟨S1, a⟩, ⟨S1023, b⟩] concatenates_S1_S1023_S1024_d0),
    StableHlo.nullary main_c_4 (constantI S_ 32 0#32),
    StableHlo.unary main_c_4 main_v16 (broadcastInDim S1 ![] bcast_S_S1 : (⟨S_, .i32⟩ : BufTy).Contents (Elt F) → (⟨S1, .i32⟩ : BufTy).Contents (Elt F)),
    StableHlo.nullary main_c_5 (constantI S_ 32 0#32),
    StableHlo.ternary main_v15 main_v16 main_c_5 main_v17 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v17 : StableHlo.TRef sig ⟨S1024, .i32⟩) (.of main_call3_call0_v0 : StableHlo.TRef sig ⟨S_, .i32⟩) (.of main_v18 : StableHlo.TRef sig ⟨S1024, .i32⟩) (fun x v => Host.reduceWindow IntOp.addi ![1024] ![1] ![1023] ![0] x v reduceWindows_S1024_S1024_w1024s1p1023_0 h_S_),
    StableHlo.nullary main_c_6 (constantI S_ 32 0#32),
    StableHlo.unary main_c_6 main_v19 (broadcastInDim S51200 ![] bcast_S_S51200 : (⟨S_, .i32⟩ : BufTy).Contents (Elt F) → (⟨S51200, .i32⟩ : BufTy).Contents (Elt F)),
    StableHlo.nullary main_c_7 (constantI S_ 32 0#32),
    StableHlo.unary main_c_7 main_v20 (broadcastInDim S1024 ![] bcast_S_S1024 : (⟨S_, .i32⟩ : BufTy).Contents (Elt F) → (⟨S1024, .i32⟩ : BufTy).Contents (Elt F)),
    StableHlo.binary main_v18 main_v20 main_v21 (cmpi .slt : (⟨S1024, .i32⟩ : BufTy).Contents (Elt F) → (⟨S1024, .i32⟩ : BufTy).Contents (Elt F) → (⟨S1024, .i1⟩ : BufTy).Contents (Elt F)),
    StableHlo.nullary main_c_8 (constantI S_ 32 51200#32),
    StableHlo.unary main_c_8 main_v22 (broadcastInDim S1024 ![] bcast_S_S1024 : (⟨S_, .i32⟩ : BufTy).Contents (Elt F) → (⟨S1024, .i32⟩ : BufTy).Contents (Elt F)),
    StableHlo.binary main_v18 main_v22 main_v23 (addi : (⟨S1024, .i32⟩ : BufTy).Contents (Elt F) → (⟨S1024, .i32⟩ : BufTy).Contents (Elt F) → (⟨S1024, .i32⟩ : BufTy).Contents (Elt F)),
    StableHlo.ternary main_v21 main_v23 main_v18 main_v24 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v24 main_v25 (broadcastInDim S1024x1 ![0] bcast_S1024_S1024x1_0 : (⟨S1024, .i32⟩ : BufTy).Contents (Elt F) → (⟨S1024x1, .i32⟩ : BufTy).Contents (Elt F)),
    StableHlo.nullary main_c_9 (constantI S_ 32 1#32),
    StableHlo.unary main_c_9 main_v26 (broadcastInDim S1024 ![] bcast_S_S1024 : (⟨S_, .i32⟩ : BufTy).Contents (Elt F) → (⟨S1024, .i32⟩ : BufTy).Contents (Elt F)),
    StableHlo.ternary main_v19 main_v25 main_v26 main_v27 ((fun x i u => Host.scatter scatter_S51200_S1024x1_S1024_n_0_0_1 IntOp.addi x i u) : (⟨S51200, .i32⟩ : BufTy).Contents (Elt F) → (⟨S1024x1, .i32⟩ : BufTy).Contents (Elt F) → (⟨S1024, .i32⟩ : BufTy).Contents (Elt F) → (⟨S51200, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v27 : StableHlo.TRef sig ⟨S51200, .i32⟩) (.of main_call4_call0_v0 : StableHlo.TRef sig ⟨S_, .i32⟩) (.of main_v28 : StableHlo.TRef sig ⟨S51200, .i32⟩) (fun x v => Host.reduceWindow IntOp.addi ![51200] ![1] ![51199] ![0] x v reduceWindows_S51200_S51200_w51200s1p51199_0 h_S_),
    StableHlo.nullary main_c_10 (constantI S_ 32 1#32),
    StableHlo.unary main_c_10 main_v29 (broadcastInDim S51200 ![] bcast_S_S51200 : (⟨S_, .i32⟩ : BufTy).Contents (Elt F) → (⟨S51200, .i32⟩ : BufTy).Contents (Elt F)),
    StableHlo.binary main_v28 main_v29 main_v30 (subi : (⟨S51200, .i32⟩ : BufTy).Contents (Elt F) → (⟨S51200, .i32⟩ : BufTy).Contents (Elt F) → (⟨S51200, .i32⟩ : BufTy).Contents (Elt F)),
    StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S51200, .i32⟩) (broadcastInDim S51200 ![] bcast_S_S51200),
    StableHlo.TRef.binary (.of main_v30 : StableHlo.TRef sig ⟨S51200, .i32⟩) (.of main_call5_v0 : StableHlo.TRef sig ⟨S51200, .i32⟩) (.of main_call5_v1 : StableHlo.TRef sig ⟨S51200, .i1⟩) (cmpi .slt),
    StableHlo.TRef.nullary (.of main_call5_c_0 : StableHlo.TRef sig ⟨S_, .i32⟩) (constantI S_ 32 1024#32),
    StableHlo.TRef.unary (.of main_call5_c_0 : StableHlo.TRef sig ⟨S_, .i32⟩) (.of main_call5_v2 : StableHlo.TRef sig ⟨S51200, .i32⟩) (broadcastInDim S51200 ![] bcast_S_S51200),
    StableHlo.TRef.binary (.of main_v30 : StableHlo.TRef sig ⟨S51200, .i32⟩) (.of main_call5_v2 : StableHlo.TRef sig ⟨S51200, .i32⟩) (.of main_call5_v3 : StableHlo.TRef sig ⟨S51200, .i32⟩) addi,
    StableHlo.TRef.ternary (.of main_call5_v1 : StableHlo.TRef sig ⟨S51200, .i1⟩) (.of main_call5_v3 : StableHlo.TRef sig ⟨S51200, .i32⟩) (.of main_v30 : StableHlo.TRef sig ⟨S51200, .i32⟩) (.of main_call5_v4 : StableHlo.TRef sig ⟨S51200, .i32⟩) select,
    StableHlo.TRef.unary (.of main_call5_v4 : StableHlo.TRef sig ⟨S51200, .i32⟩) (.of main_call5_v5 : StableHlo.TRef sig ⟨S51200x1, .i32⟩) (broadcastInDim S51200x1 ![0] bcast_S51200_S51200x1_0),
    StableHlo.TRef.nullary (.of main_call5_c_1 : StableHlo.TRef sig ⟨S1, .i32⟩) (constantI S1 32 1023#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S51200x1, .i32⟩) (broadcastInDim S51200x1 ![] bcast_S_S51200x1),
    StableHlo.TRef.binary (.of main_call5_v5 : StableHlo.TRef sig ⟨S51200x1, .i32⟩) (.of main_call5_v6 : StableHlo.TRef sig ⟨S51200x1, .i32⟩) (.of main_call5_v7 : StableHlo.TRef sig ⟨S51200x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S51200x1, .i32⟩) (broadcastInDim S51200x1 ![0, 1] bcast_S1x1_S51200x1_0_1),
    StableHlo.TRef.binary (.of main_call5_v5 : StableHlo.TRef sig ⟨S51200x1, .i32⟩) (.of main_call5_v9 : StableHlo.TRef sig ⟨S51200x1, .i32⟩) (.of main_call5_v10 : StableHlo.TRef sig ⟨S51200x1, .i1⟩) (cmpi .sle),
    StableHlo.TRef.binary (.of main_call5_v7 : StableHlo.TRef sig ⟨S51200x1, .i1⟩) (.of main_call5_v10 : StableHlo.TRef sig ⟨S51200x1, .i1⟩) (.of main_call5_v11 : StableHlo.TRef sig ⟨S51200x1, .i1⟩) andi,
    StableHlo.TRef.nullary (.of main_call5_c_3 : StableHlo.TRef sig ⟨S_, .i1⟩) (constantI S_ 1 1#1),
    StableHlo.TRef.binary (.of main_call5_v11 : StableHlo.TRef sig ⟨S51200x1, .i1⟩) (.of main_call5_c_3 : StableHlo.TRef sig ⟨S_, .i1⟩) (.of main_call5_v12 : StableHlo.TRef sig ⟨S51200, .i1⟩) (fun x v => Host.reduce IntOp.andi x v reducesTo_S51200x1_S51200_d1 h_S_),
    StableHlo.TRef.binary (.of main_v14 : StableHlo.TRef sig ⟨S1024, .i32⟩) (.of main_call5_v5 : StableHlo.TRef sig ⟨S51200x1, .i32⟩) (.of main_call5_v13 : StableHlo.TRef sig ⟨S51200, .i32⟩) (fun x i => Host.gather gather_S1024_S51200x1_S51200_n_0_n_n_0_1_1 x i),
    StableHlo.TRef.nullary (.of main_call5_c_4 : StableHlo.TRef sig ⟨S_, .i32⟩) (constantI S_ 32 2147483648#32),
    StableHlo.TRef.unary (.of main_call5_c_4 : StableHlo.TRef sig ⟨S_, .i32⟩) (.of main_call5_v14 : StableHlo.TRef sig ⟨S51200, .i32⟩) (broadcastInDim S51200 ![] bcast_S_S51200),
    StableHlo.TRef.ternary (.of main_call5_v12 : StableHlo.TRef sig ⟨S51200, .i1⟩) (.of main_call5_v13 : StableHlo.TRef sig ⟨S51200, .i32⟩) (.of main_call5_v14 : StableHlo.TRef sig ⟨S51200, .i32⟩) (.of main_v31 : StableHlo.TRef sig ⟨S51200, .i32⟩) select,
    StableHlo.nullary main_c_11 (constantI S_ 32 0#32),
    StableHlo.unary main_c_11 main_v32 (broadcastInDim S51200 ![] bcast_S_S51200 : (⟨S_, .i32⟩ : BufTy).Contents (Elt F) → (⟨S51200, .i32⟩ : BufTy).Contents (Elt F)),
    StableHlo.binary main_v31 main_v32 main_v33 (cmpi .slt : (⟨S51200, .i32⟩ : BufTy).Contents (Elt F) → (⟨S51200, .i32⟩ : BufTy).Contents (Elt F) → (⟨S51200, .i1⟩ : BufTy).Contents (Elt F)),
    StableHlo.nullary main_c_12 (constantI S_ 32 1024#32),
    StableHlo.unary main_c_12 main_v34 (broadcastInDim S51200 ![] bcast_S_S51200 : (⟨S_, .i32⟩ : BufTy).Contents (Elt F) → (⟨S51200, .i32⟩ : BufTy).Contents (Elt F)),
    StableHlo.binary main_v31 main_v34 main_v35 (addi : (⟨S51200, .i32⟩ : BufTy).Contents (Elt F) → (⟨S51200, .i32⟩ : BufTy).Contents (Elt F) → (⟨S51200, .i32⟩ : BufTy).Contents (Elt F)),
    StableHlo.ternary main_v33 main_v35 main_v31 main_v36 (select : (⟨S51200, .i1⟩ : BufTy).Contents (Elt F) → (⟨S51200, .i32⟩ : BufTy).Contents (Elt F) → (⟨S51200, .i32⟩ : BufTy).Contents (Elt F) → (⟨S51200, .i32⟩ : BufTy).Contents (Elt F)),
    StableHlo.unary main_v36 main_v37 (broadcastInDim S51200x1 ![0] bcast_S51200_S51200x1_0 : (⟨S51200, .i32⟩ : BufTy).Contents (Elt F) → (⟨S51200x1, .i32⟩ : BufTy).Contents (Elt F)),
    StableHlo.binary main_v9 main_v37 main_v38 ((fun x i => Host.gather gather_S1024_S51200x1_S51200_n_0_n_n_0_1_1 x i) : (⟨S1024, .i32⟩ : BufTy).Contents (Elt F) → (⟨S51200x1, .i32⟩ : BufTy).Contents (Elt F) → (⟨S51200, .i32⟩ : BufTy).Contents (Elt F)),
    StableHlo.unary main_v38 main_v39 (broadcastInDim S51200x1 ![0] bcast_S51200_S51200x1_0 : (⟨S51200, .i32⟩ : BufTy).Contents (Elt F) → (⟨S51200x1, .i32⟩ : BufTy).Contents (Elt F)),
    StableHlo.nullary main_c_13 (constantI S_ 32 0#32),
    StableHlo.unary main_c_13 main_v40 (broadcastInDim S51200 ![] bcast_S_S51200 : (⟨S_, .i32⟩ : BufTy).Contents (Elt F) → (⟨S51200, .i32⟩ : BufTy).Contents (Elt F)),
    StableHlo.binary main_v31 main_v40 main_v41 (cmpi .slt : (⟨S51200, .i32⟩ : BufTy).Contents (Elt F) → (⟨S51200, .i32⟩ : BufTy).Contents (Elt F) → (⟨S51200, .i1⟩ : BufTy).Contents (Elt F)),
    StableHlo.nullary main_c_14 (constantI S_ 32 1024#32),
    StableHlo.unary main_c_14 main_v42 (broadcastInDim S51200 ![] bcast_S_S51200 : (⟨S_, .i32⟩ : BufTy).Contents (Elt F) → (⟨S51200, .i32⟩ : BufTy).Contents (Elt F)) ]

/-- Statements 61 … 120 up to the bias slice (44 operations). -/
abbrev ops1a : List (HloOp τ sig (Elt F)) :=
  [ StableHlo.binary main_v31 main_v42 main_v43 (addi : (⟨S51200, .i32⟩ : BufTy).Contents (Elt F) → (⟨S51200, .i32⟩ : BufTy).Contents (Elt F) → (⟨S51200, .i32⟩ : BufTy).Contents (Elt F)),
    StableHlo.ternary main_v41 main_v43 main_v31 main_v44 (select : (⟨S51200, .i1⟩ : BufTy).Contents (Elt F) → (⟨S51200, .i32⟩ : BufTy).Contents (Elt F) → (⟨S51200, .i32⟩ : BufTy).Contents (Elt F) → (⟨S51200, .i32⟩ : BufTy).Contents (Elt F)),
    StableHlo.unary main_v44 main_v45 (broadcastInDim S51200x1 ![0] bcast_S51200_S51200x1_0 : (⟨S51200, .i32⟩ : BufTy).Contents (Elt F) → (⟨S51200x1, .i32⟩ : BufTy).Contents (Elt F)),
    StableHlo.binary main_v11 main_v45 main_v46 ((fun x i => Host.gather gather_S1024_S51200x1_S51200_n_0_n_n_0_1_1 x i) : (⟨S1024, .i32⟩ : BufTy).Contents (Elt F) → (⟨S51200x1, .i32⟩ : BufTy).Contents (Elt F) → (⟨S51200, .i32⟩ : BufTy).Contents (Elt F)),
    StableHlo.unary main_v46 main_v47 (broadcastInDim S51200x1 ![0] bcast_S51200_S51200x1_0 : (⟨S51200, .i32⟩ : BufTy).Contents (Elt F) → (⟨S51200x1, .i32⟩ : BufTy).Contents (Elt F)),
    StableHlo.unary main_v39 main_v48 (broadcastInDim S51200x3 ![0, 1] bcast_S51200x1_S51200x3_0_1 : (⟨S51200x1, .i32⟩ : BufTy).Contents (Elt F) → (⟨S51200x3, .i32⟩ : BufTy).Contents (Elt F)),
    StableHlo.binary main_arg14 main_v48 main_v49 (cmpi .eq : (⟨S51200x3, .i32⟩ : BufTy).Contents (Elt F) → (⟨S51200x3, .i32⟩ : BufTy).Contents (Elt F) → (⟨S51200x3, .i1⟩ : BufTy).Contents (Elt F)),
    StableHlo.unary main_v47 main_v50 (broadcastInDim S51200x3 ![0, 1] bcast_S51200x1_S51200x3_0_1 : (⟨S51200x1, .i32⟩ : BufTy).Contents (Elt F) → (⟨S51200x3, .i32⟩ : BufTy).Contents (Elt F)),
    StableHlo.binary main_v50 main_arg14 main_v51 (addi : (⟨S51200x3, .i32⟩ : BufTy).Contents (Elt F) → (⟨S51200x3, .i32⟩ : BufTy).Contents (Elt F) → (⟨S51200x3, .i32⟩ : BufTy).Contents (Elt F)),
    StableHlo.nullary main_c_15 (constantI S_ 32 32768#32),
    StableHlo.TRef.unary (.of main_c_15 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S51200x3, .i32⟩) (broadcastInDim S51200x3 ![] bcast_S_S51200x3),
    StableHlo.TRef.ternary (.of main_v49 : StableHlo.TRef sig ⟨S51200x3, .i1⟩) (.of main_call6_v1 : StableHlo.TRef sig ⟨S51200x3, .i32⟩) (.of main_v51 : StableHlo.TRef sig ⟨S51200x3, .i32⟩) (.of main_v52 : StableHlo.TRef sig ⟨S51200x3, .i32⟩) select,
    StableHlo.nullary main_c_16 (constantI S_ 32 0#32),
    StableHlo.unary main_c_16 main_v53 (broadcastInDim S51200x3 ![] bcast_S_S51200x3 : (⟨S_, .i32⟩ : BufTy).Contents (Elt F) → (⟨S51200x3, .i32⟩ : BufTy).Contents (Elt F)),
    StableHlo.binary main_v52 main_v53 main_v54 (cmpi .slt : (⟨S51200x3, .i32⟩ : BufTy).Contents (Elt F) → (⟨S51200x3, .i32⟩ : BufTy).Contents (Elt F) → (⟨S51200x3, .i1⟩ : BufTy).Contents (Elt F)),
    StableHlo.nullary main_c_17 (constantI S_ 32 32769#32),
    StableHlo.unary main_c_17 main_v55 (broadcastInDim S51200x3 ![] bcast_S_S51200x3 : (⟨S_, .i32⟩ : BufTy).Contents (Elt F) → (⟨S51200x3, .i32⟩ : BufTy).Contents (Elt F)),
    StableHlo.binary main_v52 main_v55 main_v56 (addi : (⟨S51200x3, .i32⟩ : BufTy).Contents (Elt F) → (⟨S51200x3, .i32⟩ : BufTy).Contents (Elt F) → (⟨S51200x3, .i32⟩ : BufTy).Contents (Elt F)),
    StableHlo.ternary main_v54 main_v56 main_v52 main_v57 (select : (⟨S51200x3, .i1⟩ : BufTy).Contents (Elt F) → (⟨S51200x3, .i32⟩ : BufTy).Contents (Elt F) → (⟨S51200x3, .i32⟩ : BufTy).Contents (Elt F) → (⟨S51200x3, .i32⟩ : BufTy).Contents (Elt F)),
    StableHlo.unary main_v57 main_v58 (broadcastInDim S51200x3x1 ![0, 1] bcast_S51200x3_S51200x3x1_0_1 : (⟨S51200x3, .i32⟩ : BufTy).Contents (Elt F) → (⟨S51200x3x1, .i32⟩ : BufTy).Contents (Elt F)),
    StableHlo.binary main_v13 main_v58 main_v59 ((fun x i => Host.gather gather_S32769x256_S51200x3x1_S51200x3x256_2_0_n_n_0_2_1256 x i) : (⟨S32769x256, .f32⟩ : BufTy).Contents (Elt F) → (⟨S51200x3x1, .i32⟩ : BufTy).Contents (Elt F) → (⟨S51200x3x256, .f32⟩ : BufTy).Contents (Elt F)),
    StableHlo.nullary main_cst_18 (constant S_ .f32 0x00000000#32),
    StableHlo.binary main_v59 main_cst_18 main_v60 ((fun x v => Host.reduceAdd x v reducesTo_S51200x3x256_S51200x256_d1 h_S_) : (⟨S51200x3x256, .f32⟩ : BufTy).Contents (Elt F) → (⟨S_, .f32⟩ : BufTy).Contents (Elt F) → (⟨S51200x256, .f32⟩ : BufTy).Contents (Elt F)),
    StableHlo.unary main_arg2 main_v61 (broadcastInDim S51200x1 ![0] bcast_S51200_S51200x1_0 : (⟨S51200, .f32⟩ : BufTy).Contents (Elt F) → (⟨S51200x1, .f32⟩ : BufTy).Contents (Elt F)),
    StableHlo.unary main_v61 main_v62 (broadcastInDim S51200x256 ![0, 1] bcast_S51200x1_S51200x256_0_1 : (⟨S51200x1, .f32⟩ : BufTy).Contents (Elt F) → (⟨S51200x256, .f32⟩ : BufTy).Contents (Elt F)),
    StableHlo.binary main_v60 main_v62 main_v63 (Host.divf : (⟨S51200x256, .f32⟩ : BufTy).Contents (Elt F) → (⟨S51200x256, .f32⟩ : BufTy).Contents (Elt F) → (⟨S51200x256, .f32⟩ : BufTy).Contents (Elt F)),
    StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_arg15 : StableHlo.TRef sig ⟨S1024, .i32⟩) (.of main_call7_call0_v0 : StableHlo.TRef sig ⟨S_, .i32⟩) (.of main_v64 : StableHlo.TRef sig ⟨S1024, .i32⟩) (fun x v => Host.reduceWindow IntOp.addi ![1024] ![1] ![1023] ![0] x v reduceWindows_S1024_S1024_w1024s1p1023_0 h_S_),
    StableHlo.nullary main_c_19 (constantI S_ 32 1#32),
    StableHlo.unary main_c_19 main_v65 (broadcastInDim S1024 ![] bcast_S_S1024 : (⟨S_, .i32⟩ : BufTy).Contents (Elt F) → (⟨S1024, .i32⟩ : BufTy).Contents (Elt F)),
    StableHlo.binary main_v64 main_v65 main_v66 (subi : (⟨S1024, .i32⟩ : BufTy).Contents (Elt F) → (⟨S1024, .i32⟩ : BufTy).Contents (Elt F) → (⟨S1024, .i32⟩ : BufTy).Contents (Elt F)),
    StableHlo.nullary main_c_20 (constantI S_ 32 0#32),
    StableHlo.unary main_c_20 main_v67 (broadcastInDim S1024 ![] bcast_S_S1024 : (⟨S_, .i32⟩ : BufTy).Contents (Elt F) → (⟨S1024, .i32⟩ : BufTy).Contents (Elt F)),
    StableHlo.binary main_v66 main_v67 main_v68 (cmpi .slt : (⟨S1024, .i32⟩ : BufTy).Contents (Elt F) → (⟨S1024, .i32⟩ : BufTy).Contents (Elt F) → (⟨S1024, .i1⟩ : BufTy).Contents (Elt F)),
    StableHlo.nullary main_c_21 (constantI S_ 32 51200#32),
    StableHlo.unary main_c_21 main_v69 (broadcastInDim S1024 ![] bcast_S_S1024 : (⟨S_, .i32⟩ : BufTy).Contents (Elt F) → (⟨S1024, .i32⟩ : BufTy).Contents (Elt F)),
    StableHlo.binary main_v66 main_v69 main_v70 (addi : (⟨S1024, .i32⟩ : BufTy).Contents (Elt F) → (⟨S1024, .i32⟩ : BufTy).Contents (Elt F) → (⟨S1024, .i32⟩ : BufTy).Contents (Elt F)),
    StableHlo.ternary main_v68 main_v70 main_v66 main_v71 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v71 main_v72 (broadcastInDim S1024x1 ![0] bcast_S1024_S1024x1_0 : (⟨S1024, .i32⟩ : BufTy).Contents (Elt F) → (⟨S1024x1, .i32⟩ : BufTy).Contents (Elt F)),
    StableHlo.binary main_v63 main_v72 main_v73 ((fun x i => Host.gather gather_S51200x256_S1024x1_S1024x256_1_0_n_n_0_1_1256 x i) : (⟨S51200x256, .f32⟩ : BufTy).Contents (Elt F) → (⟨S1024x1, .i32⟩ : BufTy).Contents (Elt F) → (⟨S1024x256, .f32⟩ : BufTy).Contents (Elt F)),
    StableHlo.unary main_arg3 main_v74 ((extractStridedSlice S256x256 ![512, 0] · slices_S768x256_S256x256_512_0) : (⟨S768x256, .f32⟩ : BufTy).Contents (Elt F) → (⟨S256x256, .f32⟩ : BufTy).Contents (Elt F)),
    StableHlo.unary main_arg4 main_v75 ((extractStridedSlice S256 ![512] · slices_S768_S256_512) : (⟨S768, .f32⟩ : BufTy).Contents (Elt F) → (⟨S256, .f32⟩ : BufTy).Contents (Elt F)) ]

/-- The rest of statements 61 … 120 (22 operations). -/
abbrev ops1b : List (HloOp τ sig (Elt F)) :=
  [ StableHlo.unary main_v74 main_v76 ((transpose S256x256 [1, 0] · transposes_S256x256_S256x256_1_0) : (⟨S256x256, .f32⟩ : BufTy).Contents (Elt F) → (⟨S256x256, .f32⟩ : BufTy).Contents (Elt F)),
    StableHlo.binary main_v73 main_v76 main_v77 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_v75 main_v78 (broadcastInDim S1x256 ![1] bcast_S256_S1x256_1 : (⟨S256, .f32⟩ : BufTy).Contents (Elt F) → (⟨S1x256, .f32⟩ : BufTy).Contents (Elt F)),
    StableHlo.unary main_v78 main_v79 (broadcastInDim S1024x256 ![0, 1] bcast_S1x256_S1024x256_0_1 : (⟨S1x256, .f32⟩ : BufTy).Contents (Elt F) → (⟨S1024x256, .f32⟩ : BufTy).Contents (Elt F)),
    StableHlo.binary main_v77 main_v79 main_v80 (addf : (⟨S1024x256, .f32⟩ : BufTy).Contents (Elt F) → (⟨S1024x256, .f32⟩ : BufTy).Contents (Elt F) → (⟨S1024x256, .f32⟩ : BufTy).Contents (Elt F)),
    StableHlo.unary main_arg5 main_v81 ((transpose S256x256 [1, 0] · transposes_S256x256_S256x256_1_0) : (⟨S256x256, .f32⟩ : BufTy).Contents (Elt F) → (⟨S256x256, .f32⟩ : BufTy).Contents (Elt F)),
    StableHlo.binary main_v80 main_v81 main_v82 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg6 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S1024x256 ![0, 1] bcast_S1x256_S1024x256_0_1 : (⟨S1x256, .f32⟩ : BufTy).Contents (Elt F) → (⟨S1024x256, .f32⟩ : BufTy).Contents (Elt F)),
    StableHlo.binary main_v82 main_v84 main_v85 (addf : (⟨S1024x256, .f32⟩ : BufTy).Contents (Elt F) → (⟨S1024x256, .f32⟩ : BufTy).Contents (Elt F) → (⟨S1024x256, .f32⟩ : BufTy).Contents (Elt F)),
    StableHlo.unary main_arg7 main_v86 ((transpose S256x256 [1, 0] · transposes_S256x256_S256x256_1_0) : (⟨S256x256, .f32⟩ : BufTy).Contents (Elt F) → (⟨S256x256, .f32⟩ : BufTy).Contents (Elt F)),
    StableHlo.binary main_v85 main_v86 main_v87 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S1024x256 ![0, 1] bcast_S1x256_S1024x256_0_1 : (⟨S1x256, .f32⟩ : BufTy).Contents (Elt F) → (⟨S1024x256, .f32⟩ : BufTy).Contents (Elt F)),
    StableHlo.binary main_v87 main_v89 main_v90 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S1024x256, .f32⟩) (broadcastInDim S1024x256 ![] bcast_S_S1024x256),
    StableHlo.TRef.binary (.of main_v90 : StableHlo.TRef sig ⟨S1024x256, .f32⟩) (.of main_call8_v0 : StableHlo.TRef sig ⟨S1024x256, .f32⟩) (.of main_v91 : StableHlo.TRef sig ⟨S1024x256, .f32⟩) maximumf,
    StableHlo.unary main_arg9 main_v92 ((transpose S256x256 [1, 0] · transposes_S256x256_S256x256_1_0) : (⟨S256x256, .f32⟩ : BufTy).Contents (Elt F) → (⟨S256x256, .f32⟩ : BufTy).Contents (Elt F)),
    StableHlo.binary main_v91 main_v92 main_v93 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg10 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S1024x256 ![0, 1] bcast_S1x256_S1024x256_0_1 : (⟨S1x256, .f32⟩ : BufTy).Contents (Elt F) → (⟨S1024x256, .f32⟩ : BufTy).Contents (Elt F)) ]

/-- Statements 121 … 180 (64 operations). -/
abbrev ops2 : List (HloOp τ sig (Elt F)) :=
  [ StableHlo.binary main_v93 main_v95 main_v96 (addf : (⟨S1024x256, .f32⟩ : BufTy).Contents (Elt F) → (⟨S1024x256, .f32⟩ : BufTy).Contents (Elt F) → (⟨S1024x256, .f32⟩ : BufTy).Contents (Elt F)),
    StableHlo.binary main_v85 main_v96 main_v97 (addf : (⟨S1024x256, .f32⟩ : BufTy).Contents (Elt F) → (⟨S1024x256, .f32⟩ : BufTy).Contents (Elt F) → (⟨S1024x256, .f32⟩ : BufTy).Contents (Elt F)),
    StableHlo.unary main_v74 main_v98 ((transpose S256x256 [1, 0] · transposes_S256x256_S256x256_1_0) : (⟨S256x256, .f32⟩ : BufTy).Contents (Elt F) → (⟨S256x256, .f32⟩ : BufTy).Contents (Elt F)),
    StableHlo.binary main_v97 main_v98 main_v99 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_v75 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S1024x256 ![0, 1] bcast_S1x256_S1024x256_0_1 : (⟨S1x256, .f32⟩ : BufTy).Contents (Elt F) → (⟨S1024x256, .f32⟩ : BufTy).Contents (Elt F)),
    StableHlo.binary main_v99 main_v101 main_v102 (addf : (⟨S1024x256, .f32⟩ : BufTy).Contents (Elt F) → (⟨S1024x256, .f32⟩ : BufTy).Contents (Elt F) → (⟨S1024x256, .f32⟩ : BufTy).Contents (Elt F)),
    StableHlo.unary main_arg5 main_v103 ((transpose S256x256 [1, 0] · transposes_S256x256_S256x256_1_0) : (⟨S256x256, .f32⟩ : BufTy).Contents (Elt F) → (⟨S256x256, .f32⟩ : BufTy).Contents (Elt F)),
    StableHlo.binary main_v102 main_v103 main_v104 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg6 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S1024x256 ![0, 1] bcast_S1x256_S1024x256_0_1 : (⟨S1x256, .f32⟩ : BufTy).Contents (Elt F) → (⟨S1024x256, .f32⟩ : BufTy).Contents (Elt F)),
    StableHlo.binary main_v104 main_v106 main_v107 (addf : (⟨S1024x256, .f32⟩ : BufTy).Contents (Elt F) → (⟨S1024x256, .f32⟩ : BufTy).Contents (Elt F) → (⟨S1024x256, .f32⟩ : BufTy).Contents (Elt F)),
    StableHlo.unary main_arg7 main_v108 ((transpose S256x256 [1, 0] · transposes_S256x256_S256x256_1_0) : (⟨S256x256, .f32⟩ : BufTy).Contents (Elt F) → (⟨S256x256, .f32⟩ : BufTy).Contents (Elt F)),
    StableHlo.binary main_v107 main_v108 main_v109 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S1024x256 ![0, 1] bcast_S1x256_S1024x256_0_1 : (⟨S1x256, .f32⟩ : BufTy).Contents (Elt F) → (⟨S1024x256, .f32⟩ : BufTy).Contents (Elt F)),
    StableHlo.binary main_v109 main_v111 main_v112 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S1024x256, .f32⟩) (broadcastInDim S1024x256 ![] bcast_S_S1024x256),
    StableHlo.TRef.binary (.of main_v112 : StableHlo.TRef sig ⟨S1024x256, .f32⟩) (.of main_call9_v0 : StableHlo.TRef sig ⟨S1024x256, .f32⟩) (.of main_v113 : StableHlo.TRef sig ⟨S1024x256, .f32⟩) maximumf,
    StableHlo.unary main_arg9 main_v114 ((transpose S256x256 [1, 0] · transposes_S256x256_S256x256_1_0) : (⟨S256x256, .f32⟩ : BufTy).Contents (Elt F) → (⟨S256x256, .f32⟩ : BufTy).Contents (Elt F)),
    StableHlo.binary main_v113 main_v114 main_v115 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg10 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S1024x256 ![0, 1] bcast_S1x256_S1024x256_0_1 : (⟨S1x256, .f32⟩ : BufTy).Contents (Elt F) → (⟨S1024x256, .f32⟩ : BufTy).Contents (Elt F)),
    StableHlo.binary main_v115 main_v117 main_v118 (addf : (⟨S1024x256, .f32⟩ : BufTy).Contents (Elt F) → (⟨S1024x256, .f32⟩ : BufTy).Contents (Elt F) → (⟨S1024x256, .f32⟩ : BufTy).Contents (Elt F)),
    StableHlo.binary main_v107 main_v118 main_v119 (addf : (⟨S1024x256, .f32⟩ : BufTy).Contents (Elt F) → (⟨S1024x256, .f32⟩ : BufTy).Contents (Elt F) → (⟨S1024x256, .f32⟩ : BufTy).Contents (Elt F)),
    StableHlo.unary main_v74 main_v120 ((transpose S256x256 [1, 0] · transposes_S256x256_S256x256_1_0) : (⟨S256x256, .f32⟩ : BufTy).Contents (Elt F) → (⟨S256x256, .f32⟩ : BufTy).Contents (Elt F)),
    StableHlo.binary main_v119 main_v120 main_v121 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_v75 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S1024x256 ![0, 1] bcast_S1x256_S1024x256_0_1 : (⟨S1x256, .f32⟩ : BufTy).Contents (Elt F) → (⟨S1024x256, .f32⟩ : BufTy).Contents (Elt F)),
    StableHlo.binary main_v121 main_v123 main_v124 (addf : (⟨S1024x256, .f32⟩ : BufTy).Contents (Elt F) → (⟨S1024x256, .f32⟩ : BufTy).Contents (Elt F) → (⟨S1024x256, .f32⟩ : BufTy).Contents (Elt F)),
    StableHlo.unary main_arg5 main_v125 ((transpose S256x256 [1, 0] · transposes_S256x256_S256x256_1_0) : (⟨S256x256, .f32⟩ : BufTy).Contents (Elt F) → (⟨S256x256, .f32⟩ : BufTy).Contents (Elt F)),
    StableHlo.binary main_v124 main_v125 main_v126 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg6 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S1024x256 ![0, 1] bcast_S1x256_S1024x256_0_1 : (⟨S1x256, .f32⟩ : BufTy).Contents (Elt F) → (⟨S1024x256, .f32⟩ : BufTy).Contents (Elt F)),
    StableHlo.binary main_v126 main_v128 main_v129 (addf : (⟨S1024x256, .f32⟩ : BufTy).Contents (Elt F) → (⟨S1024x256, .f32⟩ : BufTy).Contents (Elt F) → (⟨S1024x256, .f32⟩ : BufTy).Contents (Elt F)),
    StableHlo.unary main_arg7 main_v130 ((transpose S256x256 [1, 0] · transposes_S256x256_S256x256_1_0) : (⟨S256x256, .f32⟩ : BufTy).Contents (Elt F) → (⟨S256x256, .f32⟩ : BufTy).Contents (Elt F)),
    StableHlo.binary main_v129 main_v130 main_v131 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S1024x256 ![0, 1] bcast_S1x256_S1024x256_0_1 : (⟨S1x256, .f32⟩ : BufTy).Contents (Elt F) → (⟨S1024x256, .f32⟩ : BufTy).Contents (Elt F)),
    StableHlo.binary main_v131 main_v133 main_v134 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S1024x256, .f32⟩) (broadcastInDim S1024x256 ![] bcast_S_S1024x256),
    StableHlo.TRef.binary (.of main_v134 : StableHlo.TRef sig ⟨S1024x256, .f32⟩) (.of main_call10_v0 : StableHlo.TRef sig ⟨S1024x256, .f32⟩) (.of main_v135 : StableHlo.TRef sig ⟨S1024x256, .f32⟩) maximumf,
    StableHlo.unary main_arg9 main_v136 ((transpose S256x256 [1, 0] · transposes_S256x256_S256x256_1_0) : (⟨S256x256, .f32⟩ : BufTy).Contents (Elt F) → (⟨S256x256, .f32⟩ : BufTy).Contents (Elt F)),
    StableHlo.binary main_v135 main_v136 main_v137 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg10 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S1024x256 ![0, 1] bcast_S1x256_S1024x256_0_1 : (⟨S1x256, .f32⟩ : BufTy).Contents (Elt F) → (⟨S1024x256, .f32⟩ : BufTy).Contents (Elt F)),
    StableHlo.binary main_v137 main_v139 main_v140 (addf : (⟨S1024x256, .f32⟩ : BufTy).Contents (Elt F) → (⟨S1024x256, .f32⟩ : BufTy).Contents (Elt F) → (⟨S1024x256, .f32⟩ : BufTy).Contents (Elt F)),
    StableHlo.binary main_v129 main_v140 main_v141 (addf : (⟨S1024x256, .f32⟩ : BufTy).Contents (Elt F) → (⟨S1024x256, .f32⟩ : BufTy).Contents (Elt F) → (⟨S1024x256, .f32⟩ : BufTy).Contents (Elt F)),
    StableHlo.binary main_v73 main_v141 main_v142 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F)),
    StableHlo.unary main_arg11 main_v143 ((transpose S512x256 [1, 0] · transposes_S256x512_S512x256_1_0) : (⟨S256x512, .f32⟩ : BufTy).Contents (Elt F) → (⟨S512x256, .f32⟩ : BufTy).Contents (Elt F)),
    StableHlo.binary main_v142 main_v143 main_v144 ((fun l r => Host.dotGeneral dot_S1024x512_S512x256_S1024x256_1_0_0_1_n_n none l r) : (⟨S1024x512, .f32⟩ : BufTy).Contents (Elt F) → (⟨S512x256, .f32⟩ : BufTy).Contents (Elt F) → (⟨S1024x256, .f32⟩ : BufTy).Contents (Elt F)),
    StableHlo.unary main_arg12 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S1024x256 ![0, 1] bcast_S1x256_S1024x256_0_1 : (⟨S1x256, .f32⟩ : BufTy).Contents (Elt F) → (⟨S1024x256, .f32⟩ : BufTy).Contents (Elt F)),
    StableHlo.binary main_v144 main_v146 main_v147 (addf : (⟨S1024x256, .f32⟩ : BufTy).Contents (Elt F) → (⟨S1024x256, .f32⟩ : BufTy).Contents (Elt F) → (⟨S1024x256, .f32⟩ : BufTy).Contents (Elt F)),
    StableHlo.nullary main_c_22 (constantI S_ 32 0#32),
    StableHlo.unary main_c_22 main_v148 (broadcastInDim S1024 ![] bcast_S_S1024 : (⟨S_, .i32⟩ : BufTy).Contents (Elt F) → (⟨S1024, .i32⟩ : BufTy).Contents (Elt F)),
    StableHlo.binary main_arg16 main_v148 main_v149 (cmpi .slt : (⟨S1024, .i32⟩ : BufTy).Contents (Elt F) → (⟨S1024, .i32⟩ : BufTy).Contents (Elt F) → (⟨S1024, .i1⟩ : BufTy).Contents (Elt F)),
    StableHlo.nullary main_c_23 (constantI S_ 32 50000#32),
    StableHlo.unary main_c_23 main_v150 (broadcastInDim S1024 ![] bcast_S_S1024 : (⟨S_, .i32⟩ : BufTy).Contents (Elt F) → (⟨S1024, .i32⟩ : BufTy).Contents (Elt F)),
    StableHlo.binary main_arg16 main_v150 main_v151 (addi : (⟨S1024, .i32⟩ : BufTy).Contents (Elt F) → (⟨S1024, .i32⟩ : BufTy).Contents (Elt F) → (⟨S1024, .i32⟩ : BufTy).Contents (Elt F)),
    StableHlo.ternary main_v149 main_v151 main_arg16 main_v152 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v152 main_v153 (broadcastInDim S1024x1 ![0] bcast_S1024_S1024x1_0 : (⟨S1024, .i32⟩ : BufTy).Contents (Elt F) → (⟨S1024x1, .i32⟩ : BufTy).Contents (Elt F)) ]

/-- Statements 181 … 186 (6 operations). -/
abbrev ops3 : List (HloOp τ sig (Elt F)) :=
  [ StableHlo.binary main_arg1 main_v153 main_v154 ((fun x i => Host.gather gather_S50000x256_S1024x1_S1024x256_1_0_n_n_0_1_1256 x i) : (⟨S50000x256, .f32⟩ : BufTy).Contents (Elt F) → (⟨S1024x1, .i32⟩ : BufTy).Contents (Elt F) → (⟨S1024x256, .f32⟩ : BufTy).Contents (Elt F)),
    StableHlo.binary main_v147 main_v154 main_v155 (mulf : (⟨S1024x256, .f32⟩ : BufTy).Contents (Elt F) → (⟨S1024x256, .f32⟩ : BufTy).Contents (Elt F) → (⟨S1024x256, .f32⟩ : BufTy).Contents (Elt F)),
    StableHlo.nullary main_cst_24 (constant S_ .f32 0x00000000#32),
    StableHlo.binary main_v155 main_cst_24 main_v156 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_arg1 main_v157 ((transpose S256x50000 [1, 0] · transposes_S50000x256_S256x50000_1_0) : (⟨S50000x256, .f32⟩ : BufTy).Contents (Elt F) → (⟨S256x50000, .f32⟩ : BufTy).Contents (Elt F)),
    StableHlo.binary main_v147 main_v157 main_v158 ((fun l r => Host.dotGeneral dot_S1024x256_S256x50000_S1024x50000_1_0_0_1_n_n none l r) : (⟨S1024x256, .f32⟩ : BufTy).Contents (Elt F) → (⟨S256x50000, .f32⟩ : BufTy).Contents (Elt F) → (⟨S1024x50000, .f32⟩ : BufTy).Contents (Elt F)) ]

/-- Every operation before the first dense layer: the segment means of the gathered rows and the slices of the
    input projection (135 operations). -/
abbrev opsPre : List (HloOp τ sig (Elt F)) :=
  [ StableHlo.nullary main_c (constantI S_ 32 0#32),
    StableHlo.unary main_c main_v0 (broadcastInDim S1024 ![] bcast_S_S1024 : (⟨S_, .i32⟩ : BufTy).Contents (Elt F) → (⟨S1024, .i32⟩ : BufTy).Contents (Elt F)),
    StableHlo.nullary main_c_0 (constantI S_ 32 0#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32768, .i32⟩) (broadcastInDim S32768 ![] bcast_S_S32768),
    StableHlo.TRef.binary (.of main_call0_v1 : StableHlo.TRef sig ⟨S32768, .i32⟩) (.of main_arg13 : StableHlo.TRef sig ⟨S32768, .i32⟩) (.of main_v1 : StableHlo.TRef sig ⟨S32768, .i32⟩) maxsi,
    StableHlo.nullary main_c_1 (constantI S_ 32 0#32),
    StableHlo.unary main_c_1 main_v2 (broadcastInDim S32768 ![] bcast_S_S32768 : (⟨S_, .i32⟩ : BufTy).Contents (Elt F) → (⟨S32768, .i32⟩ : BufTy).Contents (Elt F)),
    StableHlo.binary main_v1 main_v2 main_v3 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 1024#32),
    StableHlo.unary main_c_2 main_v4 (broadcastInDim S32768 ![] bcast_S_S32768 : (⟨S_, .i32⟩ : BufTy).Contents (Elt F) → (⟨S32768, .i32⟩ : BufTy).Contents (Elt F)),
    StableHlo.binary main_v1 main_v4 main_v5 (addi : (⟨S32768, .i32⟩ : BufTy).Contents (Elt F) → (⟨S32768, .i32⟩ : BufTy).Contents (Elt F) → (⟨S32768, .i32⟩ : BufTy).Contents (Elt F)),
    StableHlo.ternary main_v3 main_v5 main_v1 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v6 main_v7 (broadcastInDim S32768x1 ![0] bcast_S32768_S32768x1_0 : (⟨S32768, .i32⟩ : BufTy).Contents (Elt F) → (⟨S32768x1, .i32⟩ : BufTy).Contents (Elt F)),
    StableHlo.nullary main_c_3 (constantI S_ 32 1#32),
    StableHlo.unary main_c_3 main_v8 (broadcastInDim S32768 ![] bcast_S_S32768 : (⟨S_, .i32⟩ : BufTy).Contents (Elt F) → (⟨S32768, .i32⟩ : BufTy).Contents (Elt F)),
    StableHlo.ternary main_v0 main_v7 main_v8 main_v9 ((fun x i u => Host.scatter scatter_S1024_S32768x1_S32768_n_0_0_1 IntOp.addi x i u) : (⟨S1024, .i32⟩ : BufTy).Contents (Elt F) → (⟨S32768x1, .i32⟩ : BufTy).Contents (Elt F) → (⟨S32768, .i32⟩ : BufTy).Contents (Elt F) → (⟨S1024, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v9 : StableHlo.TRef sig ⟨S1024, .i32⟩) (.of main_call1_call0_v0 : StableHlo.TRef sig ⟨S_, .i32⟩) (.of main_v10 : StableHlo.TRef sig ⟨S1024, .i32⟩) (fun x v => Host.reduceWindow IntOp.addi ![1024] ![1] ![1023] ![0] x v reduceWindows_S1024_S1024_w1024s1p1023_0 h_S_),
    StableHlo.binary main_v10 main_v9 main_v11 (subi : (⟨S1024, .i32⟩ : BufTy).Contents (Elt F) → (⟨S1024, .i32⟩ : BufTy).Contents (Elt F) → (⟨S1024, .i32⟩ : BufTy).Contents (Elt F)),
    StableHlo.nullary main_cst (constant S_ .f32 0x00000000#32),
    StableHlo.unary main_cst main_v12 (broadcastInDim S1x256 ![] bcast_S_S1x256 : (⟨S_, .f32⟩ : BufTy).Contents (Elt F) → (⟨S1x256, .f32⟩ : BufTy).Contents (Elt F)),
    StableHlo.binary main_arg0 main_v12 main_v13 ((fun a b => concatenate S32769x256 0 [⟨S32768x256, a⟩, ⟨S1x256, b⟩] concatenates_S32768x256_S1x256_S32769x256_d0) : (⟨S32768x256, .f32⟩ : BufTy).Contents (Elt F) → (⟨S1x256, .f32⟩ : BufTy).Contents (Elt F) → (⟨S32769x256, .f32⟩ : BufTy).Contents (Elt F)),
    StableHlo.nullary main_v14 (iotaInDim S1024 32 0),
    StableHlo.TRef.unary (.of main_arg15 : StableHlo.TRef sig ⟨S1024, .i32⟩) (.of main_call2_v0 : StableHlo.TRef sig ⟨S1, .i32⟩) (extractStridedSlice S1 ![1023] · slices_S1024_S1_1023),
    StableHlo.TRef.unary (.of main_arg15 : StableHlo.TRef sig ⟨S1024, .i32⟩) (.of main_call2_v1 : StableHlo.TRef sig ⟨S1023, .i32⟩) (extractStridedSlice S1023 ![0] · slices_S1024_S1023_0),
    StableHlo.TRef.binary (.of main_call2_v0 : StableHlo.TRef sig ⟨S1, .i32⟩) (.of main_call2_v1 : StableHlo.TRef sig ⟨S1023, .i32⟩) (.of main_v15 : StableHlo.TRef sig ⟨S1024, .i32⟩) (fun a b => concatenate S1024 0 [⟨S1, a⟩, ⟨S1023, b⟩] concatenates_S1_S1023_S1024_d0),
    StableHlo.nullary main_c_4 (constantI S_ 32 0#32),
    StableHlo.unary main_c_4 main_v16 (broadcastInDim S1 ![] bcast_S_S1 : (⟨S_, .i32⟩ : BufTy).Contents (Elt F) → (⟨S1, .i32⟩ : BufTy).Contents (Elt F)),
    StableHlo.nullary main_c_5 (constantI S_ 32 0#32),
    StableHlo.ternary main_v15 main_v16 main_c_5 main_v17 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v17 : StableHlo.TRef sig ⟨S1024, .i32⟩) (.of main_call3_call0_v0 : StableHlo.TRef sig ⟨S_, .i32⟩) (.of main_v18 : StableHlo.TRef sig ⟨S1024, .i32⟩) (fun x v => Host.reduceWindow IntOp.addi ![1024] ![1] ![1023] ![0] x v reduceWindows_S1024_S1024_w1024s1p1023_0 h_S_),
    StableHlo.nullary main_c_6 (constantI S_ 32 0#32),
    StableHlo.unary main_c_6 main_v19 (broadcastInDim S51200 ![] bcast_S_S51200 : (⟨S_, .i32⟩ : BufTy).Contents (Elt F) → (⟨S51200, .i32⟩ : BufTy).Contents (Elt F)),
    StableHlo.nullary main_c_7 (constantI S_ 32 0#32),
    StableHlo.unary main_c_7 main_v20 (broadcastInDim S1024 ![] bcast_S_S1024 : (⟨S_, .i32⟩ : BufTy).Contents (Elt F) → (⟨S1024, .i32⟩ : BufTy).Contents (Elt F)),
    StableHlo.binary main_v18 main_v20 main_v21 (cmpi .slt : (⟨S1024, .i32⟩ : BufTy).Contents (Elt F) → (⟨S1024, .i32⟩ : BufTy).Contents (Elt F) → (⟨S1024, .i1⟩ : BufTy).Contents (Elt F)),
    StableHlo.nullary main_c_8 (constantI S_ 32 51200#32),
    StableHlo.unary main_c_8 main_v22 (broadcastInDim S1024 ![] bcast_S_S1024 : (⟨S_, .i32⟩ : BufTy).Contents (Elt F) → (⟨S1024, .i32⟩ : BufTy).Contents (Elt F)),
    StableHlo.binary main_v18 main_v22 main_v23 (addi : (⟨S1024, .i32⟩ : BufTy).Contents (Elt F) → (⟨S1024, .i32⟩ : BufTy).Contents (Elt F) → (⟨S1024, .i32⟩ : BufTy).Contents (Elt F)),
    StableHlo.ternary main_v21 main_v23 main_v18 main_v24 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v24 main_v25 (broadcastInDim S1024x1 ![0] bcast_S1024_S1024x1_0 : (⟨S1024, .i32⟩ : BufTy).Contents (Elt F) → (⟨S1024x1, .i32⟩ : BufTy).Contents (Elt F)),
    StableHlo.nullary main_c_9 (constantI S_ 32 1#32),
    StableHlo.unary main_c_9 main_v26 (broadcastInDim S1024 ![] bcast_S_S1024 : (⟨S_, .i32⟩ : BufTy).Contents (Elt F) → (⟨S1024, .i32⟩ : BufTy).Contents (Elt F)),
    StableHlo.ternary main_v19 main_v25 main_v26 main_v27 ((fun x i u => Host.scatter scatter_S51200_S1024x1_S1024_n_0_0_1 IntOp.addi x i u) : (⟨S51200, .i32⟩ : BufTy).Contents (Elt F) → (⟨S1024x1, .i32⟩ : BufTy).Contents (Elt F) → (⟨S1024, .i32⟩ : BufTy).Contents (Elt F) → (⟨S51200, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v27 : StableHlo.TRef sig ⟨S51200, .i32⟩) (.of main_call4_call0_v0 : StableHlo.TRef sig ⟨S_, .i32⟩) (.of main_v28 : StableHlo.TRef sig ⟨S51200, .i32⟩) (fun x v => Host.reduceWindow IntOp.addi ![51200] ![1] ![51199] ![0] x v reduceWindows_S51200_S51200_w51200s1p51199_0 h_S_),
    StableHlo.nullary main_c_10 (constantI S_ 32 1#32),
    StableHlo.unary main_c_10 main_v29 (broadcastInDim S51200 ![] bcast_S_S51200 : (⟨S_, .i32⟩ : BufTy).Contents (Elt F) → (⟨S51200, .i32⟩ : BufTy).Contents (Elt F)),
    StableHlo.binary main_v28 main_v29 main_v30 (subi : (⟨S51200, .i32⟩ : BufTy).Contents (Elt F) → (⟨S51200, .i32⟩ : BufTy).Contents (Elt F) → (⟨S51200, .i32⟩ : BufTy).Contents (Elt F)),
    StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S51200, .i32⟩) (broadcastInDim S51200 ![] bcast_S_S51200),
    StableHlo.TRef.binary (.of main_v30 : StableHlo.TRef sig ⟨S51200, .i32⟩) (.of main_call5_v0 : StableHlo.TRef sig ⟨S51200, .i32⟩) (.of main_call5_v1 : StableHlo.TRef sig ⟨S51200, .i1⟩) (cmpi .slt),
    StableHlo.TRef.nullary (.of main_call5_c_0 : StableHlo.TRef sig ⟨S_, .i32⟩) (constantI S_ 32 1024#32),
    StableHlo.TRef.unary (.of main_call5_c_0 : StableHlo.TRef sig ⟨S_, .i32⟩) (.of main_call5_v2 : StableHlo.TRef sig ⟨S51200, .i32⟩) (broadcastInDim S51200 ![] bcast_S_S51200),
    StableHlo.TRef.binary (.of main_v30 : StableHlo.TRef sig ⟨S51200, .i32⟩) (.of main_call5_v2 : StableHlo.TRef sig ⟨S51200, .i32⟩) (.of main_call5_v3 : StableHlo.TRef sig ⟨S51200, .i32⟩) addi,
    StableHlo.TRef.ternary (.of main_call5_v1 : StableHlo.TRef sig ⟨S51200, .i1⟩) (.of main_call5_v3 : StableHlo.TRef sig ⟨S51200, .i32⟩) (.of main_v30 : StableHlo.TRef sig ⟨S51200, .i32⟩) (.of main_call5_v4 : StableHlo.TRef sig ⟨S51200, .i32⟩) select,
    StableHlo.TRef.unary (.of main_call5_v4 : StableHlo.TRef sig ⟨S51200, .i32⟩) (.of main_call5_v5 : StableHlo.TRef sig ⟨S51200x1, .i32⟩) (broadcastInDim S51200x1 ![0] bcast_S51200_S51200x1_0),
    StableHlo.TRef.nullary (.of main_call5_c_1 : StableHlo.TRef sig ⟨S1, .i32⟩) (constantI S1 32 1023#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S51200x1, .i32⟩) (broadcastInDim S51200x1 ![] bcast_S_S51200x1),
    StableHlo.TRef.binary (.of main_call5_v5 : StableHlo.TRef sig ⟨S51200x1, .i32⟩) (.of main_call5_v6 : StableHlo.TRef sig ⟨S51200x1, .i32⟩) (.of main_call5_v7 : StableHlo.TRef sig ⟨S51200x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S51200x1, .i32⟩) (broadcastInDim S51200x1 ![0, 1] bcast_S1x1_S51200x1_0_1),
    StableHlo.TRef.binary (.of main_call5_v5 : StableHlo.TRef sig ⟨S51200x1, .i32⟩) (.of main_call5_v9 : StableHlo.TRef sig ⟨S51200x1, .i32⟩) (.of main_call5_v10 : StableHlo.TRef sig ⟨S51200x1, .i1⟩) (cmpi .sle),
    StableHlo.TRef.binary (.of main_call5_v7 : StableHlo.TRef sig ⟨S51200x1, .i1⟩) (.of main_call5_v10 : StableHlo.TRef sig ⟨S51200x1, .i1⟩) (.of main_call5_v11 : StableHlo.TRef sig ⟨S51200x1, .i1⟩) andi,
    StableHlo.TRef.nullary (.of main_call5_c_3 : StableHlo.TRef sig ⟨S_, .i1⟩) (constantI S_ 1 1#1),
    StableHlo.TRef.binary (.of main_call5_v11 : StableHlo.TRef sig ⟨S51200x1, .i1⟩) (.of main_call5_c_3 : StableHlo.TRef sig ⟨S_, .i1⟩) (.of main_call5_v12 : StableHlo.TRef sig ⟨S51200, .i1⟩) (fun x v => Host.reduce IntOp.andi x v reducesTo_S51200x1_S51200_d1 h_S_),
    StableHlo.TRef.binary (.of main_v14 : StableHlo.TRef sig ⟨S1024, .i32⟩) (.of main_call5_v5 : StableHlo.TRef sig ⟨S51200x1, .i32⟩) (.of main_call5_v13 : StableHlo.TRef sig ⟨S51200, .i32⟩) (fun x i => Host.gather gather_S1024_S51200x1_S51200_n_0_n_n_0_1_1 x i),
    StableHlo.TRef.nullary (.of main_call5_c_4 : StableHlo.TRef sig ⟨S_, .i32⟩) (constantI S_ 32 2147483648#32),
    StableHlo.TRef.unary (.of main_call5_c_4 : StableHlo.TRef sig ⟨S_, .i32⟩) (.of main_call5_v14 : StableHlo.TRef sig ⟨S51200, .i32⟩) (broadcastInDim S51200 ![] bcast_S_S51200),
    StableHlo.TRef.ternary (.of main_call5_v12 : StableHlo.TRef sig ⟨S51200, .i1⟩) (.of main_call5_v13 : StableHlo.TRef sig ⟨S51200, .i32⟩) (.of main_call5_v14 : StableHlo.TRef sig ⟨S51200, .i32⟩) (.of main_v31 : StableHlo.TRef sig ⟨S51200, .i32⟩) select,
    StableHlo.nullary main_c_11 (constantI S_ 32 0#32),
    StableHlo.unary main_c_11 main_v32 (broadcastInDim S51200 ![] bcast_S_S51200 : (⟨S_, .i32⟩ : BufTy).Contents (Elt F) → (⟨S51200, .i32⟩ : BufTy).Contents (Elt F)),
    StableHlo.binary main_v31 main_v32 main_v33 (cmpi .slt : (⟨S51200, .i32⟩ : BufTy).Contents (Elt F) → (⟨S51200, .i32⟩ : BufTy).Contents (Elt F) → (⟨S51200, .i1⟩ : BufTy).Contents (Elt F)),
    StableHlo.nullary main_c_12 (constantI S_ 32 1024#32),
    StableHlo.unary main_c_12 main_v34 (broadcastInDim S51200 ![] bcast_S_S51200 : (⟨S_, .i32⟩ : BufTy).Contents (Elt F) → (⟨S51200, .i32⟩ : BufTy).Contents (Elt F)),
    StableHlo.binary main_v31 main_v34 main_v35 (addi : (⟨S51200, .i32⟩ : BufTy).Contents (Elt F) → (⟨S51200, .i32⟩ : BufTy).Contents (Elt F) → (⟨S51200, .i32⟩ : BufTy).Contents (Elt F)),
    StableHlo.ternary main_v33 main_v35 main_v31 main_v36 (select : (⟨S51200, .i1⟩ : BufTy).Contents (Elt F) → (⟨S51200, .i32⟩ : BufTy).Contents (Elt F) → (⟨S51200, .i32⟩ : BufTy).Contents (Elt F) → (⟨S51200, .i32⟩ : BufTy).Contents (Elt F)),
    StableHlo.unary main_v36 main_v37 (broadcastInDim S51200x1 ![0] bcast_S51200_S51200x1_0 : (⟨S51200, .i32⟩ : BufTy).Contents (Elt F) → (⟨S51200x1, .i32⟩ : BufTy).Contents (Elt F)),
    StableHlo.binary main_v9 main_v37 main_v38 ((fun x i => Host.gather gather_S1024_S51200x1_S51200_n_0_n_n_0_1_1 x i) : (⟨S1024, .i32⟩ : BufTy).Contents (Elt F) → (⟨S51200x1, .i32⟩ : BufTy).Contents (Elt F) → (⟨S51200, .i32⟩ : BufTy).Contents (Elt F)),
    StableHlo.unary main_v38 main_v39 (broadcastInDim S51200x1 ![0] bcast_S51200_S51200x1_0 : (⟨S51200, .i32⟩ : BufTy).Contents (Elt F) → (⟨S51200x1, .i32⟩ : BufTy).Contents (Elt F)),
    StableHlo.nullary main_c_13 (constantI S_ 32 0#32),
    StableHlo.unary main_c_13 main_v40 (broadcastInDim S51200 ![] bcast_S_S51200 : (⟨S_, .i32⟩ : BufTy).Contents (Elt F) → (⟨S51200, .i32⟩ : BufTy).Contents (Elt F)),
    StableHlo.binary main_v31 main_v40 main_v41 (cmpi .slt : (⟨S51200, .i32⟩ : BufTy).Contents (Elt F) → (⟨S51200, .i32⟩ : BufTy).Contents (Elt F) → (⟨S51200, .i1⟩ : BufTy).Contents (Elt F)),
    StableHlo.nullary main_c_14 (constantI S_ 32 1024#32),
    StableHlo.unary main_c_14 main_v42 (broadcastInDim S51200 ![] bcast_S_S51200 : (⟨S_, .i32⟩ : BufTy).Contents (Elt F) → (⟨S51200, .i32⟩ : BufTy).Contents (Elt F)),
    StableHlo.binary main_v31 main_v42 main_v43 (addi : (⟨S51200, .i32⟩ : BufTy).Contents (Elt F) → (⟨S51200, .i32⟩ : BufTy).Contents (Elt F) → (⟨S51200, .i32⟩ : BufTy).Contents (Elt F)),
    StableHlo.ternary main_v41 main_v43 main_v31 main_v44 (select : (⟨S51200, .i1⟩ : BufTy).Contents (Elt F) → (⟨S51200, .i32⟩ : BufTy).Contents (Elt F) → (⟨S51200, .i32⟩ : BufTy).Contents (Elt F) → (⟨S51200, .i32⟩ : BufTy).Contents (Elt F)),
    StableHlo.unary main_v44 main_v45 (broadcastInDim S51200x1 ![0] bcast_S51200_S51200x1_0 : (⟨S51200, .i32⟩ : BufTy).Contents (Elt F) → (⟨S51200x1, .i32⟩ : BufTy).Contents (Elt F)),
    StableHlo.binary main_v11 main_v45 main_v46 ((fun x i => Host.gather gather_S1024_S51200x1_S51200_n_0_n_n_0_1_1 x i) : (⟨S1024, .i32⟩ : BufTy).Contents (Elt F) → (⟨S51200x1, .i32⟩ : BufTy).Contents (Elt F) → (⟨S51200, .i32⟩ : BufTy).Contents (Elt F)),
    StableHlo.unary main_v46 main_v47 (broadcastInDim S51200x1 ![0] bcast_S51200_S51200x1_0 : (⟨S51200, .i32⟩ : BufTy).Contents (Elt F) → (⟨S51200x1, .i32⟩ : BufTy).Contents (Elt F)),
    StableHlo.unary main_v39 main_v48 (broadcastInDim S51200x3 ![0, 1] bcast_S51200x1_S51200x3_0_1 : (⟨S51200x1, .i32⟩ : BufTy).Contents (Elt F) → (⟨S51200x3, .i32⟩ : BufTy).Contents (Elt F)),
    StableHlo.binary main_arg14 main_v48 main_v49 (cmpi .eq : (⟨S51200x3, .i32⟩ : BufTy).Contents (Elt F) → (⟨S51200x3, .i32⟩ : BufTy).Contents (Elt F) → (⟨S51200x3, .i1⟩ : BufTy).Contents (Elt F)),
    StableHlo.unary main_v47 main_v50 (broadcastInDim S51200x3 ![0, 1] bcast_S51200x1_S51200x3_0_1 : (⟨S51200x1, .i32⟩ : BufTy).Contents (Elt F) → (⟨S51200x3, .i32⟩ : BufTy).Contents (Elt F)),
    StableHlo.binary main_v50 main_arg14 main_v51 (addi : (⟨S51200x3, .i32⟩ : BufTy).Contents (Elt F) → (⟨S51200x3, .i32⟩ : BufTy).Contents (Elt F) → (⟨S51200x3, .i32⟩ : BufTy).Contents (Elt F)),
    StableHlo.nullary main_c_15 (constantI S_ 32 32768#32),
    StableHlo.TRef.unary (.of main_c_15 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S51200x3, .i32⟩) (broadcastInDim S51200x3 ![] bcast_S_S51200x3),
    StableHlo.TRef.ternary (.of main_v49 : StableHlo.TRef sig ⟨S51200x3, .i1⟩) (.of main_call6_v1 : StableHlo.TRef sig ⟨S51200x3, .i32⟩) (.of main_v51 : StableHlo.TRef sig ⟨S51200x3, .i32⟩) (.of main_v52 : StableHlo.TRef sig ⟨S51200x3, .i32⟩) select,
    StableHlo.nullary main_c_16 (constantI S_ 32 0#32),
    StableHlo.unary main_c_16 main_v53 (broadcastInDim S51200x3 ![] bcast_S_S51200x3 : (⟨S_, .i32⟩ : BufTy).Contents (Elt F) → (⟨S51200x3, .i32⟩ : BufTy).Contents (Elt F)),
    StableHlo.binary main_v52 main_v53 main_v54 (cmpi .slt : (⟨S51200x3, .i32⟩ : BufTy).Contents (Elt F) → (⟨S51200x3, .i32⟩ : BufTy).Contents (Elt F) → (⟨S51200x3, .i1⟩ : BufTy).Contents (Elt F)),
    StableHlo.nullary main_c_17 (constantI S_ 32 32769#32),
    StableHlo.unary main_c_17 main_v55 (broadcastInDim S51200x3 ![] bcast_S_S51200x3 : (⟨S_, .i32⟩ : BufTy).Contents (Elt F) → (⟨S51200x3, .i32⟩ : BufTy).Contents (Elt F)),
    StableHlo.binary main_v52 main_v55 main_v56 (addi : (⟨S51200x3, .i32⟩ : BufTy).Contents (Elt F) → (⟨S51200x3, .i32⟩ : BufTy).Contents (Elt F) → (⟨S51200x3, .i32⟩ : BufTy).Contents (Elt F)),
    StableHlo.ternary main_v54 main_v56 main_v52 main_v57 (select : (⟨S51200x3, .i1⟩ : BufTy).Contents (Elt F) → (⟨S51200x3, .i32⟩ : BufTy).Contents (Elt F) → (⟨S51200x3, .i32⟩ : BufTy).Contents (Elt F) → (⟨S51200x3, .i32⟩ : BufTy).Contents (Elt F)),
    StableHlo.unary main_v57 main_v58 (broadcastInDim S51200x3x1 ![0, 1] bcast_S51200x3_S51200x3x1_0_1 : (⟨S51200x3, .i32⟩ : BufTy).Contents (Elt F) → (⟨S51200x3x1, .i32⟩ : BufTy).Contents (Elt F)),
    StableHlo.binary main_v13 main_v58 main_v59 ((fun x i => Host.gather gather_S32769x256_S51200x3x1_S51200x3x256_2_0_n_n_0_2_1256 x i) : (⟨S32769x256, .f32⟩ : BufTy).Contents (Elt F) → (⟨S51200x3x1, .i32⟩ : BufTy).Contents (Elt F) → (⟨S51200x3x256, .f32⟩ : BufTy).Contents (Elt F)),
    StableHlo.nullary main_cst_18 (constant S_ .f32 0x00000000#32),
    StableHlo.binary main_v59 main_cst_18 main_v60 ((fun x v => Host.reduceAdd x v reducesTo_S51200x3x256_S51200x256_d1 h_S_) : (⟨S51200x3x256, .f32⟩ : BufTy).Contents (Elt F) → (⟨S_, .f32⟩ : BufTy).Contents (Elt F) → (⟨S51200x256, .f32⟩ : BufTy).Contents (Elt F)),
    StableHlo.unary main_arg2 main_v61 (broadcastInDim S51200x1 ![0] bcast_S51200_S51200x1_0 : (⟨S51200, .f32⟩ : BufTy).Contents (Elt F) → (⟨S51200x1, .f32⟩ : BufTy).Contents (Elt F)),
    StableHlo.unary main_v61 main_v62 (broadcastInDim S51200x256 ![0, 1] bcast_S51200x1_S51200x256_0_1 : (⟨S51200x1, .f32⟩ : BufTy).Contents (Elt F) → (⟨S51200x256, .f32⟩ : BufTy).Contents (Elt F)),
    StableHlo.binary main_v60 main_v62 main_v63 (Host.divf : (⟨S51200x256, .f32⟩ : BufTy).Contents (Elt F) → (⟨S51200x256, .f32⟩ : BufTy).Contents (Elt F) → (⟨S51200x256, .f32⟩ : BufTy).Contents (Elt F)),
    StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_arg15 : StableHlo.TRef sig ⟨S1024, .i32⟩) (.of main_call7_call0_v0 : StableHlo.TRef sig ⟨S_, .i32⟩) (.of main_v64 : StableHlo.TRef sig ⟨S1024, .i32⟩) (fun x v => Host.reduceWindow IntOp.addi ![1024] ![1] ![1023] ![0] x v reduceWindows_S1024_S1024_w1024s1p1023_0 h_S_),
    StableHlo.nullary main_c_19 (constantI S_ 32 1#32),
    StableHlo.unary main_c_19 main_v65 (broadcastInDim S1024 ![] bcast_S_S1024 : (⟨S_, .i32⟩ : BufTy).Contents (Elt F) → (⟨S1024, .i32⟩ : BufTy).Contents (Elt F)),
    StableHlo.binary main_v64 main_v65 main_v66 (subi : (⟨S1024, .i32⟩ : BufTy).Contents (Elt F) → (⟨S1024, .i32⟩ : BufTy).Contents (Elt F) → (⟨S1024, .i32⟩ : BufTy).Contents (Elt F)),
    StableHlo.nullary main_c_20 (constantI S_ 32 0#32),
    StableHlo.unary main_c_20 main_v67 (broadcastInDim S1024 ![] bcast_S_S1024 : (⟨S_, .i32⟩ : BufTy).Contents (Elt F) → (⟨S1024, .i32⟩ : BufTy).Contents (Elt F)),
    StableHlo.binary main_v66 main_v67 main_v68 (cmpi .slt : (⟨S1024, .i32⟩ : BufTy).Contents (Elt F) → (⟨S1024, .i32⟩ : BufTy).Contents (Elt F) → (⟨S1024, .i1⟩ : BufTy).Contents (Elt F)),
    StableHlo.nullary main_c_21 (constantI S_ 32 51200#32),
    StableHlo.unary main_c_21 main_v69 (broadcastInDim S1024 ![] bcast_S_S1024 : (⟨S_, .i32⟩ : BufTy).Contents (Elt F) → (⟨S1024, .i32⟩ : BufTy).Contents (Elt F)),
    StableHlo.binary main_v66 main_v69 main_v70 (addi : (⟨S1024, .i32⟩ : BufTy).Contents (Elt F) → (⟨S1024, .i32⟩ : BufTy).Contents (Elt F) → (⟨S1024, .i32⟩ : BufTy).Contents (Elt F)),
    StableHlo.ternary main_v68 main_v70 main_v66 main_v71 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v71 main_v72 (broadcastInDim S1024x1 ![0] bcast_S1024_S1024x1_0 : (⟨S1024, .i32⟩ : BufTy).Contents (Elt F) → (⟨S1024x1, .i32⟩ : BufTy).Contents (Elt F)),
    StableHlo.binary main_v63 main_v72 main_v73 ((fun x i => Host.gather gather_S51200x256_S1024x1_S1024x256_1_0_n_n_0_1_1256 x i) : (⟨S51200x256, .f32⟩ : BufTy).Contents (Elt F) → (⟨S1024x1, .i32⟩ : BufTy).Contents (Elt F) → (⟨S1024x256, .f32⟩ : BufTy).Contents (Elt F)),
    StableHlo.unary main_arg3 main_v74 ((extractStridedSlice S256x256 ![512, 0] · slices_S768x256_S256x256_512_0) : (⟨S768x256, .f32⟩ : BufTy).Contents (Elt F) → (⟨S256x256, .f32⟩ : BufTy).Contents (Elt F)),
    StableHlo.unary main_arg4 main_v75 ((extractStridedSlice S256 ![512] · slices_S768_S256_512) : (⟨S768, .f32⟩ : BufTy).Contents (Elt F) → (⟨S256, .f32⟩ : BufTy).Contents (Elt F)) ]

/-- The dense layers, the score and the logits (92 operations). -/
abbrev opsPost : List (HloOp τ sig (Elt F)) :=
  [ StableHlo.unary main_v74 main_v76 ((transpose S256x256 [1, 0] · transposes_S256x256_S256x256_1_0) : (⟨S256x256, .f32⟩ : BufTy).Contents (Elt F) → (⟨S256x256, .f32⟩ : BufTy).Contents (Elt F)),
    StableHlo.binary main_v73 main_v76 main_v77 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_v75 main_v78 (broadcastInDim S1x256 ![1] bcast_S256_S1x256_1 : (⟨S256, .f32⟩ : BufTy).Contents (Elt F) → (⟨S1x256, .f32⟩ : BufTy).Contents (Elt F)),
    StableHlo.unary main_v78 main_v79 (broadcastInDim S1024x256 ![0, 1] bcast_S1x256_S1024x256_0_1 : (⟨S1x256, .f32⟩ : BufTy).Contents (Elt F) → (⟨S1024x256, .f32⟩ : BufTy).Contents (Elt F)),
    StableHlo.binary main_v77 main_v79 main_v80 (addf : (⟨S1024x256, .f32⟩ : BufTy).Contents (Elt F) → (⟨S1024x256, .f32⟩ : BufTy).Contents (Elt F) → (⟨S1024x256, .f32⟩ : BufTy).Contents (Elt F)),
    StableHlo.unary main_arg5 main_v81 ((transpose S256x256 [1, 0] · transposes_S256x256_S256x256_1_0) : (⟨S256x256, .f32⟩ : BufTy).Contents (Elt F) → (⟨S256x256, .f32⟩ : BufTy).Contents (Elt F)),
    StableHlo.binary main_v80 main_v81 main_v82 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg6 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S1024x256 ![0, 1] bcast_S1x256_S1024x256_0_1 : (⟨S1x256, .f32⟩ : BufTy).Contents (Elt F) → (⟨S1024x256, .f32⟩ : BufTy).Contents (Elt F)),
    StableHlo.binary main_v82 main_v84 main_v85 (addf : (⟨S1024x256, .f32⟩ : BufTy).Contents (Elt F) → (⟨S1024x256, .f32⟩ : BufTy).Contents (Elt F) → (⟨S1024x256, .f32⟩ : BufTy).Contents (Elt F)),
    StableHlo.unary main_arg7 main_v86 ((transpose S256x256 [1, 0] · transposes_S256x256_S256x256_1_0) : (⟨S256x256, .f32⟩ : BufTy).Contents (Elt F) → (⟨S256x256, .f32⟩ : BufTy).Contents (Elt F)),
    StableHlo.binary main_v85 main_v86 main_v87 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S1024x256 ![0, 1] bcast_S1x256_S1024x256_0_1 : (⟨S1x256, .f32⟩ : BufTy).Contents (Elt F) → (⟨S1024x256, .f32⟩ : BufTy).Contents (Elt F)),
    StableHlo.binary main_v87 main_v89 main_v90 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S1024x256, .f32⟩) (broadcastInDim S1024x256 ![] bcast_S_S1024x256),
    StableHlo.TRef.binary (.of main_v90 : StableHlo.TRef sig ⟨S1024x256, .f32⟩) (.of main_call8_v0 : StableHlo.TRef sig ⟨S1024x256, .f32⟩) (.of main_v91 : StableHlo.TRef sig ⟨S1024x256, .f32⟩) maximumf,
    StableHlo.unary main_arg9 main_v92 ((transpose S256x256 [1, 0] · transposes_S256x256_S256x256_1_0) : (⟨S256x256, .f32⟩ : BufTy).Contents (Elt F) → (⟨S256x256, .f32⟩ : BufTy).Contents (Elt F)),
    StableHlo.binary main_v91 main_v92 main_v93 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg10 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S1024x256 ![0, 1] bcast_S1x256_S1024x256_0_1 : (⟨S1x256, .f32⟩ : BufTy).Contents (Elt F) → (⟨S1024x256, .f32⟩ : BufTy).Contents (Elt F)),
    StableHlo.binary main_v93 main_v95 main_v96 (addf : (⟨S1024x256, .f32⟩ : BufTy).Contents (Elt F) → (⟨S1024x256, .f32⟩ : BufTy).Contents (Elt F) → (⟨S1024x256, .f32⟩ : BufTy).Contents (Elt F)),
    StableHlo.binary main_v85 main_v96 main_v97 (addf : (⟨S1024x256, .f32⟩ : BufTy).Contents (Elt F) → (⟨S1024x256, .f32⟩ : BufTy).Contents (Elt F) → (⟨S1024x256, .f32⟩ : BufTy).Contents (Elt F)),
    StableHlo.unary main_v74 main_v98 ((transpose S256x256 [1, 0] · transposes_S256x256_S256x256_1_0) : (⟨S256x256, .f32⟩ : BufTy).Contents (Elt F) → (⟨S256x256, .f32⟩ : BufTy).Contents (Elt F)),
    StableHlo.binary main_v97 main_v98 main_v99 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_v75 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S1024x256 ![0, 1] bcast_S1x256_S1024x256_0_1 : (⟨S1x256, .f32⟩ : BufTy).Contents (Elt F) → (⟨S1024x256, .f32⟩ : BufTy).Contents (Elt F)),
    StableHlo.binary main_v99 main_v101 main_v102 (addf : (⟨S1024x256, .f32⟩ : BufTy).Contents (Elt F) → (⟨S1024x256, .f32⟩ : BufTy).Contents (Elt F) → (⟨S1024x256, .f32⟩ : BufTy).Contents (Elt F)),
    StableHlo.unary main_arg5 main_v103 ((transpose S256x256 [1, 0] · transposes_S256x256_S256x256_1_0) : (⟨S256x256, .f32⟩ : BufTy).Contents (Elt F) → (⟨S256x256, .f32⟩ : BufTy).Contents (Elt F)),
    StableHlo.binary main_v102 main_v103 main_v104 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg6 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S1024x256 ![0, 1] bcast_S1x256_S1024x256_0_1 : (⟨S1x256, .f32⟩ : BufTy).Contents (Elt F) → (⟨S1024x256, .f32⟩ : BufTy).Contents (Elt F)),
    StableHlo.binary main_v104 main_v106 main_v107 (addf : (⟨S1024x256, .f32⟩ : BufTy).Contents (Elt F) → (⟨S1024x256, .f32⟩ : BufTy).Contents (Elt F) → (⟨S1024x256, .f32⟩ : BufTy).Contents (Elt F)),
    StableHlo.unary main_arg7 main_v108 ((transpose S256x256 [1, 0] · transposes_S256x256_S256x256_1_0) : (⟨S256x256, .f32⟩ : BufTy).Contents (Elt F) → (⟨S256x256, .f32⟩ : BufTy).Contents (Elt F)),
    StableHlo.binary main_v107 main_v108 main_v109 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S1024x256 ![0, 1] bcast_S1x256_S1024x256_0_1 : (⟨S1x256, .f32⟩ : BufTy).Contents (Elt F) → (⟨S1024x256, .f32⟩ : BufTy).Contents (Elt F)),
    StableHlo.binary main_v109 main_v111 main_v112 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S1024x256, .f32⟩) (broadcastInDim S1024x256 ![] bcast_S_S1024x256),
    StableHlo.TRef.binary (.of main_v112 : StableHlo.TRef sig ⟨S1024x256, .f32⟩) (.of main_call9_v0 : StableHlo.TRef sig ⟨S1024x256, .f32⟩) (.of main_v113 : StableHlo.TRef sig ⟨S1024x256, .f32⟩) maximumf,
    StableHlo.unary main_arg9 main_v114 ((transpose S256x256 [1, 0] · transposes_S256x256_S256x256_1_0) : (⟨S256x256, .f32⟩ : BufTy).Contents (Elt F) → (⟨S256x256, .f32⟩ : BufTy).Contents (Elt F)),
    StableHlo.binary main_v113 main_v114 main_v115 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg10 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S1024x256 ![0, 1] bcast_S1x256_S1024x256_0_1 : (⟨S1x256, .f32⟩ : BufTy).Contents (Elt F) → (⟨S1024x256, .f32⟩ : BufTy).Contents (Elt F)),
    StableHlo.binary main_v115 main_v117 main_v118 (addf : (⟨S1024x256, .f32⟩ : BufTy).Contents (Elt F) → (⟨S1024x256, .f32⟩ : BufTy).Contents (Elt F) → (⟨S1024x256, .f32⟩ : BufTy).Contents (Elt F)),
    StableHlo.binary main_v107 main_v118 main_v119 (addf : (⟨S1024x256, .f32⟩ : BufTy).Contents (Elt F) → (⟨S1024x256, .f32⟩ : BufTy).Contents (Elt F) → (⟨S1024x256, .f32⟩ : BufTy).Contents (Elt F)),
    StableHlo.unary main_v74 main_v120 ((transpose S256x256 [1, 0] · transposes_S256x256_S256x256_1_0) : (⟨S256x256, .f32⟩ : BufTy).Contents (Elt F) → (⟨S256x256, .f32⟩ : BufTy).Contents (Elt F)),
    StableHlo.binary main_v119 main_v120 main_v121 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_v75 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S1024x256 ![0, 1] bcast_S1x256_S1024x256_0_1 : (⟨S1x256, .f32⟩ : BufTy).Contents (Elt F) → (⟨S1024x256, .f32⟩ : BufTy).Contents (Elt F)),
    StableHlo.binary main_v121 main_v123 main_v124 (addf : (⟨S1024x256, .f32⟩ : BufTy).Contents (Elt F) → (⟨S1024x256, .f32⟩ : BufTy).Contents (Elt F) → (⟨S1024x256, .f32⟩ : BufTy).Contents (Elt F)),
    StableHlo.unary main_arg5 main_v125 ((transpose S256x256 [1, 0] · transposes_S256x256_S256x256_1_0) : (⟨S256x256, .f32⟩ : BufTy).Contents (Elt F) → (⟨S256x256, .f32⟩ : BufTy).Contents (Elt F)),
    StableHlo.binary main_v124 main_v125 main_v126 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg6 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S1024x256 ![0, 1] bcast_S1x256_S1024x256_0_1 : (⟨S1x256, .f32⟩ : BufTy).Contents (Elt F) → (⟨S1024x256, .f32⟩ : BufTy).Contents (Elt F)),
    StableHlo.binary main_v126 main_v128 main_v129 (addf : (⟨S1024x256, .f32⟩ : BufTy).Contents (Elt F) → (⟨S1024x256, .f32⟩ : BufTy).Contents (Elt F) → (⟨S1024x256, .f32⟩ : BufTy).Contents (Elt F)),
    StableHlo.unary main_arg7 main_v130 ((transpose S256x256 [1, 0] · transposes_S256x256_S256x256_1_0) : (⟨S256x256, .f32⟩ : BufTy).Contents (Elt F) → (⟨S256x256, .f32⟩ : BufTy).Contents (Elt F)),
    StableHlo.binary main_v129 main_v130 main_v131 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S1024x256 ![0, 1] bcast_S1x256_S1024x256_0_1 : (⟨S1x256, .f32⟩ : BufTy).Contents (Elt F) → (⟨S1024x256, .f32⟩ : BufTy).Contents (Elt F)),
    StableHlo.binary main_v131 main_v133 main_v134 (addf : (⟨S1024x256, .f32⟩ : BufTy).Contents (Elt F) → (⟨S1024x256, .f32⟩ : BufTy).Contents (Elt F) → (⟨S1024x256, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S1024x256, .f32⟩) (broadcastInDim S1024x256 ![] bcast_S_S1024x256),
    StableHlo.TRef.binary (.of main_v134 : StableHlo.TRef sig ⟨S1024x256, .f32⟩) (.of main_call10_v0 : StableHlo.TRef sig ⟨S1024x256, .f32⟩) (.of main_v135 : StableHlo.TRef sig ⟨S1024x256, .f32⟩) maximumf,
    StableHlo.unary main_arg9 main_v136 ((transpose S256x256 [1, 0] · transposes_S256x256_S256x256_1_0) : (⟨S256x256, .f32⟩ : BufTy).Contents (Elt F) → (⟨S256x256, .f32⟩ : BufTy).Contents (Elt F)),
    StableHlo.binary main_v135 main_v136 main_v137 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg10 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S1024x256 ![0, 1] bcast_S1x256_S1024x256_0_1 : (⟨S1x256, .f32⟩ : BufTy).Contents (Elt F) → (⟨S1024x256, .f32⟩ : BufTy).Contents (Elt F)),
    StableHlo.binary main_v137 main_v139 main_v140 (addf : (⟨S1024x256, .f32⟩ : BufTy).Contents (Elt F) → (⟨S1024x256, .f32⟩ : BufTy).Contents (Elt F) → (⟨S1024x256, .f32⟩ : BufTy).Contents (Elt F)),
    StableHlo.binary main_v129 main_v140 main_v141 (addf : (⟨S1024x256, .f32⟩ : BufTy).Contents (Elt F) → (⟨S1024x256, .f32⟩ : BufTy).Contents (Elt F) → (⟨S1024x256, .f32⟩ : BufTy).Contents (Elt F)),
    StableHlo.binary main_v73 main_v141 main_v142 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F)),
    StableHlo.unary main_arg11 main_v143 ((transpose S512x256 [1, 0] · transposes_S256x512_S512x256_1_0) : (⟨S256x512, .f32⟩ : BufTy).Contents (Elt F) → (⟨S512x256, .f32⟩ : BufTy).Contents (Elt F)),
    StableHlo.binary main_v142 main_v143 main_v144 ((fun l r => Host.dotGeneral dot_S1024x512_S512x256_S1024x256_1_0_0_1_n_n none l r) : (⟨S1024x512, .f32⟩ : BufTy).Contents (Elt F) → (⟨S512x256, .f32⟩ : BufTy).Contents (Elt F) → (⟨S1024x256, .f32⟩ : BufTy).Contents (Elt F)),
    StableHlo.unary main_arg12 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S1024x256 ![0, 1] bcast_S1x256_S1024x256_0_1 : (⟨S1x256, .f32⟩ : BufTy).Contents (Elt F) → (⟨S1024x256, .f32⟩ : BufTy).Contents (Elt F)),
    StableHlo.binary main_v144 main_v146 main_v147 (addf : (⟨S1024x256, .f32⟩ : BufTy).Contents (Elt F) → (⟨S1024x256, .f32⟩ : BufTy).Contents (Elt F) → (⟨S1024x256, .f32⟩ : BufTy).Contents (Elt F)),
    StableHlo.nullary main_c_22 (constantI S_ 32 0#32),
    StableHlo.unary main_c_22 main_v148 (broadcastInDim S1024 ![] bcast_S_S1024 : (⟨S_, .i32⟩ : BufTy).Contents (Elt F) → (⟨S1024, .i32⟩ : BufTy).Contents (Elt F)),
    StableHlo.binary main_arg16 main_v148 main_v149 (cmpi .slt : (⟨S1024, .i32⟩ : BufTy).Contents (Elt F) → (⟨S1024, .i32⟩ : BufTy).Contents (Elt F) → (⟨S1024, .i1⟩ : BufTy).Contents (Elt F)),
    StableHlo.nullary main_c_23 (constantI S_ 32 50000#32),
    StableHlo.unary main_c_23 main_v150 (broadcastInDim S1024 ![] bcast_S_S1024 : (⟨S_, .i32⟩ : BufTy).Contents (Elt F) → (⟨S1024, .i32⟩ : BufTy).Contents (Elt F)),
    StableHlo.binary main_arg16 main_v150 main_v151 (addi : (⟨S1024, .i32⟩ : BufTy).Contents (Elt F) → (⟨S1024, .i32⟩ : BufTy).Contents (Elt F) → (⟨S1024, .i32⟩ : BufTy).Contents (Elt F)),
    StableHlo.ternary main_v149 main_v151 main_arg16 main_v152 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v152 main_v153 (broadcastInDim S1024x1 ![0] bcast_S1024_S1024x1_0 : (⟨S1024, .i32⟩ : BufTy).Contents (Elt F) → (⟨S1024x1, .i32⟩ : BufTy).Contents (Elt F)),
    StableHlo.binary main_arg1 main_v153 main_v154 ((fun x i => Host.gather gather_S50000x256_S1024x1_S1024x256_1_0_n_n_0_1_1256 x i) : (⟨S50000x256, .f32⟩ : BufTy).Contents (Elt F) → (⟨S1024x1, .i32⟩ : BufTy).Contents (Elt F) → (⟨S1024x256, .f32⟩ : BufTy).Contents (Elt F)),
    StableHlo.binary main_v147 main_v154 main_v155 (mulf : (⟨S1024x256, .f32⟩ : BufTy).Contents (Elt F) → (⟨S1024x256, .f32⟩ : BufTy).Contents (Elt F) → (⟨S1024x256, .f32⟩ : BufTy).Contents (Elt F)),
    StableHlo.nullary main_cst_24 (constant S_ .f32 0x00000000#32),
    StableHlo.binary main_v155 main_cst_24 main_v156 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_arg1 main_v157 ((transpose S256x50000 [1, 0] · transposes_S50000x256_S256x50000_1_0) : (⟨S50000x256, .f32⟩ : BufTy).Contents (Elt F) → (⟨S256x50000, .f32⟩ : BufTy).Contents (Elt F)),
    StableHlo.binary main_v147 main_v157 main_v158 ((fun l r => Host.dotGeneral dot_S1024x256_S256x50000_S1024x50000_1_0_0_1_n_n none l r) : (⟨S1024x256, .f32⟩ : BufTy).Contents (Elt F) → (⟨S256x50000, .f32⟩ : BufTy).Contents (Elt F) → (⟨S1024x50000, .f32⟩ : BufTy).Contents (Elt F)) ]

/-- @main's operations, in order. -/
abbrev ops : List (HloOp τ sig (Elt F)) := opsPre ++ opsPost

/-- The two cuts of the list are the same list. -/
theorem ops_eq_parts : (ops : List (HloOp τ sig (Elt F))) = ops0 ++ (ops1a ++ (ops1b ++ (ops2 ++ ops3))) := rfl

set_option maxRecDepth 8192 in
set_option maxHeartbeats 4000000 in
/-- A window of @main is its operations in sequence: the callees' definitions unfolded at their calls, both sides
    are one chain of steps once sequencing is reassociated. -/
theorem part0_eq (c : Dev nD) : main_part0 (F := F) c = seq ops0 := by
  simp only [main_part0, fn_clip.body, fn_cumsum.body, fn_cumsum_0.body, fn_roll_static.body, fn_cumsum_1.body, fn_cumsum_2.body, fn_take.body, fn_where.body, fn_where_3.body, fn_cumsum_4.body, fn_cumsum_5.body, fn_relu.body, seq, bind_assoc, pure_bind]
  rfl

set_option maxRecDepth 8192 in
set_option maxHeartbeats 4000000 in
theorem part1_eq (c : Dev nD) : main_part1 (F := F) c = (seq ops1a >>= fun _ => seq ops1b) := by
  simp only [main_part1, fn_clip.body, fn_cumsum.body, fn_cumsum_0.body, fn_roll_static.body, fn_cumsum_1.body, fn_cumsum_2.body, fn_take.body, fn_where.body, fn_where_3.body, fn_cumsum_4.body, fn_cumsum_5.body, fn_relu.body, seq, bind_assoc, pure_bind]
  rfl

set_option maxRecDepth 8192 in
set_option maxHeartbeats 4000000 in
theorem part2_eq (c : Dev nD) : main_part2 (F := F) c = seq ops2 := by
  simp only [main_part2, fn_clip.body, fn_cumsum.body, fn_cumsum_0.body, fn_roll_static.body, fn_cumsum_1.body, fn_cumsum_2.body, fn_take.body, fn_where.body, fn_where_3.body, fn_cumsum_4.body, fn_cumsum_5.body, fn_relu.body, seq, bind_assoc, pure_bind]
  rfl

set_option maxRecDepth 8192 in
theorem part3_eq (c : Dev nD) : main_part3 (F := F) c = seq ops3 := by
  simp only [main_part3, seq, bind_assoc, pure_bind]

/-- @main is the straight line `ops`. -/
theorem main_eq (c : Dev nD) : main (F := F) c = seq ops := by
  rw [ops_eq_parts]
  simp only [main, part0_eq, part1_eq, part2_eq, part3_eq, seq_append, bind_assoc]

set_option maxRecDepth 8192 in
/-- Each operation touches TensorCore buffers only. -/
theorem opsPre_sub : (opsPre : List (HloOp τ sig (Elt F))).Forall fun op => op.bufs ⊆ tcRefs τ sig :=
  ⟨nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., binary_bufs_sub .., binary_bufs_sub .., nullary_bufs_sub .., unary_bufs_sub .., binary_bufs_sub ..,
    nullary_bufs_sub .., unary_bufs_sub .., unary_bufs_sub .., binary_bufs_sub .., nullary_bufs_sub .., unary_bufs_sub ..,
    nullary_bufs_sub .., ternary_bufs_sub .., nullary_bufs_sub .., unary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub ..⟩

set_option maxRecDepth 8192 in
theorem opsPost_sub : (opsPost : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., binary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., binary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., binary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., binary_bufs_sub ..,
    unary_bufs_sub .., binary_bufs_sub ..⟩

theorem ops_sub : (ops : List (HloOp τ sig (Elt F))).Forall fun op => op.bufs ⊆ tcRefs τ sig :=
  List.forall_append.mpr ⟨opsPre_sub, opsPost_sub⟩

set_option maxRecDepth 8192 in
/-- Every operation determines its result: none leaves a buffer at contents the program does not fix. -/
theorem opsPre_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
theorem opsPost_fresh : (opsPost : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl⟩

theorem ops_fresh : ∀ op ∈ (ops : List (HloOp τ sig (Elt F))), op.fresh = ∅ :=
  List.forall_iff_forall_mem.mp (List.forall_append.mpr ⟨opsPre_fresh, opsPost_fresh⟩)

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.HandRun

end
-- ==== Proof.RefRun.lean ====
import proofs.«104216_j3135326126725_1_alg».proof.Proof.RefOps
import proofs.«104216_j3135326126725_1_alg».proof.Proof.Gen.Pre_finite_inputs
import proofs.«104216_j3135326126725_1_alg».proof.Defs

/-! The run of the reference program: every weakly fair execution of its @main terminates with each buffer at the
fold of the operations' results over the launch contents; no operation writes an argument, so the arguments end as
they were launched. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- An operation whose one written buffer is among the listed references writes inside the list. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers `opsPre` writes: one per operation, its result. -/
abbrev opsPre_W : List (Ref sig .tc) :=
  [ main_c, main_v0, main_c_0, main_call0_v0, main_call0_v1, main_v1, main_c_1, main_v2, main_v3, main_c_2,
    main_v4, main_v5, main_v6, main_v7, main_c_3, main_v8, main_v9, main_call1_call0_c, main_call1_call0_v0, main_v10,
    main_v11, main_cst, main_v12, main_v13, main_v14, main_call2_v0, main_call2_v1, main_v15, main_c_4, main_v16,
    main_c_5, main_v17, main_call3_call0_c, main_call3_call0_v0, main_v18, main_c_6, main_v19, main_c_7, main_v20, main_v21,
    main_c_8, main_v22, main_v23, main_v24, main_v25, main_c_9, main_v26, main_v27, main_call4_call0_c, main_call4_call0_v0,
    main_v28, main_c_10, main_v29, main_v30, main_call5_c, main_call5_v0, main_call5_v1, main_call5_c_0, main_call5_v2, main_call5_v3,
    main_call5_v4, main_call5_v5, main_call5_c_1, main_call5_c_2, main_call5_v6, main_call5_v7, main_call5_v8, main_call5_v9, main_call5_v10, main_call5_v11,
    main_call5_c_3, main_call5_v12, main_call5_v13, main_call5_c_4, main_call5_v14, main_v31, main_c_11, main_v32, main_v33, main_c_12,
    main_v34, main_v35, main_v36, main_v37, main_v38, main_v39, main_c_13, main_v40, main_v41, main_c_14,
    main_v42, main_v43, main_v44, main_v45, main_v46, main_v47, main_v48, main_v49, main_v50, main_v51,
    main_c_15, main_call6_v0, main_call6_v1, main_v52, main_c_16, main_v53, main_v54, main_c_17, main_v55, main_v56,
    main_v57, main_v58, main_v59, main_cst_18, main_v60, main_v61, main_v62, main_v63, main_call7_call0_c, main_call7_call0_v0,
    main_v64, main_c_19, main_v65, main_v66, main_c_20, main_v67, main_v68, main_c_21, main_v69, main_v70,
    main_v71, main_v72, main_v73, main_v74, main_v75 ]

/-- The buffers `opsPost` writes. -/
abbrev opsPost_W : List (Ref sig .tc) :=
  [ main_v76, main_v77, main_v78, main_v79, main_v80, main_v81, main_v82, main_v83, main_v84, main_v85,
    main_v86, main_v87, main_v88, main_v89, main_v90, main_call8_cst, main_call8_v0, main_v91, main_v92, main_v93,
    main_v94, main_v95, main_v96, main_v97, main_v98, main_v99, main_v100, main_v101, main_v102, main_v103,
    main_v104, main_v105, main_v106, main_v107, main_v108, main_v109, main_v110, main_v111, main_v112, main_call9_cst,
    main_call9_v0, main_v113, main_v114, main_v115, main_v116, main_v117, main_v118, main_v119, main_v120, main_v121,
    main_v122, main_v123, main_v124, main_v125, main_v126, main_v127, main_v128, main_v129, main_v130, main_v131,
    main_v132, main_v133, main_v134, main_call10_cst, main_call10_v0, main_v135, main_v136, main_v137, main_v138, main_v139,
    main_v140, main_v141, main_v142, main_v143, main_v144, main_v145, main_v146, main_v147, main_c_22, main_v148,
    main_v149, main_c_23, main_v150, main_v151, main_v152, main_v153, main_v154, main_v155, main_cst_24, main_v156,
    main_v157, main_v158 ]

set_option maxRecDepth 8192 in
theorem opsPre_writes : (opsPre : List (HloOp τ sig (Elt F))).Forall fun op => op.writes ⊆ (opsPre_W.map (Proc.devRef (τ := τ) .tc)).toFinset :=
  ⟨writes_sub_of_mem (y := main_c) rfl (by decide),
    writes_sub_of_mem (y := main_v0) rfl (by decide),
    writes_sub_of_mem (y := main_c_0) rfl (by decide),
    writes_sub_of_mem (y := main_call0_v0) rfl (by decide),
    writes_sub_of_mem (y := main_call0_v1) rfl (by decide),
    writes_sub_of_mem (y := main_v1) rfl (by decide),
    writes_sub_of_mem (y := main_c_1) rfl (by decide),
    writes_sub_of_mem (y := main_v2) rfl (by decide),
    writes_sub_of_mem (y := main_v3) rfl (by decide),
    writes_sub_of_mem (y := main_c_2) rfl (by decide),
    writes_sub_of_mem (y := main_v4) rfl (by decide),
    writes_sub_of_mem (y := main_v5) rfl (by decide),
    writes_sub_of_mem (y := main_v6) rfl (by decide),
    writes_sub_of_mem (y := main_v7) rfl (by decide),
    writes_sub_of_mem (y := main_c_3) rfl (by decide),
    writes_sub_of_mem (y := main_v8) rfl (by decide),
    writes_sub_of_mem (y := main_v9) rfl (by decide),
    writes_sub_of_mem (y := main_call1_call0_c) rfl (by decide),
    writes_sub_of_mem (y := main_call1_call0_v0) rfl (by decide),
    writes_sub_of_mem (y := main_v10) rfl (by decide),
    writes_sub_of_mem (y := main_v11) rfl (by decide),
    writes_sub_of_mem (y := main_cst) rfl (by decide),
    writes_sub_of_mem (y := main_v12) rfl (by decide),
    writes_sub_of_mem (y := main_v13) rfl (by decide),
    writes_sub_of_mem (y := main_v14) rfl (by decide),
    writes_sub_of_mem (y := main_call2_v0) rfl (by decide),
    writes_sub_of_mem (y := main_call2_v1) rfl (by decide),
    writes_sub_of_mem (y := main_v15) rfl (by decide),
    writes_sub_of_mem (y := main_c_4) rfl (by decide),
    writes_sub_of_mem (y := main_v16) rfl (by decide),
    writes_sub_of_mem (y := main_c_5) rfl (by decide),
    writes_sub_of_mem (y := main_v17) rfl (by decide),
    writes_sub_of_mem (y := main_call3_call0_c) rfl (by decide),
    writes_sub_of_mem (y := main_call3_call0_v0) rfl (by decide),
    writes_sub_of_mem (y := main_v18) rfl (by decide),
    writes_sub_of_mem (y := main_c_6) rfl (by decide),
    writes_sub_of_mem (y := main_v19) rfl (by decide),
    writes_sub_of_mem (y := main_c_7) rfl (by decide),
    writes_sub_of_mem (y := main_v20) rfl (by decide),
    writes_sub_of_mem (y := main_v21) rfl (by decide),
    writes_sub_of_mem (y := main_c_8) rfl (by decide),
    writes_sub_of_mem (y := main_v22) rfl (by decide),
    writes_sub_of_mem (y := main_v23) rfl (by decide),
    writes_sub_of_mem (y := main_v24) rfl (by decide),
    writes_sub_of_mem (y := main_v25) rfl (by decide),
    writes_sub_of_mem (y := main_c_9) rfl (by decide),
    writes_sub_of_mem (y := main_v26) rfl (by decide),
    writes_sub_of_mem (y := main_v27) rfl (by decide),
    writes_sub_of_mem (y := main_call4_call0_c) rfl (by decide),
    writes_sub_of_mem (y := main_call4_call0_v0) rfl (by decide),
    writes_sub_of_mem (y := main_v28) rfl (by decide),
    writes_sub_of_mem (y := main_c_10) rfl (by decide),
    writes_sub_of_mem (y := main_v29) rfl (by decide),
    writes_sub_of_mem (y := main_v30) rfl (by decide),
    writes_sub_of_mem (y := main_call5_c) rfl (by decide),
    writes_sub_of_mem (y := main_call5_v0) rfl (by decide),
    writes_sub_of_mem (y := main_call5_v1) rfl (by decide),
    writes_sub_of_mem (y := main_call5_c_0) rfl (by decide),
    writes_sub_of_mem (y := main_call5_v2) rfl (by decide),
    writes_sub_of_mem (y := main_call5_v3) rfl (by decide),
    writes_sub_of_mem (y := main_call5_v4) rfl (by decide),
    writes_sub_of_mem (y := main_call5_v5) rfl (by decide),
    writes_sub_of_mem (y := main_call5_c_1) rfl (by decide),
    writes_sub_of_mem (y := main_call5_c_2) rfl (by decide),
    writes_sub_of_mem (y := main_call5_v6) rfl (by decide),
    writes_sub_of_mem (y := main_call5_v7) rfl (by decide),
    writes_sub_of_mem (y := main_call5_v8) rfl (by decide),
    writes_sub_of_mem (y := main_call5_v9) rfl (by decide),
    writes_sub_of_mem (y := main_call5_v10) rfl (by decide),
    writes_sub_of_mem (y := main_call5_v11) rfl (by decide),
    writes_sub_of_mem (y := main_call5_c_3) rfl (by decide),
    writes_sub_of_mem (y := main_call5_v12) rfl (by decide),
    writes_sub_of_mem (y := main_call5_v13) rfl (by decide),
    writes_sub_of_mem (y := main_call5_c_4) rfl (by decide),
    writes_sub_of_mem (y := main_call5_v14) rfl (by decide),
    writes_sub_of_mem (y := main_v31) rfl (by decide),
    writes_sub_of_mem (y := main_c_11) rfl (by decide),
    writes_sub_of_mem (y := main_v32) rfl (by decide),
    writes_sub_of_mem (y := main_v33) rfl (by decide),
    writes_sub_of_mem (y := main_c_12) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_v38) rfl (by decide),
    writes_sub_of_mem (y := main_v39) rfl (by decide),
    writes_sub_of_mem (y := main_c_13) rfl (by decide),
    writes_sub_of_mem (y := main_v40) rfl (by decide),
    writes_sub_of_mem (y := main_v41) rfl (by decide),
    writes_sub_of_mem (y := main_c_14) rfl (by decide),
    writes_sub_of_mem (y := main_v42) rfl (by decide),
    writes_sub_of_mem (y := main_v43) rfl (by decide),
    writes_sub_of_mem (y := main_v44) rfl (by decide),
    writes_sub_of_mem (y := main_v45) rfl (by decide),
    writes_sub_of_mem (y := main_v46) rfl (by decide),
    writes_sub_of_mem (y := main_v47) rfl (by decide),
    writes_sub_of_mem (y := main_v48) rfl (by decide),
    writes_sub_of_mem (y := main_v49) rfl (by decide),
    writes_sub_of_mem (y := main_v50) rfl (by decide),
    writes_sub_of_mem (y := main_v51) rfl (by decide),
    writes_sub_of_mem (y := main_c_15) rfl (by decide),
    writes_sub_of_mem (y := main_call6_v0) rfl (by decide),
    writes_sub_of_mem (y := main_call6_v1) rfl (by decide),
    writes_sub_of_mem (y := main_v52) rfl (by decide),
    writes_sub_of_mem (y := main_c_16) rfl (by decide),
    writes_sub_of_mem (y := main_v53) rfl (by decide),
    writes_sub_of_mem (y := main_v54) rfl (by decide),
    writes_sub_of_mem (y := main_c_17) rfl (by decide),
    writes_sub_of_mem (y := main_v55) rfl (by decide),
    writes_sub_of_mem (y := main_v56) rfl (by decide),
    writes_sub_of_mem (y := main_v57) rfl (by decide),
    writes_sub_of_mem (y := main_v58) rfl (by decide),
    writes_sub_of_mem (y := main_v59) rfl (by decide),
    writes_sub_of_mem (y := main_cst_18) rfl (by decide),
    writes_sub_of_mem (y := main_v60) rfl (by decide),
    writes_sub_of_mem (y := main_v61) rfl (by decide),
    writes_sub_of_mem (y := main_v62) rfl (by decide),
    writes_sub_of_mem (y := main_v63) rfl (by decide),
    writes_sub_of_mem (y := main_call7_call0_c) rfl (by decide),
    writes_sub_of_mem (y := main_call7_call0_v0) rfl (by decide),
    writes_sub_of_mem (y := main_v64) rfl (by decide),
    writes_sub_of_mem (y := main_c_19) rfl (by decide),
    writes_sub_of_mem (y := main_v65) rfl (by decide),
    writes_sub_of_mem (y := main_v66) rfl (by decide),
    writes_sub_of_mem (y := main_c_20) rfl (by decide),
    writes_sub_of_mem (y := main_v67) rfl (by decide),
    writes_sub_of_mem (y := main_v68) rfl (by decide),
    writes_sub_of_mem (y := main_c_21) rfl (by decide),
    writes_sub_of_mem (y := main_v69) rfl (by decide),
    writes_sub_of_mem (y := main_v70) rfl (by decide),
    writes_sub_of_mem (y := main_v71) rfl (by decide),
    writes_sub_of_mem (y := main_v72) rfl (by decide),
    writes_sub_of_mem (y := main_v73) rfl (by decide),
    writes_sub_of_mem (y := main_v74) rfl (by decide),
    writes_sub_of_mem (y := main_v75) rfl (by decide)⟩

set_option maxRecDepth 8192 in
theorem opsPost_writes : (opsPost : List (HloOp τ sig (Elt F))).Forall fun op => op.writes ⊆ (opsPost_W.map (Proc.devRef (τ := τ) .tc)).toFinset :=
  ⟨writes_sub_of_mem (y := main_v76) rfl (by decide),
    writes_sub_of_mem (y := main_v77) rfl (by decide),
    writes_sub_of_mem (y := main_v78) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_v83) rfl (by decide),
    writes_sub_of_mem (y := main_v84) rfl (by decide),
    writes_sub_of_mem (y := main_v85) rfl (by decide),
    writes_sub_of_mem (y := main_v86) rfl (by decide),
    writes_sub_of_mem (y := main_v87) rfl (by decide),
    writes_sub_of_mem (y := main_v88) rfl (by decide),
    writes_sub_of_mem (y := main_v89) rfl (by decide),
    writes_sub_of_mem (y := main_v90) rfl (by decide),
    writes_sub_of_mem (y := main_call8_cst) rfl (by decide),
    writes_sub_of_mem (y := main_call8_v0) rfl (by decide),
    writes_sub_of_mem (y := main_v91) rfl (by decide),
    writes_sub_of_mem (y := main_v92) rfl (by decide),
    writes_sub_of_mem (y := main_v93) rfl (by decide),
    writes_sub_of_mem (y := main_v94) rfl (by decide),
    writes_sub_of_mem (y := main_v95) rfl (by decide),
    writes_sub_of_mem (y := main_v96) rfl (by decide),
    writes_sub_of_mem (y := main_v97) rfl (by decide),
    writes_sub_of_mem (y := main_v98) rfl (by decide),
    writes_sub_of_mem (y := main_v99) rfl (by decide),
    writes_sub_of_mem (y := main_v100) rfl (by decide),
    writes_sub_of_mem (y := main_v101) rfl (by decide),
    writes_sub_of_mem (y := main_v102) rfl (by decide),
    writes_sub_of_mem (y := main_v103) rfl (by decide),
    writes_sub_of_mem (y := main_v104) rfl (by decide),
    writes_sub_of_mem (y := main_v105) rfl (by decide),
    writes_sub_of_mem (y := main_v106) rfl (by decide),
    writes_sub_of_mem (y := main_v107) rfl (by decide),
    writes_sub_of_mem (y := main_v108) rfl (by decide),
    writes_sub_of_mem (y := main_v109) rfl (by decide),
    writes_sub_of_mem (y := main_v110) rfl (by decide),
    writes_sub_of_mem (y := main_v111) rfl (by decide),
    writes_sub_of_mem (y := main_v112) rfl (by decide),
    writes_sub_of_mem (y := main_call9_cst) rfl (by decide),
    writes_sub_of_mem (y := main_call9_v0) rfl (by decide),
    writes_sub_of_mem (y := main_v113) rfl (by decide),
    writes_sub_of_mem (y := main_v114) rfl (by decide),
    writes_sub_of_mem (y := main_v115) rfl (by decide),
    writes_sub_of_mem (y := main_v116) rfl (by decide),
    writes_sub_of_mem (y := main_v117) rfl (by decide),
    writes_sub_of_mem (y := main_v118) rfl (by decide),
    writes_sub_of_mem (y := main_v119) rfl (by decide),
    writes_sub_of_mem (y := main_v120) rfl (by decide),
    writes_sub_of_mem (y := main_v121) rfl (by decide),
    writes_sub_of_mem (y := main_v122) rfl (by decide),
    writes_sub_of_mem (y := main_v123) rfl (by decide),
    writes_sub_of_mem (y := main_v124) rfl (by decide),
    writes_sub_of_mem (y := main_v125) rfl (by decide),
    writes_sub_of_mem (y := main_v126) rfl (by decide),
    writes_sub_of_mem (y := main_v127) rfl (by decide),
    writes_sub_of_mem (y := main_v128) rfl (by decide),
    writes_sub_of_mem (y := main_v129) rfl (by decide),
    writes_sub_of_mem (y := main_v130) rfl (by decide),
    writes_sub_of_mem (y := main_v131) rfl (by decide),
    writes_sub_of_mem (y := main_v132) rfl (by decide),
    writes_sub_of_mem (y := main_v133) rfl (by decide),
    writes_sub_of_mem (y := main_v134) rfl (by decide),
    writes_sub_of_mem (y := main_call10_cst) rfl (by decide),
    writes_sub_of_mem (y := main_call10_v0) rfl (by decide),
    writes_sub_of_mem (y := main_v135) rfl (by decide),
    writes_sub_of_mem (y := main_v136) rfl (by decide),
    writes_sub_of_mem (y := main_v137) rfl (by decide),
    writes_sub_of_mem (y := main_v138) rfl (by decide),
    writes_sub_of_mem (y := main_v139) rfl (by decide),
    writes_sub_of_mem (y := main_v140) rfl (by decide),
    writes_sub_of_mem (y := main_v141) rfl (by decide),
    writes_sub_of_mem (y := main_v142) rfl (by decide),
    writes_sub_of_mem (y := main_v143) rfl (by decide),
    writes_sub_of_mem (y := main_v144) rfl (by decide),
    writes_sub_of_mem (y := main_v145) rfl (by decide),
    writes_sub_of_mem (y := main_v146) rfl (by decide),
    writes_sub_of_mem (y := main_v147) rfl (by decide),
    writes_sub_of_mem (y := main_c_22) rfl (by decide),
    writes_sub_of_mem (y := main_v148) rfl (by decide),
    writes_sub_of_mem (y := main_v149) rfl (by decide),
    writes_sub_of_mem (y := main_c_23) rfl (by decide),
    writes_sub_of_mem (y := main_v150) rfl (by decide),
    writes_sub_of_mem (y := main_v151) rfl (by decide),
    writes_sub_of_mem (y := main_v152) rfl (by decide),
    writes_sub_of_mem (y := main_v153) rfl (by decide),
    writes_sub_of_mem (y := main_v154) rfl (by decide),
    writes_sub_of_mem (y := main_v155) rfl (by decide),
    writes_sub_of_mem (y := main_cst_24) rfl (by decide),
    writes_sub_of_mem (y := main_v156) rfl (by decide),
    writes_sub_of_mem (y := main_v157) rfl (by decide),
    writes_sub_of_mem (y := main_v158) rfl (by decide)⟩

/-- A buffer no operation of `opsPre` writes holds after them what it held before. -/
theorem opsPre_keeps (V : Valuation τ sig (Elt F)) (r : Ref sig .tc) (h : r ∉ opsPre_W) :
    after opsPre V (Proc.devRef .tc r) = V (Proc.devRef .tc r) :=
  after_of_writes_sub opsPre V opsPre_writes h

/-- The same for `opsPost`. -/
theorem opsPost_keeps (V : Valuation τ sig (Elt F)) (r : Ref sig .tc) (h : r ∉ opsPost_W) :
    after opsPost V (Proc.devRef .tc r) = V (Proc.devRef .tc r) :=
  after_of_writes_sub opsPost V opsPost_writes h

/-- The fold over all of @main is the fold over `opsPost` from the fold over `opsPre`. -/
theorem after_ops (V : Valuation τ sig (Elt F)) : after ops V = after opsPost (after opsPre V) :=
  after_append opsPre opsPost V

/-- A buffer written by neither half holds at the end what it held at launch. -/
theorem ops_keeps (V : Valuation τ sig (Elt F)) (r : Ref sig .tc) (h₁ : r ∉ opsPre_W) (h₂ : r ∉ opsPost_W) :
    after ops V (Proc.devRef .tc r) = V (Proc.devRef .tc r) := by
  rw [after_ops, opsPost_keeps _ r h₂, opsPre_keeps _ r h₁]

/-- What `opsPre` computed is still there at the end wherever `opsPost` does not write. -/
theorem after_ops_of_not_post (V : Valuation τ sig (Elt F)) (r : Ref sig .tc) (h : r ∉ opsPost_W) :
    after ops V (Proc.devRef .tc r) = after opsPre V (Proc.devRef .tc r) := by
  rw [after_ops, opsPost_keeps _ r h]

/-- On every device, for any float values, from any memory with zero counters: every weakly fair execution of @main
    terminates, and every final state has each TensorCore buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer no operation writes ends at its launch contents. -/
theorem kept_of (m : (ℓ : Loc nD τ sig) → Buf (Elt F) ℓ) (c : Dev nD) (r : Ref sig .tc) (h₁ : r ∉ opsPre_W) (h₂ : r ∉ opsPost_W) :
    after ops (launchContents m c) (Proc.devRef .tc r) = m ((c.tc : Thread nD τ).loc r) :=
  ops_keeps (launchContents m c) r h₁ h₂

/-- No operation writes an argument: each of the seventeen ends at its launch contents. -/
theorem kept (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6)
    ∧ after ops (launchContents m c) (Proc.devRef .tc main_arg7) = m ((c.tc : Thread nD τ).loc main_arg7)
    ∧ after ops (launchContents m c) (Proc.devRef .tc main_arg8) = m ((c.tc : Thread nD τ).loc main_arg8)
    ∧ after ops (launchContents m c) (Proc.devRef .tc main_arg9) = m ((c.tc : Thread nD τ).loc main_arg9)
    ∧ after ops (launchContents m c) (Proc.devRef .tc main_arg10) = m ((c.tc : Thread nD τ).loc main_arg10)
    ∧ after ops (launchContents m c) (Proc.devRef .tc main_arg11) = m ((c.tc : Thread nD τ).loc main_arg11)
    ∧ after ops (launchContents m c) (Proc.devRef .tc main_arg12) = m ((c.tc : Thread nD τ).loc main_arg12)
    ∧ after ops (launchContents m c) (Proc.devRef .tc main_arg13) = m ((c.tc : Thread nD τ).loc main_arg13)
    ∧ after ops (launchContents m c) (Proc.devRef .tc main_arg14) = m ((c.tc : Thread nD τ).loc main_arg14)
    ∧ after ops (launchContents m c) (Proc.devRef .tc main_arg15) = m ((c.tc : Thread nD τ).loc main_arg15)
    ∧ after ops (launchContents m c) (Proc.devRef .tc main_arg16) = m ((c.tc : Thread nD τ).loc main_arg16) :=
  ⟨kept_of m c main_arg0 (by decide) (by decide),
    kept_of m c main_arg1 (by decide) (by decide),
    kept_of m c main_arg2 (by decide) (by decide),
    kept_of m c main_arg3 (by decide) (by decide),
    kept_of m c main_arg4 (by decide) (by decide),
    kept_of m c main_arg5 (by decide) (by decide),
    kept_of m c main_arg6 (by decide) (by decide),
    kept_of m c main_arg7 (by decide) (by decide),
    kept_of m c main_arg8 (by decide) (by decide),
    kept_of m c main_arg9 (by decide) (by decide),
    kept_of m c main_arg10 (by decide) (by decide),
    kept_of m c main_arg11 (by decide) (by decide),
    kept_of m c main_arg12 (by decide) (by decide),
    kept_of m c main_arg13 (by decide) (by decide),
    kept_of m c main_arg14 (by decide) (by decide),
    kept_of m c main_arg15 (by decide) (by decide),
    kept_of m c main_arg16 (by decide) (by decide)⟩

/-- The reference's frame claim: its run terminates and leaves the seventeen arguments as launched. -/
theorem frame : Cert.frame_ReferenceIdeal := fun m ρ _ =>
  (θ_run Cert.ReferenceIdeal.defs _ _).mono
    (fun _ h c =>
      ⟨(h c main_arg0).trans (kept (F := Ideal) m c).1,
       (h c main_arg1).trans (kept (F := Ideal) m c).2.1,
       (h c main_arg2).trans (kept (F := Ideal) m c).2.2.1,
       (h c main_arg3).trans (kept (F := Ideal) m c).2.2.2.1,
       (h c main_arg4).trans (kept (F := Ideal) m c).2.2.2.2.1,
       (h c main_arg5).trans (kept (F := Ideal) m c).2.2.2.2.2.1,
       (h c main_arg6).trans (kept (F := Ideal) m c).2.2.2.2.2.2.1,
       (h c main_arg7).trans (kept (F := Ideal) m c).2.2.2.2.2.2.2.1,
       (h c main_arg8).trans (kept (F := Ideal) m c).2.2.2.2.2.2.2.2.1,
       (h c main_arg9).trans (kept (F := Ideal) m c).2.2.2.2.2.2.2.2.2.1,
       (h c main_arg10).trans (kept (F := Ideal) m c).2.2.2.2.2.2.2.2.2.2.1,
       (h c main_arg11).trans (kept (F := Ideal) m c).2.2.2.2.2.2.2.2.2.2.2.1,
       (h c main_arg12).trans (kept (F := Ideal) m c).2.2.2.2.2.2.2.2.2.2.2.2.1,
       (h c main_arg13).trans (kept (F := Ideal) m c).2.2.2.2.2.2.2.2.2.2.2.2.2.1,
       (h c main_arg14).trans (kept (F := Ideal) m c).2.2.2.2.2.2.2.2.2.2.2.2.2.2.1,
       (h c main_arg15).trans (kept (F := Ideal) m c).2.2.2.2.2.2.2.2.2.2.2.2.2.2.2.1,
       (h c main_arg16).trans (kept (F := Ideal) m c).2.2.2.2.2.2.2.2.2.2.2.2.2.2.2.2⟩)
    (run_after (F := Ideal) m ρ)

end Cert.ReferenceIdeal.HandRun

end
-- ==== Proof.PrefixEq.lean ====
import proofs.«104216_j3135326126725_1_alg».proof.Proof.RefRun
import proofs.«104216_j3135326126725_1_alg».proof.Proof.Gen.KernelIdeal.Regions

/-! The reference's host prefix and the kernel program's host prefix compute the same three arrays.

Both programs begin with the same host operations in the same order — the segment bookkeeping, the gathers, the
segment means — each over its own buffers. Cut at the same places, each stretch of one program is the same list of
functions as the stretch of the other; so from launch contents that agree on the arguments, the buffers the later
stretches read agree after every stretch, and at the end so do the gathered means and the two slices of the input
projection's weight and bias. -/

set_option maxRecDepth 4096

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 3 of `opsPre`. -/
abbrev rc0 : List (HloOp τ sig (Elt F)) :=
  [ StableHlo.nullary main_c (constantI S_ 32 0#32),
    StableHlo.unary main_c main_v0 (broadcastInDim S1024 ![] bcast_S_S1024 : (⟨S_, .i32⟩ : BufTy).Contents (Elt F) → (⟨S1024, .i32⟩ : BufTy).Contents (Elt F)),
    StableHlo.nullary main_c_0 (constantI S_ 32 0#32) ]

/-- Operations 4 … 6 of `opsPre`. -/
abbrev rc1 : List (HloOp τ sig (Elt F)) :=
  [ StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32768, .i32⟩) (broadcastInDim S32768 ![] bcast_S_S32768),
    StableHlo.TRef.binary (.of main_call0_v1 : StableHlo.TRef sig ⟨S32768, .i32⟩) (.of main_arg13 : StableHlo.TRef sig ⟨S32768, .i32⟩) (.of main_v1 : StableHlo.TRef sig ⟨S32768, .i32⟩) maxsi ]

/-- Operations 7 … 17 of `opsPre`. -/
abbrev rc2 : List (HloOp τ sig (Elt F)) :=
  [ StableHlo.nullary main_c_1 (constantI S_ 32 0#32),
    StableHlo.unary main_c_1 main_v2 (broadcastInDim S32768 ![] bcast_S_S32768 : (⟨S_, .i32⟩ : BufTy).Contents (Elt F) → (⟨S32768, .i32⟩ : BufTy).Contents (Elt F)),
    StableHlo.binary main_v1 main_v2 main_v3 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 1024#32),
    StableHlo.unary main_c_2 main_v4 (broadcastInDim S32768 ![] bcast_S_S32768 : (⟨S_, .i32⟩ : BufTy).Contents (Elt F) → (⟨S32768, .i32⟩ : BufTy).Contents (Elt F)),
    StableHlo.binary main_v1 main_v4 main_v5 (addi : (⟨S32768, .i32⟩ : BufTy).Contents (Elt F) → (⟨S32768, .i32⟩ : BufTy).Contents (Elt F) → (⟨S32768, .i32⟩ : BufTy).Contents (Elt F)),
    StableHlo.ternary main_v3 main_v5 main_v1 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v6 main_v7 (broadcastInDim S32768x1 ![0] bcast_S32768_S32768x1_0 : (⟨S32768, .i32⟩ : BufTy).Contents (Elt F) → (⟨S32768x1, .i32⟩ : BufTy).Contents (Elt F)),
    StableHlo.nullary main_c_3 (constantI S_ 32 1#32),
    StableHlo.unary main_c_3 main_v8 (broadcastInDim S32768 ![] bcast_S_S32768 : (⟨S_, .i32⟩ : BufTy).Contents (Elt F) → (⟨S32768, .i32⟩ : BufTy).Contents (Elt F)),
    StableHlo.ternary main_v0 main_v7 main_v8 main_v9 ((fun x i u => Host.scatter scatter_S1024_S32768x1_S32768_n_0_0_1 IntOp.addi x i u) : (⟨S1024, .i32⟩ : BufTy).Contents (Elt F) → (⟨S32768x1, .i32⟩ : BufTy).Contents (Elt F) → (⟨S32768, .i32⟩ : BufTy).Contents (Elt F) → (⟨S1024, .i32⟩ : BufTy).Contents (Elt F)) ]

/-- Operations 18 … 20 of `opsPre`. -/
abbrev rc3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v9 : StableHlo.TRef sig ⟨S1024, .i32⟩) (.of main_call1_call0_v0 : StableHlo.TRef sig ⟨S_, .i32⟩) (.of main_v10 : StableHlo.TRef sig ⟨S1024, .i32⟩) (fun x v => Host.reduceWindow IntOp.addi ![1024] ![1] ![1023] ![0] x v reduceWindows_S1024_S1024_w1024s1p1023_0 h_S_) ]

/-- Operations 21 … 25 of `opsPre`. -/
abbrev rc4 : List (HloOp τ sig (Elt F)) :=
  [ StableHlo.binary main_v10 main_v9 main_v11 (subi : (⟨S1024, .i32⟩ : BufTy).Contents (Elt F) → (⟨S1024, .i32⟩ : BufTy).Contents (Elt F) → (⟨S1024, .i32⟩ : BufTy).Contents (Elt F)),
    StableHlo.nullary main_cst (constant S_ .f32 0x00000000#32),
    StableHlo.unary main_cst main_v12 (broadcastInDim S1x256 ![] bcast_S_S1x256 : (⟨S_, .f32⟩ : BufTy).Contents (Elt F) → (⟨S1x256, .f32⟩ : BufTy).Contents (Elt F)),
    StableHlo.binary main_arg0 main_v12 main_v13 ((fun a b => concatenate S32769x256 0 [⟨S32768x256, a⟩, ⟨S1x256, b⟩] concatenates_S32768x256_S1x256_S32769x256_d0) : (⟨S32768x256, .f32⟩ : BufTy).Contents (Elt F) → (⟨S1x256, .f32⟩ : BufTy).Contents (Elt F) → (⟨S32769x256, .f32⟩ : BufTy).Contents (Elt F)),
    StableHlo.nullary main_v14 (iotaInDim S1024 32 0) ]

/-- Operations 26 … 28 of `opsPre`. -/
abbrev rc5 : List (HloOp τ sig (Elt F)) :=
  [ StableHlo.TRef.unary (.of main_arg15 : StableHlo.TRef sig ⟨S1024, .i32⟩) (.of main_call2_v0 : StableHlo.TRef sig ⟨S1, .i32⟩) (extractStridedSlice S1 ![1023] · slices_S1024_S1_1023),
    StableHlo.TRef.unary (.of main_arg15 : StableHlo.TRef sig ⟨S1024, .i32⟩) (.of main_call2_v1 : StableHlo.TRef sig ⟨S1023, .i32⟩) (extractStridedSlice S1023 ![0] · slices_S1024_S1023_0),
    StableHlo.TRef.binary (.of main_call2_v0 : StableHlo.TRef sig ⟨S1, .i32⟩) (.of main_call2_v1 : StableHlo.TRef sig ⟨S1023, .i32⟩) (.of main_v15 : StableHlo.TRef sig ⟨S1024, .i32⟩) (fun a b => concatenate S1024 0 [⟨S1, a⟩, ⟨S1023, b⟩] concatenates_S1_S1023_S1024_d0) ]

/-- Operations 29 … 32 of `opsPre`. -/
abbrev rc6 : List (HloOp τ sig (Elt F)) :=
  [ StableHlo.nullary main_c_4 (constantI S_ 32 0#32),
    StableHlo.unary main_c_4 main_v16 (broadcastInDim S1 ![] bcast_S_S1 : (⟨S_, .i32⟩ : BufTy).Contents (Elt F) → (⟨S1, .i32⟩ : BufTy).Contents (Elt F)),
    StableHlo.nullary main_c_5 (constantI S_ 32 0#32),
    StableHlo.ternary main_v15 main_v16 main_c_5 main_v17 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)) ]

/-- Operations 33 … 35 of `opsPre`. -/
abbrev rc7 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v17 : StableHlo.TRef sig ⟨S1024, .i32⟩) (.of main_call3_call0_v0 : StableHlo.TRef sig ⟨S_, .i32⟩) (.of main_v18 : StableHlo.TRef sig ⟨S1024, .i32⟩) (fun x v => Host.reduceWindow IntOp.addi ![1024] ![1] ![1023] ![0] x v reduceWindows_S1024_S1024_w1024s1p1023_0 h_S_) ]

/-- Operations 36 … 48 of `opsPre`. -/
abbrev rc8 : List (HloOp τ sig (Elt F)) :=
  [ StableHlo.nullary main_c_6 (constantI S_ 32 0#32),
    StableHlo.unary main_c_6 main_v19 (broadcastInDim S51200 ![] bcast_S_S51200 : (⟨S_, .i32⟩ : BufTy).Contents (Elt F) → (⟨S51200, .i32⟩ : BufTy).Contents (Elt F)),
    StableHlo.nullary main_c_7 (constantI S_ 32 0#32),
    StableHlo.unary main_c_7 main_v20 (broadcastInDim S1024 ![] bcast_S_S1024 : (⟨S_, .i32⟩ : BufTy).Contents (Elt F) → (⟨S1024, .i32⟩ : BufTy).Contents (Elt F)),
    StableHlo.binary main_v18 main_v20 main_v21 (cmpi .slt : (⟨S1024, .i32⟩ : BufTy).Contents (Elt F) → (⟨S1024, .i32⟩ : BufTy).Contents (Elt F) → (⟨S1024, .i1⟩ : BufTy).Contents (Elt F)),
    StableHlo.nullary main_c_8 (constantI S_ 32 51200#32),
    StableHlo.unary main_c_8 main_v22 (broadcastInDim S1024 ![] bcast_S_S1024 : (⟨S_, .i32⟩ : BufTy).Contents (Elt F) → (⟨S1024, .i32⟩ : BufTy).Contents (Elt F)),
    StableHlo.binary main_v18 main_v22 main_v23 (addi : (⟨S1024, .i32⟩ : BufTy).Contents (Elt F) → (⟨S1024, .i32⟩ : BufTy).Contents (Elt F) → (⟨S1024, .i32⟩ : BufTy).Contents (Elt F)),
    StableHlo.ternary main_v21 main_v23 main_v18 main_v24 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v24 main_v25 (broadcastInDim S1024x1 ![0] bcast_S1024_S1024x1_0 : (⟨S1024, .i32⟩ : BufTy).Contents (Elt F) → (⟨S1024x1, .i32⟩ : BufTy).Contents (Elt F)),
    StableHlo.nullary main_c_9 (constantI S_ 32 1#32),
    StableHlo.unary main_c_9 main_v26 (broadcastInDim S1024 ![] bcast_S_S1024 : (⟨S_, .i32⟩ : BufTy).Contents (Elt F) → (⟨S1024, .i32⟩ : BufTy).Contents (Elt F)),
    StableHlo.ternary main_v19 main_v25 main_v26 main_v27 ((fun x i u => Host.scatter scatter_S51200_S1024x1_S1024_n_0_0_1 IntOp.addi x i u) : (⟨S51200, .i32⟩ : BufTy).Contents (Elt F) → (⟨S1024x1, .i32⟩ : BufTy).Contents (Elt F) → (⟨S1024, .i32⟩ : BufTy).Contents (Elt F) → (⟨S51200, .i32⟩ : BufTy).Contents (Elt F)) ]

/-- Operations 49 … 51 of `opsPre`. -/
abbrev rc9 : List (HloOp τ sig (Elt F)) :=
  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v27 : StableHlo.TRef sig ⟨S51200, .i32⟩) (.of main_call4_call0_v0 : StableHlo.TRef sig ⟨S_, .i32⟩) (.of main_v28 : StableHlo.TRef sig ⟨S51200, .i32⟩) (fun x v => Host.reduceWindow IntOp.addi ![51200] ![1] ![51199] ![0] x v reduceWindows_S51200_S51200_w51200s1p51199_0 h_S_) ]

/-- Operations 52 … 54 of `opsPre`. -/
abbrev rc10 : List (HloOp τ sig (Elt F)) :=
  [ StableHlo.nullary main_c_10 (constantI S_ 32 1#32),
    StableHlo.unary main_c_10 main_v29 (broadcastInDim S51200 ![] bcast_S_S51200 : (⟨S_, .i32⟩ : BufTy).Contents (Elt F) → (⟨S51200, .i32⟩ : BufTy).Contents (Elt F)),
    StableHlo.binary main_v28 main_v29 main_v30 (subi : (⟨S51200, .i32⟩ : BufTy).Contents (Elt F) → (⟨S51200, .i32⟩ : BufTy).Contents (Elt F) → (⟨S51200, .i32⟩ : BufTy).Contents (Elt F)) ]

/-- Operations 55 … 76 of `opsPre`. -/
abbrev rc11 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S51200, .i32⟩) (broadcastInDim S51200 ![] bcast_S_S51200),
    StableHlo.TRef.binary (.of main_v30 : StableHlo.TRef sig ⟨S51200, .i32⟩) (.of main_call5_v0 : StableHlo.TRef sig ⟨S51200, .i32⟩) (.of main_call5_v1 : StableHlo.TRef sig ⟨S51200, .i1⟩) (cmpi .slt),
    StableHlo.TRef.nullary (.of main_call5_c_0 : StableHlo.TRef sig ⟨S_, .i32⟩) (constantI S_ 32 1024#32),
    StableHlo.TRef.unary (.of main_call5_c_0 : StableHlo.TRef sig ⟨S_, .i32⟩) (.of main_call5_v2 : StableHlo.TRef sig ⟨S51200, .i32⟩) (broadcastInDim S51200 ![] bcast_S_S51200),
    StableHlo.TRef.binary (.of main_v30 : StableHlo.TRef sig ⟨S51200, .i32⟩) (.of main_call5_v2 : StableHlo.TRef sig ⟨S51200, .i32⟩) (.of main_call5_v3 : StableHlo.TRef sig ⟨S51200, .i32⟩) addi,
    StableHlo.TRef.ternary (.of main_call5_v1 : StableHlo.TRef sig ⟨S51200, .i1⟩) (.of main_call5_v3 : StableHlo.TRef sig ⟨S51200, .i32⟩) (.of main_v30 : StableHlo.TRef sig ⟨S51200, .i32⟩) (.of main_call5_v4 : StableHlo.TRef sig ⟨S51200, .i32⟩) select,
    StableHlo.TRef.unary (.of main_call5_v4 : StableHlo.TRef sig ⟨S51200, .i32⟩) (.of main_call5_v5 : StableHlo.TRef sig ⟨S51200x1, .i32⟩) (broadcastInDim S51200x1 ![0] bcast_S51200_S51200x1_0),
    StableHlo.TRef.nullary (.of main_call5_c_1 : StableHlo.TRef sig ⟨S1, .i32⟩) (constantI S1 32 1023#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S51200x1, .i32⟩) (broadcastInDim S51200x1 ![] bcast_S_S51200x1),
    StableHlo.TRef.binary (.of main_call5_v5 : StableHlo.TRef sig ⟨S51200x1, .i32⟩) (.of main_call5_v6 : StableHlo.TRef sig ⟨S51200x1, .i32⟩) (.of main_call5_v7 : StableHlo.TRef sig ⟨S51200x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S51200x1, .i32⟩) (broadcastInDim S51200x1 ![0, 1] bcast_S1x1_S51200x1_0_1),
    StableHlo.TRef.binary (.of main_call5_v5 : StableHlo.TRef sig ⟨S51200x1, .i32⟩) (.of main_call5_v9 : StableHlo.TRef sig ⟨S51200x1, .i32⟩) (.of main_call5_v10 : StableHlo.TRef sig ⟨S51200x1, .i1⟩) (cmpi .sle),
    StableHlo.TRef.binary (.of main_call5_v7 : StableHlo.TRef sig ⟨S51200x1, .i1⟩) (.of main_call5_v10 : StableHlo.TRef sig ⟨S51200x1, .i1⟩) (.of main_call5_v11 : StableHlo.TRef sig ⟨S51200x1, .i1⟩) andi,
    StableHlo.TRef.nullary (.of main_call5_c_3 : StableHlo.TRef sig ⟨S_, .i1⟩) (constantI S_ 1 1#1),
    StableHlo.TRef.binary (.of main_call5_v11 : StableHlo.TRef sig ⟨S51200x1, .i1⟩) (.of main_call5_c_3 : StableHlo.TRef sig ⟨S_, .i1⟩) (.of main_call5_v12 : StableHlo.TRef sig ⟨S51200, .i1⟩) (fun x v => Host.reduce IntOp.andi x v reducesTo_S51200x1_S51200_d1 h_S_),
    StableHlo.TRef.binary (.of main_v14 : StableHlo.TRef sig ⟨S1024, .i32⟩) (.of main_call5_v5 : StableHlo.TRef sig ⟨S51200x1, .i32⟩) (.of main_call5_v13 : StableHlo.TRef sig ⟨S51200, .i32⟩) (fun x i => Host.gather gather_S1024_S51200x1_S51200_n_0_n_n_0_1_1 x i),
    StableHlo.TRef.nullary (.of main_call5_c_4 : StableHlo.TRef sig ⟨S_, .i32⟩) (constantI S_ 32 2147483648#32),
    StableHlo.TRef.unary (.of main_call5_c_4 : StableHlo.TRef sig ⟨S_, .i32⟩) (.of main_call5_v14 : StableHlo.TRef sig ⟨S51200, .i32⟩) (broadcastInDim S51200 ![] bcast_S_S51200),
    StableHlo.TRef.ternary (.of main_call5_v12 : StableHlo.TRef sig ⟨S51200, .i1⟩) (.of main_call5_v13 : StableHlo.TRef sig ⟨S51200, .i32⟩) (.of main_call5_v14 : StableHlo.TRef sig ⟨S51200, .i32⟩) (.of main_v31 : StableHlo.TRef sig ⟨S51200, .i32⟩) select ]

/-- Operations 77 … 101 of `opsPre`. -/
abbrev rc12 : List (HloOp τ sig (Elt F)) :=
  [ StableHlo.nullary main_c_11 (constantI S_ 32 0#32),
    StableHlo.unary main_c_11 main_v32 (broadcastInDim S51200 ![] bcast_S_S51200 : (⟨S_, .i32⟩ : BufTy).Contents (Elt F) → (⟨S51200, .i32⟩ : BufTy).Contents (Elt F)),
    StableHlo.binary main_v31 main_v32 main_v33 (cmpi .slt : (⟨S51200, .i32⟩ : BufTy).Contents (Elt F) → (⟨S51200, .i32⟩ : BufTy).Contents (Elt F) → (⟨S51200, .i1⟩ : BufTy).Contents (Elt F)),
    StableHlo.nullary main_c_12 (constantI S_ 32 1024#32),
    StableHlo.unary main_c_12 main_v34 (broadcastInDim S51200 ![] bcast_S_S51200 : (⟨S_, .i32⟩ : BufTy).Contents (Elt F) → (⟨S51200, .i32⟩ : BufTy).Contents (Elt F)),
    StableHlo.binary main_v31 main_v34 main_v35 (addi : (⟨S51200, .i32⟩ : BufTy).Contents (Elt F) → (⟨S51200, .i32⟩ : BufTy).Contents (Elt F) → (⟨S51200, .i32⟩ : BufTy).Contents (Elt F)),
    StableHlo.ternary main_v33 main_v35 main_v31 main_v36 (select : (⟨S51200, .i1⟩ : BufTy).Contents (Elt F) → (⟨S51200, .i32⟩ : BufTy).Contents (Elt F) → (⟨S51200, .i32⟩ : BufTy).Contents (Elt F) → (⟨S51200, .i32⟩ : BufTy).Contents (Elt F)),
    StableHlo.unary main_v36 main_v37 (broadcastInDim S51200x1 ![0] bcast_S51200_S51200x1_0 : (⟨S51200, .i32⟩ : BufTy).Contents (Elt F) → (⟨S51200x1, .i32⟩ : BufTy).Contents (Elt F)),
    StableHlo.binary main_v9 main_v37 main_v38 ((fun x i => Host.gather gather_S1024_S51200x1_S51200_n_0_n_n_0_1_1 x i) : (⟨S1024, .i32⟩ : BufTy).Contents (Elt F) → (⟨S51200x1, .i32⟩ : BufTy).Contents (Elt F) → (⟨S51200, .i32⟩ : BufTy).Contents (Elt F)),
    StableHlo.unary main_v38 main_v39 (broadcastInDim S51200x1 ![0] bcast_S51200_S51200x1_0 : (⟨S51200, .i32⟩ : BufTy).Contents (Elt F) → (⟨S51200x1, .i32⟩ : BufTy).Contents (Elt F)),
    StableHlo.nullary main_c_13 (constantI S_ 32 0#32),
    StableHlo.unary main_c_13 main_v40 (broadcastInDim S51200 ![] bcast_S_S51200 : (⟨S_, .i32⟩ : BufTy).Contents (Elt F) → (⟨S51200, .i32⟩ : BufTy).Contents (Elt F)),
    StableHlo.binary main_v31 main_v40 main_v41 (cmpi .slt : (⟨S51200, .i32⟩ : BufTy).Contents (Elt F) → (⟨S51200, .i32⟩ : BufTy).Contents (Elt F) → (⟨S51200, .i1⟩ : BufTy).Contents (Elt F)),
    StableHlo.nullary main_c_14 (constantI S_ 32 1024#32),
    StableHlo.unary main_c_14 main_v42 (broadcastInDim S51200 ![] bcast_S_S51200 : (⟨S_, .i32⟩ : BufTy).Contents (Elt F) → (⟨S51200, .i32⟩ : BufTy).Contents (Elt F)),
    StableHlo.binary main_v31 main_v42 main_v43 (addi : (⟨S51200, .i32⟩ : BufTy).Contents (Elt F) → (⟨S51200, .i32⟩ : BufTy).Contents (Elt F) → (⟨S51200, .i32⟩ : BufTy).Contents (Elt F)),
    StableHlo.ternary main_v41 main_v43 main_v31 main_v44 (select : (⟨S51200, .i1⟩ : BufTy).Contents (Elt F) → (⟨S51200, .i32⟩ : BufTy).Contents (Elt F) → (⟨S51200, .i32⟩ : BufTy).Contents (Elt F) → (⟨S51200, .i32⟩ : BufTy).Contents (Elt F)),
    StableHlo.unary main_v44 main_v45 (broadcastInDim S51200x1 ![0] bcast_S51200_S51200x1_0 : (⟨S51200, .i32⟩ : BufTy).Contents (Elt F) → (⟨S51200x1, .i32⟩ : BufTy).Contents (Elt F)),
    StableHlo.binary main_v11 main_v45 main_v46 ((fun x i => Host.gather gather_S1024_S51200x1_S51200_n_0_n_n_0_1_1 x i) : (⟨S1024, .i32⟩ : BufTy).Contents (Elt F) → (⟨S51200x1, .i32⟩ : BufTy).Contents (Elt F) → (⟨S51200, .i32⟩ : BufTy).Contents (Elt F)),
    StableHlo.unary main_v46 main_v47 (broadcastInDim S51200x1 ![0] bcast_S51200_S51200x1_0 : (⟨S51200, .i32⟩ : BufTy).Contents (Elt F) → (⟨S51200x1, .i32⟩ : BufTy).Contents (Elt F)),
    StableHlo.unary main_v39 main_v48 (broadcastInDim S51200x3 ![0, 1] bcast_S51200x1_S51200x3_0_1 : (⟨S51200x1, .i32⟩ : BufTy).Contents (Elt F) → (⟨S51200x3, .i32⟩ : BufTy).Contents (Elt F)),
    StableHlo.binary main_arg14 main_v48 main_v49 (cmpi .eq : (⟨S51200x3, .i32⟩ : BufTy).Contents (Elt F) → (⟨S51200x3, .i32⟩ : BufTy).Contents (Elt F) → (⟨S51200x3, .i1⟩ : BufTy).Contents (Elt F)),
    StableHlo.unary main_v47 main_v50 (broadcastInDim S51200x3 ![0, 1] bcast_S51200x1_S51200x3_0_1 : (⟨S51200x1, .i32⟩ : BufTy).Contents (Elt F) → (⟨S51200x3, .i32⟩ : BufTy).Contents (Elt F)),
    StableHlo.binary main_v50 main_arg14 main_v51 (addi : (⟨S51200x3, .i32⟩ : BufTy).Contents (Elt F) → (⟨S51200x3, .i32⟩ : BufTy).Contents (Elt F) → (⟨S51200x3, .i32⟩ : BufTy).Contents (Elt F)),
    StableHlo.nullary main_c_15 (constantI S_ 32 32768#32) ]

/-- Operations 102 … 104 of `opsPre`. -/
abbrev rc13 : List (HloOp τ sig (Elt F)) :=
  [ StableHlo.TRef.unary (.of main_c_15 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S51200x3, .i32⟩) (broadcastInDim S51200x3 ![] bcast_S_S51200x3),
    StableHlo.TRef.ternary (.of main_v49 : StableHlo.TRef sig ⟨S51200x3, .i1⟩) (.of main_call6_v1 : StableHlo.TRef sig ⟨S51200x3, .i32⟩) (.of main_v51 : StableHlo.TRef sig ⟨S51200x3, .i32⟩) (.of main_v52 : StableHlo.TRef sig ⟨S51200x3, .i32⟩) select ]

/-- Operations 105 … 118 of `opsPre`. -/
abbrev rc14 : List (HloOp τ sig (Elt F)) :=
  [ StableHlo.nullary main_c_16 (constantI S_ 32 0#32),
    StableHlo.unary main_c_16 main_v53 (broadcastInDim S51200x3 ![] bcast_S_S51200x3 : (⟨S_, .i32⟩ : BufTy).Contents (Elt F) → (⟨S51200x3, .i32⟩ : BufTy).Contents (Elt F)),
    StableHlo.binary main_v52 main_v53 main_v54 (cmpi .slt : (⟨S51200x3, .i32⟩ : BufTy).Contents (Elt F) → (⟨S51200x3, .i32⟩ : BufTy).Contents (Elt F) → (⟨S51200x3, .i1⟩ : BufTy).Contents (Elt F)),
    StableHlo.nullary main_c_17 (constantI S_ 32 32769#32),
    StableHlo.unary main_c_17 main_v55 (broadcastInDim S51200x3 ![] bcast_S_S51200x3 : (⟨S_, .i32⟩ : BufTy).Contents (Elt F) → (⟨S51200x3, .i32⟩ : BufTy).Contents (Elt F)),
    StableHlo.binary main_v52 main_v55 main_v56 (addi : (⟨S51200x3, .i32⟩ : BufTy).Contents (Elt F) → (⟨S51200x3, .i32⟩ : BufTy).Contents (Elt F) → (⟨S51200x3, .i32⟩ : BufTy).Contents (Elt F)),
    StableHlo.ternary main_v54 main_v56 main_v52 main_v57 (select : (⟨S51200x3, .i1⟩ : BufTy).Contents (Elt F) → (⟨S51200x3, .i32⟩ : BufTy).Contents (Elt F) → (⟨S51200x3, .i32⟩ : BufTy).Contents (Elt F) → (⟨S51200x3, .i32⟩ : BufTy).Contents (Elt F)),
    StableHlo.unary main_v57 main_v58 (broadcastInDim S51200x3x1 ![0, 1] bcast_S51200x3_S51200x3x1_0_1 : (⟨S51200x3, .i32⟩ : BufTy).Contents (Elt F) → (⟨S51200x3x1, .i32⟩ : BufTy).Contents (Elt F)),
    StableHlo.binary main_v13 main_v58 main_v59 ((fun x i => Host.gather gather_S32769x256_S51200x3x1_S51200x3x256_2_0_n_n_0_2_1256 x i) : (⟨S32769x256, .f32⟩ : BufTy).Contents (Elt F) → (⟨S51200x3x1, .i32⟩ : BufTy).Contents (Elt F) → (⟨S51200x3x256, .f32⟩ : BufTy).Contents (Elt F)),
    StableHlo.nullary main_cst_18 (constant S_ .f32 0x00000000#32),
    StableHlo.binary main_v59 main_cst_18 main_v60 ((fun x v => Host.reduceAdd x v reducesTo_S51200x3x256_S51200x256_d1 h_S_) : (⟨S51200x3x256, .f32⟩ : BufTy).Contents (Elt F) → (⟨S_, .f32⟩ : BufTy).Contents (Elt F) → (⟨S51200x256, .f32⟩ : BufTy).Contents (Elt F)),
    StableHlo.unary main_arg2 main_v61 (broadcastInDim S51200x1 ![0] bcast_S51200_S51200x1_0 : (⟨S51200, .f32⟩ : BufTy).Contents (Elt F) → (⟨S51200x1, .f32⟩ : BufTy).Contents (Elt F)),
    StableHlo.unary main_v61 main_v62 (broadcastInDim S51200x256 ![0, 1] bcast_S51200x1_S51200x256_0_1 : (⟨S51200x1, .f32⟩ : BufTy).Contents (Elt F) → (⟨S51200x256, .f32⟩ : BufTy).Contents (Elt F)),
    StableHlo.binary main_v60 main_v62 main_v63 (Host.divf : (⟨S51200x256, .f32⟩ : BufTy).Contents (Elt F) → (⟨S51200x256, .f32⟩ : BufTy).Contents (Elt F) → (⟨S51200x256, .f32⟩ : BufTy).Contents (Elt F)) ]

/-- Operations 119 … 121 of `opsPre`. -/
abbrev rc15 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_arg15 : StableHlo.TRef sig ⟨S1024, .i32⟩) (.of main_call7_call0_v0 : StableHlo.TRef sig ⟨S_, .i32⟩) (.of main_v64 : StableHlo.TRef sig ⟨S1024, .i32⟩) (fun x v => Host.reduceWindow IntOp.addi ![1024] ![1] ![1023] ![0] x v reduceWindows_S1024_S1024_w1024s1p1023_0 h_S_) ]

/-- Operations 122 … 135 of `opsPre`. -/
abbrev rc16 : List (HloOp τ sig (Elt F)) :=
  [ StableHlo.nullary main_c_19 (constantI S_ 32 1#32),
    StableHlo.unary main_c_19 main_v65 (broadcastInDim S1024 ![] bcast_S_S1024 : (⟨S_, .i32⟩ : BufTy).Contents (Elt F) → (⟨S1024, .i32⟩ : BufTy).Contents (Elt F)),
    StableHlo.binary main_v64 main_v65 main_v66 (subi : (⟨S1024, .i32⟩ : BufTy).Contents (Elt F) → (⟨S1024, .i32⟩ : BufTy).Contents (Elt F) → (⟨S1024, .i32⟩ : BufTy).Contents (Elt F)),
    StableHlo.nullary main_c_20 (constantI S_ 32 0#32),
    StableHlo.unary main_c_20 main_v67 (broadcastInDim S1024 ![] bcast_S_S1024 : (⟨S_, .i32⟩ : BufTy).Contents (Elt F) → (⟨S1024, .i32⟩ : BufTy).Contents (Elt F)),
    StableHlo.binary main_v66 main_v67 main_v68 (cmpi .slt : (⟨S1024, .i32⟩ : BufTy).Contents (Elt F) → (⟨S1024, .i32⟩ : BufTy).Contents (Elt F) → (⟨S1024, .i1⟩ : BufTy).Contents (Elt F)),
    StableHlo.nullary main_c_21 (constantI S_ 32 51200#32),
    StableHlo.unary main_c_21 main_v69 (broadcastInDim S1024 ![] bcast_S_S1024 : (⟨S_, .i32⟩ : BufTy).Contents (Elt F) → (⟨S1024, .i32⟩ : BufTy).Contents (Elt F)),
    StableHlo.binary main_v66 main_v69 main_v70 (addi : (⟨S1024, .i32⟩ : BufTy).Contents (Elt F) → (⟨S1024, .i32⟩ : BufTy).Contents (Elt F) → (⟨S1024, .i32⟩ : BufTy).Contents (Elt F)),
    StableHlo.ternary main_v68 main_v70 main_v66 main_v71 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v71 main_v72 (broadcastInDim S1024x1 ![0] bcast_S1024_S1024x1_0 : (⟨S1024, .i32⟩ : BufTy).Contents (Elt F) → (⟨S1024x1, .i32⟩ : BufTy).Contents (Elt F)),
    StableHlo.binary main_v63 main_v72 main_v73 ((fun x i => Host.gather gather_S51200x256_S1024x1_S1024x256_1_0_n_n_0_1_1256 x i) : (⟨S51200x256, .f32⟩ : BufTy).Contents (Elt F) → (⟨S1024x1, .i32⟩ : BufTy).Contents (Elt F) → (⟨S1024x256, .f32⟩ : BufTy).Contents (Elt F)),
    StableHlo.unary main_arg3 main_v74 ((extractStridedSlice S256x256 ![512, 0] · slices_S768x256_S256x256_512_0) : (⟨S768x256, .f32⟩ : BufTy).Contents (Elt F) → (⟨S256x256, .f32⟩ : BufTy).Contents (Elt F)),
    StableHlo.unary main_arg4 main_v75 ((extractStridedSlice S256 ![512] · slices_S768_S256_512) : (⟨S768, .f32⟩ : BufTy).Contents (Elt F) → (⟨S256, .f32⟩ : BufTy).Contents (Elt F)) ]

/-- `opsPre` cut into seventeen consecutive stretches. -/
theorem opsPre_eq_chunks : (opsPre : List (HloOp τ sig (Elt F))) = rc0 ++ (rc1 ++ (rc2 ++ (rc3 ++ (rc4 ++ (rc5 ++ (rc6 ++ (rc7 ++ (rc8 ++ (rc9 ++ (rc10 ++ (rc11 ++ (rc12 ++ (rc13 ++ (rc14 ++ (rc15 ++ (rc16)))))))))))))))) := rfl

/-- The fold over `opsPre` is the folds over the stretches, one after the other. -/
theorem after_opsPre (V : Valuation τ sig (Elt F)) :
    after opsPre V = after rc16 (after rc15 (after rc14 (after rc13 (after rc12 (after rc11 (after rc10 (after rc9 (after rc8 (after rc7 (after rc6 (after rc5 (after rc4 (after rc3 (after rc2 (after rc1 (after rc0 (V))))))))))))))))) := by
  rw [opsPre_eq_chunks]; simp only [after_append]

end Cert.ReferenceIdeal.HandRun

namespace Cert.PrefixEq

open Idealize.ShloMosaic Idealize.ShloMosaic.TcCoe Idealize.SL.Sem Idealize.ShloMosaic.StableHlo

variable {F : FTy → Type} [FloatOps F]

/-- What one simplification pass leaves of a fold at a buffer: a result read inside an argument on which a later
    argument's type depends (the pieces of a concatenation) is rewritten here, one operation at a time. -/
local macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

set_option maxHeartbeats 4000000 in
/-- Stretch 0: from valuations that agree on what the stretch and the later ones read, the two programs' stretches
    leave valuations that agree on what the later ones read. -/
theorem step0 (V' : Valuation Cert.ReferenceIdeal.τ Cert.ReferenceIdeal.sig (Elt F)) (V : Valuation Cert.KernelIdeal.τ Cert.KernelIdeal.sig (Elt F))
    (h_main_arg0 : V' (Proc.devRef .tc Cert.ReferenceIdeal.main_arg0) = V (Proc.devRef .tc Cert.KernelIdeal.main_arg0))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg13 : V' (Proc.devRef .tc Cert.ReferenceIdeal.main_arg13) = V (Proc.devRef .tc Cert.KernelIdeal.main_arg13))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15)) :
    (after Cert.ReferenceIdeal.HandRun.rc0 V' (Proc.devRef .tc Cert.ReferenceIdeal.main_arg0) = after Cert.KernelIdeal.Gen.hostOps0 V (Proc.devRef .tc Cert.KernelIdeal.main_arg0))
      ∧ (after Cert.ReferenceIdeal.HandRun.rc0 V' (Proc.devRef .tc Cert.ReferenceIdeal.main_arg2) = after Cert.KernelIdeal.Gen.hostOps0 V (Proc.devRef .tc Cert.KernelIdeal.main_arg2))
      ∧ (after Cert.ReferenceIdeal.HandRun.rc0 V' (Proc.devRef .tc Cert.ReferenceIdeal.main_arg3) = after Cert.KernelIdeal.Gen.hostOps0 V (Proc.devRef .tc Cert.KernelIdeal.main_arg3))
      ∧ (after Cert.ReferenceIdeal.HandRun.rc0 V' (Proc.devRef .tc Cert.ReferenceIdeal.main_arg4) = after Cert.KernelIdeal.Gen.hostOps0 V (Proc.devRef .tc Cert.KernelIdeal.main_arg4))
      ∧ (after Cert.ReferenceIdeal.HandRun.rc0 V' (Proc.devRef .tc Cert.ReferenceIdeal.main_arg13) = after Cert.KernelIdeal.Gen.hostOps0 V (Proc.devRef .tc Cert.KernelIdeal.main_arg13))
      ∧ (after Cert.ReferenceIdeal.HandRun.rc0 V' (Proc.devRef .tc Cert.ReferenceIdeal.main_arg14) = after Cert.KernelIdeal.Gen.hostOps0 V (Proc.devRef .tc Cert.KernelIdeal.main_arg14))
      ∧ (after Cert.ReferenceIdeal.HandRun.rc0 V' (Proc.devRef .tc Cert.ReferenceIdeal.main_arg15) = after Cert.KernelIdeal.Gen.hostOps0 V (Proc.devRef .tc Cert.KernelIdeal.main_arg15))
      ∧ (after Cert.ReferenceIdeal.HandRun.rc0 V' (Proc.devRef .tc Cert.ReferenceIdeal.main_v0) = after Cert.KernelIdeal.Gen.hostOps0 V (Proc.devRef .tc Cert.KernelIdeal.main_v0))
      ∧ (after Cert.ReferenceIdeal.HandRun.rc0 V' (Proc.devRef .tc Cert.ReferenceIdeal.main_c_0) = after Cert.KernelIdeal.Gen.hostOps0 V (Proc.devRef .tc Cert.KernelIdeal.main_c_0)) := by
  refine ⟨?_, ?_, ?_, ?_, ?_, ?_, ?_, ?_, ?_⟩
  all_goals (after_results_simp <;> results_rw <;> (try rw [h_main_arg0]) <;> (try rw [h_main_arg2]) <;> (try rw [h_main_arg3]) <;> (try rw [h_main_arg4]) <;> (try rw [h_main_arg13]) <;> (try rw [h_main_arg14]) <;> (try rw [h_main_arg15]) <;> (first | done | rfl))

set_option maxHeartbeats 4000000 in
/-- Stretch 1: from valuations that agree on what the stretch and the later ones read, the two programs' stretches
    leave valuations that agree on what the later ones read. -/
theorem step1 (V' : Valuation Cert.ReferenceIdeal.τ Cert.ReferenceIdeal.sig (Elt F)) (V : Valuation Cert.KernelIdeal.τ Cert.KernelIdeal.sig (Elt F))
    (h_main_arg0 : V' (Proc.devRef .tc Cert.ReferenceIdeal.main_arg0) = V (Proc.devRef .tc Cert.KernelIdeal.main_arg0))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg13 : V' (Proc.devRef .tc Cert.ReferenceIdeal.main_arg13) = V (Proc.devRef .tc Cert.KernelIdeal.main_arg13))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v0 : V' (Proc.devRef .tc Cert.ReferenceIdeal.main_v0) = V (Proc.devRef .tc Cert.KernelIdeal.main_v0))
    (h_main_c_0 : V' (Proc.devRef .tc Cert.ReferenceIdeal.main_c_0) = V (Proc.devRef .tc Cert.KernelIdeal.main_c_0)) :
    (after Cert.ReferenceIdeal.HandRun.rc1 V' (Proc.devRef .tc Cert.ReferenceIdeal.main_arg0) = after Cert.KernelIdeal.Gen.hostOps0_1 V (Proc.devRef .tc Cert.KernelIdeal.main_arg0))
      ∧ (after Cert.ReferenceIdeal.HandRun.rc1 V' (Proc.devRef .tc Cert.ReferenceIdeal.main_arg2) = after Cert.KernelIdeal.Gen.hostOps0_1 V (Proc.devRef .tc Cert.KernelIdeal.main_arg2))
      ∧ (after Cert.ReferenceIdeal.HandRun.rc1 V' (Proc.devRef .tc Cert.ReferenceIdeal.main_arg3) = after Cert.KernelIdeal.Gen.hostOps0_1 V (Proc.devRef .tc Cert.KernelIdeal.main_arg3))
      ∧ (after Cert.ReferenceIdeal.HandRun.rc1 V' (Proc.devRef .tc Cert.ReferenceIdeal.main_arg4) = after Cert.KernelIdeal.Gen.hostOps0_1 V (Proc.devRef .tc Cert.KernelIdeal.main_arg4))
      ∧ (after Cert.ReferenceIdeal.HandRun.rc1 V' (Proc.devRef .tc Cert.ReferenceIdeal.main_arg14) = after Cert.KernelIdeal.Gen.hostOps0_1 V (Proc.devRef .tc Cert.KernelIdeal.main_arg14))
      ∧ (after Cert.ReferenceIdeal.HandRun.rc1 V' (Proc.devRef .tc Cert.ReferenceIdeal.main_arg15) = after Cert.KernelIdeal.Gen.hostOps0_1 V (Proc.devRef .tc Cert.KernelIdeal.main_arg15))
      ∧ (after Cert.ReferenceIdeal.HandRun.rc1 V' (Proc.devRef .tc Cert.ReferenceIdeal.main_v0) = after Cert.KernelIdeal.Gen.hostOps0_1 V (Proc.devRef .tc Cert.KernelIdeal.main_v0))
      ∧ (after Cert.ReferenceIdeal.HandRun.rc1 V' (Proc.devRef .tc Cert.ReferenceIdeal.main_v1) = after Cert.KernelIdeal.Gen.hostOps0_1 V (Proc.devRef .tc Cert.KernelIdeal.main_v1)) := by
  refine ⟨?_, ?_, ?_, ?_, ?_, ?_, ?_, ?_⟩
  all_goals (after_results_simp <;> results_rw <;> (try rw [h_main_arg0]) <;> (try rw [h_main_arg2]) <;> (try rw [h_main_arg3]) <;> (try rw [h_main_arg4]) <;> (try rw [h_main_arg13]) <;> (try rw [h_main_arg14]) <;> (try rw [h_main_arg15]) <;> (try rw [h_main_v0]) <;> (try rw [h_main_c_0]) <;> (first | done | rfl))

set_option maxHeartbeats 4000000 in
/-- Stretch 2: from valuations that agree on what the stretch and the later ones read, the two programs' stretches
    leave valuations that agree on what the later ones read. -/
theorem step2 (V' : Valuation Cert.ReferenceIdeal.τ Cert.ReferenceIdeal.sig (Elt F)) (V : Valuation Cert.KernelIdeal.τ Cert.KernelIdeal.sig (Elt F))
    (h_main_arg0 : V' (Proc.devRef .tc Cert.ReferenceIdeal.main_arg0) = V (Proc.devRef .tc Cert.KernelIdeal.main_arg0))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v0 : V' (Proc.devRef .tc Cert.ReferenceIdeal.main_v0) = V (Proc.devRef .tc Cert.KernelIdeal.main_v0))
    (h_main_v1 : V' (Proc.devRef .tc Cert.ReferenceIdeal.main_v1) = V (Proc.devRef .tc Cert.KernelIdeal.main_v1)) :
    (after Cert.ReferenceIdeal.HandRun.rc2 V' (Proc.devRef .tc Cert.ReferenceIdeal.main_arg0) = after Cert.KernelIdeal.Gen.hostOps0_2 V (Proc.devRef .tc Cert.KernelIdeal.main_arg0))
      ∧ (after Cert.ReferenceIdeal.HandRun.rc2 V' (Proc.devRef .tc Cert.ReferenceIdeal.main_arg2) = after Cert.KernelIdeal.Gen.hostOps0_2 V (Proc.devRef .tc Cert.KernelIdeal.main_arg2))
      ∧ (after Cert.ReferenceIdeal.HandRun.rc2 V' (Proc.devRef .tc Cert.ReferenceIdeal.main_arg3) = after Cert.KernelIdeal.Gen.hostOps0_2 V (Proc.devRef .tc Cert.KernelIdeal.main_arg3))
      ∧ (after Cert.ReferenceIdeal.HandRun.rc2 V' (Proc.devRef .tc Cert.ReferenceIdeal.main_arg4) = after Cert.KernelIdeal.Gen.hostOps0_2 V (Proc.devRef .tc Cert.KernelIdeal.main_arg4))
      ∧ (after Cert.ReferenceIdeal.HandRun.rc2 V' (Proc.devRef .tc Cert.ReferenceIdeal.main_arg14) = after Cert.KernelIdeal.Gen.hostOps0_2 V (Proc.devRef .tc Cert.KernelIdeal.main_arg14))
      ∧ (after Cert.ReferenceIdeal.HandRun.rc2 V' (Proc.devRef .tc Cert.ReferenceIdeal.main_arg15) = after Cert.KernelIdeal.Gen.hostOps0_2 V (Proc.devRef .tc Cert.KernelIdeal.main_arg15))
      ∧ (after Cert.ReferenceIdeal.HandRun.rc2 V' (Proc.devRef .tc Cert.ReferenceIdeal.main_v9) = after Cert.KernelIdeal.Gen.hostOps0_2 V (Proc.devRef .tc Cert.KernelIdeal.main_v9)) := by
  refine ⟨?_, ?_, ?_, ?_, ?_, ?_, ?_⟩
  all_goals (after_results_simp <;> results_rw <;> (try rw [h_main_arg0]) <;> (try rw [h_main_arg2]) <;> (try rw [h_main_arg3]) <;> (try rw [h_main_arg4]) <;> (try rw [h_main_arg14]) <;> (try rw [h_main_arg15]) <;> (try rw [h_main_v0]) <;> (try rw [h_main_v1]) <;> (first | done | rfl))

set_option maxHeartbeats 4000000 in
/-- Stretch 3: from valuations that agree on what the stretch and the later ones read, the two programs' stretches
    leave valuations that agree on what the later ones read. -/
theorem step3 (V' : Valuation Cert.ReferenceIdeal.τ Cert.ReferenceIdeal.sig (Elt F)) (V : Valuation Cert.KernelIdeal.τ Cert.KernelIdeal.sig (Elt F))
    (h_main_arg0 : V' (Proc.devRef .tc Cert.ReferenceIdeal.main_arg0) = V (Proc.devRef .tc Cert.KernelIdeal.main_arg0))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9)) :
    (after Cert.ReferenceIdeal.HandRun.rc3 V' (Proc.devRef .tc Cert.ReferenceIdeal.main_arg0) = after Cert.KernelIdeal.Gen.hostOps0_3 V (Proc.devRef .tc Cert.KernelIdeal.main_arg0))
      ∧ (after Cert.ReferenceIdeal.HandRun.rc3 V' (Proc.devRef .tc Cert.ReferenceIdeal.main_arg2) = after Cert.KernelIdeal.Gen.hostOps0_3 V (Proc.devRef .tc Cert.KernelIdeal.main_arg2))
      ∧ (after Cert.ReferenceIdeal.HandRun.rc3 V' (Proc.devRef .tc Cert.ReferenceIdeal.main_arg3) = after Cert.KernelIdeal.Gen.hostOps0_3 V (Proc.devRef .tc Cert.KernelIdeal.main_arg3))
      ∧ (after Cert.ReferenceIdeal.HandRun.rc3 V' (Proc.devRef .tc Cert.ReferenceIdeal.main_arg4) = after Cert.KernelIdeal.Gen.hostOps0_3 V (Proc.devRef .tc Cert.KernelIdeal.main_arg4))
      ∧ (after Cert.ReferenceIdeal.HandRun.rc3 V' (Proc.devRef .tc Cert.ReferenceIdeal.main_arg14) = after Cert.KernelIdeal.Gen.hostOps0_3 V (Proc.devRef .tc Cert.KernelIdeal.main_arg14))
      ∧ (after Cert.ReferenceIdeal.HandRun.rc3 V' (Proc.devRef .tc Cert.ReferenceIdeal.main_arg15) = after Cert.KernelIdeal.Gen.hostOps0_3 V (Proc.devRef .tc Cert.KernelIdeal.main_arg15))
      ∧ (after Cert.ReferenceIdeal.HandRun.rc3 V' (Proc.devRef .tc Cert.ReferenceIdeal.main_v9) = after Cert.KernelIdeal.Gen.hostOps0_3 V (Proc.devRef .tc Cert.KernelIdeal.main_v9))
      ∧ (after Cert.ReferenceIdeal.HandRun.rc3 V' (Proc.devRef .tc Cert.ReferenceIdeal.main_v10) = after Cert.KernelIdeal.Gen.hostOps0_3 V (Proc.devRef .tc Cert.KernelIdeal.main_v10)) := by
  refine ⟨?_, ?_, ?_, ?_, ?_, ?_, ?_, ?_⟩
  all_goals (after_results_simp <;> results_rw <;> (try rw [h_main_arg0]) <;> (try rw [h_main_arg2]) <;> (try rw [h_main_arg3]) <;> (try rw [h_main_arg4]) <;> (try rw [h_main_arg14]) <;> (try rw [h_main_arg15]) <;> (try rw [h_main_v9]) <;> (first | done | rfl))

set_option maxHeartbeats 4000000 in
/-- Stretch 4: from valuations that agree on what the stretch and the later ones read, the two programs' stretches
    leave valuations that agree on what the later ones read. -/
theorem step4 (V' : Valuation Cert.ReferenceIdeal.τ Cert.ReferenceIdeal.sig (Elt F)) (V : Valuation Cert.KernelIdeal.τ Cert.KernelIdeal.sig (Elt F))
    (h_main_arg0 : V' (Proc.devRef .tc Cert.ReferenceIdeal.main_arg0) = V (Proc.devRef .tc Cert.KernelIdeal.main_arg0))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v10 : V' (Proc.devRef .tc Cert.ReferenceIdeal.main_v10) = V (Proc.devRef .tc Cert.KernelIdeal.main_v10)) :
    (after Cert.ReferenceIdeal.HandRun.rc4 V' (Proc.devRef .tc Cert.ReferenceIdeal.main_arg2) = after Cert.KernelIdeal.Gen.hostOps0_4 V (Proc.devRef .tc Cert.KernelIdeal.main_arg2))
      ∧ (after Cert.ReferenceIdeal.HandRun.rc4 V' (Proc.devRef .tc Cert.ReferenceIdeal.main_arg3) = after Cert.KernelIdeal.Gen.hostOps0_4 V (Proc.devRef .tc Cert.KernelIdeal.main_arg3))
      ∧ (after Cert.ReferenceIdeal.HandRun.rc4 V' (Proc.devRef .tc Cert.ReferenceIdeal.main_arg4) = after Cert.KernelIdeal.Gen.hostOps0_4 V (Proc.devRef .tc Cert.KernelIdeal.main_arg4))
      ∧ (after Cert.ReferenceIdeal.HandRun.rc4 V' (Proc.devRef .tc Cert.ReferenceIdeal.main_arg14) = after Cert.KernelIdeal.Gen.hostOps0_4 V (Proc.devRef .tc Cert.KernelIdeal.main_arg14))
      ∧ (after Cert.ReferenceIdeal.HandRun.rc4 V' (Proc.devRef .tc Cert.ReferenceIdeal.main_arg15) = after Cert.KernelIdeal.Gen.hostOps0_4 V (Proc.devRef .tc Cert.KernelIdeal.main_arg15))
      ∧ (after Cert.ReferenceIdeal.HandRun.rc4 V' (Proc.devRef .tc Cert.ReferenceIdeal.main_v9) = after Cert.KernelIdeal.Gen.hostOps0_4 V (Proc.devRef .tc Cert.KernelIdeal.main_v9))
      ∧ (after Cert.ReferenceIdeal.HandRun.rc4 V' (Proc.devRef .tc Cert.ReferenceIdeal.main_v11) = after Cert.KernelIdeal.Gen.hostOps0_4 V (Proc.devRef .tc Cert.KernelIdeal.main_v11))
      ∧ (after Cert.ReferenceIdeal.HandRun.rc4 V' (Proc.devRef .tc Cert.ReferenceIdeal.main_v13) = after Cert.KernelIdeal.Gen.hostOps0_4 V (Proc.devRef .tc Cert.KernelIdeal.main_v13))
      ∧ (after Cert.ReferenceIdeal.HandRun.rc4 V' (Proc.devRef .tc Cert.ReferenceIdeal.main_v14) = after Cert.KernelIdeal.Gen.hostOps0_4 V (Proc.devRef .tc Cert.KernelIdeal.main_v14)) := by
  refine ⟨?_, ?_, ?_, ?_, ?_, ?_, ?_, ?_, ?_⟩
  all_goals (after_results_simp <;> results_rw <;> (try rw [h_main_arg0]) <;> (try rw [h_main_arg2]) <;> (try rw [h_main_arg3]) <;> (try rw [h_main_arg4]) <;> (try rw [h_main_arg14]) <;> (try rw [h_main_arg15]) <;> (try rw [h_main_v9]) <;> (try rw [h_main_v10]) <;> (first | done | rfl))

set_option maxHeartbeats 4000000 in
/-- Stretch 5: from valuations that agree on what the stretch and the later ones read, the two programs' stretches
    leave valuations that agree on what the later ones read. -/
theorem step5 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14)) :
    (after Cert.ReferenceIdeal.HandRun.rc5 V' (Proc.devRef .tc Cert.ReferenceIdeal.main_arg2) = after Cert.KernelIdeal.Gen.hostOps0_5 V (Proc.devRef .tc Cert.KernelIdeal.main_arg2))
      ∧ (after Cert.ReferenceIdeal.HandRun.rc5 V' (Proc.devRef .tc Cert.ReferenceIdeal.main_arg3) = after Cert.KernelIdeal.Gen.hostOps0_5 V (Proc.devRef .tc Cert.KernelIdeal.main_arg3))
      ∧ (after Cert.ReferenceIdeal.HandRun.rc5 V' (Proc.devRef .tc Cert.ReferenceIdeal.main_arg4) = after Cert.KernelIdeal.Gen.hostOps0_5 V (Proc.devRef .tc Cert.KernelIdeal.main_arg4))
      ∧ (after Cert.ReferenceIdeal.HandRun.rc5 V' (Proc.devRef .tc Cert.ReferenceIdeal.main_arg14) = after Cert.KernelIdeal.Gen.hostOps0_5 V (Proc.devRef .tc Cert.KernelIdeal.main_arg14))
      ∧ (after Cert.ReferenceIdeal.HandRun.rc5 V' (Proc.devRef .tc Cert.ReferenceIdeal.main_arg15) = after Cert.KernelIdeal.Gen.hostOps0_5 V (Proc.devRef .tc Cert.KernelIdeal.main_arg15))
      ∧ (after Cert.ReferenceIdeal.HandRun.rc5 V' (Proc.devRef .tc Cert.ReferenceIdeal.main_v9) = after Cert.KernelIdeal.Gen.hostOps0_5 V (Proc.devRef .tc Cert.KernelIdeal.main_v9))
      ∧ (after Cert.ReferenceIdeal.HandRun.rc5 V' (Proc.devRef .tc Cert.ReferenceIdeal.main_v11) = after Cert.KernelIdeal.Gen.hostOps0_5 V (Proc.devRef .tc Cert.KernelIdeal.main_v11))
      ∧ (after Cert.ReferenceIdeal.HandRun.rc5 V' (Proc.devRef .tc Cert.ReferenceIdeal.main_v13) = after Cert.KernelIdeal.Gen.hostOps0_5 V (Proc.devRef .tc Cert.KernelIdeal.main_v13))
      ∧ (after Cert.ReferenceIdeal.HandRun.rc5 V' (Proc.devRef .tc Cert.ReferenceIdeal.main_v14) = after Cert.KernelIdeal.Gen.hostOps0_5 V (Proc.devRef .tc Cert.KernelIdeal.main_v14))
      ∧ (after Cert.ReferenceIdeal.HandRun.rc5 V' (Proc.devRef .tc Cert.ReferenceIdeal.main_v15) = after Cert.KernelIdeal.Gen.hostOps0_5 V (Proc.devRef .tc Cert.KernelIdeal.main_v15)) := by
  refine ⟨?_, ?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (first | done | rfl))

set_option maxHeartbeats 4000000 in
/-- Stretch 6: from valuations that agree on what the stretch and the later ones read, the two programs' stretches
    leave valuations that agree on what the later ones read. -/
theorem step6 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14))
    (h_main_v15 : V' (Proc.devRef .tc Cert.ReferenceIdeal.main_v15) = V (Proc.devRef .tc Cert.KernelIdeal.main_v15)) :
    (after Cert.ReferenceIdeal.HandRun.rc6 V' (Proc.devRef .tc Cert.ReferenceIdeal.main_arg2) = after Cert.KernelIdeal.Gen.hostOps0_6 V (Proc.devRef .tc Cert.KernelIdeal.main_arg2))
      ∧ (after Cert.ReferenceIdeal.HandRun.rc6 V' (Proc.devRef .tc Cert.ReferenceIdeal.main_arg3) = after Cert.KernelIdeal.Gen.hostOps0_6 V (Proc.devRef .tc Cert.KernelIdeal.main_arg3))
      ∧ (after Cert.ReferenceIdeal.HandRun.rc6 V' (Proc.devRef .tc Cert.ReferenceIdeal.main_arg4) = after Cert.KernelIdeal.Gen.hostOps0_6 V (Proc.devRef .tc Cert.KernelIdeal.main_arg4))
      ∧ (after Cert.ReferenceIdeal.HandRun.rc6 V' (Proc.devRef .tc Cert.ReferenceIdeal.main_arg14) = after Cert.KernelIdeal.Gen.hostOps0_6 V (Proc.devRef .tc Cert.KernelIdeal.main_arg14))
      ∧ (after Cert.ReferenceIdeal.HandRun.rc6 V' (Proc.devRef .tc Cert.ReferenceIdeal.main_arg15) = after Cert.KernelIdeal.Gen.hostOps0_6 V (Proc.devRef .tc Cert.KernelIdeal.main_arg15))
      ∧ (after Cert.ReferenceIdeal.HandRun.rc6 V' (Proc.devRef .tc Cert.ReferenceIdeal.main_v9) = after Cert.KernelIdeal.Gen.hostOps0_6 V (Proc.devRef .tc Cert.KernelIdeal.main_v9))
      ∧ (after Cert.ReferenceIdeal.HandRun.rc6 V' (Proc.devRef .tc Cert.ReferenceIdeal.main_v11) = after Cert.KernelIdeal.Gen.hostOps0_6 V (Proc.devRef .tc Cert.KernelIdeal.main_v11))
      ∧ (after Cert.ReferenceIdeal.HandRun.rc6 V' (Proc.devRef .tc Cert.ReferenceIdeal.main_v13) = after Cert.KernelIdeal.Gen.hostOps0_6 V (Proc.devRef .tc Cert.KernelIdeal.main_v13))
      ∧ (after Cert.ReferenceIdeal.HandRun.rc6 V' (Proc.devRef .tc Cert.ReferenceIdeal.main_v14) = after Cert.KernelIdeal.Gen.hostOps0_6 V (Proc.devRef .tc Cert.KernelIdeal.main_v14))
      ∧ (after Cert.ReferenceIdeal.HandRun.rc6 V' (Proc.devRef .tc Cert.ReferenceIdeal.main_v17) = after Cert.KernelIdeal.Gen.hostOps0_6 V (Proc.devRef .tc Cert.KernelIdeal.main_v17)) := by
  refine ⟨?_, ?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (try rw [h_main_v15]) <;> (first | done | rfl))

set_option maxHeartbeats 4000000 in
/-- Stretch 7: from valuations that agree on what the stretch and the later ones read, the two programs' stretches
    leave valuations that agree on what the later ones read. -/
theorem step7 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14))
    (h_main_v17 : V' (Proc.devRef .tc Cert.ReferenceIdeal.main_v17) = V (Proc.devRef .tc Cert.KernelIdeal.main_v17)) :
    (after Cert.ReferenceIdeal.HandRun.rc7 V' (Proc.devRef .tc Cert.ReferenceIdeal.main_arg2) = after Cert.KernelIdeal.Gen.hostOps0_7 V (Proc.devRef .tc Cert.KernelIdeal.main_arg2))
      ∧ (after Cert.ReferenceIdeal.HandRun.rc7 V' (Proc.devRef .tc Cert.ReferenceIdeal.main_arg3) = after Cert.KernelIdeal.Gen.hostOps0_7 V (Proc.devRef .tc Cert.KernelIdeal.main_arg3))
      ∧ (after Cert.ReferenceIdeal.HandRun.rc7 V' (Proc.devRef .tc Cert.ReferenceIdeal.main_arg4) = after Cert.KernelIdeal.Gen.hostOps0_7 V (Proc.devRef .tc Cert.KernelIdeal.main_arg4))
      ∧ (after Cert.ReferenceIdeal.HandRun.rc7 V' (Proc.devRef .tc Cert.ReferenceIdeal.main_arg14) = after Cert.KernelIdeal.Gen.hostOps0_7 V (Proc.devRef .tc Cert.KernelIdeal.main_arg14))
      ∧ (after Cert.ReferenceIdeal.HandRun.rc7 V' (Proc.devRef .tc Cert.ReferenceIdeal.main_arg15) = after Cert.KernelIdeal.Gen.hostOps0_7 V (Proc.devRef .tc Cert.KernelIdeal.main_arg15))
      ∧ (after Cert.ReferenceIdeal.HandRun.rc7 V' (Proc.devRef .tc Cert.ReferenceIdeal.main_v9) = after Cert.KernelIdeal.Gen.hostOps0_7 V (Proc.devRef .tc Cert.KernelIdeal.main_v9))
      ∧ (after Cert.ReferenceIdeal.HandRun.rc7 V' (Proc.devRef .tc Cert.ReferenceIdeal.main_v11) = after Cert.KernelIdeal.Gen.hostOps0_7 V (Proc.devRef .tc Cert.KernelIdeal.main_v11))
      ∧ (after Cert.ReferenceIdeal.HandRun.rc7 V' (Proc.devRef .tc Cert.ReferenceIdeal.main_v13) = after Cert.KernelIdeal.Gen.hostOps0_7 V (Proc.devRef .tc Cert.KernelIdeal.main_v13))
      ∧ (after Cert.ReferenceIdeal.HandRun.rc7 V' (Proc.devRef .tc Cert.ReferenceIdeal.main_v14) = after Cert.KernelIdeal.Gen.hostOps0_7 V (Proc.devRef .tc Cert.KernelIdeal.main_v14))
      ∧ (after Cert.ReferenceIdeal.HandRun.rc7 V' (Proc.devRef .tc Cert.ReferenceIdeal.main_v18) = after Cert.KernelIdeal.Gen.hostOps0_7 V (Proc.devRef .tc Cert.KernelIdeal.main_v18)) := by
  refine ⟨?_, ?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (try rw [h_main_v17]) <;> (first | done | rfl))

set_option maxHeartbeats 4000000 in
/-- Stretch 8: from valuations that agree on what the stretch and the later ones read, the two programs' stretches
    leave valuations that agree on what the later ones read. -/
theorem step8 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14))
    (h_main_v18 : V' (Proc.devRef .tc Cert.ReferenceIdeal.main_v18) = V (Proc.devRef .tc Cert.KernelIdeal.main_v18)) :
    (after Cert.ReferenceIdeal.HandRun.rc8 V' (Proc.devRef .tc Cert.ReferenceIdeal.main_arg2) = after Cert.KernelIdeal.Gen.hostOps0_8 V (Proc.devRef .tc Cert.KernelIdeal.main_arg2))
      ∧ (after Cert.ReferenceIdeal.HandRun.rc8 V' (Proc.devRef .tc Cert.ReferenceIdeal.main_arg3) = after Cert.KernelIdeal.Gen.hostOps0_8 V (Proc.devRef .tc Cert.KernelIdeal.main_arg3))
      ∧ (after Cert.ReferenceIdeal.HandRun.rc8 V' (Proc.devRef .tc Cert.ReferenceIdeal.main_arg4) = after Cert.KernelIdeal.Gen.hostOps0_8 V (Proc.devRef .tc Cert.KernelIdeal.main_arg4))
      ∧ (after Cert.ReferenceIdeal.HandRun.rc8 V' (Proc.devRef .tc Cert.ReferenceIdeal.main_arg14) = after Cert.KernelIdeal.Gen.hostOps0_8 V (Proc.devRef .tc Cert.KernelIdeal.main_arg14))
      ∧ (after Cert.ReferenceIdeal.HandRun.rc8 V' (Proc.devRef .tc Cert.ReferenceIdeal.main_arg15) = after Cert.KernelIdeal.Gen.hostOps0_8 V (Proc.devRef .tc Cert.KernelIdeal.main_arg15))
      ∧ (after Cert.ReferenceIdeal.HandRun.rc8 V' (Proc.devRef .tc Cert.ReferenceIdeal.main_v9) = after Cert.KernelIdeal.Gen.hostOps0_8 V (Proc.devRef .tc Cert.KernelIdeal.main_v9))
      ∧ (after Cert.ReferenceIdeal.HandRun.rc8 V' (Proc.devRef .tc Cert.ReferenceIdeal.main_v11) = after Cert.KernelIdeal.Gen.hostOps0_8 V (Proc.devRef .tc Cert.KernelIdeal.main_v11))
      ∧ (after Cert.ReferenceIdeal.HandRun.rc8 V' (Proc.devRef .tc Cert.ReferenceIdeal.main_v13) = after Cert.KernelIdeal.Gen.hostOps0_8 V (Proc.devRef .tc Cert.KernelIdeal.main_v13))
      ∧ (after Cert.ReferenceIdeal.HandRun.rc8 V' (Proc.devRef .tc Cert.ReferenceIdeal.main_v14) = after Cert.KernelIdeal.Gen.hostOps0_8 V (Proc.devRef .tc Cert.KernelIdeal.main_v14))
      ∧ (after Cert.ReferenceIdeal.HandRun.rc8 V' (Proc.devRef .tc Cert.ReferenceIdeal.main_v27) = after Cert.KernelIdeal.Gen.hostOps0_8 V (Proc.devRef .tc Cert.KernelIdeal.main_v27)) := by
  refine ⟨?_, ?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (try rw [h_main_v18]) <;> (first | done | rfl))

set_option maxHeartbeats 4000000 in
/-- Stretch 9: from valuations that agree on what the stretch and the later ones read, the two programs' stretches
    leave valuations that agree on what the later ones read. -/
theorem step9 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14))
    (h_main_v27 : V' (Proc.devRef .tc Cert.ReferenceIdeal.main_v27) = V (Proc.devRef .tc Cert.KernelIdeal.main_v27)) :
    (after Cert.ReferenceIdeal.HandRun.rc9 V' (Proc.devRef .tc Cert.ReferenceIdeal.main_arg2) = after Cert.KernelIdeal.Gen.hostOps0_9 V (Proc.devRef .tc Cert.KernelIdeal.main_arg2))
      ∧ (after Cert.ReferenceIdeal.HandRun.rc9 V' (Proc.devRef .tc Cert.ReferenceIdeal.main_arg3) = after Cert.KernelIdeal.Gen.hostOps0_9 V (Proc.devRef .tc Cert.KernelIdeal.main_arg3))
      ∧ (after Cert.ReferenceIdeal.HandRun.rc9 V' (Proc.devRef .tc Cert.ReferenceIdeal.main_arg4) = after Cert.KernelIdeal.Gen.hostOps0_9 V (Proc.devRef .tc Cert.KernelIdeal.main_arg4))
      ∧ (after Cert.ReferenceIdeal.HandRun.rc9 V' (Proc.devRef .tc Cert.ReferenceIdeal.main_arg14) = after Cert.KernelIdeal.Gen.hostOps0_9 V (Proc.devRef .tc Cert.KernelIdeal.main_arg14))
      ∧ (after Cert.ReferenceIdeal.HandRun.rc9 V' (Proc.devRef .tc Cert.ReferenceIdeal.main_arg15) = after Cert.KernelIdeal.Gen.hostOps0_9 V (Proc.devRef .tc Cert.KernelIdeal.main_arg15))
      ∧ (after Cert.ReferenceIdeal.HandRun.rc9 V' (Proc.devRef .tc Cert.ReferenceIdeal.main_v9) = after Cert.KernelIdeal.Gen.hostOps0_9 V (Proc.devRef .tc Cert.KernelIdeal.main_v9))
      ∧ (after Cert.ReferenceIdeal.HandRun.rc9 V' (Proc.devRef .tc Cert.ReferenceIdeal.main_v11) = after Cert.KernelIdeal.Gen.hostOps0_9 V (Proc.devRef .tc Cert.KernelIdeal.main_v11))
      ∧ (after Cert.ReferenceIdeal.HandRun.rc9 V' (Proc.devRef .tc Cert.ReferenceIdeal.main_v13) = after Cert.KernelIdeal.Gen.hostOps0_9 V (Proc.devRef .tc Cert.KernelIdeal.main_v13))
      ∧ (after Cert.ReferenceIdeal.HandRun.rc9 V' (Proc.devRef .tc Cert.ReferenceIdeal.main_v14) = after Cert.KernelIdeal.Gen.hostOps0_9 V (Proc.devRef .tc Cert.KernelIdeal.main_v14))
      ∧ (after Cert.ReferenceIdeal.HandRun.rc9 V' (Proc.devRef .tc Cert.ReferenceIdeal.main_v28) = after Cert.KernelIdeal.Gen.hostOps0_9 V (Proc.devRef .tc Cert.KernelIdeal.main_v28)) := by
  refine ⟨?_, ?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (try rw [h_main_v27]) <;> (first | done | rfl))

set_option maxHeartbeats 4000000 in
/-- Stretch 10: from valuations that agree on what the stretch and the later ones read, the two programs' stretches
    leave valuations that agree on what the later ones read. -/
theorem step10 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14))
    (h_main_v28 : V' (Proc.devRef .tc Cert.ReferenceIdeal.main_v28) = V (Proc.devRef .tc Cert.KernelIdeal.main_v28)) :
    (after Cert.ReferenceIdeal.HandRun.rc10 V' (Proc.devRef .tc Cert.ReferenceIdeal.main_arg2) = after Cert.KernelIdeal.Gen.hostOps0_10 V (Proc.devRef .tc Cert.KernelIdeal.main_arg2))
      ∧ (after Cert.ReferenceIdeal.HandRun.rc10 V' (Proc.devRef .tc Cert.ReferenceIdeal.main_arg3) = after Cert.KernelIdeal.Gen.hostOps0_10 V (Proc.devRef .tc Cert.KernelIdeal.main_arg3))
      ∧ (after Cert.ReferenceIdeal.HandRun.rc10 V' (Proc.devRef .tc Cert.ReferenceIdeal.main_arg4) = after Cert.KernelIdeal.Gen.hostOps0_10 V (Proc.devRef .tc Cert.KernelIdeal.main_arg4))
      ∧ (after Cert.ReferenceIdeal.HandRun.rc10 V' (Proc.devRef .tc Cert.ReferenceIdeal.main_arg14) = after Cert.KernelIdeal.Gen.hostOps0_10 V (Proc.devRef .tc Cert.KernelIdeal.main_arg14))
      ∧ (after Cert.ReferenceIdeal.HandRun.rc10 V' (Proc.devRef .tc Cert.ReferenceIdeal.main_arg15) = after Cert.KernelIdeal.Gen.hostOps0_10 V (Proc.devRef .tc Cert.KernelIdeal.main_arg15))
      ∧ (after Cert.ReferenceIdeal.HandRun.rc10 V' (Proc.devRef .tc Cert.ReferenceIdeal.main_v9) = after Cert.KernelIdeal.Gen.hostOps0_10 V (Proc.devRef .tc Cert.KernelIdeal.main_v9))
      ∧ (after Cert.ReferenceIdeal.HandRun.rc10 V' (Proc.devRef .tc Cert.ReferenceIdeal.main_v11) = after Cert.KernelIdeal.Gen.hostOps0_10 V (Proc.devRef .tc Cert.KernelIdeal.main_v11))
      ∧ (after Cert.ReferenceIdeal.HandRun.rc10 V' (Proc.devRef .tc Cert.ReferenceIdeal.main_v13) = after Cert.KernelIdeal.Gen.hostOps0_10 V (Proc.devRef .tc Cert.KernelIdeal.main_v13))
      ∧ (after Cert.ReferenceIdeal.HandRun.rc10 V' (Proc.devRef .tc Cert.ReferenceIdeal.main_v14) = after Cert.KernelIdeal.Gen.hostOps0_10 V (Proc.devRef .tc Cert.KernelIdeal.main_v14))
      ∧ (after Cert.ReferenceIdeal.HandRun.rc10 V' (Proc.devRef .tc Cert.ReferenceIdeal.main_v30) = after Cert.KernelIdeal.Gen.hostOps0_10 V (Proc.devRef .tc Cert.KernelIdeal.main_v30)) := by
  refine ⟨?_, ?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (try rw [h_main_v28]) <;> (first | done | rfl))

set_option maxHeartbeats 4000000 in
/-- Stretch 11: from valuations that agree on what the stretch and the later ones read, the two programs' stretches
    leave valuations that agree on what the later ones read. -/
theorem step11 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v14 : V' (Proc.devRef .tc Cert.ReferenceIdeal.main_v14) = V (Proc.devRef .tc Cert.KernelIdeal.main_v14))
    (h_main_v30 : V' (Proc.devRef .tc Cert.ReferenceIdeal.main_v30) = V (Proc.devRef .tc Cert.KernelIdeal.main_v30)) :
    (after Cert.ReferenceIdeal.HandRun.rc11 V' (Proc.devRef .tc Cert.ReferenceIdeal.main_arg2) = after Cert.KernelIdeal.Gen.hostOps0_11 V (Proc.devRef .tc Cert.KernelIdeal.main_arg2))
      ∧ (after Cert.ReferenceIdeal.HandRun.rc11 V' (Proc.devRef .tc Cert.ReferenceIdeal.main_arg3) = after Cert.KernelIdeal.Gen.hostOps0_11 V (Proc.devRef .tc Cert.KernelIdeal.main_arg3))
      ∧ (after Cert.ReferenceIdeal.HandRun.rc11 V' (Proc.devRef .tc Cert.ReferenceIdeal.main_arg4) = after Cert.KernelIdeal.Gen.hostOps0_11 V (Proc.devRef .tc Cert.KernelIdeal.main_arg4))
      ∧ (after Cert.ReferenceIdeal.HandRun.rc11 V' (Proc.devRef .tc Cert.ReferenceIdeal.main_arg14) = after Cert.KernelIdeal.Gen.hostOps0_11 V (Proc.devRef .tc Cert.KernelIdeal.main_arg14))
      ∧ (after Cert.ReferenceIdeal.HandRun.rc11 V' (Proc.devRef .tc Cert.ReferenceIdeal.main_arg15) = after Cert.KernelIdeal.Gen.hostOps0_11 V (Proc.devRef .tc Cert.KernelIdeal.main_arg15))
      ∧ (after Cert.ReferenceIdeal.HandRun.rc11 V' (Proc.devRef .tc Cert.ReferenceIdeal.main_v9) = after Cert.KernelIdeal.Gen.hostOps0_11 V (Proc.devRef .tc Cert.KernelIdeal.main_v9))
      ∧ (after Cert.ReferenceIdeal.HandRun.rc11 V' (Proc.devRef .tc Cert.ReferenceIdeal.main_v11) = after Cert.KernelIdeal.Gen.hostOps0_11 V (Proc.devRef .tc Cert.KernelIdeal.main_v11))
      ∧ (after Cert.ReferenceIdeal.HandRun.rc11 V' (Proc.devRef .tc Cert.ReferenceIdeal.main_v13) = after Cert.KernelIdeal.Gen.hostOps0_11 V (Proc.devRef .tc Cert.KernelIdeal.main_v13))
      ∧ (after Cert.ReferenceIdeal.HandRun.rc11 V' (Proc.devRef .tc Cert.ReferenceIdeal.main_v31) = after Cert.KernelIdeal.Gen.hostOps0_11 V (Proc.devRef .tc Cert.KernelIdeal.main_v31)) := by
  refine ⟨?_, ?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v14]) <;> (try rw [h_main_v30]) <;> (first | done | rfl))

set_option maxHeartbeats 4000000 in
/-- Stretch 12: from valuations that agree on what the stretch and the later ones read, the two programs' stretches
    leave valuations that agree on what the later ones read. -/
theorem step12 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15))
    (h_main_v9 : V' (Proc.devRef .tc Cert.ReferenceIdeal.main_v9) = V (Proc.devRef .tc Cert.KernelIdeal.main_v9))
    (h_main_v11 : V' (Proc.devRef .tc Cert.ReferenceIdeal.main_v11) = V (Proc.devRef .tc Cert.KernelIdeal.main_v11))
    (h_main_v13 : V' (Proc.devRef .tc Cert.ReferenceIdeal.main_v13) = V (Proc.devRef .tc Cert.KernelIdeal.main_v13))
    (h_main_v31 : V' (Proc.devRef .tc Cert.ReferenceIdeal.main_v31) = V (Proc.devRef .tc Cert.KernelIdeal.main_v31)) :
    (after Cert.ReferenceIdeal.HandRun.rc12 V' (Proc.devRef .tc Cert.ReferenceIdeal.main_arg2) = after Cert.KernelIdeal.Gen.hostOps0_12 V (Proc.devRef .tc Cert.KernelIdeal.main_arg2))
      ∧ (after Cert.ReferenceIdeal.HandRun.rc12 V' (Proc.devRef .tc Cert.ReferenceIdeal.main_arg3) = after Cert.KernelIdeal.Gen.hostOps0_12 V (Proc.devRef .tc Cert.KernelIdeal.main_arg3))
      ∧ (after Cert.ReferenceIdeal.HandRun.rc12 V' (Proc.devRef .tc Cert.ReferenceIdeal.main_arg4) = after Cert.KernelIdeal.Gen.hostOps0_12 V (Proc.devRef .tc Cert.KernelIdeal.main_arg4))
      ∧ (after Cert.ReferenceIdeal.HandRun.rc12 V' (Proc.devRef .tc Cert.ReferenceIdeal.main_arg15) = after Cert.KernelIdeal.Gen.hostOps0_12 V (Proc.devRef .tc Cert.KernelIdeal.main_arg15))
      ∧ (after Cert.ReferenceIdeal.HandRun.rc12 V' (Proc.devRef .tc Cert.ReferenceIdeal.main_v13) = after Cert.KernelIdeal.Gen.hostOps0_12 V (Proc.devRef .tc Cert.KernelIdeal.main_v13))
      ∧ (after Cert.ReferenceIdeal.HandRun.rc12 V' (Proc.devRef .tc Cert.ReferenceIdeal.main_v49) = after Cert.KernelIdeal.Gen.hostOps0_12 V (Proc.devRef .tc Cert.KernelIdeal.main_v49))
      ∧ (after Cert.ReferenceIdeal.HandRun.rc12 V' (Proc.devRef .tc Cert.ReferenceIdeal.main_v51) = after Cert.KernelIdeal.Gen.hostOps0_12 V (Proc.devRef .tc Cert.KernelIdeal.main_v51))
      ∧ (after Cert.ReferenceIdeal.HandRun.rc12 V' (Proc.devRef .tc Cert.ReferenceIdeal.main_c_15) = after Cert.KernelIdeal.Gen.hostOps0_12 V (Proc.devRef .tc Cert.KernelIdeal.main_c_15)) := by
  refine ⟨?_, ?_, ?_, ?_, ?_, ?_, ?_, ?_⟩
  all_goals (after_results_simp <;> results_rw <;> (try rw [h_main_arg2]) <;> (try rw [h_main_arg3]) <;> (try rw [h_main_arg4]) <;> (try rw [h_main_arg14]) <;> (try rw [h_main_arg15]) <;> (try rw [h_main_v9]) <;> (try rw [h_main_v11]) <;> (try rw [h_main_v13]) <;> (try rw [h_main_v31]) <;> (first | done | rfl))

set_option maxHeartbeats 4000000 in
/-- Stretch 13: from valuations that agree on what the stretch and the later ones read, the two programs' stretches
    leave valuations that agree on what the later ones read. -/
theorem step13 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg15 : V' (Proc.devRef .tc Cert.ReferenceIdeal.main_arg15) = V (Proc.devRef .tc Cert.KernelIdeal.main_arg15))
    (h_main_v13 : V' (Proc.devRef .tc Cert.ReferenceIdeal.main_v13) = V (Proc.devRef .tc Cert.KernelIdeal.main_v13))
    (h_main_v49 : V' (Proc.devRef .tc Cert.ReferenceIdeal.main_v49) = V (Proc.devRef .tc Cert.KernelIdeal.main_v49))
    (h_main_v51 : V' (Proc.devRef .tc Cert.ReferenceIdeal.main_v51) = V (Proc.devRef .tc Cert.KernelIdeal.main_v51))
    (h_main_c_15 : V' (Proc.devRef .tc Cert.ReferenceIdeal.main_c_15) = V (Proc.devRef .tc Cert.KernelIdeal.main_c_15)) :
    (after Cert.ReferenceIdeal.HandRun.rc13 V' (Proc.devRef .tc Cert.ReferenceIdeal.main_arg2) = after Cert.KernelIdeal.Gen.hostOps0_13 V (Proc.devRef .tc Cert.KernelIdeal.main_arg2))
      ∧ (after Cert.ReferenceIdeal.HandRun.rc13 V' (Proc.devRef .tc Cert.ReferenceIdeal.main_arg3) = after Cert.KernelIdeal.Gen.hostOps0_13 V (Proc.devRef .tc Cert.KernelIdeal.main_arg3))
      ∧ (after Cert.ReferenceIdeal.HandRun.rc13 V' (Proc.devRef .tc Cert.ReferenceIdeal.main_arg4) = after Cert.KernelIdeal.Gen.hostOps0_13 V (Proc.devRef .tc Cert.KernelIdeal.main_arg4))
      ∧ (after Cert.ReferenceIdeal.HandRun.rc13 V' (Proc.devRef .tc Cert.ReferenceIdeal.main_arg15) = after Cert.KernelIdeal.Gen.hostOps0_13 V (Proc.devRef .tc Cert.KernelIdeal.main_arg15))
      ∧ (after Cert.ReferenceIdeal.HandRun.rc13 V' (Proc.devRef .tc Cert.ReferenceIdeal.main_v13) = after Cert.KernelIdeal.Gen.hostOps0_13 V (Proc.devRef .tc Cert.KernelIdeal.main_v13))
      ∧ (after Cert.ReferenceIdeal.HandRun.rc13 V' (Proc.devRef .tc Cert.ReferenceIdeal.main_v52) = after Cert.KernelIdeal.Gen.hostOps0_13 V (Proc.devRef .tc Cert.KernelIdeal.main_v52)) := by
  refine ⟨?_, ?_, ?_, ?_, ?_, ?_⟩
  all_goals (after_results_simp <;> results_rw <;> (try rw [h_main_arg2]) <;> (try rw [h_main_arg3]) <;> (try rw [h_main_arg4]) <;> (try rw [h_main_arg15]) <;> (try rw [h_main_v13]) <;> (try rw [h_main_v49]) <;> (try rw [h_main_v51]) <;> (try rw [h_main_c_15]) <;> (first | done | rfl))

set_option maxHeartbeats 4000000 in
/-- Stretch 14: from valuations that agree on what the stretch and the later ones read, the two programs' stretches
    leave valuations that agree on what the later ones read. -/
theorem step14 (V' : Valuation Cert.ReferenceIdeal.τ Cert.ReferenceIdeal.sig (Elt F)) (V : Valuation Cert.KernelIdeal.τ Cert.KernelIdeal.sig (Elt F))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg15 : V' (Proc.devRef .tc Cert.ReferenceIdeal.main_arg15) = V (Proc.devRef .tc Cert.KernelIdeal.main_arg15))
    (h_main_v13 : V' (Proc.devRef .tc Cert.ReferenceIdeal.main_v13) = V (Proc.devRef .tc Cert.KernelIdeal.main_v13))
    (h_main_v52 : V' (Proc.devRef .tc Cert.ReferenceIdeal.main_v52) = V (Proc.devRef .tc Cert.KernelIdeal.main_v52)) :
    (after Cert.ReferenceIdeal.HandRun.rc14 V' (Proc.devRef .tc Cert.ReferenceIdeal.main_arg3) = after Cert.KernelIdeal.Gen.hostOps0_14 V (Proc.devRef .tc Cert.KernelIdeal.main_arg3))
      ∧ (after Cert.ReferenceIdeal.HandRun.rc14 V' (Proc.devRef .tc Cert.ReferenceIdeal.main_arg4) = after Cert.KernelIdeal.Gen.hostOps0_14 V (Proc.devRef .tc Cert.KernelIdeal.main_arg4))
      ∧ (after Cert.ReferenceIdeal.HandRun.rc14 V' (Proc.devRef .tc Cert.ReferenceIdeal.main_arg15) = after Cert.KernelIdeal.Gen.hostOps0_14 V (Proc.devRef .tc Cert.KernelIdeal.main_arg15))
      ∧ (after Cert.ReferenceIdeal.HandRun.rc14 V' (Proc.devRef .tc Cert.ReferenceIdeal.main_v63) = after Cert.KernelIdeal.Gen.hostOps0_14 V (Proc.devRef .tc Cert.KernelIdeal.main_v63)) := by
  refine ⟨?_, ?_, ?_, ?_⟩
  all_goals (after_results_simp <;> results_rw <;> (try rw [h_main_arg2]) <;> (try rw [h_main_arg3]) <;> (try rw [h_main_arg4]) <;> (try rw [h_main_arg15]) <;> (try rw [h_main_v13]) <;> (try rw [h_main_v52]) <;> (first | done | rfl))

set_option maxHeartbeats 4000000 in
/-- Stretch 15: from valuations that agree on what the stretch and the later ones read, the two programs' stretches
    leave valuations that agree on what the later ones read. -/
theorem step15 (V' : Valuation Cert.ReferenceIdeal.τ Cert.ReferenceIdeal.sig (Elt F)) (V : Valuation Cert.KernelIdeal.τ Cert.KernelIdeal.sig (Elt F))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg15 : V' (Proc.devRef .tc Cert.ReferenceIdeal.main_arg15) = V (Proc.devRef .tc Cert.KernelIdeal.main_arg15))
    (h_main_v63 : V' (Proc.devRef .tc Cert.ReferenceIdeal.main_v63) = V (Proc.devRef .tc Cert.KernelIdeal.main_v63)) :
    (after Cert.ReferenceIdeal.HandRun.rc15 V' (Proc.devRef .tc Cert.ReferenceIdeal.main_arg3) = after Cert.KernelIdeal.Gen.hostOps0_15 V (Proc.devRef .tc Cert.KernelIdeal.main_arg3))
      ∧ (after Cert.ReferenceIdeal.HandRun.rc15 V' (Proc.devRef .tc Cert.ReferenceIdeal.main_arg4) = after Cert.KernelIdeal.Gen.hostOps0_15 V (Proc.devRef .tc Cert.KernelIdeal.main_arg4))
      ∧ (after Cert.ReferenceIdeal.HandRun.rc15 V' (Proc.devRef .tc Cert.ReferenceIdeal.main_v63) = after Cert.KernelIdeal.Gen.hostOps0_15 V (Proc.devRef .tc Cert.KernelIdeal.main_v63))
      ∧ (after Cert.ReferenceIdeal.HandRun.rc15 V' (Proc.devRef .tc Cert.ReferenceIdeal.main_v64) = after Cert.KernelIdeal.Gen.hostOps0_15 V (Proc.devRef .tc Cert.KernelIdeal.main_v64)) := by
  refine ⟨?_, ?_, ?_, ?_⟩
  all_goals (after_results_simp <;> results_rw <;> (try rw [h_main_arg3]) <;> (try rw [h_main_arg4]) <;> (try rw [h_main_arg15]) <;> (try rw [h_main_v63]) <;> (first | done | rfl))

set_option maxHeartbeats 4000000 in
/-- Stretch 16: from valuations that agree on what the stretch and the later ones read, the two programs' stretches
    leave valuations that agree on what the later ones read. -/
theorem step16 (V' : Valuation Cert.ReferenceIdeal.τ Cert.ReferenceIdeal.sig (Elt F)) (V : Valuation Cert.KernelIdeal.τ Cert.KernelIdeal.sig (Elt F))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_v63 : V' (Proc.devRef .tc Cert.ReferenceIdeal.main_v63) = V (Proc.devRef .tc Cert.KernelIdeal.main_v63))
    (h_main_v64 : V' (Proc.devRef .tc Cert.ReferenceIdeal.main_v64) = V (Proc.devRef .tc Cert.KernelIdeal.main_v64)) :
    (after Cert.ReferenceIdeal.HandRun.rc16 V' (Proc.devRef .tc Cert.ReferenceIdeal.main_v73) = after Cert.KernelIdeal.Gen.hostOps0_16 V (Proc.devRef .tc Cert.KernelIdeal.main_v73))
      ∧ (after Cert.ReferenceIdeal.HandRun.rc16 V' (Proc.devRef .tc Cert.ReferenceIdeal.main_v74) = after Cert.KernelIdeal.Gen.hostOps0_16 V (Proc.devRef .tc Cert.KernelIdeal.main_v74))
      ∧ (after Cert.ReferenceIdeal.HandRun.rc16 V' (Proc.devRef .tc Cert.ReferenceIdeal.main_v75) = after Cert.KernelIdeal.Gen.hostOps0_16 V (Proc.devRef .tc Cert.KernelIdeal.main_v75)) := by
  refine ⟨?_, ?_, ?_⟩
  all_goals (after_results_simp <;> results_rw <;> (try rw [h_main_arg3]) <;> (try rw [h_main_arg4]) <;> (try rw [h_main_v63]) <;> (try rw [h_main_v64]) <;> (first | done | rfl))

/-- The two programs' host prefixes, from valuations that agree on the seven arguments the prefix reads, leave the
    gathered segment means and the two slices of the input projection equal: stretch by stretch, each stretch's
    results are the same functions of what the earlier ones left. -/
theorem prefix_all (V' : Valuation Cert.ReferenceIdeal.τ Cert.ReferenceIdeal.sig (Elt F)) (V : Valuation Cert.KernelIdeal.τ Cert.KernelIdeal.sig (Elt F))
    (h_main_arg0 : V' (Proc.devRef .tc Cert.ReferenceIdeal.main_arg0) = V (Proc.devRef .tc Cert.KernelIdeal.main_arg0))
    (h_main_arg2 : V' (Proc.devRef .tc Cert.ReferenceIdeal.main_arg2) = V (Proc.devRef .tc Cert.KernelIdeal.main_arg2))
    (h_main_arg3 : V' (Proc.devRef .tc Cert.ReferenceIdeal.main_arg3) = V (Proc.devRef .tc Cert.KernelIdeal.main_arg3))
    (h_main_arg4 : V' (Proc.devRef .tc Cert.ReferenceIdeal.main_arg4) = V (Proc.devRef .tc Cert.KernelIdeal.main_arg4))
    (h_main_arg13 : V' (Proc.devRef .tc Cert.ReferenceIdeal.main_arg13) = V (Proc.devRef .tc Cert.KernelIdeal.main_arg13))
    (h_main_arg14 : V' (Proc.devRef .tc Cert.ReferenceIdeal.main_arg14) = V (Proc.devRef .tc Cert.KernelIdeal.main_arg14))
    (h_main_arg15 : V' (Proc.devRef .tc Cert.ReferenceIdeal.main_arg15) = V (Proc.devRef .tc Cert.KernelIdeal.main_arg15)) :
    (after Cert.ReferenceIdeal.HandRun.opsPre V' (Proc.devRef .tc Cert.ReferenceIdeal.main_v73) = (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))))))))))) (Proc.devRef .tc Cert.KernelIdeal.main_v73))
      ∧ (after Cert.ReferenceIdeal.HandRun.opsPre V' (Proc.devRef .tc Cert.ReferenceIdeal.main_v74) = (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))))))))))) (Proc.devRef .tc Cert.KernelIdeal.main_v74))
      ∧ (after Cert.ReferenceIdeal.HandRun.opsPre V' (Proc.devRef .tc Cert.ReferenceIdeal.main_v75) = (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))))))))))) (Proc.devRef .tc Cert.KernelIdeal.main_v75)) := by
  rw [Cert.ReferenceIdeal.HandRun.after_opsPre]
  obtain ⟨a0_main_arg0, a0_main_arg2, a0_main_arg3, a0_main_arg4, a0_main_arg13, a0_main_arg14, a0_main_arg15, a0_main_v0, a0_main_c_0⟩ := step0 (V') (V) h_main_arg0 h_main_arg2 h_main_arg3 h_main_arg4 h_main_arg13 h_main_arg14 h_main_arg15
  obtain ⟨a1_main_arg0, a1_main_arg2, a1_main_arg3, a1_main_arg4, a1_main_arg14, a1_main_arg15, a1_main_v0, a1_main_v1⟩ := step1 (after Cert.ReferenceIdeal.HandRun.rc0 (V')) (after Cert.KernelIdeal.Gen.hostOps0 (V)) a0_main_arg0 a0_main_arg2 a0_main_arg3 a0_main_arg4 a0_main_arg13 a0_main_arg14 a0_main_arg15 a0_main_v0 a0_main_c_0
  obtain ⟨a2_main_arg0, a2_main_arg2, a2_main_arg3, a2_main_arg4, a2_main_arg14, a2_main_arg15, a2_main_v9⟩ := step2 (after Cert.ReferenceIdeal.HandRun.rc1 (after Cert.ReferenceIdeal.HandRun.rc0 (V'))) (after Cert.KernelIdeal.Gen.hostOps0_1 (after Cert.KernelIdeal.Gen.hostOps0 (V))) a1_main_arg0 a1_main_arg2 a1_main_arg3 a1_main_arg4 a1_main_arg14 a1_main_arg15 a1_main_v0 a1_main_v1
  obtain ⟨a3_main_arg0, a3_main_arg2, a3_main_arg3, a3_main_arg4, a3_main_arg14, a3_main_arg15, a3_main_v9, a3_main_v10⟩ := step3 (after Cert.ReferenceIdeal.HandRun.rc2 (after Cert.ReferenceIdeal.HandRun.rc1 (after Cert.ReferenceIdeal.HandRun.rc0 (V')))) (after Cert.KernelIdeal.Gen.hostOps0_2 (after Cert.KernelIdeal.Gen.hostOps0_1 (after Cert.KernelIdeal.Gen.hostOps0 (V)))) a2_main_arg0 a2_main_arg2 a2_main_arg3 a2_main_arg4 a2_main_arg14 a2_main_arg15 a2_main_v9
  obtain ⟨a4_main_arg2, a4_main_arg3, a4_main_arg4, a4_main_arg14, a4_main_arg15, a4_main_v9, a4_main_v11, a4_main_v13, a4_main_v14⟩ := step4 (after Cert.ReferenceIdeal.HandRun.rc3 (after Cert.ReferenceIdeal.HandRun.rc2 (after Cert.ReferenceIdeal.HandRun.rc1 (after Cert.ReferenceIdeal.HandRun.rc0 (V'))))) (after Cert.KernelIdeal.Gen.hostOps0_3 (after Cert.KernelIdeal.Gen.hostOps0_2 (after Cert.KernelIdeal.Gen.hostOps0_1 (after Cert.KernelIdeal.Gen.hostOps0 (V))))) a3_main_arg0 a3_main_arg2 a3_main_arg3 a3_main_arg4 a3_main_arg14 a3_main_arg15 a3_main_v9 a3_main_v10
  obtain ⟨a5_main_arg2, a5_main_arg3, a5_main_arg4, a5_main_arg14, a5_main_arg15, a5_main_v9, a5_main_v11, a5_main_v13, a5_main_v14, a5_main_v15⟩ := step5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V')))))) (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))) a4_main_arg2 a4_main_arg3 a4_main_arg4 a4_main_arg14 a4_main_arg15 a4_main_v9 a4_main_v11 a4_main_v13 a4_main_v14
  obtain ⟨a6_main_arg2, a6_main_arg3, a6_main_arg4, a6_main_arg14, a6_main_arg15, a6_main_v9, a6_main_v11, a6_main_v13, a6_main_v14, a6_main_v17⟩ := step6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V'))))))) (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V))))))) a5_main_arg2 a5_main_arg3 a5_main_arg4 a5_main_arg14 a5_main_arg15 a5_main_v9 a5_main_v11 a5_main_v13 a5_main_v14 a5_main_v15
  obtain ⟨a7_main_arg2, a7_main_arg3, a7_main_arg4, a7_main_arg14, a7_main_arg15, a7_main_v9, a7_main_v11, a7_main_v13, a7_main_v14, a7_main_v18⟩ := step7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V')))))))) (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))) a6_main_arg2 a6_main_arg3 a6_main_arg4 a6_main_arg14 a6_main_arg15 a6_main_v9 a6_main_v11 a6_main_v13 a6_main_v14 a6_main_v17
  obtain ⟨a8_main_arg2, a8_main_arg3, a8_main_arg4, a8_main_arg14, a8_main_arg15, a8_main_v9, a8_main_v11, a8_main_v13, a8_main_v14, a8_main_v27⟩ := step8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V'))))))))) (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V))))))))) a7_main_arg2 a7_main_arg3 a7_main_arg4 a7_main_arg14 a7_main_arg15 a7_main_v9 a7_main_v11 a7_main_v13 a7_main_v14 a7_main_v18
  obtain ⟨a9_main_arg2, a9_main_arg3, a9_main_arg4, a9_main_arg14, a9_main_arg15, a9_main_v9, a9_main_v11, a9_main_v13, a9_main_v14, a9_main_v28⟩ := step9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V')))))))))) (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))) a8_main_arg2 a8_main_arg3 a8_main_arg4 a8_main_arg14 a8_main_arg15 a8_main_v9 a8_main_v11 a8_main_v13 a8_main_v14 a8_main_v27
  obtain ⟨a10_main_arg2, a10_main_arg3, a10_main_arg4, a10_main_arg14, a10_main_arg15, a10_main_v9, a10_main_v11, a10_main_v13, a10_main_v14, a10_main_v30⟩ := step10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V'))))))))))) (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V))))))))))) a9_main_arg2 a9_main_arg3 a9_main_arg4 a9_main_arg14 a9_main_arg15 a9_main_v9 a9_main_v11 a9_main_v13 a9_main_v14 a9_main_v28
  obtain ⟨a11_main_arg2, a11_main_arg3, a11_main_arg4, a11_main_arg14, a11_main_arg15, a11_main_v9, a11_main_v11, a11_main_v13, a11_main_v31⟩ := step11 (after Cert.ReferenceIdeal.HandRun.rc10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V')))))))))))) (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))))) a10_main_arg2 a10_main_arg3 a10_main_arg4 a10_main_arg14 a10_main_arg15 a10_main_v9 a10_main_v11 a10_main_v13 a10_main_v14 a10_main_v30
  obtain ⟨a12_main_arg2, a12_main_arg3, a12_main_arg4, a12_main_arg15, a12_main_v13, a12_main_v49, a12_main_v51, a12_main_c_15⟩ := step12 (after Cert.ReferenceIdeal.HandRun.rc11 (after Cert.ReferenceIdeal.HandRun.rc10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V'))))))))))))) (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V))))))))))))) a11_main_arg2 a11_main_arg3 a11_main_arg4 a11_main_arg14 a11_main_arg15 a11_main_v9 a11_main_v11 a11_main_v13 a11_main_v31
  obtain ⟨a13_main_arg2, a13_main_arg3, a13_main_arg4, a13_main_arg15, a13_main_v13, a13_main_v52⟩ := step13 (after Cert.ReferenceIdeal.HandRun.rc12 (after Cert.ReferenceIdeal.HandRun.rc11 (after Cert.ReferenceIdeal.HandRun.rc10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V')))))))))))))) (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))))))) a12_main_arg2 a12_main_arg3 a12_main_arg4 a12_main_arg15 a12_main_v13 a12_main_v49 a12_main_v51 a12_main_c_15
  obtain ⟨a14_main_arg3, a14_main_arg4, a14_main_arg15, a14_main_v63⟩ := step14 (after Cert.ReferenceIdeal.HandRun.rc13 (after Cert.ReferenceIdeal.HandRun.rc12 (after Cert.ReferenceIdeal.HandRun.rc11 (after Cert.ReferenceIdeal.HandRun.rc10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V'))))))))))))))) (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V))))))))))))))) a13_main_arg2 a13_main_arg3 a13_main_arg4 a13_main_arg15 a13_main_v13 a13_main_v52
  obtain ⟨a15_main_arg3, a15_main_arg4, a15_main_v63, a15_main_v64⟩ := step15 (after Cert.ReferenceIdeal.HandRun.rc14 (after Cert.ReferenceIdeal.HandRun.rc13 (after Cert.ReferenceIdeal.HandRun.rc12 (after Cert.ReferenceIdeal.HandRun.rc11 (after Cert.ReferenceIdeal.HandRun.rc10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V')))))))))))))))) (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V)))))))))))))))) a14_main_arg3 a14_main_arg4 a14_main_arg15 a14_main_v63
  exact step16 (after Cert.ReferenceIdeal.HandRun.rc15 (after Cert.ReferenceIdeal.HandRun.rc14 (after Cert.ReferenceIdeal.HandRun.rc13 (after Cert.ReferenceIdeal.HandRun.rc12 (after Cert.ReferenceIdeal.HandRun.rc11 (after Cert.ReferenceIdeal.HandRun.rc10 (after Cert.ReferenceIdeal.HandRun.rc9 (after Cert.ReferenceIdeal.HandRun.rc8 (after Cert.ReferenceIdeal.HandRun.rc7 (after Cert.ReferenceIdeal.HandRun.rc6 (after Cert.ReferenceIdeal.HandRun.rc5 (after Cert.ReferenceIdeal.HandRun.rc4 (after Cert.ReferenceIdeal.HandRun.rc3 (after Cert.ReferenceIdeal.HandRun.rc2 (after Cert.ReferenceIdeal.HandRun.rc1 (after Cert.ReferenceIdeal.HandRun.rc0 (V'))))))))))))))))) (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 (V))))))))))))))))) a15_main_arg3 a15_main_arg4 a15_main_v63 a15_main_v64

/-- The launch memories' agreement on the seventeen arguments, on core `c`. -/
abbrev Agree (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- All three at the launch contents. -/
theorem prefix_launch (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD)
    (hagree : Agree m m' c) :
    (after Cert.ReferenceIdeal.HandRun.opsPre (launchContents m' c) (Proc.devRef .tc Cert.ReferenceIdeal.main_v73) = Cert.KernelIdeal.Gen.V17 m c (Proc.devRef .tc Cert.KernelIdeal.main_v73))
      ∧ (after Cert.ReferenceIdeal.HandRun.opsPre (launchContents m' c) (Proc.devRef .tc Cert.ReferenceIdeal.main_v74) = Cert.KernelIdeal.Gen.V17 m c (Proc.devRef .tc Cert.KernelIdeal.main_v74))
      ∧ (after Cert.ReferenceIdeal.HandRun.opsPre (launchContents m' c) (Proc.devRef .tc Cert.ReferenceIdeal.main_v75) = Cert.KernelIdeal.Gen.V17 m c (Proc.devRef .tc Cert.KernelIdeal.main_v75)) :=
  prefix_all (launchContents m' c) (Cert.KernelIdeal.Gen.V0 m c) hagree.1 hagree.2.2.1 hagree.2.2.2.1 hagree.2.2.2.2.1 hagree.2.2.2.2.2.2.2.2.2.2.2.2.2.1 hagree.2.2.2.2.2.2.2.2.2.2.2.2.2.2.1 hagree.2.2.2.2.2.2.2.2.2.2.2.2.2.2.2.1

theorem prefix_v73 (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD)
    (hagree : Agree m m' c) :
    after Cert.ReferenceIdeal.HandRun.opsPre (launchContents m' c) (Proc.devRef .tc Cert.ReferenceIdeal.main_v73) = Cert.KernelIdeal.Gen.V17 m c (Proc.devRef .tc Cert.KernelIdeal.main_v73) :=
  (prefix_launch m m' c hagree).1

theorem prefix_v74 (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD)
    (hagree : Agree m m' c) :
    after Cert.ReferenceIdeal.HandRun.opsPre (launchContents m' c) (Proc.devRef .tc Cert.ReferenceIdeal.main_v74) = Cert.KernelIdeal.Gen.V17 m c (Proc.devRef .tc Cert.KernelIdeal.main_v74) :=
  (prefix_launch m m' c hagree).2.1

theorem prefix_v75 (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD)
    (hagree : Agree m m' c) :
    after Cert.ReferenceIdeal.HandRun.opsPre (launchContents m' c) (Proc.devRef .tc Cert.ReferenceIdeal.main_v75) = Cert.KernelIdeal.Gen.V17 m c (Proc.devRef .tc Cert.KernelIdeal.main_v75) :=
  (prefix_launch m m' c hagree).2.2

end Cert.PrefixEq

end
-- ==== Proof.KI.RunMore.lean ====
import proofs.«104216_j3135326126725_1_alg».proof.Proof.KI.RunFacts
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.HandRun

open Cert.KernelIdeal Cert.KernelIdeal.Gen Cert.KernelIdeal.SanRegion Cert.KernelIdeal.ScoresRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Reading the last two boundaries -/

/-- A buffer that no host stretch up to the second call writes, that the first call leaves as entered and that is no
    array of the second holds its launch contents after the second call. -/
theorem W20_kept (c : Dev nD) (G : Arrs1 (F := F) c) (r : Ref sig .tc)
    (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) (h14 : r ∉ hostOps0_14_W) (h15 : r ∉ hostOps0_15_W) (h16 : r ∉ hostOps0_16_W) (hm : r ∉ hostOps1_W)
    (ha0 : W18 m c (Proc.devRef .tc r) = V17 m c (Proc.devRef .tc r)) (ha1 : ∀ w, Pipeline.arrRef spec1 w ≠ r) :
    W20 m c G (Proc.devRef .tc r) = m ((c : Thread nD τ).loc r) :=
  (W20_of_ne m c G r ha1).trans <|
  (StableHlo.after_of_writes_sub hostOps1 _ hostOps1_writes hm).trans <|
  ha0.trans <|
  (V17_of m c r h16).trans <|
  (V16_of m c r h15).trans <|
  (V15_of m c r h14).trans <|
  (V14_of m c r h13).trans <|
  (V13_of m c r h12).trans <|
  (V12_of m c r h11).trans <|
  (V11_of m c r h10).trans <|
  (V10_of m c r h9).trans <|
  (V9_of m c r h8).trans <|
  (V8_of m c r h7).trans <|
  (V7_of m c r h6).trans <|
  (V6_of m c r h5).trans <|
  (V5_of m c r h4).trans <|
  (V4_of m c r h3).trans <|
  (V3_of m c r h2).trans <|
  (V2_of m c r h1).trans <|
  (V1_of m c r h0)

theorem W20_main_arg1 (c : Dev nD) (G : Arrs1 (F := F) c) : W20 m c G (Proc.devRef .tc main_arg1) = m ((c : Thread nD τ).loc main_arg1) :=
  W20_kept m c G main_arg1 (by decide) (by decide) (by decide) (by decide) (by decide) (by decide) (by decide) (by decide) (by decide) (by decide) (by decide) (by decide) (by decide) (by decide) (by decide) (by decide) (by decide) (by decide) (W18_of_ne m c main_arg1 (by decide)) (by decide)
theorem W20_main_arg16 (c : Dev nD) (G : Arrs1 (F := F) c) : W20 m c G (Proc.devRef .tc main_arg16) = m ((c : Thread nD τ).loc main_arg16) :=
  W20_kept m c G main_arg16 (by decide) (by decide) (by decide) (by decide) (by decide) (by decide) (by decide) (by decide) (by decide) (by decide) (by decide) (by decide) (by decide) (by decide) (by decide) (by decide) (by decide) (by decide) (W18_of_ne m c main_arg16 (by decide)) (by decide)

/-- The session vectors the first call leaves are still there after the second. -/
theorem W20_main_v81 (c : Dev nD) (G : Arrs1 (F := F) c) : W20 m c G (Proc.devRef .tc main_v81) = W18 m c (Proc.devRef .tc main_v81) :=
  (W20_of_ne m c G main_v81 (by decide)).trans (StableHlo.after_of_writes_sub hostOps1 _ hostOps1_writes (by decide))

/-- The last stretch does not write the scores: at the end they are what the second call left. -/
theorem W21_main_v84 (c : Dev nD) (G : Arrs1 (F := F) c) : W21 m c G (Proc.devRef .tc main_v84) = G 2 :=
  (StableHlo.after_of_writes_sub hostOps2 _ hostOps2_writes (by decide)).trans (W20_arr m c G 2)

end Cert.KernelIdeal.HandRun

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«104216_j3135326126725_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.ScoresValue.lean ====
/-
  The second kernel's matrix product and the reference's, each read at an entry.

  The kernel multiplies a block of 1024 rows of 256 entries against the ROWS of a 3584 × 256 block (it contracts the
  second axis of both) onto the zero array: at (p, q) the sum over k of left (p, k) · right (q, k).  The reference
  transposes the whole 50000 × 256 table on the host and takes the ordinary product with it: at (p, v) the sum over k
  of left (p, k) · table (v, k).  Both are plain finite sums on the extended reals; nothing is assumed of the entries.
-/
import proofs.«104216_j3135326126725_1_alg».proof.Proof.Gen.KernelIdeal.Skeleton
import proofs.«104216_j3135326126725_1_alg».proof.Proof.Gen.ReferenceIdeal
import Idealize.ShloMosaic.Lib.ValueLayout
import proofs.«104216_j3135326126725_1_alg».proof.Proof.LibMatmulRows
import proofs.«104216_j3135326126725_1_alg».proof.Proof.LibHostForms

noncomputable section

open scoped BigOperators

namespace Cert.ScoresValue

open Idealize.ShloMosaic Idealize.ShloMosaic.ValueIdx

/-- The second kernel's product at (p, q): the dot product of row p of the left block with row q of the right block. -/
theorem ker_scores_apply (x0 : FVec Ideal Cert.KernelIdeal.S1024x256 .bf16)
    (x1 : FVec Ideal Cert.KernelIdeal.S3584x256 .bf16) (p : Fin 1024) (q : Fin 3584) :
    Cert.KernelIdeal.Gen.k1_pay1 (F := Ideal) x0 x1 (ix2 p q) = ∑ k : Fin 256, x0 (ix2 p k) * x1 (ix2 q k) := by
  unfold Cert.KernelIdeal.Gen.k1_pay1
  simp only [shapeCast_self]
  exact Cert.MatmulRows.zero_acc_apply
    Cert.KernelIdeal.Facts₀.dot_S1024x256_S3584x256_S1024x3584_1_1_0_0_n_n_wf none x0 x1 p q

/-- The reference's product with the transposed table at (p, v): the dot product of row p of the left block with row
    v of the table. -/
theorem ref_scores_apply (sh : FVec Ideal Cert.ReferenceIdeal.S1024x256 .f32)
    (a1 : FVec Ideal Cert.ReferenceIdeal.S50000x256 .f32) (p : Fin 1024) (v : Fin 50000) :
    Host.dotGeneral (F := Ideal) Cert.ReferenceIdeal.dot_S1024x256_S256x50000_S1024x50000_1_0_0_1_n_n none sh
        (transpose Cert.ReferenceIdeal.S256x50000 [1, 0] a1
          Cert.ReferenceIdeal.Facts₀.transposes_S50000x256_S256x50000_1_0) (ix2 p v)
      = ∑ k : Fin 256, sh (ix2 p k) * a1 (ix2 v k) := by
  refine (Cert.HostForms.host_product_apply
    Cert.ReferenceIdeal.Facts₀.dot_S1024x256_S256x50000_S1024x50000_1_0_0_1_n_n_wf none sh _ p v).trans ?_
  refine Finset.sum_congr rfl fun k _ => ?_
  rw [transpose_ix2_apply]

end Cert.ScoresValue

end
-- ==== Proof.KI.ScoresFinal.lean ====
import proofs.«104216_j3135326126725_1_alg».proof.Proof.KI.ScoresRegion
import proofs.«104216_j3135326126725_1_alg».proof.Proof.ScoresValue

/-! # The second pallas_call's result array, at the exact instance

At grid point `t` the body leaves in the result buffer the product of the activation block with the transpose of the
table block. The table block's rows that lie inside the table are rows `3584·t + q` of the table; the rest of the
last block is whatever the buffer held. So the columns `q` of the result tile with `3584·t + q < 50000` are the dot
products of activation rows with table rows — and those are exactly the columns the write-back of point `t` copies
into the result array, at columns `3584·t + q`. After the fourteen write-backs every column of the array has been
written once, with its dot product. -/

set_option maxRecDepth 16384

noncomputable section

open scoped BigOperators

namespace Cert.KernelIdeal.ScoresRegion

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window)

-- the buffer contents of the core when the region is entered, at the exact instance: a parameter
variable (V : (c : Dev nD) → (b : Ref sig .tc) → Buf (Elt Ideal) ((c : Thread nD τ).loc b))

/-! ## The block indices and the cut extents, decided over the grid -/

/-- The activation window's block is the whole array at every point. -/
theorem idx1_0 : ∀ t : Fin cfg1.N, win1_0.index t (0 : Fin 2) = 0 ∧ win1_0.index t (1 : Fin 2) = 0 :=
  (by decide +kernel : ∀ t : Fin grid1.N, _)

/-- The table window's block at point `t` starts at row block `t`, spans the columns, and keeps of its 3584 rows those
    inside the table's 50000. -/
theorem idx1_1 : ∀ t : Fin cfg1.N, win1_1.index t (0 : Fin 2) = t.val ∧ win1_1.index t (1 : Fin 2) = 0
    ∧ win1_1.xsize (grid1.coords t) (0 : Fin 2) + 3584 * t.val = min (3584 * t.val + 3584) 50000
    ∧ win1_1.xsize (grid1.coords t) (1 : Fin 2) = 256 :=
  (by decide +kernel : ∀ t : Fin grid1.N, _)

/-- The result window's block at point `t` spans the rows, starts at column block `t`, and keeps of its 3584 columns
    those inside the array's 50000. -/
theorem idx1_2 : ∀ t : Fin cfg1.N, win1_2.index t (0 : Fin 2) = 0 ∧ win1_2.index t (1 : Fin 2) = t.val
    ∧ win1_2.xsize (grid1.coords t) (0 : Fin 2) = 1024
    ∧ win1_2.xsize (grid1.coords t) (1 : Fin 2) + 3584 * t.val = min (3584 * t.val + 3584) 50000 :=
  (by decide +kernel : ∀ t : Fin grid1.N, _)

/-! ## The input blocks, read off any contents of their arrays

A block's element sits in the array, on each axis, at block index × block extent + its own coordinate. -/

/-- The activation block is the array. -/
theorem act_read (t : Fin cfg1.N) (G : S1024x256.Idx → Elt Ideal .bf16) :
    (win1_0.blk t).view.read (Elt Ideal) G = G := by
  obtain ⟨e0, e1⟩ := idx1_0 t
  funext j
  show G ((win1_0.blk t).view.emb j) = G j
  refine congrArg G ?_
  funext a; apply Fin.ext
  match a with
  | ⟨0, _⟩ => show win1_0.index t (0 : Fin 2) * 1024 + 1 * (j 0).val = (j 0).val; omega
  | ⟨1, _⟩ => show win1_0.index t (1 : Fin 2) * 256 + 1 * (j 1).val = (j 1).val; omega

/-- Row `q`, column `k` of the table block at point `t` is row `3584·t + q`, column `k` of the table. -/
theorem tab_read (t : Fin cfg1.N) (G : S50000x256.Idx → Elt Ideal .bf16) (j : (win1_1.xblock (grid1.coords t)).Idx)
    (q : Fin 3584) (k : Fin 256) (hq : (j (0 : Fin 2)).val = q.val) (hk : (j (1 : Fin 2)).val = k.val)
    (h : 3584 * t.val + q.val < 50000) :
    (win1_1.blk t).view.read (Elt Ideal) G j = G (ix2 ⟨3584 * t.val + q.val, h⟩ k) := by
  obtain ⟨e0, e1, -, -⟩ := idx1_1 t
  show G ((win1_1.blk t).view.emb j) = G _
  refine congrArg G ?_
  funext a; apply Fin.ext
  match a with
  | ⟨0, _⟩ => show win1_1.index t (0 : Fin 2) * 3584 + 1 * (j (0 : Fin 2)).val = 3584 * t.val + q.val; omega
  | ⟨1, _⟩ => show win1_1.index t (1 : Fin 2) * 256 + 1 * (j (1 : Fin 2)).val = k.val; omega

/-! ## What is asked of the result buffer after the body -/

/-- The activation matrix as the region finds it, at its literal type. -/
abbrev act (c : Dev nD) : FVec Ideal S1024x256 .bf16 := V c main_v83
/-- The embedding table as the region finds it, at its literal type. -/
abbrev tab (c : Dev nD) : FVec Ideal S50000x256 .bf16 := V c main_v82

/-- The columns of the tile that lie inside the array are the dot products of activation rows with table rows. -/
def ColsOk : OutRel Ideal := fun c t X =>
  ∀ (p : Fin 1024) (q : Fin 3584) (h : 3584 * t.val + q.val < 50000),
    X (ix2 p q) = ∑ k : Fin 256, act V c (ix2 p k) * tab V c (ix2 ⟨3584 * t.val + q.val, h⟩ k)

/-- The body's product admits it, however the table block's tail is filled out: the rows the product reads for a
    column inside the array are inside the table, where the filled-out block is the table's block. -/
theorem admits_ColsOk : Admits V (ColsOk V) := by
  intro c t d0 d1 p q h
  obtain ⟨-, -, x0, x1⟩ := idx1_1 t
  rw [tileOut_eq, Cert.ScoresValue.ker_scores_apply]
  refine Finset.sum_congr rfl fun k _ => ?_
  have eA : win1_0.fill (grid1.coords t) d0 (iblk1 V c 0 t) (ix2 p k)
      = act V c (ix2 p k) := by
    refine (win1_0.fill_xinj (grid1.coords t) d0 (iblk1 V c 0 t) (ix2 p k)).trans ?_
    unfold iblk1
    exact congrFun (act_read t (V c main_v83)) (ix2 p k)
  have hm : win1_1.moved (grid1.coords t) (ix2 q k) = true := (win1_1.moved_iff _ _).mpr fun a => by
    match a with
    | ⟨0, _⟩ => show q.val < win1_1.xsize (grid1.coords t) (0 : Fin 2); omega
    | ⟨1, _⟩ => show k.val < win1_1.xsize (grid1.coords t) (1 : Fin 2); omega
  have eB : win1_1.fill (grid1.coords t) d1 (iblk1 V c 1 t) (ix2 q k)
      = tab V c (ix2 ⟨3584 * t.val + q.val, h⟩ k) := by
    unfold Pipeline.Window.fill
    rw [dif_pos hm]
    unfold iblk1
    exact tab_read t (V c main_v82) _ q k rfl rfl h
  rw [eA, eB]

/-! ## The result array, write-back by write-back -/

/-- An index of the result array is in the block at point `t` iff each coordinate is in the block's range on its
    axis: from block index × block extent, for the extent kept inside the array. -/
theorem mem_blk1_2 (t : Fin cfg1.N) (i : S1024x50000.Idx) :
    i ∈ (win1_2.blk t).view.set ↔ ∀ a : Fin 2, win1_2.index t a * S1024x3584.size a ≤ (i a).val
      ∧ (i a).val < win1_2.index t a * S1024x3584.size a + win1_2.xsize (grid1.coords t) a := by
  show i ∈ ((View.whole main_v84).slice (win1_2.rect t)).set ↔ _
  rw [View.set_slice_whole, Rect.mem_set_unit]
  exact Iff.rfl

/-- The array after the write-back of point `u`, read at row `p`, column `v`: a column of the block at `u` takes the
    staging buffer's column `v − 3584·u`; any other column keeps what the array held. -/
theorem out_write_apply (u : Fin cfg1.N) (G₀ : S1024x50000.Idx → Elt Ideal .f32) (X' : S1024x3584.Idx → Elt Ideal .f32)
    (p : Fin 1024) (v : Fin 50000) :
    (win1_2.blk u).view.write (Elt Ideal) G₀ (win1_2.cut (grid1.coords u) X') Finset.univ (ix2 p v)
      = if h : 3584 * u.val ≤ v.val ∧ v.val < 3584 * u.val + 3584
          then X' (ix2 p ⟨v.val - 3584 * u.val, by omega⟩) else G₀ (ix2 p v) := by
  obtain ⟨e0, e1, x0, x1⟩ := idx1_2 u
  have hv : v.val < 50000 := v.isLt
  have hp : p.val < 1024 := p.isLt
  by_cases h : 3584 * u.val ≤ v.val ∧ v.val < 3584 * u.val + 3584
  · rw [dif_pos h]
    have hy : ∀ a, ((ix2 p (⟨v.val - 3584 * u.val, by omega⟩ : Fin 3584) : S1024x3584.Idx) a).val
        < win1_2.xsize (grid1.coords u) a := fun a => by
      match a with
      | ⟨0, _⟩ => show p.val < win1_2.xsize (grid1.coords u) (0 : Fin 2); omega
      | ⟨1, _⟩ => show v.val - 3584 * u.val < win1_2.xsize (grid1.coords u) (1 : Fin 2); omega
    have ej : (win1_2.blk u).view.emb (fun a => ⟨_, hy a⟩) = ix2 p v := by
      funext a; apply Fin.ext
      match a with
      | ⟨0, _⟩ => show win1_2.index u (0 : Fin 2) * 1024 + 1 * p.val = p.val; omega
      | ⟨1, _⟩ => show win1_2.index u (1 : Fin 2) * 3584 + 1 * (v.val - 3584 * u.val) = v.val; omega
    rw [← ej, View.write_emb_of_mem _ _ (Finset.mem_univ _)]
    rfl
  · rw [dif_neg h]
    refine View.write_of_not_mem _ _ _ ?_
    rw [View.setOn_univ, mem_blk1_2]
    intro hm
    have h1 : win1_2.index u (1 : Fin 2) * 3584 ≤ v.val
        ∧ v.val < win1_2.index u (1 : Fin 2) * 3584 + win1_2.xsize (grid1.coords u) (1 : Fin 2) := hm (1 : Fin 2)
    omega

/-- After the write-backs of the first `n` points, every column below `3584·n` of the result array holds its dot
    products: a column of the newest block was just written from a tile whose in-array columns are dot products, an
    older column is kept. -/
theorem scores_upto (c : Dev nD) : ∀ (n : Nat), n ≤ 14 →
    ∀ G : S1024x50000.Idx → Elt Ideal .f32, (scoresData V (ColsOk V) c).ArrAt 2 n G →
    ∀ (p : Fin 1024) (v : Fin 50000), v.val < 3584 * n →
      G (ix2 p v) = ∑ k : Fin 256, act V c (ix2 p k) * tab V c (ix2 v k)
  | 0, _, _, _, _, v, hv => absurd hv (by omega)
  | n + 1, hn, G, hG, p, v, hv => by
    have hn' : n < cfg1.N := by rw [show cfg1.N = 14 from N_1]; omega
    have hG' : (if (cfg1.win 2).flush ⟨n, hn'⟩ then (scoresData V (ColsOk V) c).ArrStep 2 ⟨n, hn'⟩
        ((scoresData V (ColsOk V) c).ArrAt 2 n) else (scoresData V (ColsOk V) c).ArrAt 2 n) G := by
      rw [← (scoresData V (ColsOk V) c).ArrAt_succ 2 ⟨n, hn'⟩]; exact hG
    rw [if_pos (flush1_2 _)] at hG'
    obtain ⟨G₀, X', hG₀, ⟨Y, -, hX'⟩, rfl⟩ := hG'
    have hC : ColsOk V c ⟨n, hn'⟩ X' := hX'
    refine (out_write_apply ⟨n, hn'⟩ G₀ X' p v).trans ?_
    have hv50 : v.val < 50000 := v.isLt
    by_cases h : 3584 * n ≤ v.val ∧ v.val < 3584 * n + 3584
    · rw [dif_pos h]
      refine (hC p ⟨v.val - 3584 * n, by omega⟩ (by show 3584 * n + (v.val - 3584 * n) < 50000; omega)).trans ?_
      refine Finset.sum_congr rfl fun k _ => ?_
      refine congrArg (fun r => act V c (ix2 p k) * tab V c (ix2 r k)) ?_
      exact Fin.ext (by show 3584 * n + (v.val - 3584 * n) = v.val; omega)
    · rw [dif_neg h]
      exact scores_upto c n (by omega) G₀ hG₀ p v (by omega)

/-- THE RESULT ARRAY after the run: whatever it may hold after the fourteen write-backs is, entry by entry, the dot
    product of an activation row with a table row. -/
theorem scores_final (c : Dev nD) (X : Buf (Elt Ideal) ((spec1 2).arr.view.loc (c : Thread nD τ)))
    (h : (scoresData V (ColsOk V) c).ArrAt 2 cfg1.N X) :
    ∀ (p : Fin 1024) (v : Fin 50000), X (ix2 p v) = ∑ k : Fin 256, act V c (ix2 p k) * tab V c (ix2 v k) :=
  fun p v => scores_upto V c 14 (Nat.le_refl _) X (by rw [← show cfg1.N = 14 from N_1]; exact h) p v
    (by have := v.isLt; omega)

/-! ## The input arrays after the run -/

/-- The first two windows are inputs. -/
theorem isIn1 : ∀ w : Fin cfg1.W, w ≠ 2 → (cfg1.win w).isOut = false := by decide

/-- An input's array is never written back: it may hold only what the region found. -/
theorem inputs_final (R2 : OutRel Ideal) (c : Dev nD) (w : Fin cfg1.W) (hw : w ≠ 2)
    (X : Buf (Elt Ideal) ((cfg1.win w).arr.view.loc (c : Thread nD τ)))
    (h : (scoresData V R2 c).ArrAt w cfg1.N X) : X = V c (Pipeline.arrRef spec1 w) := by
  rw [(scoresData V R2 c).ArrAt_in w (isIn1 w hw)] at h
  exact h.trans (scoresData_A V R2 c w)

end Cert.KernelIdeal.ScoresRegion

end
-- ==== Proof.SanValue.lean ====
/-
  The first kernel's arithmetic and the reference's, as one function of the same eleven arrays.

  From a block x₀ of 1024 rows of 256 entries and five weight matrices with their bias vectors, both programs compute
  three rounds of
      attn = (x · Wvᵀ + bv) · Owᵀ + ob,   ff = relu (attn · D1ᵀ + d1b) · D2ᵀ + d2b,   x ← attn + ff,
  and then  [x₀ | x] · W3ᵀ + w3b  (the two blocks side by side, 512 columns).  The kernel receives the weights already
  transposed and multiplies onto a zero array; the reference transposes and multiplies on the host.  On the extended
  reals every product here is the same finite sum  Σₖ a(p,k) · w(k,q),  a bias vector laid along every row is the same
  array whichever way it is spelt, and a maximum with a zero array is the same maximum; so the two chains of thirteen
  products are one whole-array function.  Nothing is assumed of the entries: infinities are allowed everywhere.
-/
import proofs.«104216_j3135326126725_1_alg».proof.Proof.Gen.KernelIdeal.Skeleton
import proofs.«104216_j3135326126725_1_alg».proof.Proof.Gen.ReferenceIdeal
import Idealize.ShloMosaic.Lib.KernelVsHost
import Idealize.ShloMosaic.Lib.ValueLayout
import proofs.«104216_j3135326126725_1_alg».proof.Proof.LibHostForms

noncomputable section

namespace Cert.SanValue

open Idealize.ShloMosaic Idealize.ShloMosaic.ValueIdx

/-! ## The two spellings of each step agree as whole arrays -/

section Steps

/-- A product of a 1024 × 256 block with a 256 × 256 matrix onto the zero array is the host's product of the same
    operands: both are, at (p, q), the sum over k of left (p, k) · right (k, q). -/
theorem mm256 (L : FVec Ideal Cert.KernelIdeal.S1024x256 .f32) (R : FVec Ideal Cert.KernelIdeal.S256x256 .f32) :
    matmul Cert.KernelIdeal.dot_S1024x256_S256x256_S1024x256_1_0_0_1_n_n none L R
        (constant Cert.KernelIdeal.S1024x256 .f32 0x00000000#32)
      = Host.dotGeneral Cert.ReferenceIdeal.dot_S1024x256_S256x256_S1024x256_1_0_0_1_n_n none L R :=
  matmul_zero_eq_dotGeneral _ none L R

/-- The same for the last product, a 1024 × 512 block with a 512 × 256 matrix. -/
theorem mm512 (L : FVec Ideal Cert.KernelIdeal.S1024x512 .f32) (R : FVec Ideal Cert.KernelIdeal.S512x256 .f32) :
    matmul Cert.KernelIdeal.dot_S1024x512_S512x256_S1024x256_1_0_0_1_n_n none L R
        (constant Cert.KernelIdeal.S1024x256 .f32 0x00000000#32)
      = Host.dotGeneral Cert.ReferenceIdeal.dot_S1024x512_S512x256_S1024x256_1_0_0_1_n_n none L R :=
  matmul_zero_eq_dotGeneral _ none L R

/-- A vector of n entries laid along each of m rows.  The kernel casts it to one row and repeats the row; the host
    first makes the row by a broadcast along axis 1 and then repeats it.  Both read, at (p, q), the entry q. -/
theorem bias_rows {α : Type} {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) := by
  funext i
  obtain ⟨p, q, rfl⟩ : ∃ (p : Fin m) (q : Fin n), i = ix2 p q := ⟨i 0, i 1, eq_ix2 i⟩
  rw [broadcastTo_1b_ab_apply, shapeCast_a_1a_apply, broadcastInDim_oneRow_apply, Cert.HostForms.host_row_apply]

/-- The bias of every affine step here, 256 entries along each of 1024 rows: the kernel's spelling is the host's. -/
theorem bias256 (b : FVec Ideal Cert.KernelIdeal.S256 .f32) :
    broadcastTo Cert.KernelIdeal.S1024x256
        (shapeCast Cert.KernelIdeal.S1x256 b Cert.KernelIdeal.Facts₀.shapeCasts_S256_S1x256)
        Cert.KernelIdeal.Facts₀.broadcasts_S1x256_S1024x256
      = broadcastInDim Cert.ReferenceIdeal.S1024x256 ![0, 1] Cert.ReferenceIdeal.Facts₀.bcast_S1x256_S1024x256_0_1
          (broadcastInDim Cert.ReferenceIdeal.S1x256 ![1] Cert.ReferenceIdeal.Facts₀.bcast_S256_S1x256_1 b) :=
  bias_rows b _ _ _ _

/-- Two blocks laid side by side depend only on the blocks. -/
theorem concat_pair_congr {α : Type} {t s₁ s₂ : Shape} (a : Fin t.rank) (x₁ x₁' : s₁.Idx → α) (x₂ x₂' : s₂.Idx → α)
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- The last step, [x₀ | x] · W3ᵀ + w3b, in the kernel's spelling and the reference's, once the two programs' x agree. -/
theorem tail_eq (vn X Y : FVec Ideal Cert.KernelIdeal.S1024x256 .f32) (T : FVec Ideal Cert.KernelIdeal.S512x256 .f32)
    (a12 : FVec Ideal Cert.KernelIdeal.S256 .f32) (h : X = Y) :
    addf
        (matmul Cert.KernelIdeal.dot_S1024x512_S512x256_S1024x256_1_0_0_1_n_n none
          (concatenate Cert.KernelIdeal.S1024x512 1
            [⟨Cert.KernelIdeal.S1024x256,
                shapeCast Cert.KernelIdeal.S1024x256 vn Cert.KernelIdeal.Facts₀.shapeCasts_S1024x256_S1024x256⟩,
             ⟨Cert.KernelIdeal.S1024x256, X⟩]
            Cert.KernelIdeal.Facts₀.concatenates_S1024x256_S1024x256_S1024x512_d1)
          (shapeCast Cert.KernelIdeal.S512x256 T Cert.KernelIdeal.Facts₀.shapeCasts_S512x256_S512x256)
          (constant Cert.KernelIdeal.S1024x256 .f32 0x00000000#32))
        (broadcastTo Cert.KernelIdeal.S1024x256
          (shapeCast Cert.KernelIdeal.S1x256 a12 Cert.KernelIdeal.Facts₀.shapeCasts_S256_S1x256)
          Cert.KernelIdeal.Facts₀.broadcasts_S1x256_S1024x256)
      = addf
          (Host.dotGeneral Cert.ReferenceIdeal.dot_S1024x512_S512x256_S1024x256_1_0_0_1_n_n none
            (concatenate Cert.ReferenceIdeal.S1024x512 1
              [⟨Cert.ReferenceIdeal.S1024x256, vn⟩, ⟨Cert.ReferenceIdeal.S1024x256, Y⟩]
              Cert.ReferenceIdeal.Facts₀.concatenates_S1024x256_S1024x256_S1024x512_d1)
            T)
          (broadcastInDim Cert.ReferenceIdeal.S1024x256 ![0, 1] Cert.ReferenceIdeal.Facts₀.bcast_S1x256_S1024x256_0_1
            (broadcastInDim Cert.ReferenceIdeal.S1x256 ![1] Cert.ReferenceIdeal.Facts₀.bcast_S256_S1x256_1 a12)) := by
  subst h
  rw [shapeCast_self vn, shapeCast_self T, mm512, bias256]

end Steps

/-! ## The kernel's side -/

section Kernel

open Cert.KernelIdeal Cert.KernelIdeal.Facts₀

/-- What the first kernel stores, as a function of the gathered block vn, the value projection's weight and bias
    (wv, bv) and the eight further parameters: the weights reach the kernel transposed on the host. -/
def kerSan (vn : FVec Ideal S1024x256 .f32) (wv : FVec Ideal S256x256 .f32) (bv : FVec Ideal S256 .f32)
    (a5 : FVec Ideal S256x256 .f32) (a6 : FVec Ideal S256 .f32) (a7 : FVec Ideal S256x256 .f32)
    (a8 : FVec Ideal S256 .f32) (a9 : FVec Ideal S256x256 .f32) (a10 : FVec Ideal S256 .f32)
    (a11 : FVec Ideal S256x512 .f32) (a12 : FVec Ideal S256 .f32) : FVec Ideal S1024x256 .f32 :=
  Gen.k0_pay7
    (Gen.k0_pay1 (transpose S256x256 [1, 0] wv transposes_S256x256_S256x256_1_0))
    (Gen.k0_pay2 bv)
    (Gen.k0_pay3 (transpose S256x256 [1, 0] a5 transposes_S256x256_S256x256_1_0))
    a6
    (Gen.k0_pay4 (transpose S256x256 [1, 0] a7 transposes_S256x256_S256x256_1_0))
    a8
    (Gen.k0_pay5 (transpose S256x256 [1, 0] a9 transposes_S256x256_S256x256_1_0))
    a10
    (Gen.k0_pay6 vn (transpose S256x256 [1, 0] wv transposes_S256x256_S256x256_1_0) bv
      (transpose S256x256 [1, 0] a5 transposes_S256x256_S256x256_1_0) a6
      (transpose S256x256 [1, 0] a7 transposes_S256x256_S256x256_1_0) a8
      (transpose S256x256 [1, 0] a9 transposes_S256x256_S256x256_1_0) a10)
    (constant S1024x256 .f32 0x00000000#32)
    vn
    (transpose S512x256 [1, 0] a11 transposes_S256x512_S512x256_1_0)
    a12

end Kernel

/-! ## The reference's side -/

section Reference

open Cert.ReferenceIdeal Cert.ReferenceIdeal.Facts₀

/-- The reference's affine map x ↦ x · Wᵀ + b: the weight transposed, the host's product, the bias made a row and
    repeated down the rows, the sum. -/
abbrev refLin (x : FVec Ideal S1024x256 .f32) (w : FVec Ideal S256x256 .f32) (b : FVec Ideal S256 .f32) :
    FVec Ideal S1024x256 .f32 :=
  addf
    (Host.dotGeneral dot_S1024x256_S256x256_S1024x256_1_0_0_1_n_n none x
      (transpose S256x256 [1, 0] w transposes_S256x256_S256x256_1_0))
    (broadcastInDim S1024x256 ![0, 1] bcast_S1x256_S1024x256_0_1 (broadcastInDim S1x256 ![1] bcast_S256_S1x256_1 b))

/-- The reference's relu: the maximum with the zero constant broadcast to the block's shape. -/
abbrev refRelu (x : FVec Ideal S1024x256 .f32) : FVec Ideal S1024x256 .f32 :=
  maximumf x (broadcastInDim S1024x256 ![] bcast_S_S1024x256 (constant S_ .f32 0x00000000#32))

/-- The attention half of a round: (x · Wvᵀ + bv) · Owᵀ + ob. -/
abbrev refAttn (x : FVec Ideal S1024x256 .f32) (wv : FVec Ideal S256x256 .f32) (bv : FVec Ideal S256 .f32)
    (a5 : FVec Ideal S256x256 .f32) (a6 : FVec Ideal S256 .f32) : FVec Ideal S1024x256 .f32 :=
  refLin (refLin x wv bv) a5 a6

/-- One round: attn + (relu (attn · D1ᵀ + d1b) · D2ᵀ + d2b). -/
abbrev refRound (x : FVec Ideal S1024x256 .f32) (wv : FVec Ideal S256x256 .f32) (bv : FVec Ideal S256 .f32)
    (a5 : FVec Ideal S256x256 .f32) (a6 : FVec Ideal S256 .f32) (a7 : FVec Ideal S256x256 .f32)
    (a8 : FVec Ideal S256 .f32) (a9 : FVec Ideal S256x256 .f32) (a10 : FVec Ideal S256 .f32) :
    FVec Ideal S1024x256 .f32 :=
  addf (refAttn x wv bv a5 a6) (refLin (refRelu (refLin (refAttn x wv bv a5 a6) a7 a8)) a9 a10)

/-- What the reference computes for the same block and parameters: three rounds, the block and the result side by
    side, the last affine map. -/
def refSan (vn : FVec Ideal S1024x256 .f32) (wv : FVec Ideal S256x256 .f32) (bv : FVec Ideal S256 .f32)
    (a5 : FVec Ideal S256x256 .f32) (a6 : FVec Ideal S256 .f32) (a7 : FVec Ideal S256x256 .f32)
    (a8 : FVec Ideal S256 .f32) (a9 : FVec Ideal S256x256 .f32) (a10 : FVec Ideal S256 .f32)
    (a11 : FVec Ideal S256x512 .f32) (a12 : FVec Ideal S256 .f32) : FVec Ideal S1024x256 .f32 :=
  addf
    (Host.dotGeneral dot_S1024x512_S512x256_S1024x256_1_0_0_1_n_n none
      (concatenate S1024x512 1
        [⟨S1024x256, vn⟩,
         ⟨S1024x256, refRound (refRound (refRound vn wv bv a5 a6 a7 a8 a9 a10) wv bv a5 a6 a7 a8 a9 a10)
            wv bv a5 a6 a7 a8 a9 a10⟩]
        concatenates_S1024x256_S1024x256_S1024x512_d1)
      (transpose S512x256 [1, 0] a11 transposes_S256x512_S512x256_1_0))
    (broadcastInDim S1024x256 ![0, 1] bcast_S1x256_S1024x256_0_1 (broadcastInDim S1x256 ![1] bcast_S256_S1x256_1 a12))

end Reference

/-! ## The two sides are one function -/

/-- The kernel's chain of thirteen products onto zero arrays, with its casts, row broadcasts and maxima, is the
    reference's chain of thirteen host products: step by step the same whole arrays. -/
theorem san_eq (vn : FVec Ideal Cert.KernelIdeal.S1024x256 .f32) (wv : FVec Ideal Cert.KernelIdeal.S256x256 .f32)
    (bv : FVec Ideal Cert.KernelIdeal.S256 .f32) (a5 : FVec Ideal Cert.KernelIdeal.S256x256 .f32)
    (a6 : FVec Ideal Cert.KernelIdeal.S256 .f32) (a7 : FVec Ideal Cert.KernelIdeal.S256x256 .f32)
    (a8 : FVec Ideal Cert.KernelIdeal.S256 .f32) (a9 : FVec Ideal Cert.KernelIdeal.S256x256 .f32)
    (a10 : FVec Ideal Cert.KernelIdeal.S256 .f32) (a11 : FVec Ideal Cert.KernelIdeal.S256x512 .f32)
    (a12 : FVec Ideal Cert.KernelIdeal.S256 .f32) :
    kerSan vn wv bv a5 a6 a7 a8 a9 a10 a11 a12 = refSan vn wv bv a5 a6 a7 a8 a9 a10 a11 a12 := by
  unfold kerSan refSan Cert.KernelIdeal.Gen.k0_pay7
  refine tail_eq vn _ _ _ a12 ?_
  unfold Cert.KernelIdeal.Gen.k0_pay6 Cert.KernelIdeal.Gen.k0_pay1
    Cert.KernelIdeal.Gen.k0_pay2 Cert.KernelIdeal.Gen.k0_pay3 Cert.KernelIdeal.Gen.k0_pay4 Cert.KernelIdeal.Gen.k0_pay5
  simp only [refRound, refAttn, refLin, refRelu, shapeCast_self, mm256, bias256, broadcastInDim_constant]

end Cert.SanValue

end
-- ==== Proof.TailValue.lean ====
/-
  The host stretches around the two kernels, read as values.

  Between the two kernels the kernel program rounds two arrays to the shorter float format; on the extended reals a
  change of format does nothing, entry by entry.  After the second kernel it computes, for each of the 1024 rows, the
  dot product of the row of s_h with one row of the table, the row picked by an index (a negative index counted from the
  end of the table): compare with zero, add the table's height, select, gather, multiply, sum along the row from zero.
  The reference computes the same quantity with the same operations on its own s_h.  Here that common function is
  written once, and each program's run of its operations is shown to produce it; likewise the reference's run produces
  the chain of products of the first kernel and the product with the transposed table of the second.
-/
import proofs.«104216_j3135326126725_1_alg».proof.Proof.SanValue
import proofs.«104216_j3135326126725_1_alg».proof.Proof.RefRun
import proofs.«104216_j3135326126725_1_alg».proof.Proof.Gen.KernelIdeal.Launch
import Idealize.ShloMosaic.Lib.StableHlo.Run

noncomputable section

namespace Cert.TailValue

open Idealize.ShloMosaic Idealize.ShloMosaic.TcCoe Idealize.SL.Sem Idealize.ShloMosaic.StableHlo

/-- On the extended reals a rounding to the shorter float format is the identity: each entry is kept. -/
theorem trunc_apply {S : Shape} (x : FVec Ideal S .f32) (h : FTy.bits .bf16 < FTy.bits .f32) (j : S.Idx) :
    truncf (F := Ideal) .bf16 x h j = x j := rfl

section Kernel

open Cert.KernelIdeal Cert.KernelIdeal.Facts₀

/-- The score of each row against its cue: the index made non-negative (an index below zero has the table's height
    added), the table's row at that index, its product with the row of s_h entry by entry, summed along the row. -/
def yhat (sh : FVec Ideal S1024x256 .f32) (a1 : FVec Ideal S50000x256 .f32)
    (a16 : (⟨S1024, .i32⟩ : BufTy).Contents (Elt Ideal)) : FVec Ideal S1024 .f32 :=
  Host.reduceAdd
    (mulf sh
      (Host.gather gather_S50000x256_S1024x1_S1024x256_1_0_n_n_0_1_1256 a1
        (broadcastInDim S1024x1 ![0] bcast_S1024_S1024x1_0
          (select
            (cmpi .slt a16 (broadcastInDim S1024 ![] bcast_S_S1024 (constantI S_ 32 0#32)))
            (addi a16 (broadcastInDim S1024 ![] bcast_S_S1024 (constantI S_ 32 50000#32)))
            a16))))
    (constant (F := Ideal) S_ .f32 0x00000000#32) reducesTo_S1024x256_S1024_d1 h_S_

/-- The kernel program's last host stretch leaves that score in its result buffer, computed from s_h, the table and
    the cue as they stand before it. -/
theorem yhat_kernel (V : Valuation τ sig (Elt Ideal)) :
    after (Gen.hostOps2 (F := Ideal)) V (Proc.devRef .tc main_v93)
      = yhat (V (Proc.devRef .tc main_v81)) (V (Proc.devRef .tc main_arg1)) (V (Proc.devRef .tc main_arg16)) := by
  after_results
  rfl

end Kernel

section Reference

open Cert.ReferenceIdeal Cert.ReferenceIdeal.HandRun

/-- The reference's run of its dense layers leaves, as its s_h, the chain of thirteen host products of the gathered
    block, the value projection's slice of the input projection and the eight further parameters. -/
theorem san_ref (V : Valuation τ sig (Elt Ideal)) :
    after (opsPost (F := Ideal)) V (Proc.devRef .tc main_v147)
      = Cert.SanValue.refSan (V (Proc.devRef .tc main_v73)) (V (Proc.devRef .tc main_v74)) (V (Proc.devRef .tc main_v75))
          (V (Proc.devRef .tc main_arg5)) (V (Proc.devRef .tc main_arg6)) (V (Proc.devRef .tc main_arg7))
          (V (Proc.devRef .tc main_arg8)) (V (Proc.devRef .tc main_arg9)) (V (Proc.devRef .tc main_arg10))
          (V (Proc.devRef .tc main_arg11)) (V (Proc.devRef .tc main_arg12)) := by
  after_results_simp
  rfl

/-- The reference's score is the same function of its own s_h, the table and the cue. -/
theorem yhat_ref (V : Valuation τ sig (Elt Ideal)) :
    after (opsPost (F := Ideal)) V (Proc.devRef .tc main_v156)
      = yhat (after (opsPost (F := Ideal)) V (Proc.devRef .tc main_v147)) (V (Proc.devRef .tc main_arg1))
          (V (Proc.devRef .tc main_arg16)) := by
  unfold yhat
  after_results_simp
  rfl

/-- The reference's logits are the host product of its s_h with the transposed table. -/
theorem scores_ref (V : Valuation τ sig (Elt Ideal)) :
    after (opsPost (F := Ideal)) V (Proc.devRef .tc main_v158)
      = Host.dotGeneral (F := Ideal) (φ₁ := .f32) (φ₂ := .f32) dot_S1024x256_S256x50000_S1024x50000_1_0_0_1_n_n none
          (after (opsPost (F := Ideal)) V (Proc.devRef .tc main_v147))
          (transpose (α := Ideal .f32) S256x50000 [1, 0] (V (Proc.devRef .tc main_arg1))
            Facts₀.transposes_S50000x256_S256x50000_1_0) := by
  after_results_simp

end Reference

end Cert.TailValue

end
-- ==== Proof.KI.KValue.lean ====
/-
  The kernel program's buffers around its first call, read as values on the extended reals.

  Up to the first call the buffers hold the fold of the host operations over the launch memory.  Of that fold the first
  call reads the gathered block, five transposed weights and five bias vectors; the transposes are taken of a slice of
  the input projection and of four arguments, and no host operation before the call writes an argument.  So what the
  first call leaves in its output array is the chain of thirteen products of SanValue, as a function of the gathered
  block, the two slices and the launch memory's eight further parameters.  Between the calls the two roundings to the
  shorter float format keep every entry.
-/
import proofs.«104216_j3135326126725_1_alg».proof.Proof.KI.Run
import proofs.«104216_j3135326126725_1_alg».proof.Proof.KI.SanFinal
import proofs.«104216_j3135326126725_1_alg».proof.Proof.SanValue
import proofs.«104216_j3135326126725_1_alg».proof.Proof.TailValue

set_option maxRecDepth 16384

noncomputable section

namespace Cert.KernelIdeal.HandRun

open Cert.KernelIdeal Cert.KernelIdeal.Gen Cert.KernelIdeal.SanRegion
open Idealize.ShloMosaic Idealize.ShloMosaic.TcCoe
open Idealize.SL.Sem Idealize.ShloMosaic.StableHlo

variable (m : (ℓ : Loc nD τ sig) → Buf (Elt Ideal) ℓ)

/-! ## What no host operation before the first call writes -/

/-- A buffer none of the first sixteen host stretches writes holds its launch contents after them. -/
theorem V16_kept (c : Dev nD) (r : Ref sig .tc)
    (h16 : r ∉ hostOps0_15_W) (h15 : r ∉ hostOps0_14_W) (h14 : r ∉ hostOps0_13_W) (h13 : r ∉ hostOps0_12_W)
    (h12 : r ∉ hostOps0_11_W) (h11 : r ∉ hostOps0_10_W) (h10 : r ∉ hostOps0_9_W) (h9 : r ∉ hostOps0_8_W)
    (h8 : r ∉ hostOps0_7_W) (h7 : r ∉ hostOps0_6_W) (h6 : r ∉ hostOps0_5_W) (h5 : r ∉ hostOps0_4_W)
    (h4 : r ∉ hostOps0_3_W) (h3 : r ∉ hostOps0_2_W) (h2 : r ∉ hostOps0_1_W) (h1 : r ∉ hostOps0_W) :
    V16 m c r = m ((c : Thread nD τ).loc r) :=
  (V16_of m c r h16).trans <| (V15_of m c r h15).trans <| (V14_of m c r h14).trans <| (V13_of m c r h13).trans <|
  (V12_of m c r h12).trans <| (V11_of m c r h11).trans <| (V10_of m c r h10).trans <| (V9_of m c r h9).trans <|
  (V8_of m c r h8).trans <| (V7_of m c r h7).trans <| (V6_of m c r h6).trans <| (V5_of m c r h5).trans <|
  (V4_of m c r h4).trans <| (V3_of m c r h3).trans <| (V2_of m c r h2).trans <| (V1_of m c r h1).trans rfl

/-- The same through the seventeenth stretch. -/
theorem V17_kept (c : Dev nD) (r : Ref sig .tc) (h17 : r ∉ hostOps0_16_W)
    (h16 : r ∉ hostOps0_15_W) (h15 : r ∉ hostOps0_14_W) (h14 : r ∉ hostOps0_13_W) (h13 : r ∉ hostOps0_12_W)
    (h12 : r ∉ hostOps0_11_W) (h11 : r ∉ hostOps0_10_W) (h10 : r ∉ hostOps0_9_W) (h9 : r ∉ hostOps0_8_W)
    (h8 : r ∉ hostOps0_7_W) (h7 : r ∉ hostOps0_6_W) (h6 : r ∉ hostOps0_5_W) (h5 : r ∉ hostOps0_4_W)
    (h4 : r ∉ hostOps0_3_W) (h3 : r ∉ hostOps0_2_W) (h2 : r ∉ hostOps0_1_W) (h1 : r ∉ hostOps0_W) :
    V17 m c r = m ((c : Thread nD τ).loc r) :=
  (V17_of m c r h17).trans (V16_kept m c r h16 h15 h14 h13 h12 h11 h10 h9 h8 h7 h6 h5 h4 h3 h2 h1)

theorem pre_arg6 (c : Dev nD) : V17 m c main_arg6 = m ((c : Thread nD τ).loc main_arg6) :=
  V17_kept m c main_arg6 (by decide) (by decide) (by decide) (by decide) (by decide) (by decide) (by decide) (by decide)
    (by decide) (by decide) (by decide) (by decide) (by decide) (by decide) (by decide) (by decide) (by decide)
theorem pre_arg8 (c : Dev nD) : V17 m c main_arg8 = m ((c : Thread nD τ).loc main_arg8) :=
  V17_kept m c main_arg8 (by decide) (by decide) (by decide) (by decide) (by decide) (by decide) (by decide) (by decide)
    (by decide) (by decide) (by decide) (by decide) (by decide) (by decide) (by decide) (by decide) (by decide)
theorem pre_arg10 (c : Dev nD) : V17 m c main_arg10 = m ((c : Thread nD τ).loc main_arg10) :=
  V17_kept m c main_arg10 (by decide) (by decide) (by decide) (by decide) (by decide) (by decide) (by decide) (by decide)
    (by decide) (by decide) (by decide) (by decide) (by decide) (by decide) (by decide) (by decide) (by decide)
theorem pre_arg12 (c : Dev nD) : V17 m c main_arg12 = m ((c : Thread nD τ).loc main_arg12) :=
  V17_kept m c main_arg12 (by decide) (by decide) (by decide) (by decide) (by decide) (by decide) (by decide) (by decide)
    (by decide) (by decide) (by decide) (by decide) (by decide) (by decide) (by decide) (by decide) (by decide)
theorem pre_arg1 (c : Dev nD) : V17 m c main_arg1 = m ((c : Thread nD τ).loc main_arg1) :=
  V17_kept m c main_arg1 (by decide) (by decide) (by decide) (by decide) (by decide) (by decide) (by decide) (by decide)
    (by decide) (by decide) (by decide) (by decide) (by decide) (by decide) (by decide) (by decide) (by decide)

/-! ## The transposed weights the first call reads -/

/-- The value projection's weight reaches the call transposed: the transpose of the slice, both made by the last
    stretch before the call. -/
theorem pre_v76 (c : Dev nD) :
    V17 m c main_v76
      = transpose (α := Ideal .f32) S256x256 [1, 0] (V17 m c main_v74) Facts₀.transposes_S256x256_S256x256_1_0 := by
  dsimp only [V17]
  generalize V16 m c = V
  after_results

theorem pre_v77 (c : Dev nD) :
    V17 m c main_v77
      = transpose (α := Ideal .f32) S256x256 [1, 0] (m ((c : Thread nD τ).loc main_arg5))
          Facts₀.transposes_S256x256_S256x256_1_0 := by
  have h : V16 m c main_arg5 = m ((c : Thread nD τ).loc main_arg5) :=
    V16_kept m c main_arg5 (by decide) (by decide) (by decide) (by decide) (by decide) (by decide) (by decide) (by decide)
      (by decide) (by decide) (by decide) (by decide) (by decide) (by decide) (by decide) (by decide)
  rw [← h]
  dsimp only [V17]
  generalize V16 m c = V
  after_results

theorem pre_v78 (c : Dev nD) :
    V17 m c main_v78
      = transpose (α := Ideal .f32) S256x256 [1, 0] (m ((c : Thread nD τ).loc main_arg7))
          Facts₀.transposes_S256x256_S256x256_1_0 := by
  have h : V16 m c main_arg7 = m ((c : Thread nD τ).loc main_arg7) :=
    V16_kept m c main_arg7 (by decide) (by decide) (by decide) (by decide) (by decide) (by decide) (by decide) (by decide)
      (by decide) (by decide) (by decide) (by decide) (by decide) (by decide) (by decide) (by decide)
  rw [← h]
  dsimp only [V17]
  generalize V16 m c = V
  after_results

theorem pre_v79 (c : Dev nD) :
    V17 m c main_v79
      = transpose (α := Ideal .f32) S256x256 [1, 0] (m ((c : Thread nD τ).loc main_arg9))
          Facts₀.transposes_S256x256_S256x256_1_0 := by
  have h : V16 m c main_arg9 = m ((c : Thread nD τ).loc main_arg9) :=
    V16_kept m c main_arg9 (by decide) (by decide) (by decide) (by decide) (by decide) (by decide) (by decide) (by decide)
      (by decide) (by decide) (by decide) (by decide) (by decide) (by decide) (by decide) (by decide)
  rw [← h]
  dsimp only [V17]
  generalize V16 m c = V
  after_results

theorem pre_v80 (c : Dev nD) :
    V17 m c main_v80
      = transpose (α := Ideal .f32) S512x256 [1, 0] (m ((c : Thread nD τ).loc main_arg11))
          Facts₀.transposes_S256x512_S512x256_1_0 := by
  have h : V16 m c main_arg11 = m ((c : Thread nD τ).loc main_arg11) :=
    V16_kept m c main_arg11 (by decide) (by decide) (by decide) (by decide) (by decide) (by decide) (by decide) (by decide)
      (by decide) (by decide) (by decide) (by decide) (by decide) (by decide) (by decide) (by decide)
  rw [← h]
  dsimp only [V17]
  generalize V16 m c = V
  after_results

/-! ## What the first call leaves -/

/-- The first call's output array after the call: the chain of thirteen products, of the gathered block, the two
    slices of the input projection and the launch memory's eight further parameters. -/
theorem sK_eq (c : Dev nD) :
    (W18 m c main_v81 : FVec Ideal S1024x256 .f32)
      = Cert.SanValue.kerSan (V17 m c main_v73) (V17 m c main_v74) (V17 m c main_v75)
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12)) := by
  refine (W18_arr m c (11 : Fin cfg0.W)).trans ?_
  rw [final0, out0_11_eq]
  unfold Cert.SanValue.kerSan
  dsimp only [E0]
  rw [pre_v76, pre_v77, pre_v78, pre_v79, pre_v80, pre_arg6, pre_arg8, pre_arg10, pre_arg12]

/-! ## Between the calls -/

/-- The second call's left operand is the first call's output, entry by entry: the rounding keeps every entry. -/
theorem mid_v83 (c : Dev nD) (j : S1024x256.Idx) :
    (W19 m c main_v83 : FVec Ideal S1024x256 .bf16) j = (W18 m c main_v81 : FVec Ideal S1024x256 .f32) j := by
  dsimp only [W19]
  generalize W18 m c = V
  after_results
  rfl

/-- The second call's right operand is the table as launched, entry by entry. -/
theorem mid_v82 (c : Dev nD) (j : S50000x256.Idx) :
    (W19 m c main_v82 : FVec Ideal S50000x256 .bf16) j
      = (m ((c : Thread nD τ).loc main_arg1) : FVec Ideal S50000x256 .f32) j := by
  have h : W18 m c main_arg1 = m ((c : Thread nD τ).loc main_arg1) :=
    (W18_of_ne m c main_arg1 (by decide)).trans (pre_arg1 m c)
  rw [← h]
  dsimp only [W19]
  generalize W18 m c = V
  after_results
  rfl

end Cert.KernelIdeal.HandRun

end
-- ==== Proof.Bridge.lean ====
/- The two programs' results are the same functions of the arguments, on the extended reals.
   The reference's run is cut after its host prefix (everything up to the gathered session rows v_n and the two slices
   of the input projection): from there it computes the session vectors s_h by thirteen host products, and from s_h the
   two results. The kernel program's first call leaves the same s_h (the chain of products re-spelt), its second call
   leaves, column by column, the products of s_h's rows with the table's rows, and its last host stretch computes the
   first result from s_h exactly as the reference does. -/
import proofs.«104216_j3135326126725_1_alg».proof.Defs
import proofs.«104216_j3135326126725_1_alg».proof.Proof.KI.RunMore
import proofs.«104216_j3135326126725_1_alg».proof.Proof.KI.ScoresFinal
import proofs.«104216_j3135326126725_1_alg».proof.Proof.KI.KValue
import proofs.«104216_j3135326126725_1_alg».proof.Proof.RefRun
import proofs.«104216_j3135326126725_1_alg».proof.Proof.TailValue
import proofs.«104216_j3135326126725_1_alg».proof.Proof.SanValue
import proofs.«104216_j3135326126725_1_alg».proof.Proof.ScoresValue

set_option maxRecDepth 16384

noncomputable section

open scoped BigOperators

namespace Cert.Bridge

open Idealize.ShloMosaic Idealize.ShloMosaic.TcCoe Idealize.SL.Sem Idealize.ShloMosaic.StableHlo Idealize.ShloMosaic.ValueIdx
open Cert.KernelIdeal.HandRun Cert.KernelIdeal.ScoresRegion

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two launch memories agree on the seventeen arguments, on core `c`. -/
def Agree : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- The reference's buffers after its host prefix. -/
abbrev Vp : Valuation Cert.ReferenceIdeal.τ Cert.ReferenceIdeal.sig (Elt Ideal) :=
  StableHlo.after (Cert.ReferenceIdeal.HandRun.opsPre (F := Ideal)) (launchContents m' c)

/-- The reference's session vectors. -/
abbrev sR : FVec Ideal Cert.ReferenceIdeal.S1024x256 .f32 :=
  StableHlo.after (Cert.ReferenceIdeal.HandRun.opsPost (F := Ideal)) (Vp m' c) (Proc.devRef .tc Cert.ReferenceIdeal.main_v147)

/-- The prefixes agree: the gathered session rows and the two slices of the input projection. -/
def PrefixAgree : Prop :=
  Vp m' c (Proc.devRef .tc Cert.ReferenceIdeal.main_v73) = Cert.KernelIdeal.Gen.V17 m c (Proc.devRef .tc Cert.KernelIdeal.main_v73)
  ∧ Vp m' c (Proc.devRef .tc Cert.ReferenceIdeal.main_v74) = Cert.KernelIdeal.Gen.V17 m c (Proc.devRef .tc Cert.KernelIdeal.main_v74)
  ∧ Vp m' c (Proc.devRef .tc Cert.ReferenceIdeal.main_v75) = Cert.KernelIdeal.Gen.V17 m c (Proc.devRef .tc Cert.KernelIdeal.main_v75)

/-- An argument the prefix does not write is, after it, the kernel program's launch contents. -/
theorem Vp_arg1 (hag : Agree m m' c) : (StableHlo.after (Cert.ReferenceIdeal.HandRun.opsPre (F := Ideal)) (launchContents m' c)) (Proc.devRef .tc Cert.ReferenceIdeal.main_arg1) = m ((c.tc : Thread Cert.KernelIdeal.nD Cert.KernelIdeal.τ).loc Cert.KernelIdeal.main_arg1) :=
  (Cert.ReferenceIdeal.HandRun.opsPre_keeps _ Cert.ReferenceIdeal.main_arg1 (by decide)).trans hag.2.1
theorem Vp_arg5 (hag : Agree m m' c) : (StableHlo.after (Cert.ReferenceIdeal.HandRun.opsPre (F := Ideal)) (launchContents m' c)) (Proc.devRef .tc Cert.ReferenceIdeal.main_arg5) = m ((c.tc : Thread Cert.KernelIdeal.nD Cert.KernelIdeal.τ).loc Cert.KernelIdeal.main_arg5) :=
  (Cert.ReferenceIdeal.HandRun.opsPre_keeps _ Cert.ReferenceIdeal.main_arg5 (by decide)).trans hag.2.2.2.2.2.1
theorem Vp_arg6 (hag : Agree m m' c) : (StableHlo.after (Cert.ReferenceIdeal.HandRun.opsPre (F := Ideal)) (launchContents m' c)) (Proc.devRef .tc Cert.ReferenceIdeal.main_arg6) = m ((c.tc : Thread Cert.KernelIdeal.nD Cert.KernelIdeal.τ).loc Cert.KernelIdeal.main_arg6) :=
  (Cert.ReferenceIdeal.HandRun.opsPre_keeps _ Cert.ReferenceIdeal.main_arg6 (by decide)).trans hag.2.2.2.2.2.2.1
theorem Vp_arg7 (hag : Agree m m' c) : (StableHlo.after (Cert.ReferenceIdeal.HandRun.opsPre (F := Ideal)) (launchContents m' c)) (Proc.devRef .tc Cert.ReferenceIdeal.main_arg7) = m ((c.tc : Thread Cert.KernelIdeal.nD Cert.KernelIdeal.τ).loc Cert.KernelIdeal.main_arg7) :=
  (Cert.ReferenceIdeal.HandRun.opsPre_keeps _ Cert.ReferenceIdeal.main_arg7 (by decide)).trans hag.2.2.2.2.2.2.2.1
theorem Vp_arg8 (hag : Agree m m' c) : (StableHlo.after (Cert.ReferenceIdeal.HandRun.opsPre (F := Ideal)) (launchContents m' c)) (Proc.devRef .tc Cert.ReferenceIdeal.main_arg8) = m ((c.tc : Thread Cert.KernelIdeal.nD Cert.KernelIdeal.τ).loc Cert.KernelIdeal.main_arg8) :=
  (Cert.ReferenceIdeal.HandRun.opsPre_keeps _ Cert.ReferenceIdeal.main_arg8 (by decide)).trans hag.2.2.2.2.2.2.2.2.1
theorem Vp_arg9 (hag : Agree m m' c) : (StableHlo.after (Cert.ReferenceIdeal.HandRun.opsPre (F := Ideal)) (launchContents m' c)) (Proc.devRef .tc Cert.ReferenceIdeal.main_arg9) = m ((c.tc : Thread Cert.KernelIdeal.nD Cert.KernelIdeal.τ).loc Cert.KernelIdeal.main_arg9) :=
  (Cert.ReferenceIdeal.HandRun.opsPre_keeps _ Cert.ReferenceIdeal.main_arg9 (by decide)).trans hag.2.2.2.2.2.2.2.2.2.1
theorem Vp_arg10 (hag : Agree m m' c) : (StableHlo.after (Cert.ReferenceIdeal.HandRun.opsPre (F := Ideal)) (launchContents m' c)) (Proc.devRef .tc Cert.ReferenceIdeal.main_arg10) = m ((c.tc : Thread Cert.KernelIdeal.nD Cert.KernelIdeal.τ).loc Cert.KernelIdeal.main_arg10) :=
  (Cert.ReferenceIdeal.HandRun.opsPre_keeps _ Cert.ReferenceIdeal.main_arg10 (by decide)).trans hag.2.2.2.2.2.2.2.2.2.2.1
theorem Vp_arg11 (hag : Agree m m' c) : (StableHlo.after (Cert.ReferenceIdeal.HandRun.opsPre (F := Ideal)) (launchContents m' c)) (Proc.devRef .tc Cert.ReferenceIdeal.main_arg11) = m ((c.tc : Thread Cert.KernelIdeal.nD Cert.KernelIdeal.τ).loc Cert.KernelIdeal.main_arg11) :=
  (Cert.ReferenceIdeal.HandRun.opsPre_keeps _ Cert.ReferenceIdeal.main_arg11 (by decide)).trans hag.2.2.2.2.2.2.2.2.2.2.2.1
theorem Vp_arg12 (hag : Agree m m' c) : (StableHlo.after (Cert.ReferenceIdeal.HandRun.opsPre (F := Ideal)) (launchContents m' c)) (Proc.devRef .tc Cert.ReferenceIdeal.main_arg12) = m ((c.tc : Thread Cert.KernelIdeal.nD Cert.KernelIdeal.τ).loc Cert.KernelIdeal.main_arg12) :=
  (Cert.ReferenceIdeal.HandRun.opsPre_keeps _ Cert.ReferenceIdeal.main_arg12 (by decide)).trans hag.2.2.2.2.2.2.2.2.2.2.2.2.1
theorem Vp_arg16 (hag : Agree m m' c) : (StableHlo.after (Cert.ReferenceIdeal.HandRun.opsPre (F := Ideal)) (launchContents m' c)) (Proc.devRef .tc Cert.ReferenceIdeal.main_arg16) = m ((c.tc : Thread Cert.KernelIdeal.nD Cert.KernelIdeal.τ).loc Cert.KernelIdeal.main_arg16) :=
  (Cert.ReferenceIdeal.HandRun.opsPre_keeps _ Cert.ReferenceIdeal.main_arg16 (by decide)).trans hag.2.2.2.2.2.2.2.2.2.2.2.2.2.2.2.2

/-- Both programs reach the same session vectors. -/
theorem sK_eq_sR (hag : Agree m m' c) (hp : PrefixAgree m m' c) :
    (W18 m c Cert.KernelIdeal.main_v81 : FVec Ideal Cert.KernelIdeal.S1024x256 .f32) = sR m' c := by
  rw [sK_eq, Cert.SanValue.san_eq]
  unfold sR
  rw [Cert.TailValue.san_ref, hp.1, hp.2.1, hp.2.2]
  simp only [Vp_arg5 m m' c hag, Vp_arg6 m m' c hag, Vp_arg7 m m' c hag, Vp_arg8 m m' c hag, Vp_arg9 m m' c hag, Vp_arg10 m m' c hag, Vp_arg11 m m' c hag, Vp_arg12 m m' c hag]

/-- The first result: the same function of the same session vectors, table and cues. -/
theorem yhat_eq (hag : Agree m m' c) (hp : PrefixAgree m m' c) (G : Arrs1 (F := Ideal) c) :
    W21 m c G (Proc.devRef .tc Cert.KernelIdeal.main_v93)
      = StableHlo.after (Cert.ReferenceIdeal.HandRun.ops (F := Ideal)) (launchContents m' c) (Proc.devRef .tc Cert.ReferenceIdeal.main_v156) := by
  rw [Cert.ReferenceIdeal.HandRun.after_ops]
  show StableHlo.after (Cert.KernelIdeal.Gen.hostOps2 (F := Ideal)) (W20 m c G) (Proc.devRef .tc Cert.KernelIdeal.main_v93) = _
  rw [Cert.TailValue.yhat_kernel, Cert.TailValue.yhat_ref, W20_main_v81, W20_main_arg1, W20_main_arg16,
    sK_eq_sR m m' c hag hp]
  simp only [Vp_arg1 m m' c hag, Vp_arg16 m m' c hag]

/-- Two families of dot products whose factors agree entry by entry agree. -/
theorem scores_pointwise (actK : FVec Ideal Cert.KernelIdeal.S1024x256 .bf16) (tabK : FVec Ideal Cert.KernelIdeal.S50000x256 .bf16)
    (sh : FVec Ideal Cert.ReferenceIdeal.S1024x256 .f32) (a1 : FVec Ideal Cert.ReferenceIdeal.S50000x256 .f32)
    (ha : ∀ j, actK j = sh j) (ht : ∀ j, tabK j = a1 j) (p : Fin 1024) (v : Fin 50000) :
    (∑ k : Fin 256, actK (ix2 p k) * tabK (ix2 v k)) = ∑ k : Fin 256, sh (ix2 p k) * a1 (ix2 v k) :=
  Finset.sum_congr rfl fun k _ => by rw [ha, ht]

/-- The second result: column by column the products of the session vectors' rows with the table's rows. -/
theorem scores_eq (hag : Agree m m' c) (hp : PrefixAgree m m' c) (G : Arrs1 (F := Ideal) c)
    (hK : Known m (ColsOk (E1 m)) c G) :
    W21 m c G (Proc.devRef .tc Cert.KernelIdeal.main_v84)
      = StableHlo.after (Cert.ReferenceIdeal.HandRun.ops (F := Ideal)) (launchContents m' c) (Proc.devRef .tc Cert.ReferenceIdeal.main_v158) := by
  rw [W21_main_v84, Cert.ReferenceIdeal.HandRun.after_ops, Cert.TailValue.scores_ref]
  funext j
  obtain ⟨p, v, rfl⟩ : ∃ (p : Fin 1024) (v : Fin 50000), j = ix2 p v := ⟨j 0, j 1, eq_ix2 j⟩
  have h1 := scores_final (E1 m) c (G 2) (hK 2) p v
  have h2 := Cert.ScoresValue.ref_scores_apply
    (StableHlo.after (Cert.ReferenceIdeal.HandRun.opsPost (F := Ideal)) (StableHlo.after (Cert.ReferenceIdeal.HandRun.opsPre (F := Ideal)) (launchContents m' c)) (Proc.devRef .tc Cert.ReferenceIdeal.main_v147))
    ((StableHlo.after (Cert.ReferenceIdeal.HandRun.opsPre (F := Ideal)) (launchContents m' c)) (Proc.devRef .tc Cert.ReferenceIdeal.main_arg1)) p v
  exact h1.trans ((scores_pointwise (act (E1 m) c) (tab (E1 m) c) _ _
    (fun j => (mid_v83 m c j).trans (congrFun (sK_eq_sR m m' c hag hp) j))
    (fun j => (mid_v82 m c j).trans (congrFun (Vp_arg1 m m' c hag).symm j)) p v).trans h2.symm)

/-- THE ALGEBRAIC CLAIM, given that the two host prefixes agree. -/
theorem algebraic_of (hprefix : ∀ m m' c, Agree m m' c → PrefixAgree m m' c) :
    @Cert.algebraic_KernelIdeal_ReferenceIdeal Cert.KernelIdeal.Gen.facts Cert.ReferenceIdeal.Gen.facts Cert.Pre_finite_inputs.Gen.facts := by
  intro m ρ m' ρ' _ hagree
  refine ⟨fun c => StableHlo.after (Cert.ReferenceIdeal.HandRun.ops (F := Ideal)) (launchContents m' c) (Proc.devRef .tc Cert.ReferenceIdeal.main_v156),
    fun c => StableHlo.after (Cert.ReferenceIdeal.HandRun.ops (F := Ideal)) (launchContents m' c) (Proc.devRef .tc Cert.ReferenceIdeal.main_v158), ?_, ?_⟩
  · refine (θ_run Cert.KernelIdeal.defs _ _).mono (fun r h c => ?_)
      (run_all (F := Ideal) m ρ (ColsOk (E1 m)) (admits_ColsOk (E1 m)))
    obtain ⟨G, hK, hG⟩ := h c
    have hag : Agree m m' c := hagree c
    have hp : PrefixAgree m m' c := hprefix m m' c hag
    exact ⟨(hG _ (mem_uc Cert.KernelIdeal.main_v93 (by decide))).trans (yhat_eq m m' c hag hp G),
      (hG _ (mem_uc Cert.KernelIdeal.main_v84 (by decide))).trans (scores_eq m m' c hag hp G hK),
      (hG _ (mem_uc Cert.KernelIdeal.main_arg0 (by decide))).trans (W21_main_arg0 m c G),
      (hG _ (mem_uc Cert.KernelIdeal.main_arg1 (by decide))).trans (W21_main_arg1 m c G),
      (hG _ (mem_uc Cert.KernelIdeal.main_arg2 (by decide))).trans (W21_main_arg2 m c G),
      (hG _ (mem_uc Cert.KernelIdeal.main_arg3 (by decide))).trans (W21_main_arg3 m c G),
      (hG _ (mem_uc Cert.KernelIdeal.main_arg4 (by decide))).trans (W21_main_arg4 m c G),
      (hG _ (mem_uc Cert.KernelIdeal.main_arg5 (by decide))).trans (W21_main_arg5 m c G),
      (hG _ (mem_uc Cert.KernelIdeal.main_arg6 (by decide))).trans (W21_main_arg6 m c G),
      (hG _ (mem_uc Cert.KernelIdeal.main_arg7 (by decide))).trans (W21_main_arg7 m c G),
      (hG _ (mem_uc Cert.KernelIdeal.main_arg8 (by decide))).trans (W21_main_arg8 m c G),
      (hG _ (mem_uc Cert.KernelIdeal.main_arg9 (by decide))).trans (W21_main_arg9 m c G),
      (hG _ (mem_uc Cert.KernelIdeal.main_arg10 (by decide))).trans (W21_main_arg10 m c G),
      (hG _ (mem_uc Cert.KernelIdeal.main_arg11 (by decide))).trans (W21_main_arg11 m c G),
      (hG _ (mem_uc Cert.KernelIdeal.main_arg12 (by decide))).trans (W21_main_arg12 m c G),
      (hG _ (mem_uc Cert.KernelIdeal.main_arg13 (by decide))).trans (W21_main_arg13 m c G),
      (hG _ (mem_uc Cert.KernelIdeal.main_arg14 (by decide))).trans (W21_main_arg14 m c G),
      (hG _ (mem_uc Cert.KernelIdeal.main_arg15 (by decide))).trans (W21_main_arg15 m c G),
      (hG _ (mem_uc Cert.KernelIdeal.main_arg16 (by decide))).trans (W21_main_arg16 m c G)⟩
  · refine (θ_run Cert.ReferenceIdeal.defs _ _).mono (fun r h c => ?_) (Cert.ReferenceIdeal.HandRun.run_after (F := Ideal) m' ρ')
    exact ⟨h c Cert.ReferenceIdeal.main_v156, h c Cert.ReferenceIdeal.main_v158,
      (h c Cert.ReferenceIdeal.main_arg0).trans (Cert.ReferenceIdeal.HandRun.kept (F := Ideal) m' c).1,
      (h c Cert.ReferenceIdeal.main_arg1).trans (Cert.ReferenceIdeal.HandRun.kept (F := Ideal) m' c).2.1,
      (h c Cert.ReferenceIdeal.main_arg2).trans (Cert.ReferenceIdeal.HandRun.kept (F := Ideal) m' c).2.2.1,
      (h c Cert.ReferenceIdeal.main_arg3).trans (Cert.ReferenceIdeal.HandRun.kept (F := Ideal) m' c).2.2.2.1,
      (h c Cert.ReferenceIdeal.main_arg4).trans (Cert.ReferenceIdeal.HandRun.kept (F := Ideal) m' c).2.2.2.2.1,
      (h c Cert.ReferenceIdeal.main_arg5).trans (Cert.ReferenceIdeal.HandRun.kept (F := Ideal) m' c).2.2.2.2.2.1,
      (h c Cert.ReferenceIdeal.main_arg6).trans (Cert.ReferenceIdeal.HandRun.kept (F := Ideal) m' c).2.2.2.2.2.2.1,
      (h c Cert.ReferenceIdeal.main_arg7).trans (Cert.ReferenceIdeal.HandRun.kept (F := Ideal) m' c).2.2.2.2.2.2.2.1,
      (h c Cert.ReferenceIdeal.main_arg8).trans (Cert.ReferenceIdeal.HandRun.kept (F := Ideal) m' c).2.2.2.2.2.2.2.2.1,
      (h c Cert.ReferenceIdeal.main_arg9).trans (Cert.ReferenceIdeal.HandRun.kept (F := Ideal) m' c).2.2.2.2.2.2.2.2.2.1,
      (h c Cert.ReferenceIdeal.main_arg10).trans (Cert.ReferenceIdeal.HandRun.kept (F := Ideal) m' c).2.2.2.2.2.2.2.2.2.2.1,
      (h c Cert.ReferenceIdeal.main_arg11).trans (Cert.ReferenceIdeal.HandRun.kept (F := Ideal) m' c).2.2.2.2.2.2.2.2.2.2.2.1,
      (h c Cert.ReferenceIdeal.main_arg12).trans (Cert.ReferenceIdeal.HandRun.kept (F := Ideal) m' c).2.2.2.2.2.2.2.2.2.2.2.2.1,
      (h c Cert.ReferenceIdeal.main_arg13).trans (Cert.ReferenceIdeal.HandRun.kept (F := Ideal) m' c).2.2.2.2.2.2.2.2.2.2.2.2.2.1,
      (h c Cert.ReferenceIdeal.main_arg14).trans (Cert.ReferenceIdeal.HandRun.kept (F := Ideal) m' c).2.2.2.2.2.2.2.2.2.2.2.2.2.2.1,
      (h c Cert.ReferenceIdeal.main_arg15).trans (Cert.ReferenceIdeal.HandRun.kept (F := Ideal) m' c).2.2.2.2.2.2.2.2.2.2.2.2.2.2.2.1,
      (h c Cert.ReferenceIdeal.main_arg16).trans (Cert.ReferenceIdeal.HandRun.kept (F := Ideal) m' c).2.2.2.2.2.2.2.2.2.2.2.2.2.2.2.2⟩

end Cert.Bridge

end
-- ==== Proof.lean ====
/- Both programs gather a ragged batch of node embeddings into one row per session, push it through three rounds
   of  attn = (x·Wvᵀ + bv)·Owᵀ + ob,  x ← attn + (relu(attn·D1ᵀ + d1b)·D2ᵀ + d2b),  project  [v_n, x]·W3ᵀ + w3b  to the
   session vector s_h, and return  y = Σ_k s_h[·,k]·E[cue,k]  and the scores  s_h·Eᵀ  against the whole table E.
   The kernel program does the rounds in one pallas_call on host-transposed weights and the scores in a second one,
   tile by tile over the table's rows (the last tile overhanging the table); the reference does all of it on the host.
   On the extended reals both are the same sums, term for term: a matrix product onto a zero accumulator and a host
   dot_general are one finite sum, a change of float format is the identity, and the columns of the last tile that
   lie inside the table depend only on table rows inside it. No finiteness of any entry is used.
   The frames: the kernel program's run is the library's launch theorem for a program of several kernel regions, over relational proof data (the second call's result is
   constrained, not named: at the word level nothing names it), the reference's the fold of its host operations. -/
import proofs.«104216_j3135326126725_1_alg».proof.Defs
import proofs.«104216_j3135326126725_1_alg».proof.Proof.Gen.Kernel
import proofs.«104216_j3135326126725_1_alg».proof.Proof.Gen.KernelIdeal
import proofs.«104216_j3135326126725_1_alg».proof.Proof.Gen.ReferenceIdeal
import proofs.«104216_j3135326126725_1_alg».proof.Proof.Gen.Pre_finite_inputs
import proofs.«104216_j3135326126725_1_alg».proof.Proof.KB.RunFacts
import proofs.«104216_j3135326126725_1_alg».proof.Proof.KI.RunFacts
import proofs.«104216_j3135326126725_1_alg».proof.Proof.RefRun
import proofs.«104216_j3135326126725_1_alg».proof.Proof.PrefixEq
import proofs.«104216_j3135326126725_1_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_k : @Cert.frame_Kernel Cert.Kernel.Gen.facts Cert.Pre_finite_inputs.Gen.facts :=
  fun m ρ _ => Cert.Kernel.HandRun.frame_run (F := Bits) m ρ

/-- So does its reading on the extended reals. -/
theorem frame_ki : @Cert.frame_KernelIdeal Cert.KernelIdeal.Gen.facts Cert.Pre_finite_inputs.Gen.facts :=
  fun m ρ _ => Cert.KernelIdeal.HandRun.frame_run (F := Ideal) m ρ

/-- The idealization rewrote no operation. -/
theorem preserves : Cert.preserves_Kernel_KernelIdeal := trivial

/-- On the extended reals the two programs end with equal results: their host prefixes agree, and from there the
    chain of products, the scores and the cue scores are the same sums. -/
theorem algebraic : @Cert.algebraic_KernelIdeal_ReferenceIdeal Cert.KernelIdeal.Gen.facts Cert.ReferenceIdeal.Gen.facts Cert.Pre_finite_inputs.Gen.facts :=
  Cert.Bridge.algebraic_of fun m m' c h =>
    ⟨Cert.PrefixEq.prefix_v73 m m' c h, Cert.PrefixEq.prefix_v74 m m' c h, Cert.PrefixEq.prefix_v75 m m' c h⟩

theorem claim : Cert.Claim := ⟨Cert.Kernel.Gen.facts, Cert.KernelIdeal.Gen.facts, Cert.ReferenceIdeal.Gen.facts, Cert.Pre_finite_inputs.Gen.facts,
  frame_k, frame_ki, Cert.ReferenceIdeal.HandRun.frame, preserves, algebraic⟩

end Cert.Proof

end
